-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg1 : IVec S4096x50 32) (main_v15 : IVec S_ 1) (main_c_5 : IVec S_ 32) : IVec S_ 1 :=
  let main_v16 : IVec S4096x50 32 := broadcastInDim S4096x50 ![] bcast_S_S4096x50 main_c_5
  let main_v17 : IVec S4096x50 1 := cmpi .sge main_arg1 main_v16
  let main_c_6 : IVec S_ 32 := constantI S_ 32 99999#32
  let main_v18 : IVec S4096x50 32 := broadcastInDim S4096x50 ![] bcast_S_S4096x50 main_c_6
  let main_v19 : IVec S4096x50 1 := cmpi .sle main_arg1 main_v18
  let main_v20 : IVec S4096x50 1 := andi main_v17 main_v19
  let main_c_7 : IVec S_ 1 := constantI S_ 1 1#1
  let main_v21 : IVec S_ 1 := (fun x v => Host.reduce IntOp.andi x v reducesTo_S4096x50_S_d0_1 h_S_) main_v20 main_c_7
  let main_v22 : IVec S_ 1 := andi main_v15 main_v21
  main_v22

def fn {F : FTy → Type} [FloatOps F] (main_arg0 : IVec S4096x50 32) (main_arg1 : IVec S4096x50 32) (main_arg2 : FVec F S100000x128 .f32) (main_arg3 : FVec F S100000x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S4096x50 32 := broadcastInDim S4096x50 ![] bcast_S_S4096x50 main_c_2
  let main_v10 : IVec S4096x50 1 := cmpi .sge main_arg0 main_v9
  let main_c_3 : IVec S_ 32 := constantI S_ 32 99999#32
  let main_v11 : IVec S4096x50 32 := broadcastInDim S4096x50 ![] bcast_S_S4096x50 main_c_3
  let main_v12 : IVec S4096x50 1 := cmpi .sle main_arg0 main_v11
  let main_v13 : IVec S4096x50 1 := andi main_v10 main_v12
  let main_c_4 : IVec S_ 1 := constantI S_ 1 1#1
  let main_v14 : IVec S_ 1 := (fun x v => Host.reduce IntOp.andi x v reducesTo_S4096x50_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S4096x50 : Shape := ⟨2, ![4096, 50]⟩
abbrev S100000x128 : Shape := ⟨2, ![100000, 128]⟩
abbrev S50x4096 : Shape := ⟨2, ![50, 4096]⟩
abbrev S50x4096x128 : Shape := ⟨3, ![50, 4096, 128]⟩
abbrev S50x128 : Shape := ⟨2, ![50, 128]⟩
abbrev S64x128 : Shape := ⟨2, ![64, 128]⟩
abbrev S_ : Shape := ⟨0, ![]⟩
abbrev S1x64 : Shape := ⟨2, ![1, 64]⟩
abbrev S64 : Shape := ⟨1, ![64]⟩
abbrev S1x64x128 : Shape := ⟨3, ![1, 64, 128]⟩
abbrev S4096x50x128 : Shape := ⟨3, ![4096, 50, 128]⟩

abbrev nBuf : Table → Nat
  | .hbm => 10
  | .local .scVector .vmem => 6
  | _ => 0

abbrev bufTy : (tb : Table) → Fin (nBuf tb) → BufTy
  | .hbm, ⟨0, _⟩ => ⟨S4096x50, .i32⟩
  | .hbm, ⟨1, _⟩ => ⟨S4096x50, .i32⟩
  | .hbm, ⟨2, _⟩ => ⟨S100000x128, .f32⟩
  | .hbm, ⟨3, _⟩ => ⟨S100000x128, .f32⟩
  | .hbm, ⟨4, _⟩ => ⟨S50x4096, .i32⟩
  | .hbm, ⟨5, _⟩ => ⟨S50x4096, .i32⟩
  | .hbm, ⟨6, _⟩ => ⟨S50x4096x128, .f32⟩
  | .hbm, ⟨7, _⟩ => ⟨S50x4096x128, .f32⟩
  | .hbm, ⟨8, _⟩ => ⟨S4096x50x128, .f32⟩
  | .hbm, ⟨9, _⟩ => ⟨S4096x50x128, .f32⟩
  | .local .scVector .vmem, ⟨0, _⟩ => ⟨S50x128, .i32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev main_v1_scv : Ref sig .scVector := ⟨.hbm, 5, rfl⟩
abbrev main_v2_0_scv : Ref sig .scVector := ⟨.hbm, 6, rfl⟩
abbrev main_v2_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_43_r0 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  ![0, v2.toNat]
@[reducible] def k0_t1_loop : Scf.Loop 32 :=
  let c0_i32_9 : BitVec 32 := 0#32
  let c20_i32 : BitVec 32 := 20#32
  let v12 : BitVec 32 := Scalar.addi c0_i32_9 c20_i32
  let c1_i32_10 : BitVec 32 := 1#32
  ⟨c0_i32_9, v12, c1_i32_10⟩
def k0_cond1 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32 : BitVec 32 := 5#32
  let v43 : BitVec 32 := Scalar.muli arg24 c5_i32
  let c0_i32_43 : BitVec 32 := 0#32
  let v44 : BitVec 32 := Scalar.addi v43 c0_i32_43
  let c2_i32 : BitVec 32 := 2#32
  let v45 : BitVec 1 := Scalar.cmpi .sge v44 c2_i32
  let v46 : BitVec 32 := Scalar.extui v45
  let c0_i32_44 : BitVec 32 := 0#32
  let v47 : BitVec 1 := Scalar.cmpi .ne v46 c0_i32_44
  v47

def k0_off2 (i : grid0.Coords) (k0_t1 : Fin k0_t1_loop.trips) : Fin 3 → Nat :=
  let c0_i32_9 : BitVec 32 := 0#32
  let c1_i32_10 : BitVec 32 := 1#32
  let arg24 : BitVec 32 := Scf.iv c0_i32_9 c1_i32_10 k0_t1
  let c5_i32 : BitVec 32 := 5#32
  let v43 : BitVec 32 := Scalar.muli arg24 c5_i32
  let c0_i32_43 : BitVec 32 := 0#32
  let v44 : BitVec 32 := Scalar.addi v43 c0_i32_43
  let c2_i32_233 : BitVec 32 := 2#32
  let v408 : BitVec 32 := Scalar.subi v44 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond2 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32 : BitVec 32 := 5#32
  let v43 : BitVec 32 := Scalar.muli arg24 c5_i32
  let c0_i32_43 : BitVec 32 := 0#32
  let v44 : BitVec 32 := Scalar.addi v43 c0_i32_43
  let c3_i32 : BitVec 32 := 3#32
  let v48 : BitVec 32 := Scalar.addi v44 c3_i32
  let c100_i32 : BitVec 32 := 100#32
  let v49 : BitVec 1 := Scalar.cmpi .slt v48 c100_i32
  let v50 : BitVec 32 := Scalar.extui v49
  let c0_i32_45 : BitVec 32 := 0#32
  let v51 : BitVec 1 := Scalar.cmpi .ne v50 c0_i32_45
  v51

def k0_off3 (k0_t1 : Fin k0_t1_loop.trips) : Fin 2 → Nat :=
  let c0_i32_9 : BitVec 32 := 0#32
  let c1_i32_10 : BitVec 32 := 1#32
  let arg24 : BitVec 32 := Scf.iv c0_i32_9 c1_i32_10 k0_t1
  let c5_i32 : BitVec 32 := 5#32
  let v43 : BitVec 32 := Scalar.muli arg24 c5_i32
  let c0_i32_43 : BitVec 32 := 0#32
  let v44 : BitVec 32 := Scalar.addi v43 c0_i32_43
  let c3_i32_233 : BitVec 32 := 3#32
  let v408 : BitVec 32 := Scalar.addi v44 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_off4 (k0_t1 : Fin k0_t1_loop.trips) (c0_i32_43 : BitVec 32) : Fin 2 → Nat :=
  let c0_i32_9 : BitVec 32 := 0#32
  let c1_i32_10 : BitVec 32 := 1#32
  let arg24 : BitVec 32 := Scf.iv c0_i32_9 c1_i32_10 k0_t1
  let c5_i32 : BitVec 32 := 5#32
  let v43 : BitVec 32 := Scalar.muli arg24 c5_i32
  let v44 : BitVec 32 := Scalar.addi v43 c0_i32_43
  let c0_i32_47 : BitVec 32 := 0#32
  let v53 : BitVec 1 := Scalar.cmpi .sgt v44 c0_i32_47
  let v54 : BitVec 32 := Scalar.extui v53
  let c0_i32_48 : BitVec 32 := 0#32
  let v55 : BitVec 1 := Scalar.cmpi .slt v44 c0_i32_48
  let v56 : BitVec 32 := Scalar.extui v55
  let v57 : BitVec 32 := Scalar.subi v54 v56
  let c2_i32_46 : BitVec 32 := 2#32
  let c0_i32_49 : BitVec 32 := 0#32
  let v58 : BitVec 1 := Scalar.cmpi .sgt c2_i32_46 c0_i32_49
  let v59 : BitVec 32 := Scalar.extui v58
  let c0_i32_50 : BitVec 32 := 0#32
  let v60 : BitVec 1 := Scalar.cmpi .slt c2_i32_46 c0_i32_50
  let v61 : BitVec 32 := Scalar.extui v60
  let v62 : BitVec 32 := Scalar.subi v59 v61
  let v63 : BitVec 1 := Scalar.cmpi .ne v57 v62
  let v64 : BitVec 32 := Scalar.remsi v44 c2_i32_46
  let c0_i32_51 : BitVec 32 := 0#32
  let v65 : BitVec 1 := Scalar.cmpi .ne v64 c0_i32_51
  let v66 : BitVec 1 := Scalar.andi v63 v65
  let v52 : BitVec 32 := Scalar.divsi v44 c2_i32_46
  let c1_i32_52 : BitVec 32 := 1#32
  let v67 : BitVec 32 := Scalar.subi v52 c1_i32_52
  let v68 : BitVec 32 := Scalar.select v66 v67 v52
  let c2_i32_53 : BitVec 32 := 2#32
  let c0_i32_54 : BitVec 32 := 0#32
  let v69 : BitVec 1 := Scalar.cmpi .eq c2_i32_53 c0_i32_54
  let c1_i32_55 : BitVec 32 := 1#32
  let v70 : BitVec 32 := Scalar.select v69 c1_i32_55 c2_i32_53
  let v71 : BitVec 32 := Scalar.remsi v44 v70
  let c0_i32_57 : BitVec 32 := 0#32
  let v73 : BitVec 1 := Scalar.cmpi .slt v71 c0_i32_57
  let c0_i32_58 : BitVec 32 := 0#32
  let v74 : BitVec 1 := Scalar.cmpi .slt v70 c0_i32_58
  let v75 : BitVec 1 := Scalar.xori v73 v74
  let c0_i32_56 : BitVec 32 := 0#32
  let v72 : BitVec 1 := Scalar.cmpi .ne v71 c0_i32_56
  let v76 : BitVec 1 := Scalar.andi v75 v72
  let v77 : BitVec 32 := Scalar.addi v71 v70
  let v78 : BitVec 32 := Scalar.select v76 v77 v71
  let c64_i32_59 : BitVec 32 := 64#32
  let v79 : BitVec 32 := Scalar.muli v78 c64_i32_59
  ![v68.toNat, v79.toNat]
def k0_off5 (i : grid0.Coords) (k0_t1 : Fin k0_t1_loop.trips) (c0_i32_43 : BitVec 32) : Fin 3 → Nat :=
  let c0_i32_9 : BitVec 32 := 0#32
  let c1_i32_10 : BitVec 32 := 1#32
  let arg24 : BitVec 32 := Scf.iv c0_i32_9 c1_i32_10 k0_t1
  let c5_i32 : BitVec 32 := 5#32
  let v43 : BitVec 32 := Scalar.muli arg24 c5_i32
  let v44 : BitVec 32 := Scalar.addi v43 c0_i32_43
  let c0_i32_63 : BitVec 32 := 0#32
  let v84 : BitVec 1 := Scalar.cmpi .sgt v44 c0_i32_63
  let v85 : BitVec 32 := Scalar.extui v84
  let c0_i32_64 : BitVec 32 := 0#32
  let v86 : BitVec 1 := Scalar.cmpi .slt v44 c0_i32_64
  let v87 : BitVec 32 := Scalar.extui v86
  let v88 : BitVec 32 := Scalar.subi v85 v87
  let c2_i32_62 : BitVec 32 := 2#32
  let c0_i32_65 : BitVec 32 := 0#32
  let v89 : BitVec 1 := Scalar.cmpi .sgt c2_i32_62 c0_i32_65
  let v90 : BitVec 32 := Scalar.extui v89
  let c0_i32_66 : BitVec 32 := 0#32
  let v91 : BitVec 1 := Scalar.cmpi .slt c2_i32_62 c0_i32_66
  let v92 : BitVec 32 := Scalar.extui v91
  let v93 : BitVec 32 := Scalar.subi v90 v92
  let v94 : BitVec 1 := Scalar.cmpi .ne v88 v93
  let v95 : BitVec 32 := Scalar.remsi v44 c2_i32_62
  let c0_i32_67 : BitVec 32 := 0#32
  let v96 : BitVec 1 := Scalar.cmpi .ne v95 c0_i32_67
  let v97 : BitVec 1 := Scalar.andi v94 v96
  let v83 : BitVec 32 := Scalar.divsi v44 c2_i32_62
  let c1_i32_68 : BitVec 32 := 1#32
  let v98 : BitVec 32 := Scalar.subi v83 c1_i32_68
  let v99 : BitVec 32 := Scalar.select v97 v98 v83
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_69 : BitVec 32 := 2#32
  let c0_i32_70 : BitVec 32 := 0#32
  let v100 : BitVec 1 := Scalar.cmpi .eq c2_i32_69 c0_i32_70
  let c1_i32_71 : BitVec 32 := 1#32
  let v101 : BitVec 32 := Scalar.select v100 c1_i32_71 c2_i32_69
  let v102 : BitVec 32 := Scalar.remsi v44 v101
  let c0_i32_73 : BitVec 32 := 0#32
  let v104 : BitVec 1 := Scalar.cmpi .slt v102 c0_i32_73
  let c0_i32_74 : BitVec 32 := 0#32
  let v105 : BitVec 1 := Scalar.cmpi .slt v101 c0_i32_74
  let v106 : BitVec 1 := Scalar.xori v104 v105
  let c0_i32_72 : BitVec 32 := 0#32
  let v103 : BitVec 1 := Scalar.cmpi .ne v102 c0_i32_72
  let v107 : BitVec 1 := Scalar.andi v106 v103
  let v108 : BitVec 32 := Scalar.addi v102 v101
  let v109 : BitVec 32 := Scalar.select v107 v108 v102
  let c64_i32_75 : BitVec 32 := 64#32
  let v110 : BitVec 32 := Scalar.muli v109 c64_i32_75
  let v111 : BitVec 32 := Scalar.addi v2 v110
  let c0_i32_76 : BitVec 32 := 0#32
  ![v99.toNat, v111.toNat, 0]
def k0_cond3 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_78 : BitVec 32 := 5#32
  let v116 : BitVec 32 := Scalar.muli arg24 c5_i32_78
  let c1_i32_79 : BitVec 32 := 1#32
  let v117 : BitVec 32 := Scalar.addi v116 c1_i32_79
  let c2_i32_80 : BitVec 32 := 2#32
  let v118 : BitVec 1 := Scalar.cmpi .sge v117 c2_i32_80
  let v119 : BitVec 32 := Scalar.extui v118
  let c0_i32_81 : BitVec 32 := 0#32
  let v120 : BitVec 1 := Scalar.cmpi .ne v119 c0_i32_81
  v120

def k0_off6 (i : grid0.Coords) (k0_t1 : Fin k0_t1_loop.trips) : Fin 3 → Nat :=
  let c0_i32_9 : BitVec 32 := 0#32
  let c1_i32_10 : BitVec 32 := 1#32
  let arg24 : BitVec 32 := Scf.iv c0_i32_9 c1_i32_10 k0_t1
  let c5_i32_78 : BitVec 32 := 5#32
  let v116 : BitVec 32 := Scalar.muli arg24 c5_i32_78
  let c1_i32_79 : BitVec 32 := 1#32
  let v117 : BitVec 32 := Scalar.addi v116 c1_i32_79
  let c2_i32_233 : BitVec 32 := 2#32
  let v408 : BitVec 32 := Scalar.subi v117 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond4 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_78 : BitVec 32 := 5#32
  let v116 : BitVec 32 := Scalar.muli arg24 c5_i32_78
  let c1_i32_79 : BitVec 32 := 1#32
  let v117 : BitVec 32 := Scalar.addi v116 c1_i32_79
  let c3_i32_82 : BitVec 32 := 3#32
  let v121 : BitVec 32 := Scalar.addi v117 c3_i32_82
  let c100_i32_83 : BitVec 32 := 100#32
  let v122 : BitVec 1 := Scalar.cmpi .slt v121 c100_i32_83
  let v123 : BitVec 32 := Scalar.extui v122
  let c0_i32_84 : BitVec 32 := 0#32
  let v124 : BitVec 1 := Scalar.cmpi .ne v123 c0_i32_84
  v124

def k0_off7 (k0_t1 : Fin k0_t1_loop.trips) : Fin 2 → Nat :=
  let c0_i32_9 : BitVec 32 := 0#32
  let c1_i32_10 : BitVec 32 := 1#32
  let arg24 : BitVec 32 := Scf.iv c0_i32_9 c1_i32_10 k0_t1
  let c5_i32_78 : BitVec 32 := 5#32
  let v116 : BitVec 32 := Scalar.muli arg24 c5_i32_78
  let c1_i32_79 : BitVec 32 := 1#32
  let v117 : BitVec 32 := Scalar.addi v116 c1_i32_79
  let c3_i32_233 : BitVec 32 := 3#32
  let v408 : BitVec 32 := Scalar.addi v117 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_cond5 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_117 : BitVec 32 := 5#32
  let v189 : BitVec 32 := Scalar.muli arg24 c5_i32_117
  let c2_i32_118 : BitVec 32 := 2#32
  let v190 : BitVec 32 := Scalar.addi v189 c2_i32_118
  let c2_i32_119 : BitVec 32 := 2#32
  let v191 : BitVec 1 := Scalar.cmpi .sge v190 c2_i32_119
  let v192 : BitVec 32 := Scalar.extui v191
  let c0_i32_120 : BitVec 32 := 0#32
  let v193 : BitVec 1 := Scalar.cmpi .ne v192 c0_i32_120
  v193

def k0_off8 (i : grid0.Coords) (k0_t1 : Fin k0_t1_loop.trips) : Fin 3 → Nat :=
  let c0_i32_9 : BitVec 32 := 0#32
  let c1_i32_10 : BitVec 32 := 1#32
  let arg24 : BitVec 32 := Scf.iv c0_i32_9 c1_i32_10 k0_t1
  let c5_i32_117 : BitVec 32 := 5#32
  let v189 : BitVec 32 := Scalar.muli arg24 c5_i32_117
  let c2_i32_118 : BitVec 32 := 2#32
  let v190 : BitVec 32 := Scalar.addi v189 c2_i32_118
  let c2_i32_233 : BitVec 32 := 2#32
  let v408 : BitVec 32 := Scalar.subi v190 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond6 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_117 : BitVec 32 := 5#32
  let v189 : BitVec 32 := Scalar.muli arg24 c5_i32_117
  let c2_i32_118 : BitVec 32 := 2#32
  let v190 : BitVec 32 := Scalar.addi v189 c2_i32_118
  let c3_i32_121 : BitVec 32 := 3#32
  let v194 : BitVec 32 := Scalar.addi v190 c3_i32_121
  let c100_i32_122 : BitVec 32 := 100#32
  let v195 : BitVec 1 := Scalar.cmpi .slt v194 c100_i32_122
  let v196 : BitVec 32 := Scalar.extui v195
  let c0_i32_123 : BitVec 32 := 0#32
  let v197 : BitVec 1 := Scalar.cmpi .ne v196 c0_i32_123
  v197

def k0_off9 (k0_t1 : Fin k0_t1_loop.trips) : Fin 2 → Nat :=
  let c0_i32_9 : BitVec 32 := 0#32
  let c1_i32_10 : BitVec 32 := 1#32
  let arg24 : BitVec 32 := Scf.iv c0_i32_9 c1_i32_10 k0_t1
  let c5_i32_117 : BitVec 32 := 5#32
  let v189 : BitVec 32 := Scalar.muli arg24 c5_i32_117
  let c2_i32_118 : BitVec 32 := 2#32
  let v190 : BitVec 32 := Scalar.addi v189 c2_i32_118
  let c3_i32_233 : BitVec 32 := 3#32
  let v408 : BitVec 32 := Scalar.addi v190 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_cond7 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_156 : BitVec 32 := 5#32
  let v262 : BitVec 32 := Scalar.muli arg24 c5_i32_156
  let c3_i32_157 : BitVec 32 := 3#32
  let v263 : BitVec 32 := Scalar.addi v262 c3_i32_157
  let c2_i32_158 : BitVec 32 := 2#32
  let v264 : BitVec 1 := Scalar.cmpi .sge v263 c2_i32_158
  let v265 : BitVec 32 := Scalar.extui v264
  let c0_i32_159 : BitVec 32 := 0#32
  let v266 : BitVec 1 := Scalar.cmpi .ne v265 c0_i32_159
  v266

def k0_off10 (i : grid0.Coords) (k0_t1 : Fin k0_t1_loop.trips) : Fin 3 → Nat :=
  let c0_i32_9 : BitVec 32 := 0#32
  let c1_i32_10 : BitVec 32 := 1#32
  let arg24 : BitVec 32 := Scf.iv c0_i32_9 c1_i32_10 k0_t1
  let c5_i32_156 : BitVec 32 := 5#32
  let v262 : BitVec 32 := Scalar.muli arg24 c5_i32_156
  let c3_i32_157 : BitVec 32 := 3#32
  let v263 : BitVec 32 := Scalar.addi v262 c3_i32_157
  let c2_i32_233 : BitVec 32 := 2#32
  let v408 : BitVec 32 := Scalar.subi v263 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond8 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_156 : BitVec 32 := 5#32
  let v262 : BitVec 32 := Scalar.muli arg24 c5_i32_156
  let c3_i32_157 : BitVec 32 := 3#32
  let v263 : BitVec 32 := Scalar.addi v262 c3_i32_157
  let c3_i32_160 : BitVec 32 := 3#32
  let v267 : BitVec 32 := Scalar.addi v263 c3_i32_160
  let c100_i32_161 : BitVec 32 := 100#32
  let v268 : BitVec 1 := Scalar.cmpi .slt v267 c100_i32_161
  let v269 : BitVec 32 := Scalar.extui v268
  let c0_i32_162 : BitVec 32 := 0#32
  let v270 : BitVec 1 := Scalar.cmpi .ne v269 c0_i32_162
  v270

def k0_off11 (k0_t1 : Fin k0_t1_loop.trips) : Fin 2 → Nat :=
  let c0_i32_9 : BitVec 32 := 0#32
  let c1_i32_10 : BitVec 32 := 1#32
  let arg24 : BitVec 32 := Scf.iv c0_i32_9 c1_i32_10 k0_t1
  let c5_i32_156 : BitVec 32 := 5#32
  let v262 : BitVec 32 := Scalar.muli arg24 c5_i32_156
  let c3_i32_157 : BitVec 32 := 3#32
  let v263 : BitVec 32 := Scalar.addi v262 c3_i32_157
  let c3_i32_233 : BitVec 32 := 3#32
  let v408 : BitVec 32 := Scalar.addi v263 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_cond9 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_195 : BitVec 32 := 5#32
  let v335 : BitVec 32 := Scalar.muli arg24 c5_i32_195
  let c4_i32 : BitVec 32 := 4#32
  let v336 : BitVec 32 := Scalar.addi v335 c4_i32
  let c2_i32_196 : BitVec 32 := 2#32
  let v337 : BitVec 1 := Scalar.cmpi .sge v336 c2_i32_196
  let v338 : BitVec 32 := Scalar.extui v337
  let c0_i32_197 : BitVec 32 := 0#32
  let v339 : BitVec 1 := Scalar.cmpi .ne v338 c0_i32_197
  v339

def k0_off12 (i : grid0.Coords) (k0_t1 : Fin k0_t1_loop.trips) : Fin 3 → Nat :=
  let c0_i32_9 : BitVec 32 := 0#32
  let c1_i32_10 : BitVec 32 := 1#32
  let arg24 : BitVec 32 := Scf.iv c0_i32_9 c1_i32_10 k0_t1
  let c5_i32_195 : BitVec 32 := 5#32
  let v335 : BitVec 32 := Scalar.muli arg24 c5_i32_195
  let c4_i32 : BitVec 32 := 4#32
  let v336 : BitVec 32 := Scalar.addi v335 c4_i32
  let c2_i32_233 : BitVec 32 := 2#32
  let v408 : BitVec 32 := Scalar.subi v336 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond10 (k0_t1 : Fin k0_t1_loop.trips) : BitVec 1 :=
  let c0_i32_9 : BitVec 32 := 0#32
  let c1_i32_10 : BitVec 32 := 1#32
  let arg24 : BitVec 32 := Scf.iv c0_i32_9 c1_i32_10 k0_t1
  let c5_i32_195 : BitVec 32 := 5#32
  let v335 : BitVec 32 := Scalar.muli arg24 c5_i32_195
  let c4_i32 : BitVec 32 := 4#32
  let v336 : BitVec 32 := Scalar.addi v335 c4_i32
  let c3_i32_198 : BitVec 32 := 3#32
  let v340 : BitVec 32 := Scalar.addi v336 c3_i32_198
  let c100_i32_199 : BitVec 32 := 100#32
  let v341 : BitVec 1 := Scalar.cmpi .slt v340 c100_i32_199
  let v342 : BitVec 32 := Scalar.extui v341
  let c0_i32_200 : BitVec 32 := 0#32
  let v343 : BitVec 1 := Scalar.cmpi .ne v342 c0_i32_200
  v343

def k0_off13 (k0_t1 : Fin k0_t1_loop.trips) : Fin 2 → Nat :=
  let c0_i32_9 : BitVec 32 := 0#32
  let c1_i32_10 : BitVec 32 := 1#32
  let arg24 : BitVec 32 := Scf.iv c0_i32_9 c1_i32_10 k0_t1
  let c5_i32_195 : BitVec 32 := 5#32
  let v335 : BitVec 32 := Scalar.muli arg24 c5_i32_195
  let c4_i32 : BitVec 32 := 4#32
  let v336 : BitVec 32 := Scalar.addi v335 c4_i32
  let c3_i32_233 : BitVec 32 := 3#32
  let v408 : BitVec 32 := Scalar.addi v336 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_off14 (i : grid0.Coords) (c0_i32_12 : BitVec 32) : Fin 3 → Nat :=
  let c49_i32 : BitVec 32 := 49#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let v13 : BitVec 32 := Scalar.addi v2 c0_i32_12
  let c0_i32_13 : BitVec 32 := 0#32
  ![49, v13.toNat, 0]
@[reducible] def k0_t2_loop : Scf.Loop 32 :=
  let c0_i32_31 : BitVec 32 := 0#32
  let c20_i32_32 : BitVec 32 := 20#32
  let v32 : BitVec 32 := Scalar.addi c0_i32_31 c20_i32_32
  let c1_i32_33 : BitVec 32 := 1#32
  ⟨c0_i32_31, v32, c1_i32_33⟩
def k0_cond11 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32 : BitVec 32 := 5#32
  let v43 : BitVec 32 := Scalar.muli arg24 c5_i32
  let c0_i32_43 : BitVec 32 := 0#32
  let v44 : BitVec 32 := Scalar.addi v43 c0_i32_43
  let c2_i32 : BitVec 32 := 2#32
  let v45 : BitVec 1 := Scalar.cmpi .sge v44 c2_i32
  let v46 : BitVec 32 := Scalar.extui v45
  let c0_i32_44 : BitVec 32 := 0#32
  let v47 : BitVec 1 := Scalar.cmpi .ne v46 c0_i32_44
  v47

def k0_off15 (i : grid0.Coords) (k0_t2 : Fin k0_t2_loop.trips) : Fin 3 → Nat :=
  let c0_i32_31 : BitVec 32 := 0#32
  let c1_i32_33 : BitVec 32 := 1#32
  let arg24 : BitVec 32 := Scf.iv c0_i32_31 c1_i32_33 k0_t2
  let c5_i32 : BitVec 32 := 5#32
  let v43 : BitVec 32 := Scalar.muli arg24 c5_i32
  let c0_i32_43 : BitVec 32 := 0#32
  let v44 : BitVec 32 := Scalar.addi v43 c0_i32_43
  let c2_i32_233 : BitVec 32 := 2#32
  let v408 : BitVec 32 := Scalar.subi v44 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond12 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32 : BitVec 32 := 5#32
  let v43 : BitVec 32 := Scalar.muli arg24 c5_i32
  let c0_i32_43 : BitVec 32 := 0#32
  let v44 : BitVec 32 := Scalar.addi v43 c0_i32_43
  let c3_i32 : BitVec 32 := 3#32
  let v48 : BitVec 32 := Scalar.addi v44 c3_i32
  let c100_i32 : BitVec 32 := 100#32
  let v49 : BitVec 1 := Scalar.cmpi .slt v48 c100_i32
  let v50 : BitVec 32 := Scalar.extui v49
  let c0_i32_45 : BitVec 32 := 0#32
  let v51 : BitVec 1 := Scalar.cmpi .ne v50 c0_i32_45
  v51

def k0_off16 (k0_t2 : Fin k0_t2_loop.trips) : Fin 2 → Nat :=
  let c0_i32_31 : BitVec 32 := 0#32
  let c1_i32_33 : BitVec 32 := 1#32
  let arg24 : BitVec 32 := Scf.iv c0_i32_31 c1_i32_33 k0_t2
  let c5_i32 : BitVec 32 := 5#32
  let v43 : BitVec 32 := Scalar.muli arg24 c5_i32
  let c0_i32_43 : BitVec 32 := 0#32
  let v44 : BitVec 32 := Scalar.addi v43 c0_i32_43
  let c3_i32_233 : BitVec 32 := 3#32
  let v408 : BitVec 32 := Scalar.addi v44 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_off17 (k0_t2 : Fin k0_t2_loop.trips) (c0_i32_43 : BitVec 32) : Fin 2 → Nat :=
  let c0_i32_31 : BitVec 32 := 0#32
  let c1_i32_33 : BitVec 32 := 1#32
  let arg24 : BitVec 32 := Scf.iv c0_i32_31 c1_i32_33 k0_t2
  let c5_i32 : BitVec 32 := 5#32
  let v43 : BitVec 32 := Scalar.muli arg24 c5_i32
  let v44 : BitVec 32 := Scalar.addi v43 c0_i32_43
  let c0_i32_47 : BitVec 32 := 0#32
  let v53 : BitVec 1 := Scalar.cmpi .sgt v44 c0_i32_47
  let v54 : BitVec 32 := Scalar.extui v53
  let c0_i32_48 : BitVec 32 := 0#32
  let v55 : BitVec 1 := Scalar.cmpi .slt v44 c0_i32_48
  let v56 : BitVec 32 := Scalar.extui v55
  let v57 : BitVec 32 := Scalar.subi v54 v56
  let c2_i32_46 : BitVec 32 := 2#32
  let c0_i32_49 : BitVec 32 := 0#32
  let v58 : BitVec 1 := Scalar.cmpi .sgt c2_i32_46 c0_i32_49
  let v59 : BitVec 32 := Scalar.extui v58
  let c0_i32_50 : BitVec 32 := 0#32
  let v60 : BitVec 1 := Scalar.cmpi .slt c2_i32_46 c0_i32_50
  let v61 : BitVec 32 := Scalar.extui v60
  let v62 : BitVec 32 := Scalar.subi v59 v61
  let v63 : BitVec 1 := Scalar.cmpi .ne v57 v62
  let v64 : BitVec 32 := Scalar.remsi v44 c2_i32_46
  let c0_i32_51 : BitVec 32 := 0#32
  let v65 : BitVec 1 := Scalar.cmpi .ne v64 c0_i32_51
  let v66 : BitVec 1 := Scalar.andi v63 v65
  let v52 : BitVec 32 := Scalar.divsi v44 c2_i32_46
  let c1_i32_52 : BitVec 32 := 1#32
  let v67 : BitVec 32 := Scalar.subi v52 c1_i32_52
  let v68 : BitVec 32 := Scalar.select v66 v67 v52
  let c2_i32_53 : BitVec 32 := 2#32
  let c0_i32_54 : BitVec 32 := 0#32
  let v69 : BitVec 1 := Scalar.cmpi .eq c2_i32_53 c0_i32_54
  let c1_i32_55 : BitVec 32 := 1#32
  let v70 : BitVec 32 := Scalar.select v69 c1_i32_55 c2_i32_53
  let v71 : BitVec 32 := Scalar.remsi v44 v70
  let c0_i32_57 : BitVec 32 := 0#32
  let v73 : BitVec 1 := Scalar.cmpi .slt v71 c0_i32_57
  let c0_i32_58 : BitVec 32 := 0#32
  let v74 : BitVec 1 := Scalar.cmpi .slt v70 c0_i32_58
  let v75 : BitVec 1 := Scalar.xori v73 v74
  let c0_i32_56 : BitVec 32 := 0#32
  let v72 : BitVec 1 := Scalar.cmpi .ne v71 c0_i32_56
  let v76 : BitVec 1 := Scalar.andi v75 v72
  let v77 : BitVec 32 := Scalar.addi v71 v70
  let v78 : BitVec 32 := Scalar.select v76 v77 v71
  let c64_i32_59 : BitVec 32 := 64#32
  let v79 : BitVec 32 := Scalar.muli v78 c64_i32_59
  ![v68.toNat, v79.toNat]
def k0_off18 (i : grid0.Coords) (k0_t2 : Fin k0_t2_loop.trips) (c0_i32_43 : BitVec 32) : Fin 3 → Nat :=
  let c0_i32_31 : BitVec 32 := 0#32
  let c1_i32_33 : BitVec 32 := 1#32
  let arg24 : BitVec 32 := Scf.iv c0_i32_31 c1_i32_33 k0_t2
  let c5_i32 : BitVec 32 := 5#32
  let v43 : BitVec 32 := Scalar.muli arg24 c5_i32
  let v44 : BitVec 32 := Scalar.addi v43 c0_i32_43
  let c0_i32_63 : BitVec 32 := 0#32
  let v84 : BitVec 1 := Scalar.cmpi .sgt v44 c0_i32_63
  let v85 : BitVec 32 := Scalar.extui v84
  let c0_i32_64 : BitVec 32 := 0#32
  let v86 : BitVec 1 := Scalar.cmpi .slt v44 c0_i32_64
  let v87 : BitVec 32 := Scalar.extui v86
  let v88 : BitVec 32 := Scalar.subi v85 v87
  let c2_i32_62 : BitVec 32 := 2#32
  let c0_i32_65 : BitVec 32 := 0#32
  let v89 : BitVec 1 := Scalar.cmpi .sgt c2_i32_62 c0_i32_65
  let v90 : BitVec 32 := Scalar.extui v89
  let c0_i32_66 : BitVec 32 := 0#32
  let v91 : BitVec 1 := Scalar.cmpi .slt c2_i32_62 c0_i32_66
  let v92 : BitVec 32 := Scalar.extui v91
  let v93 : BitVec 32 := Scalar.subi v90 v92
  let v94 : BitVec 1 := Scalar.cmpi .ne v88 v93
  let v95 : BitVec 32 := Scalar.remsi v44 c2_i32_62
  let c0_i32_67 : BitVec 32 := 0#32
  let v96 : BitVec 1 := Scalar.cmpi .ne v95 c0_i32_67
  let v97 : BitVec 1 := Scalar.andi v94 v96
  let v83 : BitVec 32 := Scalar.divsi v44 c2_i32_62
  let c1_i32_68 : BitVec 32 := 1#32
  let v98 : BitVec 32 := Scalar.subi v83 c1_i32_68
  let v99 : BitVec 32 := Scalar.select v97 v98 v83
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_69 : BitVec 32 := 2#32
  let c0_i32_70 : BitVec 32 := 0#32
  let v100 : BitVec 1 := Scalar.cmpi .eq c2_i32_69 c0_i32_70
  let c1_i32_71 : BitVec 32 := 1#32
  let v101 : BitVec 32 := Scalar.select v100 c1_i32_71 c2_i32_69
  let v102 : BitVec 32 := Scalar.remsi v44 v101
  let c0_i32_73 : BitVec 32 := 0#32
  let v104 : BitVec 1 := Scalar.cmpi .slt v102 c0_i32_73
  let c0_i32_74 : BitVec 32 := 0#32
  let v105 : BitVec 1 := Scalar.cmpi .slt v101 c0_i32_74
  let v106 : BitVec 1 := Scalar.xori v104 v105
  let c0_i32_72 : BitVec 32 := 0#32
  let v103 : BitVec 1 := Scalar.cmpi .ne v102 c0_i32_72
  let v107 : BitVec 1 := Scalar.andi v106 v103
  let v108 : BitVec 32 := Scalar.addi v102 v101
  let v109 : BitVec 32 := Scalar.select v107 v108 v102
  let c64_i32_75 : BitVec 32 := 64#32
  let v110 : BitVec 32 := Scalar.muli v109 c64_i32_75
  let v111 : BitVec 32 := Scalar.addi v2 v110
  let c0_i32_76 : BitVec 32 := 0#32
  ![v99.toNat, v111.toNat, 0]
def k0_cond13 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_78 : BitVec 32 := 5#32
  let v116 : BitVec 32 := Scalar.muli arg24 c5_i32_78
  let c1_i32_79 : BitVec 32 := 1#32
  let v117 : BitVec 32 := Scalar.addi v116 c1_i32_79
  let c2_i32_80 : BitVec 32 := 2#32
  let v118 : BitVec 1 := Scalar.cmpi .sge v117 c2_i32_80
  let v119 : BitVec 32 := Scalar.extui v118
  let c0_i32_81 : BitVec 32 := 0#32
  let v120 : BitVec 1 := Scalar.cmpi .ne v119 c0_i32_81
  v120

def k0_off19 (i : grid0.Coords) (k0_t2 : Fin k0_t2_loop.trips) : Fin 3 → Nat :=
  let c0_i32_31 : BitVec 32 := 0#32
  let c1_i32_33 : BitVec 32 := 1#32
  let arg24 : BitVec 32 := Scf.iv c0_i32_31 c1_i32_33 k0_t2
  let c5_i32_78 : BitVec 32 := 5#32
  let v116 : BitVec 32 := Scalar.muli arg24 c5_i32_78
  let c1_i32_79 : BitVec 32 := 1#32
  let v117 : BitVec 32 := Scalar.addi v116 c1_i32_79
  let c2_i32_233 : BitVec 32 := 2#32
  let v408 : BitVec 32 := Scalar.subi v117 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond14 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_78 : BitVec 32 := 5#32
  let v116 : BitVec 32 := Scalar.muli arg24 c5_i32_78
  let c1_i32_79 : BitVec 32 := 1#32
  let v117 : BitVec 32 := Scalar.addi v116 c1_i32_79
  let c3_i32_82 : BitVec 32 := 3#32
  let v121 : BitVec 32 := Scalar.addi v117 c3_i32_82
  let c100_i32_83 : BitVec 32 := 100#32
  let v122 : BitVec 1 := Scalar.cmpi .slt v121 c100_i32_83
  let v123 : BitVec 32 := Scalar.extui v122
  let c0_i32_84 : BitVec 32 := 0#32
  let v124 : BitVec 1 := Scalar.cmpi .ne v123 c0_i32_84
  v124

def k0_off20 (k0_t2 : Fin k0_t2_loop.trips) : Fin 2 → Nat :=
  let c0_i32_31 : BitVec 32 := 0#32
  let c1_i32_33 : BitVec 32 := 1#32
  let arg24 : BitVec 32 := Scf.iv c0_i32_31 c1_i32_33 k0_t2
  let c5_i32_78 : BitVec 32 := 5#32
  let v116 : BitVec 32 := Scalar.muli arg24 c5_i32_78
  let c1_i32_79 : BitVec 32 := 1#32
  let v117 : BitVec 32 := Scalar.addi v116 c1_i32_79
  let c3_i32_233 : BitVec 32 := 3#32
  let v408 : BitVec 32 := Scalar.addi v117 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_cond15 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_117 : BitVec 32 := 5#32
  let v189 : BitVec 32 := Scalar.muli arg24 c5_i32_117
  let c2_i32_118 : BitVec 32 := 2#32
  let v190 : BitVec 32 := Scalar.addi v189 c2_i32_118
  let c2_i32_119 : BitVec 32 := 2#32
  let v191 : BitVec 1 := Scalar.cmpi .sge v190 c2_i32_119
  let v192 : BitVec 32 := Scalar.extui v191
  let c0_i32_120 : BitVec 32 := 0#32
  let v193 : BitVec 1 := Scalar.cmpi .ne v192 c0_i32_120
  v193

def k0_off21 (i : grid0.Coords) (k0_t2 : Fin k0_t2_loop.trips) : Fin 3 → Nat :=
  let c0_i32_31 : BitVec 32 := 0#32
  let c1_i32_33 : BitVec 32 := 1#32
  let arg24 : BitVec 32 := Scf.iv c0_i32_31 c1_i32_33 k0_t2
  let c5_i32_117 : BitVec 32 := 5#32
  let v189 : BitVec 32 := Scalar.muli arg24 c5_i32_117
  let c2_i32_118 : BitVec 32 := 2#32
  let v190 : BitVec 32 := Scalar.addi v189 c2_i32_118
  let c2_i32_233 : BitVec 32 := 2#32
  let v408 : BitVec 32 := Scalar.subi v190 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond16 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_117 : BitVec 32 := 5#32
  let v189 : BitVec 32 := Scalar.muli arg24 c5_i32_117
  let c2_i32_118 : BitVec 32 := 2#32
  let v190 : BitVec 32 := Scalar.addi v189 c2_i32_118
  let c3_i32_121 : BitVec 32 := 3#32
  let v194 : BitVec 32 := Scalar.addi v190 c3_i32_121
  let c100_i32_122 : BitVec 32 := 100#32
  let v195 : BitVec 1 := Scalar.cmpi .slt v194 c100_i32_122
  let v196 : BitVec 32 := Scalar.extui v195
  let c0_i32_123 : BitVec 32 := 0#32
  let v197 : BitVec 1 := Scalar.cmpi .ne v196 c0_i32_123
  v197

def k0_off22 (k0_t2 : Fin k0_t2_loop.trips) : Fin 2 → Nat :=
  let c0_i32_31 : BitVec 32 := 0#32
  let c1_i32_33 : BitVec 32 := 1#32
  let arg24 : BitVec 32 := Scf.iv c0_i32_31 c1_i32_33 k0_t2
  let c5_i32_117 : BitVec 32 := 5#32
  let v189 : BitVec 32 := Scalar.muli arg24 c5_i32_117
  let c2_i32_118 : BitVec 32 := 2#32
  let v190 : BitVec 32 := Scalar.addi v189 c2_i32_118
  let c3_i32_233 : BitVec 32 := 3#32
  let v408 : BitVec 32 := Scalar.addi v190 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_cond17 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_156 : BitVec 32 := 5#32
  let v262 : BitVec 32 := Scalar.muli arg24 c5_i32_156
  let c3_i32_157 : BitVec 32 := 3#32
  let v263 : BitVec 32 := Scalar.addi v262 c3_i32_157
  let c2_i32_158 : BitVec 32 := 2#32
  let v264 : BitVec 1 := Scalar.cmpi .sge v263 c2_i32_158
  let v265 : BitVec 32 := Scalar.extui v264
  let c0_i32_159 : BitVec 32 := 0#32
  let v266 : BitVec 1 := Scalar.cmpi .ne v265 c0_i32_159
  v266

def k0_off23 (i : grid0.Coords) (k0_t2 : Fin k0_t2_loop.trips) : Fin 3 → Nat :=
  let c0_i32_31 : BitVec 32 := 0#32
  let c1_i32_33 : BitVec 32 := 1#32
  let arg24 : BitVec 32 := Scf.iv c0_i32_31 c1_i32_33 k0_t2
  let c5_i32_156 : BitVec 32 := 5#32
  let v262 : BitVec 32 := Scalar.muli arg24 c5_i32_156
  let c3_i32_157 : BitVec 32 := 3#32
  let v263 : BitVec 32 := Scalar.addi v262 c3_i32_157
  let c2_i32_233 : BitVec 32 := 2#32
  let v408 : BitVec 32 := Scalar.subi v263 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond18 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_156 : BitVec 32 := 5#32
  let v262 : BitVec 32 := Scalar.muli arg24 c5_i32_156
  let c3_i32_157 : BitVec 32 := 3#32
  let v263 : BitVec 32 := Scalar.addi v262 c3_i32_157
  let c3_i32_160 : BitVec 32 := 3#32
  let v267 : BitVec 32 := Scalar.addi v263 c3_i32_160
  let c100_i32_161 : BitVec 32 := 100#32
  let v268 : BitVec 1 := Scalar.cmpi .slt v267 c100_i32_161
  let v269 : BitVec 32 := Scalar.extui v268
  let c0_i32_162 : BitVec 32 := 0#32
  let v270 : BitVec 1 := Scalar.cmpi .ne v269 c0_i32_162
  v270

def k0_off24 (k0_t2 : Fin k0_t2_loop.trips) : Fin 2 → Nat :=
  let c0_i32_31 : BitVec 32 := 0#32
  let c1_i32_33 : BitVec 32 := 1#32
  let arg24 : BitVec 32 := Scf.iv c0_i32_31 c1_i32_33 k0_t2
  let c5_i32_156 : BitVec 32 := 5#32
  let v262 : BitVec 32 := Scalar.muli arg24 c5_i32_156
  let c3_i32_157 : BitVec 32 := 3#32
  let v263 : BitVec 32 := Scalar.addi v262 c3_i32_157
  let c3_i32_233 : BitVec 32 := 3#32
  let v408 : BitVec 32 := Scalar.addi v263 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
def k0_cond19 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_195 : BitVec 32 := 5#32
  let v335 : BitVec 32 := Scalar.muli arg24 c5_i32_195
  let c4_i32 : BitVec 32 := 4#32
  let v336 : BitVec 32 := Scalar.addi v335 c4_i32
  let c2_i32_196 : BitVec 32 := 2#32
  let v337 : BitVec 1 := Scalar.cmpi .sge v336 c2_i32_196
  let v338 : BitVec 32 := Scalar.extui v337
  let c0_i32_197 : BitVec 32 := 0#32
  let v339 : BitVec 1 := Scalar.cmpi .ne v338 c0_i32_197
  v339

def k0_off25 (i : grid0.Coords) (k0_t2 : Fin k0_t2_loop.trips) : Fin 3 → Nat :=
  let c0_i32_31 : BitVec 32 := 0#32
  let c1_i32_33 : BitVec 32 := 1#32
  let arg24 : BitVec 32 := Scf.iv c0_i32_31 c1_i32_33 k0_t2
  let c5_i32_195 : BitVec 32 := 5#32
  let v335 : BitVec 32 := Scalar.muli arg24 c5_i32_195
  let c4_i32 : BitVec 32 := 4#32
  let v336 : BitVec 32 := Scalar.addi v335 c4_i32
  let c2_i32_233 : BitVec 32 := 2#32
  let v408 : BitVec 32 := Scalar.subi v336 c2_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2 : BitVec 32 := Scalar.muli v1 c128_i32
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  let v437 : BitVec 32 := Scalar.addi v2 v436
  let c0_i32_248 : BitVec 32 := 0#32
  ![v425.toNat, v437.toNat, 0]
def k0_cond20 (k0_t2 : Fin k0_t2_loop.trips) : BitVec 1 :=
  let c0_i32_31 : BitVec 32 := 0#32
  let c1_i32_33 : BitVec 32 := 1#32
  let arg24 : BitVec 32 := Scf.iv c0_i32_31 c1_i32_33 k0_t2
  let c5_i32_195 : BitVec 32 := 5#32
  let v335 : BitVec 32 := Scalar.muli arg24 c5_i32_195
  let c4_i32 : BitVec 32 := 4#32
  let v336 : BitVec 32 := Scalar.addi v335 c4_i32
  let c3_i32_198 : BitVec 32 := 3#32
  let v340 : BitVec 32 := Scalar.addi v336 c3_i32_198
  let c100_i32_199 : BitVec 32 := 100#32
  let v341 : BitVec 1 := Scalar.cmpi .slt v340 c100_i32_199
  let v342 : BitVec 32 := Scalar.extui v341
  let c0_i32_200 : BitVec 32 := 0#32
  let v343 : BitVec 1 := Scalar.cmpi .ne v342 c0_i32_200
  v343

def k0_off26 (k0_t2 : Fin k0_t2_loop.trips) : Fin 2 → Nat :=
  let c0_i32_31 : BitVec 32 := 0#32
  let c1_i32_33 : BitVec 32 := 1#32
  let arg24 : BitVec 32 := Scf.iv c0_i32_31 c1_i32_33 k0_t2
  let c5_i32_195 : BitVec 32 := 5#32
  let v335 : BitVec 32 := Scalar.muli arg24 c5_i32_195
  let c4_i32 : BitVec 32 := 4#32
  let v336 : BitVec 32 := Scalar.addi v335 c4_i32
  let c3_i32_233 : BitVec 32 := 3#32
  let v408 : BitVec 32 := Scalar.addi v336 c3_i32_233
  let c0_i32_235 : BitVec 32 := 0#32
  let v410 : BitVec 1 := Scalar.cmpi .sgt v408 c0_i32_235
  let v411 : BitVec 32 := Scalar.extui v410
  let c0_i32_236 : BitVec 32 := 0#32
  let v412 : BitVec 1 := Scalar.cmpi .slt v408 c0_i32_236
  let v413 : BitVec 32 := Scalar.extui v412
  let v414 : BitVec 32 := Scalar.subi v411 v413
  let c2_i32_234 : BitVec 32 := 2#32
  let c0_i32_237 : BitVec 32 := 0#32
  let v415 : BitVec 1 := Scalar.cmpi .sgt c2_i32_234 c0_i32_237
  let v416 : BitVec 32 := Scalar.extui v415
  let c0_i32_238 : BitVec 32 := 0#32
  let v417 : BitVec 1 := Scalar.cmpi .slt c2_i32_234 c0_i32_238
  let v418 : BitVec 32 := Scalar.extui v417
  let v419 : BitVec 32 := Scalar.subi v416 v418
  let v420 : BitVec 1 := Scalar.cmpi .ne v414 v419
  let v421 : BitVec 32 := Scalar.remsi v408 c2_i32_234
  let c0_i32_239 : BitVec 32 := 0#32
  let v422 : BitVec 1 := Scalar.cmpi .ne v421 c0_i32_239
  let v423 : BitVec 1 := Scalar.andi v420 v422
  let v409 : BitVec 32 := Scalar.divsi v408 c2_i32_234
  let c1_i32_240 : BitVec 32 := 1#32
  let v424 : BitVec 32 := Scalar.subi v409 c1_i32_240
  let v425 : BitVec 32 := Scalar.select v423 v424 v409
  let c2_i32_241 : BitVec 32 := 2#32
  let c0_i32_242 : BitVec 32 := 0#32
  let v426 : BitVec 1 := Scalar.cmpi .eq c2_i32_241 c0_i32_242
  let c1_i32_243 : BitVec 32 := 1#32
  let v427 : BitVec 32 := Scalar.select v426 c1_i32_243 c2_i32_241
  let v428 : BitVec 32 := Scalar.remsi v408 v427
  let c0_i32_245 : BitVec 32 := 0#32
  let v430 : BitVec 1 := Scalar.cmpi .slt v428 c0_i32_245
  let c0_i32_246 : BitVec 32 := 0#32
  let v431 : BitVec 1 := Scalar.cmpi .slt v427 c0_i32_246
  let v432 : BitVec 1 := Scalar.xori v430 v431
  let c0_i32_244 : BitVec 32 := 0#32
  let v429 : BitVec 1 := Scalar.cmpi .ne v428 c0_i32_244
  let v433 : BitVec 1 := Scalar.andi v432 v429
  let v434 : BitVec 32 := Scalar.addi v428 v427
  let v435 : BitVec 32 := Scalar.select v433 v434 v428
  let c64_i32_247 : BitVec 32 := 64#32
  let v436 : BitVec 32 := Scalar.muli v435 c64_i32_247
  ![v425.toNat, v436.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  inb_S50x128_S1x64_0_0 : ∀ a, (![0, 0] : Fin 2 → Nat) a + S1x64.size a ≤ S50x128.size a
  squeezes_S1x64_S64 : S1x64.Squeezes S64
  inb_S100000x128_S100000x128_0_0 : ∀ a, (![0, 0] : Fin 2 → Nat) a + S100000x128.size a ≤ S100000x128.size a
  gathers_S100000x128_S64x128 : S100000x128.Gathers 0 S64x128
  inb_S50x128_S1x64_0_64 : ∀ a, (![0, 64] : Fin 2 → Nat) a + S1x64.size a ≤ S50x128.size a
  inb_S50x128_S1x64_1_0 : ∀ a, (![1, 0] : Fin 2 → Nat) a + S1x64.size a ≤ S50x128.size a
  squeezes_S1x64x128_S64x128 : S1x64x128.Squeezes S64x128
  transposes_S50x4096x128_S4096x50x128_1_0_2 : S50x4096x128.Transposes [1, 0, 2] S4096x50x128
  hcc0_scratch6 : 0 + S_.numel ≤ 12
  hcc0_scratch7 : 1 + S_.numel ≤ 12
  hcc0_scratch8 : 2 + S_.numel ≤ 12
  hcc0_scratch9 : 3 + S_.numel ≤ 12
  hcc0_scratch10 : 4 + S_.numel ≤ 12
  hcc0_scratch11 : 5 + S_.numel ≤ 12
  hcc0_scratch12 : 6 + S_.numel ≤ 12
  hcc0_scratch13 : 7 + S_.numel ≤ 12
  hcc0_scratch14 : 8 + S_.numel ≤ 12
  hcc0_scratch15 : 9 + S_.numel ≤ 12
  hcc0_scoped0 : 10 + S_.numel ≤ 12
  hcc0_scoped1 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S50x128.size a ≤ S50x4096.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x64x128.size a ≤ S50x4096x128.size a
  k0_off3_inb : ∀ k0_t1 : Fin k0_t1_loop.trips, ∀ (k0_h2 : k0_cond2 k0_t1 = 1#1), ∀ a, (k0_off3 k0_t1) a + S1x64.size a ≤ S50x128.size a
  k0_off4_inb : ∀ k0_t1 : Fin k0_t1_loop.trips, ∀ (r : Fin 5), ∀ a, (k0_off4 k0_t1 (BitVec.ofNat 32 r.val)) a + S1x64.size a ≤ S50x128.size a
  k0_off5_inb : ∀ (i : grid0.Coords) (k0_t1 : Fin k0_t1_loop.trips), ∀ (r : Fin 5), ∀ a, (k0_off5 i k0_t1 (BitVec.ofNat 32 r.val)) a + S1x64x128.size a ≤ S50x4096x128.size a
  k0_off6_inb : ∀ (i : grid0.Coords) (k0_t1 : Fin k0_t1_loop.trips), ∀ (k0_h3 : k0_cond3 k0_t1 = 1#1), ∀ a, (k0_off6 i k0_t1) a + S1x64x128.size a ≤ S50x4096x128.size a
  k0_off7_inb : ∀ k0_t1 : Fin k0_t1_loop.trips, ∀ (k0_h4 : k0_cond4 k0_t1 = 1#1), ∀ a, (k0_off7 k0_t1) a + S1x64.size a ≤ S50x128.size a
  k0_off8_inb : ∀ (i : grid0.Coords) (k0_t1 : Fin k0_t1_loop.trips), ∀ (k0_h5 : k0_cond5 k0_t1 = 1#1), ∀ a, (k0_off8 i k0_t1) a + S1x64x128.size a ≤ S50x4096x128.size a
  k0_off9_inb : ∀ k0_t1 : Fin k0_t1_loop.trips, ∀ (k0_h6 : k0_cond6 k0_t1 = 1#1), ∀ a, (k0_off9 k0_t1) a + S1x64.size a ≤ S50x128.size a
  k0_off10_inb : ∀ (i : grid0.Coords) (k0_t1 : Fin k0_t1_loop.trips), ∀ (k0_h7 : k0_cond7 k0_t1 = 1#1), ∀ a, (k0_off10 i k0_t1) a + S1x64x128.size a ≤ S50x4096x128.size a
  k0_off11_inb : ∀ k0_t1 : Fin k0_t1_loop.trips, ∀ (k0_h8 : k0_cond8 k0_t1 = 1#1), ∀ a, (k0_off11 k0_t1) a + S1x64.size a ≤ S50x128.size a
  k0_off12_inb : ∀ (i : grid0.Coords) (k0_t1 : Fin k0_t1_loop.trips), ∀ (k0_h9 : k0_cond9 k0_t1 = 1#1), ∀ a, (k0_off12 i k0_t1) a + S1x64x128.size a ≤ S50x4096x128.size a
  k0_off13_inb : ∀ k0_t1 : Fin k0_t1_loop.trips, ∀ (k0_h10 : k0_cond10 k0_t1 = 1#1), ∀ a, (k0_off13 k0_t1) a + S1x64.size a ≤ S50x128.size a
  k0_off14_inb : ∀ i : grid0.Coords, ∀ (r : Fin 2), ∀ a, (k0_off14 i (BitVec.ofNat 32 (64 * r.val))) a + S1x64x128.size a ≤ S50x4096x128.size a
  k0_t2_ok : k0_t2_loop.OK
  k0_off15_inb : ∀ (i : grid0.Coords) (k0_t2 : Fin k0_t2_loop.trips), ∀ (k0_h11 : k0_cond11 k0_t2 = 1#1), ∀ a, (k0_off15 i k0_t2) a + S1x64x128.size a ≤ S50x4096x128.size a
  k0_off16_inb : ∀ k0_t2 : Fin k0_t2_loop.trips, ∀ (k0_h12 : k0_cond12 k0_t2 = 1#1), ∀ a, (k0_off16 k0_t2) a + S1x64.size a ≤ S50x128.size a
  k0_off17_inb : ∀ k0_t2 : Fin k0_t2_loop.trips, ∀ (r : Fin 5), ∀ a, (k0_off17 k0_t2 (BitVec.ofNat 32 r.val)) a + S1x64.size a ≤ S50x128.size a
  k0_off18_inb : ∀ (i : grid0.Coords) (k0_t2 : Fin k0_t2_loop.trips), ∀ (r : Fin 5), ∀ a, (k0_off18 i k0_t2 (BitVec.ofNat 32 r.val)) a + S1x64x128.size a ≤ S50x4096x128.size a
  k0_off19_inb : ∀ (i : grid0.Coords) (k0_t2 : Fin k0_t2_loop.trips), ∀ (k0_h13 : k0_cond13 k0_t2 = 1#1), ∀ a, (k0_off19 i k0_t2) a + S1x64x128.size a ≤ S50x4096x128.size a
  k0_off20_inb : ∀ k0_t2 : Fin k0_t2_loop.trips, ∀ (k0_h14 : k0_cond14 k0_t2 = 1#1), ∀ a, (k0_off20 k0_t2) a + S1x64.size a ≤ S50x128.size a
  k0_off21_inb : ∀ (i : grid0.Coords) (k0_t2 : Fin k0_t2_loop.trips), ∀ (k0_h15 : k0_cond15 k0_t2 = 1#1), ∀ a, (k0_off21 i k0_t2) a + S1x64x128.size a ≤ S50x4096x128.size a
  k0_off22_inb : ∀ k0_t2 : Fin k0_t2_loop.trips, ∀ (k0_h16 : k0_cond16 k0_t2 = 1#1), ∀ a, (k0_off22 k0_t2) a + S1x64.size a ≤ S50x128.size a
  k0_off23_inb : ∀ (i : grid0.Coords) (k0_t2 : Fin k0_t2_loop.trips), ∀ (k0_h17 : k0_cond17 k0_t2 = 1#1), ∀ a, (k0_off23 i k0_t2) a + S1x64x128.size a ≤ S50x4096x128.size a
  k0_off24_inb : ∀ k0_t2 : Fin k0_t2_loop.trips, ∀ (k0_h18 : k0_cond18 k0_t2 = 1#1), ∀ a, (k0_off24 k0_t2) a + S1x64.size a ≤ S50x128.size a
  k0_off25_inb : ∀ (i : grid0.Coords) (k0_t2 : Fin k0_t2_loop.trips), ∀ (k0_h19 : k0_cond19 k0_t2 = 1#1), ∀ a, (k0_off25 i k0_t2) a + S1x64x128.size a ≤ S50x4096x128.size a
  k0_off26_inb : ∀ k0_t2 : Fin k0_t2_loop.trips, ∀ (k0_h20 : k0_cond20 k0_t2 = 1#1), ∀ a, (k0_off26 k0_t2) a + S1x64.size a ≤ S50x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0
abbrev cc0_scoped1 : DmaSems sig S_ := SemArray.consecutive 11 S_ hcc0_scoped1

class Facts : Prop extends Facts₀ where

variable [Facts]
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 50
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S100000x128, .f32⟩
  | .hbm, ⟨3, _⟩ => ⟨S100000x128, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x128, .f32⟩
  | .hbm, ⟨23, _⟩ => ⟨S4096x50x128, .i1⟩
  | .hbm, ⟨24, _⟩ => ⟨S_, .f32⟩
  | .hbm, ⟨25, _⟩ => ⟨S4096x50x128, .f32⟩
  | .hbm, ⟨26, _⟩ => ⟨S4096x50x128, .f32⟩
  | .hbm, ⟨27, _⟩ => ⟨S_, .i32⟩
  | .hbm, ⟨28, _⟩ => ⟨S4096x50, .i32⟩
  | .hbm, ⟨29, _⟩ => ⟨S4096x50, .i1⟩
  | .hbm, ⟨30, _⟩ => ⟨S_, .i32⟩
  | .hbm, ⟨31, _⟩ => ⟨S4096x50, .i32⟩
  | .hbm, ⟨32, _⟩ => ⟨S4096x50, .i32⟩
  | .hbm, ⟨33, _⟩ => ⟨S4096x50, .i32⟩
  | .hbm, ⟨34, _⟩ => ⟨S4096x50x1, .i32⟩
  | .hbm, ⟨35, _⟩ => ⟨S1, .i32⟩
  | .hbm, ⟨36, _⟩ => ⟨S_, .i32⟩
  | .hbm, ⟨37, _⟩ => ⟨S4096x50x1, .i32⟩
  | .hbm, ⟨38, _⟩ => ⟨S4096x50x1, .i1⟩
  | .hbm, ⟨39, _⟩ => ⟨S1x1x1, .i32⟩
  | .hbm, ⟨40, _⟩ => ⟨S4096x50x1, .i32⟩
  | .hbm, ⟨41, _⟩ => ⟨S4096x50x1, .i1⟩
  | .hbm, ⟨42, _⟩ => ⟨S4096x50x1, .i1⟩
  | .hbm, ⟨43, _⟩ => ⟨S_, .i1⟩
  | .hbm, ⟨44, _⟩ => ⟨S4096x50, .i1⟩
  | .hbm, ⟨45, _⟩ => ⟨S4096x50x128, .f32⟩
  | .hbm, ⟨46, _⟩ => ⟨S4096x50x128, .i1⟩
  | .hbm, ⟨47, _⟩ => ⟨S_, .f32⟩
  | .hbm, ⟨48, _⟩ => ⟨S4096x50x128, .f32⟩
  | .hbm, ⟨49, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  gather_S100000x128_S4096x50x1_S4096x50x128_2_0_n_n_0_2_1128_wf : GatherDims.WF S100000x128 S4096x50x1 S4096x50x128 [2] [0] [] [0] [] 2 ![1, 128]

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf

class Facts : Prop extends Facts₀ where

variable [Facts]
-- ==== Proof.RefTerm.lean ====
/-
  One call of the reference's lookup function as a pure function of the table and the row numbers, in three pieces: the
  start indices the gather reads (a negative row number has the number of rows added), the validity mask (the start index
  is within [0, 99999], reduced by "and" over the size-one last axis), and the result (the gathered entry where the mask is
  set, the fill constant elsewhere).
-/
import proofs.«206480_g70196945486151_cont_9to1_m_271_23_alg».proof.Proof.Gen.ReferenceIdeal

noncomputable section

namespace Cert.RefSide

open Cert.ReferenceIdeal Cert.ReferenceIdeal.Gen Idealize.ShloMosaic

variable {F : FTy → Type} [FloatOps F]

/-- The start indices, one per row number: the row number, with the number of rows added when it is negative. -/
def startIdx (ids : IVec S4096x50 32) : IVec S4096x50x1 32 :=
  broadcastInDim S4096x50x1 ![0, 1] bcast_S4096x50_S4096x50x1_0_1
    (select (cmpi .slt ids (broadcastInDim S4096x50 ![] bcast_S_S4096x50 (constantI S_ 32 0#32)))
      (addi ids (broadcastInDim S4096x50 ![] bcast_S_S4096x50 (constantI S_ 32 100000#32))) ids)

/-- The validity mask: 1 where the start index is within [0, 99999] (signed). -/
def validMask (ids : IVec S4096x50 32) : IVec S4096x50 1 :=
  Host.reduce IntOp.andi
    (andi (cmpi .sge (startIdx ids) (broadcastInDim S4096x50x1 ![] bcast_S_S4096x50x1 (constantI S_ 32 0#32)))
      (cmpi .sle (startIdx ids) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

/-- The lookup's result: the gathered entry where the mask is set, the fill constant elsewhere. -/
def takeTerm (tab : FVec F S100000x128 .f32) (ids : IVec S4096x50 32) : FVec F S4096x50x128 .f32 :=
  select (broadcastInDim S4096x50x128 ![0, 1] bcast_S4096x50_S4096x50x128_0_1 (validMask ids))
    (Host.gather gather_S100000x128_S4096x50x1_S4096x50x128_2_0_n_n_0_2_1128 tab (startIdx ids))
    (broadcastInDim S4096x50x128 ![] bcast_S_S4096x50x128 (constant S_ .f32 0x7FC00000#32))

end Cert.RefSide

end
-- ==== Proof.RefRun.lean ====
/-
  The reference's run. Its entry function makes two calls of one private function (a table lookup, itself calling a
  select); each call's operations are listed here in place, over that call's own buffers, which is what unfolding the
  calls gives. Every weakly fair execution then ends with each result buffer at the composition of the operations'
  pure functions applied to the arguments, and the arguments unchanged. The composition is `takeTerm`.
-/
import proofs.«206480_g70196945486151_cont_9to1_m_271_23_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The entry function's 46 operations, in order: the 23 of the first call over its buffers, then the 23 of the second. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg2) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    TRef.nullary main_call1.c (constantI S_ 32 0#32),
    TRef.unary main_call1.c main_call1.v0 (broadcastInDim S4096x50 ![] bcast_S_S4096x50),
    TRef.binary (.of main_arg1) main_call1.v0 main_call1.v1 (cmpi .slt),
    TRef.nullary main_call1.c_0 (constantI S_ 32 100000#32),
    TRef.unary main_call1.c_0 main_call1.v2 (broadcastInDim S4096x50 ![] bcast_S_S4096x50),
    TRef.binary (.of main_arg1) main_call1.v2 main_call1.v3 addi,
    TRef.ternary main_call1.v1 main_call1.v3 (.of main_arg1) main_call1.call0.v0 select,
    TRef.unary main_call1.call0.v0 main_call1.v5 (broadcastInDim S4096x50x1 ![0, 1] bcast_S4096x50_S4096x50x1_0_1),
    TRef.nullary main_call1.c_1 (constantI S1 32 99999#32),
    TRef.nullary main_call1.c_2 (constantI S_ 32 0#32),
    TRef.unary main_call1.c_2 main_call1.v6 (broadcastInDim S4096x50x1 ![] bcast_S_S4096x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x50x1 ![0, 1, 2] bcast_S1x1x1_S4096x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x50x1_S4096x50_d2 h_S_),
    TRef.binary (.of main_arg3) main_call1.v5 main_call1.v13 (fun x i => Host.gather gather_S100000x128_S4096x50x1_S4096x50x128_2_0_n_n_0_2_1128 x i),
    TRef.unary main_call1.v12 main_call1.v14 (broadcastInDim S4096x50x128 ![0, 1] bcast_S4096x50_S4096x50x128_0_1),
    TRef.nullary main_call1.cst (constant S_ .f32 0x7FC00000#32),
    TRef.unary main_call1.cst main_call1.v15 (broadcastInDim S4096x50x128 ![] bcast_S_S4096x50x128),
    TRef.ternary main_call1.v14 main_call1.v13 main_call1.v15 main_call1.v16 select ]

set_option maxRecDepth 1024 in
/-- The entry function is that straight line: the called functions unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

section Fold

attribute [local irreducible] Host.reduce Host.gather

set_option maxRecDepth 8192 in
set_option maxHeartbeats 400000 in
/-- The fold of the operations at the first result buffer is the lookup term of the first table and the first row numbers:
    the fold unrolled and each operation's result rewritten at the buffer read (the buffers' inequalities decided); what is
    left are the typed references' casts, the identity at literal references; the reduction and the gather are kept folded
    meanwhile (the equation never looks inside them). -/
theorem out0_eq (V : Valuation τ sig (Elt F)) :
    after ops V (main_v0 : DevRef τ sig) = takeTerm (V (main_arg2 : DevRef τ sig)) (V (main_arg0 : DevRef τ sig)) := by
  after_results_simp
  rfl

set_option maxRecDepth 8192 in
set_option maxHeartbeats 400000 in
/-- The same at the second result buffer, of the second table and the second row numbers. -/
theorem out1_eq (V : Valuation τ sig (Elt F)) :
    after ops V (main_v1 : DevRef τ sig) = takeTerm (V (main_arg3 : DevRef τ sig)) (V (main_arg1 : DevRef τ sig)) := by
  after_results_simp
  rfl

set_option maxRecDepth 8192 in
theorem arg0_eq (V : Valuation τ sig (Elt F)) : after ops V (main_arg0 : DevRef τ sig) = V (main_arg0 : DevRef τ sig) := by
  simp only [after_cons, after_nil]
  rfl
set_option maxRecDepth 8192 in
theorem arg1_eq (V : Valuation τ sig (Elt F)) : after ops V (main_arg1 : DevRef τ sig) = V (main_arg1 : DevRef τ sig) := by
  simp only [after_cons, after_nil]
  rfl
set_option maxRecDepth 8192 in
theorem arg2_eq (V : Valuation τ sig (Elt F)) : after ops V (main_arg2 : DevRef τ sig) = V (main_arg2 : DevRef τ sig) := by
  simp only [after_cons, after_nil]
  rfl
set_option maxRecDepth 8192 in
theorem arg3_eq (V : Valuation τ sig (Elt F)) : after ops V (main_arg3 : DevRef τ sig) = V (main_arg3 : DevRef τ sig) := by
  simp only [after_cons, after_nil]
  rfl

end Fold

/-- On every device, for any float values, from any memory with zero counters: every weakly fair execution of the entry
    function terminates with each result at the lookup term of its table and row numbers, and the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0) = takeTerm (m ((c.tc : Thread nD τ).loc main_arg2)) (m ((c.tc : Thread nD τ).loc main_arg0))
      ∧ r.2.mem ((c.tc : Thread nD τ).loc main_v1) = takeTerm (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v0).trans (out0_eq _), (h c main_v1).trans (out1_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.RefSide

end
-- ==== Proof.LookupSpec.lean ====
/-
  The specification shared by both sides of the certificate: an embedding lookup. For a table `tab` of 100000 rows of 128
  entries and an array `ids` of 4096 × 50 row numbers, the result holds at (r, l, h) the entry h of row `ids (r, l)` of the
  table. A row number is read as the natural number its 32-bit word denotes; `InRange` says every one is below 100000, which is
  what makes the reading the same on both sides (the host's clamped gather and the SparseCore's indexed copy).
-/
import Idealize.ShloMosaic.PureOps.Ideal
import Idealize.ShloMosaic.Lib.ValueIdx

namespace Cert.Lookup

open Idealize.ShloMosaic Idealize.ShloMosaic.ValueIdx

abbrev SIds : Shape := ⟨2, ![4096, 50]⟩
abbrev STab : Shape := ⟨2, ![100000, 128]⟩
abbrev SOut : Shape := ⟨3, ![4096, 50, 128]⟩

/-- The table row a 32-bit word names (total: reduced modulo the number of rows; the identity on words in range). -/
def rowOf (v : BitVec 32) : Fin 100000 := ⟨v.toNat % 100000, Nat.mod_lt _ (by decide)⟩

theorem rowOf_val {v : BitVec 32} (h : v.toNat < 100000) : (rowOf v).val = v.toNat := Nat.mod_eq_of_lt h

/-- The lookup: entry (r, l, h) of the result is entry h of row `ids (r, l)` of the table. -/
def take {α : Type} (tab : STab.Idx → α) (ids : IVec SIds 32) : SOut.Idx → α :=
  fun i => tab (ix2 (rowOf (ids (ix2 (i 0) (i 1)))) (i 2))

/-- Every row number is below the number of rows. -/
def InRange (ids : IVec SIds 32) : Prop := ∀ j, (ids j).toNat < 100000

end Cert.Lookup
-- ==== Proof.RefValue.lean ====
/-
  The lookup term of the reference is the specification's lookup when every row number is below the number of rows.
  With 0 ≤ v < 100000 as a 32-bit word: v is nonnegative in its signed reading, so the negative-wrap select keeps v; the
  validity test 0 ≤ v ≤ 99999 holds, so the mask (an "and" over one element, from 1) is 1 and the final select takes the
  gathered entry; and the gather's clamp min(v, 99999) is v. The gather itself reads, at result index (r, l, h), the table
  at (clamped start index of (r, l, 0), h).
-/
import proofs.«206480_g70196945486151_cont_9to1_m_271_23_alg».proof.Proof.RefTerm
import proofs.«206480_g70196945486151_cont_9to1_m_271_23_alg».proof.Proof.LookupSpec
import Idealize.ShloMosaic.Lib.Affine
import Idealize.ShloMosaic.PureOps.Reduce

noncomputable section

namespace Cert.RefSide

open Cert.ReferenceIdeal Cert.ReferenceIdeal.Gen Idealize.ShloMosaic Idealize.ShloMosaic.ValueIdx

variable {F : FTy → Type} [FloatOps F]

/-! ## A reduction by "and" of all ones -/

/-- A left fold by "and" from 1 over words that are all 1 is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_all_one f l _ (IntOp.andi_eq_one.2 ⟨h, hl a (List.mem_cons.2 (Or.inl rfl))⟩)
      (fun n hn => hl n (List.mem_cons.2 (Or.inr hn)))

/-- A reduction by "and" from the constant 1 of an array of ones is 1 everywhere. -/
theorem reduce_andi_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_all_one x _ _ (hinit _) (fun n _ => hx n)

/-! ## A word below 100000 -/

section Word
variable {v : BitVec 32}

theorem toInt_of_lt (h : v.toNat < 100000) : v.toInt = (v.toNat : Int) :=
  BitVec.toInt_eq_toNat_of_lt (by omega)

/-- It is not negative: the negative-wrap select keeps it. -/
theorem wrap_of_lt (h : v.toNat < 100000) :
    Scalar.select (IntOp.cmpi .slt v 0#32) (IntOp.addi v 100000#32) v = v := by
  refine if_neg ?_
  show ¬ IntOp.cmpi .slt v 0#32 = 1#1
  rw [IntOp.cmpi_slt, toInt_of_lt h, show (0#32 : BitVec 32).toInt = 0 from by decide]
  omega

/-- It passes the validity test. -/
theorem valid_of_lt (h : v.toNat < 100000) :
    IntOp.andi (IntOp.cmpi .sge v 0#32) (IntOp.cmpi .sle v 99999#32) = 1#1 := by
  rw [IntOp.andi_eq_one, IntOp.cmpi_sge, IntOp.cmpi_sle, toInt_of_lt h, show (0#32 : BitVec 32).toInt = 0 from by decide,
    show (99999#32 : BitVec 32).toInt = 99999 from by decide]
  omega

/-- The gather's clamp leaves it. -/
theorem clamp_of_lt (h : v.toNat < 100000) : min v.toInt.toNat (100000 - 1) = v.toNat := by
  rw [toInt_of_lt h, Int.toNat_natCast]
  omega

end Word

/-! ## The pieces at an index -/

/-- A broadcast of a [4096, 50] array along a new last axis reads the array at the first two coordinates. -/
theorem bcast01_apply {α : Type} {n : Nat} (hb : S4096x50.BroadcastsInDim ⟨3, ![4096, 50, n]⟩ ![0, 1])
    (x : S4096x50.Idx → α) (j : (⟨3, ![4096, 50, n]⟩ : Shape).Idx) :
    broadcastInDim ⟨3, ![4096, 50, n]⟩ ![0, 1] hb x j = x (ix2 (j 0) (j 1)) := by
  unfold broadcastInDim
  congr 1
  funext a
  match a with
  | ⟨0, _⟩ => rfl
  | ⟨1, _⟩ => rfl

/-- The start index of an in-range row number is the row number. -/
theorem startIdx_apply (ids : IVec S4096x50 32) (h : Cert.Lookup.InRange ids) (j : S4096x50x1.Idx) :
    startIdx ids j = ids (ix2 (j 0) (j 1)) := by
  unfold startIdx
  rw [bcast01_apply]
  exact wrap_of_lt (h _)

/-- The validity mask of in-range row numbers is all ones. -/
theorem validMask_apply (ids : IVec S4096x50 32) (h : Cert.Lookup.InRange ids) (j : S4096x50.Idx) :
    validMask ids j = 1#1 := by
  unfold validMask
  refine reduce_andi_all_one _ _ _ _ (fun _ => rfl) (fun i => ?_) j
  show IntOp.andi (IntOp.cmpi .sge (startIdx ids i) 0#32) (IntOp.cmpi .sle (startIdx ids i) 99999#32) = 1#1
  rw [startIdx_apply ids h]
  exact valid_of_lt (h _)

/-! ## The gather at an index -/

/-- The gather read at (r, l, h): the table at row (the start index of (r, l, 0), read signed and clamped into
    [0, 99999]) and column h. On the row axis the start index map names it and it is collapsed (no offset); on the column
    axis there is no start index and the offset is the result's last coordinate. -/
theorem gather_apply {α : Type} (tab : S100000x128.Idx → α) (idx : IVec S4096x50x1 32) (i : S4096x50x128.Idx) :
    Host.gather gather_S100000x128_S4096x50x1_S4096x50x128_2_0_n_n_0_2_1128 tab idx i
      = tab (ix2 (⟨min (idx (ix3 (i 0) (i 1) 0)).toInt.toNat (100000 - 1), by omega⟩ : Fin 100000) (i 2)) := by
  unfold Host.gather
  congr 1
  funext a
  refine Fin.ext ?_
  match a with
  | ⟨0, _⟩ =>
    show gather_S100000x128_S4096x50x1_S4096x50x128_2_0_n_n_0_2_1128.start i idx 0
      + gather_S100000x128_S4096x50x1_S4096x50x128_2_0_n_n_0_2_1128.batchCoord i 0
      + gather_S100000x128_S4096x50x1_S4096x50x128_2_0_n_n_0_2_1128.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S4096x50x1_S4096x50x128_2_0_n_n_0_2_1128.startIndexMap from
      List.mem_singleton.mpr rfl)]
    have hsi : gather_S100000x128_S4096x50x1_S4096x50x128_2_0_n_n_0_2_1128.siIdx i
        ⟨List.idxOf (0 : Fin 2) gather_S100000x128_S4096x50x1_S4096x50x128_2_0_n_n_0_2_1128.startIndexMap,
          List.idxOf_lt_length_iff.2 (List.mem_singleton.mpr rfl)⟩ = ix3 (i 0) (i 1) 0 := by
      funext b; refine Fin.ext ?_
      match b with
      | ⟨0, _⟩ => rfl
      | ⟨1, _⟩ => rfl
      | ⟨2, _⟩ => rfl
    rw [hsi]
    rfl
  | ⟨1, _⟩ =>
    show gather_S100000x128_S4096x50x1_S4096x50x128_2_0_n_n_0_2_1128.start i idx 1
      + gather_S100000x128_S4096x50x1_S4096x50x128_2_0_n_n_0_2_1128.batchCoord i 1
      + gather_S100000x128_S4096x50x1_S4096x50x128_2_0_n_n_0_2_1128.offCoord i 1 = (i 2).val
    rw [GatherDims.batchCoord_eq_zero _ _ _ List.not_mem_nil]
    have hs : gather_S100000x128_S4096x50x1_S4096x50x128_2_0_n_n_0_2_1128.start i idx 1 = 0 := by
      unfold GatherDims.start
      exact dif_neg (by decide)
    have ho : gather_S100000x128_S4096x50x1_S4096x50x128_2_0_n_n_0_2_1128.offCoord i 1 = (i 2).val := by
      unfold GatherDims.offCoord
      rw [dif_pos (by decide)]
      rfl
    rw [hs, ho]
    omega

/-! ## The lookup term is the specification's lookup -/

/-- With every row number below the number of rows, the reference's lookup term is the specification's lookup. -/
theorem takeTerm_eq_take (tab : FVec F S100000x128 .f32) (ids : IVec S4096x50 32) (h : Cert.Lookup.InRange ids) :
    takeTerm tab ids = Cert.Lookup.take tab ids := by
  funext i
  unfold takeTerm
  rw [select_apply, bcast01_apply, validMask_apply ids h, select_one, gather_apply]
  unfold Cert.Lookup.take
  congr 1
  funext a
  match a with
  | ⟨0, _⟩ =>
    refine Fin.ext ?_
    show min (startIdx ids (ix3 (i 0) (i 1) 0)).toInt.toNat (100000 - 1) = (Cert.Lookup.rowOf (ids (ix2 (i 0) (i 1)))).val
    rw [startIdx_apply ids h]
    show min (ids (ix2 (i 0) (i 1))).toInt.toNat (100000 - 1) = _
    rw [clamp_of_lt (h _), Cert.Lookup.rowOf_val (h _)]
  | ⟨1, _⟩ => rfl

end Cert.RefSide

end
-- ==== Proof.RefSide.lean ====
/-
  The reference's run with its results named by the specification: from a memory whose two arrays of row numbers are all
  below the number of rows, every weakly fair execution of the reference terminates with each result the specification's
  lookup of its table at its row numbers, and the four arguments unchanged. The run ends at the lookup term; with the row
  numbers in range the lookup term is the specification's lookup.
-/
import proofs.«206480_g70196945486151_cont_9to1_m_271_23_alg».proof.Proof.RefRun
import proofs.«206480_g70196945486151_cont_9to1_m_271_23_alg».proof.Proof.RefValue

noncomputable section

namespace Cert.RefSide

open Cert.ReferenceIdeal Cert.ReferenceIdeal.Gen Idealize.ShloMosaic Idealize.ShloMosaic.TcCoe Idealize.SL.Sem Idealize.ShloMosaic.StableHlo

/-- For any float values. -/
theorem run_any {F : FTy → Type} [FloatOps F] (m : (ℓ : Loc nD τ sig) → Buf (Elt F) ℓ) (g : Dev nD → PrngReg)
    (h0 : ∀ c : Dev nD, Cert.Lookup.InRange (m ((c.tc : Thread nD τ).loc main_arg0)))
    (h1 : ∀ c : Dev nD, Cert.Lookup.InRange (m ((c.tc : Thread nD τ).loc main_arg1))) :
    θ_run (defs (F := F)) (onTc (τ := τ) (main (F := F))) ⟨m, fun _ => 0, g⟩ (fun r => ∀ c : Dev nD,
      r.2.mem ((c.tc : Thread nD τ).loc main_v0) = Cert.Lookup.take (m ((c.tc : Thread nD τ).loc main_arg2)) (m ((c.tc : Thread nD τ).loc main_arg0))
      ∧ r.2.mem ((c.tc : Thread nD τ).loc main_v1) = Cert.Lookup.take (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (takeTerm_eq_take _ _ (h0 c)),
      (h c).2.1.trans (takeTerm_eq_take _ _ (h1 c)), (h c).2.2⟩) (run_term m g)

/-- At the ideal instance. -/
theorem run (m : (ℓ : Loc Cert.ReferenceIdeal.nD Cert.ReferenceIdeal.τ Cert.ReferenceIdeal.sig) → Buf (Elt Ideal) ℓ)
    (g : Dev Cert.ReferenceIdeal.nD → PrngReg)
    (h0 : ∀ c : Dev nD, Cert.Lookup.InRange (m ((c.tc : Thread nD τ).loc main_arg0)))
    (h1 : ∀ c : Dev nD, Cert.Lookup.InRange (m ((c.tc : Thread nD τ).loc main_arg1))) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
      r.2.mem ((c.tc : Thread nD τ).loc main_v0) = Cert.Lookup.take (m ((c.tc : Thread nD τ).loc main_arg2)) (m ((c.tc : Thread nD τ).loc main_arg0))
      ∧ r.2.mem ((c.tc : Thread nD τ).loc main_v1) = Cert.Lookup.take (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_any (F := Ideal) m g h0 h1

end Cert.RefSide

end
-- ==== Proof.PreRange.lean ====
/-
  From the printed precondition to the range of the row numbers. The precondition computes, for each of the two arrays of
  row numbers, the conjunction over all entries of (0 ≤ v signed) and (v ≤ 99999 signed); the conjunction of all its parts is
  the word 1. Read back: each entry v satisfies 0 ≤ v.toInt ≤ 99999, hence v.toNat < 100000.
-/
import proofs.«206480_g70196945486151_cont_9to1_m_271_23_alg».proof.Pre_input_domain
import proofs.«206480_g70196945486151_cont_9to1_m_271_23_alg».proof.Proof.LookupSpec
import Idealize.ShloMosaic.Lib.ReduceAll

namespace Cert.RefSide

open Idealize.ShloMosaic Idealize.ShloMosaic.ValueIdx

instance : Subsingleton Cert.Pre_input_domain.S_.Idx := ⟨fun a b => funext fun d => d.elim0⟩

/-- A 32-bit word between 0 and 99999 in its signed reading is below 100000 in its unsigned reading. -/
theorem toNat_lt_of_signed_range {v : BitVec 32} (h0 : (0#32 : BitVec 32).toInt ≤ v.toInt) (h1 : v.toInt ≤ (99999#32 : BitVec 32).toInt) :
    v.toNat < 100000 := by
  rw [show (0#32 : BitVec 32).toInt = 0 from by decide] at h0
  rw [show (99999#32 : BitVec 32).toInt = 99999 from by decide] at h1
  have hpos : 2 * v.toNat < 2 ^ 32 := BitVec.toInt_pos_iff.1 h0
  rw [BitVec.toInt_eq_toNat_of_lt hpos] at h1
  omega

theorem inRange_of_pre {F : FTy → Type} [FloatOps F] [Cert.Pre_input_domain.Facts]
    (a0 a1 : IVec Cert.Pre_input_domain.S4096x50 32) (t0 t1 : FVec F Cert.Pre_input_domain.S100000x128 .f32)
    (h : Cert.Pre_input_domain.fn (F := F) a0 a1 t0 t1 = fun _ => 1#1) :
    Cert.Lookup.InRange a0 ∧ Cert.Lookup.InRange a1 := by
  have h' := congrFun h ix0
  dsimp only [Cert.Pre_input_domain.fn, Cert.Pre_input_domain.fn_part1] at h'
  obtain ⟨h3, hb⟩ := IntOp.andi_eq_one.1 h'
  obtain ⟨-, ha⟩ := IntOp.andi_eq_one.1 h3
  refine ⟨fun j => ?_, fun j => ?_⟩
  · obtain ⟨e0, e1⟩ := IntOp.andi_eq_one.1 (Host.reduce_andi_all _ _ _ _ _ ha j)
    exact toNat_lt_of_signed_range (IntOp.cmpi_sge.1 e0) (IntOp.cmpi_sle.1 e1)
  · obtain ⟨e0, e1⟩ := IntOp.andi_eq_one.1 (Host.reduce_andi_all _ _ _ _ _ hb j)
    exact toNat_lt_of_signed_range (IntOp.cmpi_sge.1 e0) (IntOp.cmpi_sle.1 e1)

end Cert.RefSide
-- ==== Proof.PreGlue.lean ====
/-
  From each program's precondition — the printed predicate is all ones on every device's argument arrays — to the range
  of both arrays of row numbers on every device; and, for the reference run from a memory that agrees with the kernel's
  on the arguments, from the kernel's precondition.
-/
import proofs.«206480_g70196945486151_cont_9to1_m_271_23_alg».proof.Defs
import proofs.«206480_g70196945486151_cont_9to1_m_271_23_alg».proof.Proof.PreRange

namespace Cert.RefSide

open Idealize.ShloMosaic Idealize.SL.Sem

theorem inRange_of_Pre_Kernel [Cert.Pre_input_domain.Facts]
    (m : (ℓ : Loc Cert.Kernel.nD Cert.Kernel.τ Cert.Kernel.sig) → Buf (Elt Bits) ℓ) (h : Cert.Pre_Kernel m) :
    (∀ c : Dev Cert.Kernel.nD, Cert.Lookup.InRange (m ((c.tc : Thread Cert.Kernel.nD Cert.Kernel.τ).loc Cert.Kernel.main_arg0)))
      ∧ (∀ c : Dev Cert.Kernel.nD, Cert.Lookup.InRange (m ((c.tc : Thread Cert.Kernel.nD Cert.Kernel.τ).loc Cert.Kernel.main_arg1))) :=
  ⟨fun c => (inRange_of_pre _ _ _ _ (h c)).1, fun c => (inRange_of_pre _ _ _ _ (h c)).2⟩

theorem inRange_of_Pre_KernelIdeal [Cert.Pre_input_domain.Facts]
    (m : (ℓ : Loc Cert.KernelIdeal.nD Cert.KernelIdeal.τ Cert.KernelIdeal.sig) → Buf (Elt Ideal) ℓ) (h : Cert.Pre_KernelIdeal m) :
    (∀ c : Dev Cert.KernelIdeal.nD, Cert.Lookup.InRange (m ((c.tc : Thread Cert.KernelIdeal.nD Cert.KernelIdeal.τ).loc Cert.KernelIdeal.main_arg0)))
      ∧ (∀ c : Dev Cert.KernelIdeal.nD, Cert.Lookup.InRange (m ((c.tc : Thread Cert.KernelIdeal.nD Cert.KernelIdeal.τ).loc Cert.KernelIdeal.main_arg1))) :=
  ⟨fun c => (inRange_of_pre _ _ _ _ (h c)).1, fun c => (inRange_of_pre _ _ _ _ (h c)).2⟩

theorem inRange_of_Pre_ReferenceIdeal [Cert.Pre_input_domain.Facts]
    (m : (ℓ : Loc Cert.ReferenceIdeal.nD Cert.ReferenceIdeal.τ Cert.ReferenceIdeal.sig) → Buf (Elt Ideal) ℓ) (h : Cert.Pre_ReferenceIdeal m) :
    (∀ c : Dev Cert.ReferenceIdeal.nD, Cert.Lookup.InRange (m ((c.tc : Thread Cert.ReferenceIdeal.nD Cert.ReferenceIdeal.τ).loc Cert.ReferenceIdeal.main_arg0)))
      ∧ (∀ c : Dev Cert.ReferenceIdeal.nD, Cert.Lookup.InRange (m ((c.tc : Thread Cert.ReferenceIdeal.nD Cert.ReferenceIdeal.τ).loc Cert.ReferenceIdeal.main_arg1))) :=
  ⟨fun c => (inRange_of_pre _ _ _ _ (h c)).1, fun c => (inRange_of_pre _ _ _ _ (h c)).2⟩

/-- The reference's row numbers are in range when its memory agrees on the arguments with a kernel memory that satisfies
    the kernel's precondition. -/
theorem inRange_ref_of_agree [Cert.Pre_input_domain.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (∀ c : Dev Cert.ReferenceIdeal.nD, Cert.Lookup.InRange (m' ((c.tc : Thread Cert.ReferenceIdeal.nD Cert.ReferenceIdeal.τ).loc Cert.ReferenceIdeal.main_arg0)))
      ∧ (∀ c : Dev Cert.ReferenceIdeal.nD, Cert.Lookup.InRange (m' ((c.tc : Thread Cert.ReferenceIdeal.nD Cert.ReferenceIdeal.τ).loc Cert.ReferenceIdeal.main_arg1))) :=
  ⟨fun c => by rw [(hagree c).1]; exact (inRange_of_Pre_KernelIdeal m h).1 c,
    fun c => by rw [(hagree c).2.1]; exact (inRange_of_Pre_KernelIdeal m h).2 c⟩

end Cert.RefSide
-- ==== Proof.SetupIdeal.lean ====
/-
  The lookup kernel as the SparseCore launch theorem sees it, and the names both the tile's task and the launch use: the
  configuration, the resource algebra (the handshakes' rounds beside the transfers' counters), the device's arrays as
  locations and as the memrefs the task addresses them by, and the cut of the two results among the 32 tiles. Tile w
  (core w / 16, subcore w % 16) owns, of each result array of shape [50, 4096, 128], the rows 128 w … 128 w + 127 of its middle
  axis; of the tables and of the transposed row numbers every tile holds a read share.
-/
import proofs.«206480_g70196945486151_cont_9to1_m_271_23_alg».proof.Defs
import proofs.«206480_g70196945486151_cont_9to1_m_271_23_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206480_g70196945486151_cont_9to1_m_271_23_alg».proof.Proof.Gen.KernelIdeal
import proofs.«206480_g70196945486151_cont_9to1_m_271_23_alg».proof.Proof.Gen.KernelIdeal.Skeleton

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev 𝕄 (F : FTy → Type) : Type := MT nD τ sig (HIx 1) (Elt F) ℕ UU ℕ

abbrev EH : Emb UH (𝕄 F) := embL

/-! ## The arrays -/

/-- The tables, the transposed row numbers and the two results, as locations of device `d`. -/
abbrev t0Loc (d : Dev nD) : Loc nD τ sig := (SparseCore.T d).loc main_arg2
abbrev t1Loc (d : Dev nD) : Loc nD τ sig := (SparseCore.T d).loc main_arg3
abbrev i0Loc (d : Dev nD) : Loc nD τ sig := (SparseCore.T d).loc main_v0
abbrev i1Loc (d : Dev nD) : Loc nD τ sig := (SparseCore.T d).loc main_v1
abbrev o0Loc (d : Dev nD) : Loc nD τ sig := (SparseCore.T d).loc main_v2_0
abbrev o1Loc (d : Dev nD) : Loc nD τ sig := (SparseCore.T d).loc main_v2_1

abbrev t0V : Memref sig .scVector .hbm S100000x128 .f32 := Memref.whole main_arg2_scv
abbrev t1V : Memref sig .scVector .hbm S100000x128 .f32 := Memref.whole main_arg3_scv
abbrev i0V : Memref sig .scVector .hbm S50x4096 .i32 := Memref.whole main_v0_scv
abbrev i1V : Memref sig .scVector .hbm S50x4096 .i32 := Memref.whole main_v1_scv
abbrev o0V : Memref sig .scVector .hbm S50x4096x128 .f32 := Memref.whole main_v2_0_scv
abbrev o1V : Memref sig .scVector .hbm S50x4096x128 .f32 := Memref.whole main_v2_1_scv
/-- A tile's scratch: the list of row numbers and the five staging slots. -/
abbrev lV : Memref sig .scVector .vmem S50x128 .i32 := Memref.whole cc0_scratch0
abbrev b0V : Memref sig .scVector .vmem S64x128 .f32 := Memref.whole cc0_scratch1
abbrev b1V : Memref sig .scVector .vmem S64x128 .f32 := Memref.whole cc0_scratch2
abbrev b2V : Memref sig .scVector .vmem S64x128 .f32 := Memref.whole cc0_scratch3
abbrev b3V : Memref sig .scVector .vmem S64x128 .f32 := Memref.whole cc0_scratch4
abbrev b4V : Memref sig .scVector .vmem S64x128 .f32 := Memref.whole cc0_scratch5

/-! ## The cut of a result among the tiles -/

theorem odiv : 32 ∣ S50x4096x128.size 1 := ⟨128, rfl⟩
/-- Tile `w`'s rows of a result: rows 128 w … 128 w + 127 of the middle axis. -/
abbrev oband (w : Fin 32) : Rect S50x4096x128 := Rect.part (s := S50x4096x128) (a₀ := 1) odiv w
abbrev oBandSet (w : Fin 32) : Finset S50x4096x128.Idx := (oband w).set

/-- The tile number of subcore `i` of core `c`. -/
def wOf (c : Fin 2) (i : Fin 16) : Fin 32 := ⟨16 * c.val + i.val, by omega⟩

/-! ## The lookup as the kernel computes it, before the host's transposes

Entry (l, r, h) of a result is entry h of the table's row `idsT (l, r)`. -/

def takeT {α : Type} (tab : S100000x128.Idx → α) (idsT : IVec S50x4096 32) : S50x4096x128.Idx → α :=
  fun j => tab (ValueIdx.ix2 (Cert.Lookup.rowOf (idsT (ValueIdx.ix2 (j 0) (j 1)))) (j 2))

end Cert.Proof.KernelIdealSide

end
-- ==== Proof.TileSpecIdeal.lean ====
/-
  What one tile's task takes and gives back. Tile w takes a read share of each table and of each transposed array of row
  numbers, and its own rows of the two result arrays at whatever they hold; it gives the shares back unchanged and its rows of
  each result holding the lookup: entry (l, r, h) is entry h of the table's row idsT (l, r).
-/
import proofs.«206480_g70196945486151_cont_9to1_m_271_23_alg».proof.Proof.SetupIdeal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The core, the subcore and the thread of the tile at grid coordinates `L`. -/
abbrev cV (L : grid0.Coords) : Fin τ.nSC := (L 0).castLE hcore0
abbrev jV (L : grid0.Coords) : Fin τ.nSub := (L 1).castLE hsub0
abbrev TH (d : Dev nD) (L : grid0.Coords) : Thread nD τ := V d (cV L) (jV L)

theorem bound_zero : grid0.bound 0 = 2 := rfl
theorem bound_one : grid0.bound 1 = 16 := rfl
/-- The tile number at grid coordinates `L`: 16 · core + subcore. -/
def wL (L : grid0.Coords) : Fin 32 := wOf (Fin.cast bound_zero (L 0)) (Fin.cast bound_one (L 1))

section

variable (m : (ℓ : Loc nD τ sig) → Buf (Elt F) ℓ) (d : Dev nD) (w : Fin 32)
variable (X0 : Buf (Elt F) (i0Loc d)) (X1 : Buf (Elt F) (i1Loc d)) (q0 q1 qi0 qi1 : PosShare TreeShare)

/-- What tile `w` is handed: the shares, and its rows of the results at some contents. -/
abbrev TileIn (fo0 : Buf (Elt F) (o0Loc d)) (fo1 : Buf (Elt F) (o1Loc d)) : sProp (𝕄 F) :=
  iprop((t0Loc d ↦{q0} m (t0Loc d)) ∗ (t1Loc d ↦{q1} m (t1Loc d)) ∗ (i0Loc d ↦{qi0} X0) ∗ (i1Loc d ↦{qi1} X1)
      ∗ (o0Loc d ↦[oBandSet w]{fullShare} fo0) ∗ (o1Loc d ↦[oBandSet w]{fullShare} fo1))

/-- What tile `w` hands back: the shares, and its rows of the results holding the lookup. -/
abbrev TileOut : sProp (𝕄 F) :=
  iprop((t0Loc d ↦{q0} m (t0Loc d)) ∗ (t1Loc d ↦{q1} m (t1Loc d)) ∗ (i0Loc d ↦{qi0} X0) ∗ (i1Loc d ↦{qi1} X1)
      ∗ (o0Loc d ↦[oBandSet w]{fullShare} (takeT (m (t0Loc d)) X0 : Buf (Elt F) (o0Loc d)))
      ∗ (o1Loc d ↦[oBandSet w]{fullShare} (takeT (m (t1Loc d)) X1 : Buf (Elt F) (o1Loc d))))

end

end Cert.Proof.KernelIdealSide

end
-- ==== Proof.RingAuxIdeal.lean ====
/-
  Small facts the tile's task uses for either table: its scratch buffers in the launch's spelling and in the task's, a conjunction
  over five, a read after a whole write, the read shares of the list and of a table the ring's five slots work through, and the
  elements of the list a gather reads.
-/
import proofs.«206480_g70196945486151_cont_9to1_m_271_23_alg».proof.Proof.TileSpecIdeal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The tile's scratch in the launch's spelling and in the task's -/

theorem pts_l (d : Dev nD) (L : grid0.Coords) (f : Buf (Elt F) ((TH d L).loc cc0_scratch0)) :
    ((lV).view.loc (TH d L) ↦{fullShare} f : sProp (𝕄 F)) = (TH d L).loc cc0_scratch0 ↦{fullShare} f := rfl
theorem pts_sa (d : Dev nD) (L : grid0.Coords) (f : Buf (Elt F) ((TH d L).loc cc0_scratch1)) :
    ((b0V).view.loc (TH d L) ↦{fullShare} f : sProp (𝕄 F)) = (TH d L).loc cc0_scratch1 ↦{fullShare} f := rfl
theorem pts_sb (d : Dev nD) (L : grid0.Coords) (f : Buf (Elt F) ((TH d L).loc cc0_scratch2)) :
    ((b1V).view.loc (TH d L) ↦{fullShare} f : sProp (𝕄 F)) = (TH d L).loc cc0_scratch2 ↦{fullShare} f := rfl
theorem pts_sc (d : Dev nD) (L : grid0.Coords) (f : Buf (Elt F) ((TH d L).loc cc0_scratch3)) :
    ((b2V).view.loc (TH d L) ↦{fullShare} f : sProp (𝕄 F)) = (TH d L).loc cc0_scratch3 ↦{fullShare} f := rfl
theorem pts_sd (d : Dev nD) (L : grid0.Coords) (f : Buf (Elt F) ((TH d L).loc cc0_scratch4)) :
    ((b3V).view.loc (TH d L) ↦{fullShare} f : sProp (𝕄 F)) = (TH d L).loc cc0_scratch4 ↦{fullShare} f := rfl
theorem pts_se (d : Dev nD) (L : grid0.Coords) (f : Buf (Elt F) ((TH d L).loc cc0_scratch5)) :
    ((b4V).view.loc (TH d L) ↦{fullShare} f : sProp (𝕄 F)) = (TH d L).loc cc0_scratch5 ↦{fullShare} f := rfl

/-- A conjunction over five. -/
theorem bigSep_univ_five {M : Type} [URA M] (Φ : Fin 5 → sProp M) :
    bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- A view read after one write of the whole shape reads the payload. -/
theorem read_writes_whole {κ : Kind} {sp : Space} {s : Shape} {e : EltTy} (v : View sig κ sp s e) (f : v.ty.Contents (Elt F)) (p : s.Idx → Elt F e) :
    v.read (Elt F) (v.writes (Elt F) f [⟨Rect.whole s, p⟩]) = p := by
  funext y
  have h := View.read_writes_cons_emb v f (Rect.whole s) p [] y
  rwa [Rect.emb_whole_apply] at h

/-! ## The shares the ring's slots read through -/

/-- The list's: the remainder after five tokens for slot 0, tokens 0 … 3 for slots 1 … 4 (token 4 stays aside). -/
abbrev lqP : Fin 5 → PosShare TreeShare
  | 0 => Transfers.shareDrop fullShare 5
  | 1 => Transfers.shareTok fullShare 5 0
  | 2 => Transfers.shareTok fullShare 5 1
  | 3 => Transfers.shareTok fullShare 5 2
  | 4 => Transfers.shareTok fullShare 5 3
/-- A table's: token s for slot s (the remainder stays aside). -/
abbrev tqP (q : PosShare TreeShare) : Fin 5 → PosShare TreeShare := fun s => Transfers.shareTok q 5 s

/-- The elements of the list a gather reads its row numbers from. -/
abbrev lWin (off : Fin 2 → ℕ) (h : ∀ a, off a + S1x64.size a ≤ S50x128.size a) : Finset S50x128.Idx :=
  ((lV.slice (Rect.unit (s := S50x128) off S1x64.size h) (fun _ => rfl)).squeeze S64 squeezes_S1x64_S64).view.set

end Cert.Proof.KernelIdealSide

end
-- ==== Proof.ChunkGeom.lean ====
/-
  The geometry of the chunks a tile's result band is moved in. A result before the final transposition has shape
  [50, 4096, 128]; tile w (of 32) owns the band of positions 128·w … 128·w + 127 on the middle axis. The band is moved in
  100 chunks: chunk c is row c / 2, the 64 consecutive positions from 128·w + (c mod 2)·64, all 128 columns. The chunks of
  one tile are pairwise disjoint and together are exactly the tile's band. The same offsets without the tile and the last
  axis cut a tile's [50, 128] list of row numbers into [1, 64] pieces.
-/
import Idealize.ShloMosaic.Shape

namespace Cert.Proof.Geom

open Idealize.ShloMosaic

abbrev SL : Shape := ⟨2, ![50, 128]⟩
abbrev SO : Shape := ⟨3, ![50, 4096, 128]⟩
abbrev S1x64 : Shape := ⟨2, ![1, 64]⟩
abbrev S1x64x128 : Shape := ⟨3, ![1, 64, 128]⟩

/-- Where chunk c starts in a tile's list of row numbers: row c / 2, position (c mod 2)·64. -/
def lOff (c : ℕ) : Fin 2 → ℕ := ![c / 2, (c % 2) * 64]

/-- Where chunk c of tile w starts in the result: row c / 2, position 128·w + (c mod 2)·64, column 0. -/
def oOff (w : Fin 32) (c : ℕ) : Fin 3 → ℕ := ![c / 2, 128 * w.val + (c % 2) * 64, 0]

theorem lOff_inb (c : ℕ) (hc : c < 100) : ∀ a, lOff c a + S1x64.size a ≤ SL.size a := by
  intro a
  match a with
  | ⟨0, _⟩ => show c / 2 + 1 ≤ 50; omega
  | ⟨1, _⟩ => show (c % 2) * 64 + 64 ≤ 128; omega

theorem oOff_inb (w : Fin 32) (c : ℕ) (hc : c < 100) : ∀ a, oOff w c a + S1x64x128.size a ≤ SO.size a := by
  intro a
  have hw := w.isLt
  match a with
  | ⟨0, _⟩ => show c / 2 + 1 ≤ 50; omega
  | ⟨1, _⟩ => show 128 * w.val + (c % 2) * 64 + 64 ≤ 4096; omega
  | ⟨2, _⟩ => show 0 + 128 ≤ 128; omega

/-- The result indices of chunk c of tile w (no index for c ≥ 100). -/
def opiece (w : Fin 32) (c : ℕ) : Finset SO.Idx :=
  if hc : c < 100 then (Rect.unit (s := SO) (oOff w c) S1x64x128.size (oOff_inb w c hc)).set else ∅

theorem mem_opiece {w : Fin 32} {c : ℕ} (hc : c < 100) (j : SO.Idx) :
    j ∈ opiece w c ↔ (j 0).val = c / 2 ∧ 128 * w.val + (c % 2) * 64 ≤ (j 1).val
      ∧ (j 1).val < 128 * w.val + (c % 2) * 64 + 64 := by
  unfold opiece
  rw [dif_pos hc, Rect.mem_set_unit]
  constructor
  · intro h
    have h0 : c / 2 ≤ (j 0).val ∧ (j 0).val < c / 2 + 1 := h 0
    have h1 : 128 * w.val + (c % 2) * 64 ≤ (j 1).val ∧ (j 1).val < 128 * w.val + (c % 2) * 64 + 64 := h 1
    omega
  · rintro ⟨e0, l1, u1⟩ a
    match a with
    | ⟨0, _⟩ => show c / 2 ≤ (j 0).val ∧ (j 0).val < c / 2 + 1; omega
    | ⟨1, _⟩ =>
      show 128 * w.val + (c % 2) * 64 ≤ (j 1).val ∧ (j 1).val < 128 * w.val + (c % 2) * 64 + 64
      exact ⟨l1, u1⟩
    | ⟨2, _⟩ =>
      have : (j 2).val < 128 := (j 2).isLt
      show 0 ≤ (j 2).val ∧ (j 2).val < 0 + 128
      omega

/-- Two different chunks of one tile share no index: in the same row they are the two halves of the band. -/
theorem opiece_disjoint (w : Fin 32) :
    ∀ c ∈ Finset.range 100, ∀ c' ∈ Finset.range 100, c ≠ c' → Disjoint (opiece w c) (opiece w c') := by
  intro c hc c' hc' hne
  rw [Finset.mem_range] at hc hc'
  rw [Finset.disjoint_left]
  intro j hj hj'
  rw [mem_opiece hc] at hj
  rw [mem_opiece hc'] at hj'
  omega

/-- The 100 chunks of tile w are together its band: part w of the 32 parts of the middle axis. An index (r, p, h) of the
    band is in chunk 2·r + (p − 128·w) / 64. -/
theorem opiece_cover (w : Fin 32) :
    (Finset.range 100).biUnion (opiece w) = (Rect.part (s := SO) (a₀ := 1) (⟨128, rfl⟩ : 32 ∣ SO.size 1) w).set := by
  ext j
  rw [Finset.mem_biUnion, Rect.mem_set_unit]
  have hw := w.isLt
  constructor
  · rintro ⟨c, hc, hj⟩ a
    rw [Finset.mem_range] at hc
    rw [mem_opiece hc] at hj
    match a with
    | ⟨0, _⟩ =>
      have : (j 0).val < 50 := (j 0).isLt
      show 0 * 50 ≤ (j 0).val ∧ (j 0).val < 0 * 50 + 50
      omega
    | ⟨1, _⟩ =>
      show w.val * 128 ≤ (j 1).val ∧ (j 1).val < w.val * 128 + 128
      omega
    | ⟨2, _⟩ =>
      have : (j 2).val < 128 := (j 2).isLt
      show 0 * 128 ≤ (j 2).val ∧ (j 2).val < 0 * 128 + 128
      omega
  · intro h
    have h0 : (j 0).val < 50 := (j 0).isLt
    have h1 : w.val * 128 ≤ (j 1).val ∧ (j 1).val < w.val * 128 + 128 := h 1
    have hc : 2 * (j 0).val + ((j 1).val - 128 * w.val) / 64 < 100 := by omega
    refine ⟨2 * (j 0).val + ((j 1).val - 128 * w.val) / 64, Finset.mem_range.2 hc, (mem_opiece hc j).2 ?_⟩
    omega

end Cert.Proof.Geom
-- ==== Proof.RingSpecIdeal.lean ====
/-
  The ring's vocabulary. The tile moves each table's rows in 100 chunks of 64: chunk c is the 64 positions
  128 w + (c % 2) · 64 … of row c / 2 of the transposed row numbers, gathered into a staging slot and copied out to the same
  positions of row c / 2 of the result. `GP` is what a slot holds once chunk c has been gathered.
-/
import proofs.«206480_g70196945486151_cont_9to1_m_271_23_alg».proof.Proof.TileSpecIdeal
import proofs.«206480_g70196945486151_cont_9to1_m_271_23_alg».proof.Proof.ChunkGeom

noncomputable section

namespace Cert.Proof.KernelIdealSide

open Cert.KernelIdeal Cert.KernelIdeal.Gen
open Idealize.ShloMosaic

/-- A position of the transposed row numbers from natural coordinates (reduced into range; the identity in range). -/
def ixI (a b : ℕ) : S50x4096.Idx := ValueIdx.ix2 ⟨a % 50, Nat.mod_lt _ (by decide)⟩ ⟨b % 4096, Nat.mod_lt _ (by decide)⟩

/-- What a staging slot holds once chunk `c` of tile `w` has been gathered: at (y₀, y₁), entry y₁ of the table's row
    named at position 128 w + (c % 2) · 64 + y₀ of row c / 2 of the transposed row numbers. -/
def GP {α : Type} (tab : S100000x128.Idx → α) (X : IVec S50x4096 32) (w : Fin 32) (c : ℕ) : S64x128.Idx → α :=
  fun y => tab (ValueIdx.ix2 (Cert.Lookup.rowOf (X (ixI (c / 2) (128 * w.val + (c % 2) * 64 + (y 0).val)))) (y 1))

/-- Chunk `c`'s piece of tile `w`'s rows of a result. -/
abbrev opc (w : Fin 32) (c : ℕ) : Finset S50x4096x128.Idx := Cert.Proof.Geom.opiece w c

end Cert.Proof.KernelIdealSide

end
-- ==== Proof.CondsIdeal.lean ====
/-
  The ring's guards in closed form. In trip t of either loop, slot b handles chunk 5 t + b: the store of chunk 5 t + b − 2 is
  awaited when that chunk exists (every time but the first trip's slots 0 and 1), and the gather of chunk 5 t + b + 3 is
  started when that chunk exists (every time but the last trip's slots 2, 3, 4).
-/
import proofs.«206480_g70196945486151_cont_9to1_m_271_23_alg».proof.Proof.SetupIdeal

namespace Cert.Proof.KernelIdealSide

open Cert.KernelIdeal Cert.KernelIdeal.Gen
open Idealize.ShloMosaic

theorem trips1 : k0_t1_loop.trips = 20 := by decide +kernel
theorem trips2 : k0_t2_loop.trips = 20 := by decide +kernel

theorem cond1_iff : ∀ t : Fin k0_t1_loop.trips, k0_cond1 t = 1#1 ↔ t.val ≠ 0 := by decide +kernel
theorem cond3_iff : ∀ t : Fin k0_t1_loop.trips, k0_cond3 t = 1#1 ↔ t.val ≠ 0 := by decide +kernel
theorem cond5_all : ∀ t : Fin k0_t1_loop.trips, k0_cond5 t = 1#1 := by decide +kernel
theorem cond7_all : ∀ t : Fin k0_t1_loop.trips, k0_cond7 t = 1#1 := by decide +kernel
theorem cond9_all : ∀ t : Fin k0_t1_loop.trips, k0_cond9 t = 1#1 := by decide +kernel
theorem cond2_all : ∀ t : Fin k0_t1_loop.trips, k0_cond2 t = 1#1 := by decide +kernel
theorem cond4_all : ∀ t : Fin k0_t1_loop.trips, k0_cond4 t = 1#1 := by decide +kernel
theorem cond6_iff : ∀ t : Fin k0_t1_loop.trips, k0_cond6 t = 1#1 ↔ t.val ≠ 19 := by decide +kernel
theorem cond8_iff : ∀ t : Fin k0_t1_loop.trips, k0_cond8 t = 1#1 ↔ t.val ≠ 19 := by decide +kernel
theorem cond10_iff : ∀ t : Fin k0_t1_loop.trips, k0_cond10 t = 1#1 ↔ t.val ≠ 19 := by decide +kernel

theorem cond11_iff : ∀ t : Fin k0_t2_loop.trips, k0_cond11 t = 1#1 ↔ t.val ≠ 0 := by decide +kernel
theorem cond13_iff : ∀ t : Fin k0_t2_loop.trips, k0_cond13 t = 1#1 ↔ t.val ≠ 0 := by decide +kernel
theorem cond15_all : ∀ t : Fin k0_t2_loop.trips, k0_cond15 t = 1#1 := by decide +kernel
theorem cond17_all : ∀ t : Fin k0_t2_loop.trips, k0_cond17 t = 1#1 := by decide +kernel
theorem cond19_all : ∀ t : Fin k0_t2_loop.trips, k0_cond19 t = 1#1 := by decide +kernel
theorem cond12_all : ∀ t : Fin k0_t2_loop.trips, k0_cond12 t = 1#1 := by decide +kernel
theorem cond14_all : ∀ t : Fin k0_t2_loop.trips, k0_cond14 t = 1#1 := by decide +kernel
theorem cond16_iff : ∀ t : Fin k0_t2_loop.trips, k0_cond16 t = 1#1 ↔ t.val ≠ 19 := by decide +kernel
theorem cond18_iff : ∀ t : Fin k0_t2_loop.trips, k0_cond18 t = 1#1 ↔ t.val ≠ 19 := by decide +kernel
theorem cond20_iff : ∀ t : Fin k0_t2_loop.trips, k0_cond20 t = 1#1 ↔ t.val ≠ 19 := by decide +kernel

end Cert.Proof.KernelIdealSide
-- ==== Proof.BigSepNat.lean ====
/-
  Bookkeeping for an iterated separating conjunction over a run of natural numbers: the first number of a run set
  apart, a run from zero grown at its end, and a run of 5·n numbers regrouped as n groups of five consecutive ones.
  All equalities: separating conjunction is commutative and associative with unit, up to equality, in this model.
-/
import Idealize.SL.ProofMode.BigOp
import Mathlib.Order.Interval.Finset.Nat

namespace Cert.Proof.Geom

open Idealize.SL
open Idealize.SL.BI (sProp bigSep bigSep_insert bigSep_empty)
open scoped Idealize.SL.BI
open Idealize.SL.BI.BIBase Idealize.SL.BI.Laws Idealize.SL.ProofMode
open Idealize.SL.RA

universe u

variable {M : Type u} [URA M]

/-- Separating conjunction commutes … -/
theorem sep_comm_eq (a b : sProp M) : BI.sep a b = BI.sep b a :=
  Std.Commutative.comm (op := (fun a b : sProp M => BI.sep a b)) a b

/-- … and associates, as equalities. -/
theorem sep_assoc_eq (a b c : sProp M) : BI.sep (BI.sep a b) c = BI.sep a (BI.sep b c) :=
  Std.Associative.assoc (op := (fun a b : sProp M => BI.sep a b)) a b c

theorem Ico_eq_insert {a b : ℕ} (h : a < b) : Finset.Ico a b = insert a (Finset.Ico (a + 1) b) := by
  ext x; simp only [Finset.mem_Ico, Finset.mem_insert]; omega

variable (Φ : ℕ → sProp M)

/-- A run grown at its end, the new number last. -/
theorem range_succ_raw (n : ℕ) : bigSep (Finset.range (n + 1)) Φ = BI.sep (bigSep (Finset.range n) Φ) (Φ n) := by
  rw [Finset.range_add_one, bigSep_insert Finset.notMem_range_self, sep_comm_eq]

/-- A run grown at its end by five numbers. -/
theorem range_add5_raw (k : ℕ) :
    bigSep (Finset.range (k + 5)) Φ
      = BI.sep (bigSep (Finset.range k) Φ)
          (BI.sep (Φ k) (BI.sep (Φ (k + 1)) (BI.sep (Φ (k + 2)) (BI.sep (Φ (k + 3)) (Φ (k + 4)))))) := by
  show bigSep (Finset.range (k + 4 + 1)) Φ = _
  rw [range_succ_raw Φ (k + 4), range_succ_raw Φ (k + 3), range_succ_raw Φ (k + 2), range_succ_raw Φ (k + 1),
    range_succ_raw Φ k]
  simp only [sep_assoc_eq]

/-- A run of 5·n numbers is n groups of five consecutive ones. -/
theorem range_mul5_raw : ∀ n : ℕ, bigSep (Finset.range (5 * n)) Φ
    = bigSep (Finset.range n) (fun t => BI.sep (Φ (5 * t)) (BI.sep (Φ (5 * t + 1)) (BI.sep (Φ (5 * t + 2))
        (BI.sep (Φ (5 * t + 3)) (Φ (5 * t + 4))))))
  | 0 => rfl
  | n + 1 => by
    rw [Nat.mul_succ, range_add5_raw Φ (5 * n), range_succ_raw _ n, range_mul5_raw n]

variable {Φ}

/-- The first number of a run set apart. -/
theorem bigSep_Ico_head {a b : ℕ} (h : a < b) :
    bigSep (Finset.Ico a b) Φ = iprop(Φ a ∗ bigSep (Finset.Ico (a + 1) b) Φ) := by
  rw [Ico_eq_insert h, bigSep_insert (by simp)]; rfl

/-- A run from zero grown at its end, the new number last. -/
theorem bigSep_range_succ' (n : ℕ) :
    bigSep (Finset.range (n + 1)) Φ = iprop(bigSep (Finset.range n) Φ ∗ Φ n) := by
  rw [range_succ_raw]; rfl

/-- A run of 5·n numbers regrouped as n groups of five. -/
theorem bigSep_range_mul5 (n : ℕ) :
    bigSep (Finset.range (5 * n)) Φ
      = bigSep (Finset.range n) (fun t => iprop(Φ (5 * t) ∗ Φ (5 * t + 1) ∗ Φ (5 * t + 2) ∗ Φ (5 * t + 3) ∗ Φ (5 * t + 4))) := by
  rw [range_mul5_raw]; rfl

/-- A run from zero, written as an interval. -/
theorem bigSep_Ico_zero (n : ℕ) : bigSep (Finset.Ico 0 n) Φ = bigSep (Finset.range n) Φ := by
  rw [Finset.range_eq_Ico]

end Cert.Proof.Geom
-- ==== Proof.RingInv0Ideal.lean ====
/-
  The ring's invariant for the first table. Before trip t of the loop (t = 0 … 20; chunks 5 t … 5 t + 4 are the trip's):
  the gathers of chunks 5 t, 5 t + 1, 5 t + 2 are in flight into slots 0, 1, 2; the copies out of chunks 5 t − 2, 5 t − 1 are in
  flight from slots 3, 4; every earlier chunk's piece of the result holds the lookup; every later chunk's piece is untouched.
  A gather's flight carries its slot, and the slot's read shares of the list and of the table; a copy-out's flight carries
  the piece of the result, already at the lookup, and its slot.
-/
import proofs.«206480_g70196945486151_cont_9to1_m_271_23_alg».proof.Proof.RingSpecIdeal
import proofs.«206480_g70196945486151_cont_9to1_m_271_23_alg».proof.Proof.CondsIdeal
import proofs.«206480_g70196945486151_cont_9to1_m_271_23_alg».proof.Proof.BigSepNat

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

/-- The lookup into the first table, as contents of the first result. -/
abbrev G0 : Buf (Elt F) (o0Loc d) := takeT (m (t0Loc d)) X

/-- A gather of chunk `c` in flight into slot `bV` on cell `gs`: at its wait it hands back the slot holding the chunk's rows,
    and the slot's read shares of the list and of the table. -/
def GFl0 (bV : Memref sig .scVector .vmem S64x128 .f32) (gs : DmaSem sig) (s : Fin 5) (c : ℕ) : sProp (𝕄 F) :=
  iprop(∃ g : Buf (Elt F) (bV.view.loc (TH d L)), ⌜bV.view.read (Elt F) g = GP (m (t0Loc d)) X (wL L) c⌝ ∗
    Transfers.Flight countersEmb (TH d L) (.dma gs) (default : HIx 1) 262144
      iprop(((bV.view.loc (TH d L) ↦[bV.view.set]{fullShare} g) ∗ ((lV).view.loc (TH d L) ↦{lq s} LC))
        ∗ ((t0V).view.loc (TH d L) ↦{tq s} m (t0Loc d))))

/-- A copy-out of chunk `c` in flight from slot `bV` on cell `ss`: at its wait it hands back the chunk's piece of the
    result holding the lookup, and the slot. -/
def SFl0 (bV : Memref sig .scVector .vmem S64x128 .f32) (ss : DmaSem sig) (c : ℕ) : sProp (𝕄 F) :=
  iprop(∃ g : Buf (Elt F) (bV.view.loc (TH d L)),
    Transfers.Flight countersEmb (TH d L) (.dma ss) (default : HIx 1) 262144
      iprop(((o0V).view.loc (TH d L) ↦[opc (wL L) c]{fullShare} G0 m d X) ∗ (bV.view.loc (TH d L) ↦[bV.view.set]{fullShare} g)))

/-- Chunk `c`'s piece untouched, and holding the lookup. -/
def Pc0 (c : ℕ) : sProp (𝕄 F) := (o0V).view.loc (TH d L) ↦[opc (wL L) c]{fullShare} fo
def Dc0 (c : ℕ) : sProp (𝕄 F) := (o0V).view.loc (TH d L) ↦[opc (wL L) c]{fullShare} G0 m d X
/-- A trip's five pieces. -/
def PT0 (t : ℕ) : sProp (𝕄 F) :=
  iprop(Pc0 d L fo (5 * t) ∗ Pc0 d L fo (5 * t + 1) ∗ Pc0 d L fo (5 * t + 2) ∗ Pc0 d L fo (5 * t + 3) ∗ Pc0 d L fo (5 * t + 4))
def DT0 (t : ℕ) : sProp (𝕄 F) :=
  iprop(Dc0 m d L X (5 * t) ∗ Dc0 m d L X (5 * t + 1) ∗ Dc0 m d L X (5 * t + 2) ∗ Dc0 m d L X (5 * t + 3) ∗ Dc0 m d L X (5 * t + 4))

/-- A slot's gather side at rest: its cell at zero and its read shares of the list and of the table. -/
def IdleG0 (gs : DmaSem sig) (s : Fin 5) : sProp (𝕄 F) :=
  iprop(semVal (TH d L, .dma gs) 0 ∗ ((lV).view.loc (TH d L) ↦{lq s} LC) ∗ ((t0V).view.loc (TH d L) ↦{tq s} m (t0Loc d)))
/-- A slot at rest, at some contents. -/
def IdleB (bV : Memref sig .scVector .vmem S64x128 .f32) : sProp (𝕄 F) :=
  iprop(∃ g : Buf (Elt F) (bV.view.loc (TH d L)), bV.view.loc (TH d L) ↦[bV.view.set]{fullShare} g)
/-- What the tile owes, and the waits it has made. -/
def Owes : sProp (𝕄 F) := iprop(∃ W', ⌜∀ p ∈ W', p ∈ W ∨ p.2 = none⌝ ∗ owes (TH d L) O W')

/-- Before a trip 1 ≤ t ≤ 19. -/
def InvMid0 (t : ℕ) : sProp (𝕄 F) :=
  iprop(GFl0 m d L X LC lq tq b0V cc0_scratch6.sem 0 (5 * t) ∗ GFl0 m d L X LC lq tq b1V cc0_scratch7.sem 1 (5 * t + 1)
    ∗ GFl0 m d L X LC lq tq b2V cc0_scratch8.sem 2 (5 * t + 2)
    ∗ SFl0 m d L X b3V cc0_scratch14.sem (5 * t - 2) ∗ SFl0 m d L X b4V cc0_scratch15.sem (5 * t - 1)
    ∗ IdleG0 m d L LC lq tq cc0_scratch9.sem 3 ∗ IdleG0 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico t 20) (PT0 d L fo) ∗ bigSep (Finset.range (t - 1)) (DT0 m d L X)
    ∗ Dc0 m d L X (5 * t - 5) ∗ Dc0 m d L X (5 * t - 4) ∗ Dc0 m d L X (5 * t - 3)
    ∗ Owes d L O W)

/-- Before the first trip: nothing copied out yet, slots 3 and 4 at rest. -/
def Inv00 : sProp (𝕄 F) :=
  iprop(GFl0 m d L X LC lq tq b0V cc0_scratch6.sem 0 0 ∗ GFl0 m d L X LC lq tq b1V cc0_scratch7.sem 1 1
    ∗ GFl0 m d L X LC lq tq b2V cc0_scratch8.sem 2 2
    ∗ IdleB d L b3V ∗ IdleB d L b4V ∗ semVal (TH d L, .dma cc0_scratch14.sem) 0 ∗ semVal (TH d L, .dma cc0_scratch15.sem) 0
    ∗ IdleG0 m d L LC lq tq cc0_scratch9.sem 3 ∗ IdleG0 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico 0 20) (PT0 d L fo)
    ∗ Owes d L O W)

/-- After the last trip: every gather done, the copies out of chunks 98 and 99 in flight. -/
def InvEnd0 : sProp (𝕄 F) :=
  iprop(SFl0 m d L X b3V cc0_scratch14.sem 98 ∗ SFl0 m d L X b4V cc0_scratch15.sem 99
    ∗ IdleB d L b0V ∗ IdleB d L b1V ∗ IdleB d L b2V
    ∗ IdleG0 m d L LC lq tq cc0_scratch6.sem 0 ∗ IdleG0 m d L LC lq tq cc0_scratch7.sem 1 ∗ IdleG0 m d L LC lq tq cc0_scratch8.sem 2
    ∗ IdleG0 m d L LC lq tq cc0_scratch9.sem 3 ∗ IdleG0 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.range 19) (DT0 m d L X)
    ∗ Dc0 m d L X 95 ∗ Dc0 m d L X 96 ∗ Dc0 m d L X 97
    ∗ Owes d L O W)

/-- The loop's invariant. -/
def inv0 (k : ℕ) : sProp (𝕄 F) :=
  iprop(levAts (K (F := F)).L (K (F := F)).lev ∗
    (if k = 0 then Inv00 m d L X LC lq tq fo O W else if k = 20 then InvEnd0 m d L X LC lq tq O W else InvMid0 m d L X LC lq tq fo O W k))

end

end Cert.Proof.KernelIdealSide

end
-- ==== Proof.RingBand0Ideal.lean ====
/-
  The first table's arrays as the tile's task names them, its band of the result cut into the hundred pieces the ring moves (grouped
  by trips, as the loop's invariant holds them), and what the task holds between the two tables.
-/
import proofs.«206480_g70196945486151_cont_9to1_m_271_23_alg».proof.Proof.RingAuxIdeal
import proofs.«206480_g70196945486151_cont_9to1_m_271_23_alg».proof.Proof.RingInv0Ideal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

/-! ## The first table's arrays in the launch's spelling and in the task's -/

theorem pts_t0 (d : Dev nD) (L : grid0.Coords) (q : PosShare TreeShare) (f : Buf (Elt F) (t0Loc d)) :
    ((t0V).view.loc (TH d L) ↦{q} f : sProp (𝕄 F)) = t0Loc d ↦{q} f := rfl
theorem pts_i0 (d : Dev nD) (L : grid0.Coords) (q : PosShare TreeShare) (f : Buf (Elt F) (i0Loc d)) :
    ((i0V).view.loc (TH d L) ↦{q} f : sProp (𝕄 F)) = i0Loc d ↦{q} f := rfl
theorem pts_o0 (d : Dev nD) (L : grid0.Coords) (S : Finset S50x4096x128.Idx) (f : Buf (Elt F) (o0Loc d)) :
    ((o0V).view.loc (TH d L) ↦[S]{fullShare} f : sProp (𝕄 F)) = o0Loc d ↦[S]{fullShare} f := rfl

/-- The list after the copy of the tile's columns of the transposed row numbers. -/
abbrev LC0 (d : Dev nD) (L : grid0.Coords) (X : Buf (Elt F) (i0Loc d)) (fl : Buf (Elt F) ((TH d L).loc cc0_scratch0)) : Buf (Elt F) ((TH d L).loc cc0_scratch0) :=
  View.write (Elt F) lV.view fl
    (ReadAs.same.apply ((i0V.slice (Rect.unit (s := S50x4096) (k0_off1 L) S50x128.size (k0_off1_inb L)) (fun _ => rfl)).view.read (Elt F) X)) Finset.univ

/-! ## The band cut into its hundred pieces, by trips -/

theorem band_cut0 (d : Dev nD) (L : grid0.Coords) (f : Buf (Elt F) (o0Loc d)) :
    ((o0V).view.loc (TH d L) ↦[oBandSet (wL L)]{fullShare} f : sProp (𝕄 F))
      = bigSep (Finset.range 20) fun t => iprop(((o0V).view.loc (TH d L) ↦[opc (wL L) (5 * t)]{fullShare} f)
          ∗ ((o0V).view.loc (TH d L) ↦[opc (wL L) (5 * t + 1)]{fullShare} f) ∗ ((o0V).view.loc (TH d L) ↦[opc (wL L) (5 * t + 2)]{fullShare} f)
          ∗ ((o0V).view.loc (TH d L) ↦[opc (wL L) (5 * t + 3)]{fullShare} f) ∗ ((o0V).view.loc (TH d L) ↦[opc (wL L) (5 * t + 4)]{fullShare} f)) := by
  rw [← Geom.bigSep_range_mul5 (Φ := fun c => ((o0V).view.loc (TH d L) ↦[opc (wL L) c]{fullShare} f : sProp (𝕄 F))) 20,
    ← pointsTo_biUnion (Finset.range (5 * 20)) (ℓ := (o0V).view.loc (TH d L)) (opc (wL L)) (Geom.opiece_disjoint (wL L))]
  exact congrArg (fun S => ((o0V).view.loc (TH d L) ↦[S]{fullShare} f : sProp (𝕄 F))) (Geom.opiece_cover (wL L)).symm

theorem band_pieces0 (d : Dev nD) (L : grid0.Coords) (fo : Buf (Elt F) (o0Loc d)) :
    ((o0V).view.loc (TH d L) ↦[oBandSet (wL L)]{fullShare} fo : sProp (𝕄 F)) = bigSep (Finset.Ico 0 20) (PT0 d L fo) := by
  rw [band_cut0, Geom.bigSep_Ico_zero]; rfl
theorem band_done0 (m : (ℓ : Loc nD τ sig) → Buf (Elt F) ℓ) (d : Dev nD) (L : grid0.Coords) (X : Buf (Elt F) (i0Loc d)) :
    ((o0V).view.loc (TH d L) ↦[oBandSet (wL L)]{fullShare} G0 m d X : sProp (𝕄 F)) = bigSep (Finset.range 20) (DT0 m d L X) := by
  rw [band_cut0]; rfl

/-! ## After the loop and the wait for chunk 98

The table's and the row numbers' shares are back, the list is whole, slots 0 … 3 are at rest, chunk 99's copy-out is still in flight
from slot 4, every cell but its own is at zero (`rs` is the cell the copy of the row numbers used), ninety-nine pieces hold the lookup. -/
def MidT0 (m : (ℓ : Loc nD τ sig) → Buf (Elt F) ℓ) (d : Dev nD) (L : grid0.Coords) (X : Buf (Elt F) (i0Loc d)) (q0 qi0 : PosShare TreeShare)
    (rs : DmaSem sig) (O : CellTallies nD τ sig (HIx 1)) (W : Waits sig (HIx 1)) : sProp (𝕄 F) :=
  iprop(∃ LC : Buf (Elt F) ((TH d L).loc cc0_scratch0),
    (t0Loc d ↦{q0} m (t0Loc d)) ∗ (i0Loc d ↦{qi0} X) ∗ ((TH d L).loc cc0_scratch0 ↦{fullShare} LC)
    ∗ IdleB d L b0V ∗ IdleB d L b1V ∗ IdleB d L b2V ∗ IdleB d L b3V
    ∗ SFl0 m d L X b4V cc0_scratch15.sem 99
    ∗ semVal (TH d L, .dma cc0_scratch6.sem) 0 ∗ semVal (TH d L, .dma cc0_scratch7.sem) 0 ∗ semVal (TH d L, .dma cc0_scratch8.sem) 0
    ∗ semVal (TH d L, .dma cc0_scratch9.sem) 0 ∗ semVal (TH d L, .dma cc0_scratch10.sem) 0
    ∗ semVal (TH d L, .dma cc0_scratch11.sem) 0 ∗ semVal (TH d L, .dma cc0_scratch12.sem) 0 ∗ semVal (TH d L, .dma cc0_scratch13.sem) 0
    ∗ semVal (TH d L, .dma cc0_scratch14.sem) 0
    ∗ semVal (TH d L, .dma rs) 0
    ∗ bigSep (Finset.range 19) (DT0 m d L X) ∗ Dc0 m d L X 95 ∗ Dc0 m d L X 96 ∗ Dc0 m d L X 97 ∗ Dc0 m d L X 98
    ∗ Owes d L O W)

end Cert.Proof.KernelIdealSide

end
-- ==== Proof.RingVal0Ideal.lean ====
/-
  The values the ring moves, first table. The printed offset chains of the first loop in closed form: slot b of trip t
  handles chunk 5 t + b, whose window of the list starts at row c / 2, position (c mod 2) · 64, and whose piece of the result
  starts at row c / 2, position 128 w + (c mod 2) · 64. The list, once the tile's 128 columns of the transposed row numbers
  are copied into it, reads through chunk c's window the row numbers at positions 128 w + (c mod 2) · 64 … of row c / 2, all
  in range; a gather through that window delivers, at (y₀, y₁), entry y₁ of the table's row named at position y₀ of the
  window; and the piece of the result the program addresses for chunk c is the piece the cut names, holding the lookup
  once the chunk's rows are written to it. Index arithmetic throughout: a window's index is the offset plus the
  coordinate, a squeezed window's index is the coordinate behind a leading 0.
-/
import proofs.«206480_g70196945486151_cont_9to1_m_271_23_alg».proof.Proof.RingSpecIdeal
import proofs.«206480_g70196945486151_cont_9to1_m_271_23_alg».proof.Proof.CondsIdeal

noncomputable section

namespace Cert.Proof.KernelIdealSide

open Cert.KernelIdeal Cert.KernelIdeal.Gen
open Idealize.ShloMosaic
open Idealize.ShloMosaic.SparseCore (S V T)
open Cert.Proof.Geom (lOff oOff lOff_inb oOff_inb)

variable {F : FTy → Type}

/-! ## The printed offsets in closed form (first loop) -/

theorem off3_eq : ∀ t : Fin k0_t1_loop.trips, k0_off3 t = lOff (5 * t.val + 3) := by decide +kernel
theorem off7_eq : ∀ t : Fin k0_t1_loop.trips, k0_off7 t = lOff (5 * t.val + 4) := by decide +kernel
theorem off9_eq : ∀ t : Fin k0_t1_loop.trips, t.val ≠ 19 → k0_off9 t = lOff (5 * t.val + 5) := by decide +kernel
theorem off11_eq : ∀ t : Fin k0_t1_loop.trips, t.val ≠ 19 → k0_off11 t = lOff (5 * t.val + 6) := by decide +kernel
theorem off13_eq : ∀ t : Fin k0_t1_loop.trips, t.val ≠ 19 → k0_off13 t = lOff (5 * t.val + 7) := by decide +kernel
theorem off5_eq (r : Fin 5) : ∀ (L : grid0.Coords) (t : Fin k0_t1_loop.trips), k0_off5 L t (BitVec.ofNat 32 r.val) = oOff (wL L) (5 * t.val + r.val) := by
  revert r; decide +kernel

/-- On the indexed axis 0 a gather's source index is the row the list names. -/
theorem gidx0 {s t : Shape} (hg : s.Gathers 0 t) (R : Fin (t.size hg.axis') → Fin (s.size hg.axis)) (y : t.Idx)
    (h0 : 0 < s.rank) : (hg.idx R y ⟨0, h0⟩).val = (R (y hg.axis')).val :=
  congrArg Fin.val (Shape.Gathers.idx_axis hg R y)

section

variable (m : (ℓ : Loc nD τ sig) → Buf (Elt F) ℓ) (d : Dev nD) (L : grid0.Coords)
variable (X : Buf (Elt F) (i0Loc d)) (LC : Buf (Elt F) ((TH d L).loc cc0_scratch0))

/-- The list holds the tile's columns of the transposed row numbers: chunk `c`'s window reads positions
    128 w + (c % 2) · 64 … of row c / 2. -/
def ListOK0 : Prop :=
  ∀ (c : ℕ) (_ : c < 100) (off : Fin 2 → ℕ) (_ : off = lOff c) (h : ∀ a, off a + S1x64.size a ≤ S50x128.size a)
    (h' : ∀ a, (Rect.unit (s := S50x128) off S1x64.size h).stride a = 1) (x : S64.Idx),
    View.read (Elt F) ((lV.slice (Rect.unit (s := S50x128) off S1x64.size h) h').squeeze S64 squeezes_S1x64_S64).view LC x
      = X (ixI (c / 2) (128 * (wL L).val + (c % 2) * 64 + (x 0).val))

/-- Every window of the list reads row numbers in range. -/
def ListIn : Prop :=
  ∀ (off : Fin 2 → ℕ) (h : ∀ a, off a + S1x64.size a ≤ S50x128.size a) (h' : ∀ a, (Rect.unit (s := S50x128) off S1x64.size h).stride a = 1) (x : S64.Idx),
    (View.read (Elt F) ((lV.slice (Rect.unit (s := S50x128) off S1x64.size h) h').squeeze S64 squeezes_S1x64_S64).view LC x).toNat < 100000

/-- After the copy of the tile's columns into the list (whatever it held before). -/
theorem listOK_of_copy (fl : Buf (Elt F) ((TH d L).loc cc0_scratch0)) :
    ListOK0 d L X (View.write (Elt F) lV.view fl
      (ReadAs.same.apply ((i0V.slice (Rect.unit (s := S50x4096) (k0_off1 L) S50x128.size (k0_off1_inb L)) (fun _ => rfl)).view.read (Elt F) X)) Finset.univ) := by
  intro c hc off hoff h h' x
  subst hoff
  rw [View.write_whole_univ]
  rw [View.read_apply, cast_eq, ReadAs.apply_same, View.read_apply, cast_eq]
  congr 1
  funext a
  refine Fin.ext ?_
  simp only [Memref.view_squeeze, Memref.view_slice, Memref.view_whole, View.emb_reshape, View.emb_slice, View.emb_whole,
    Function.Embedding.trans_apply, Function.Embedding.refl_apply, Equiv.coe_toEmbedding, Rect.emb_apply, Rect.off_unit, Rect.stride_unit]
  rw [Shape.reshapeEquiv_cons_one]
  have hw : (wL L).val = 16 * (L 0).val + (L 1).val := rfl
  have hL0 : (L 0).val < 2 := (L 0).isLt
  have hL1 : (L 1).val < 16 := (L 1).isLt
  have hx : (x 0).val < 64 := (x 0).isLt
  match a with
  | ⟨0, _⟩ =>
    show k0_off1 L 0 + 1 * (lOff c 0 + 1 * 0) = (c / 2) % 50
    rw [k0_off1_eq L]
    show 0 + 1 * (c / 2 + 1 * 0) = (c / 2) % 50
    omega
  | ⟨1, _⟩ =>
    show k0_off1 L 1 + 1 * (lOff c 1 + 1 * (x 0).val) = (128 * (wL L).val + c % 2 * 64 + (x 0).val) % 4096
    rw [k0_off1_eq L, hw]
    show 2048 * (L 0).val + 128 * (L 1).val + 1 * (c % 2 * 64 + 1 * (x 0).val) = _
    omega

theorem listIn_of_copy (hX : ∀ j, (X j).toNat < 100000) (fl : Buf (Elt F) ((TH d L).loc cc0_scratch0)) :
    ListIn d L (View.write (Elt F) lV.view fl
      (ReadAs.same.apply ((i0V.slice (Rect.unit (s := S50x4096) (k0_off1 L) S50x128.size (k0_off1_inb L)) (fun _ => rfl)).view.read (Elt F) X)) Finset.univ) := by
  intro off h h' x
  rw [View.write_whole_univ, View.read_apply, cast_eq, ReadAs.apply_same, View.read_apply, cast_eq]
  exact hX _

/-- What a gather of chunk `c` delivers. -/
theorem gather_val (hL : ListOK0 d L X LC) (hX : ∀ j, (X j).toNat < 100000) (c : ℕ) (hc : c < 100) (off : Fin 2 → ℕ) (hoff : off = lOff c)
    (h : ∀ a, off a + S1x64.size a ≤ S50x128.size a) (h' : ∀ a, (Rect.unit (s := S50x128) off S1x64.size h).stride a = 1)
    (hn : S64.numel = S64x128.size gathers_S100000x128_S64x128.axis')
    (hin : ∀ x, (View.read (Elt F) ((lV.slice (Rect.unit (s := S50x128) off S1x64.size h) h').squeeze S64 squeezes_S1x64_S64).view LC x).toNat
      < S100000x128.size gathers_S100000x128_S64x128.axis) :
    SparseCore.gatherPayload gathers_S100000x128_S64x128
        ((t0V.slice (Rect.unit (s := S100000x128) ![0, 0] S100000x128.size inb_S100000x128_S100000x128_0_0) (fun _ => rfl)).view.read (Elt F) (m (t0Loc d)))
        (SparseCore.rows (View.read (Elt F) ((lV.slice (Rect.unit (s := S50x128) off S1x64.size h) h').squeeze S64 squeezes_S1x64_S64).view LC) hn hin)
      = GP (m (t0Loc d)) X (wL L) c := by
  subst hoff
  funext y
  have hx0 : ((S64.rowMajor.symm ((y gathers_S100000x128_S64x128.axis').cast hn.symm)) 0).val = (y 0).val :=
    (Shape.rowMajor_val_one _).symm.trans (congrArg Fin.val (Equiv.apply_symm_apply _ _))
  have hrow := hL c hc (lOff c) rfl h h' (S64.rowMajor.symm ((y gathers_S100000x128_S64x128.axis').cast hn.symm))
  unfold SparseCore.gatherPayload GP
  rw [View.read_apply, cast_eq]
  congr 1
  funext a
  refine Fin.ext ?_
  simp only [Memref.view_slice, Memref.view_whole, View.emb_slice, View.emb_whole,
    Function.Embedding.trans_apply, Function.Embedding.refl_apply, Rect.emb_apply, Rect.off_unit, Rect.stride_unit]
  simp only [Memref.view_squeeze, Memref.view_slice, Memref.view_whole] at hrow
  match a with
  | ⟨0, _⟩ =>
    show 0 + 1 * (gathers_S100000x128_S64x128.idx _ y ⟨0, _⟩).val = (Cert.Lookup.rowOf _).val
    rw [gidx0]
    unfold SparseCore.rows
    dsimp only
    rw [hrow, hx0, Cert.Lookup.rowOf_val (hX _)]
    omega
  | ⟨1, _⟩ =>
    show 0 + 1 * (y 1).val = (y 1).val
    omega

/-- Chunk `c`'s piece of the result, as the program addresses it, is the piece the cut names. -/
theorem piece_set (c : ℕ) (hc : c < 100) (off : Fin 3 → ℕ) (hoff : off = oOff (wL L) c) (h : ∀ a, off a + S1x64x128.size a ≤ S50x4096x128.size a) :
    ((o0V.slice (Rect.unit (s := S50x4096x128) off S1x64x128.size h) (fun _ => rfl)).squeeze S64x128 squeezes_S1x64x128_S64x128).view.set = opc (wL L) c := by
  subst hoff
  unfold opc Cert.Proof.Geom.opiece
  rw [dif_pos hc]
  simp only [Memref.view_squeeze, Memref.view_slice, Memref.view_whole, View.set_reshape, View.set_slice_whole]

/-- The piece written with the chunk's rows holds the lookup. -/
theorem piece_val (c : ℕ) (hc : c < 100) (off : Fin 3 → ℕ) (hoff : off = oOff (wL L) c) (h : ∀ a, off a + S1x64x128.size a ≤ S50x4096x128.size a)
    (fo : Buf (Elt F) (o0Loc d)) (p : S64x128.Idx → Elt F .f32) (hp : p = GP (m (t0Loc d)) X (wL L) c) :
    ∀ i ∈ opc (wL L) c,
      (((o0V.slice (Rect.unit (s := S50x4096x128) off S1x64x128.size h) (fun _ => rfl)).squeeze S64x128 squeezes_S1x64x128_S64x128).view.writes (Elt F) fo
        [⟨Rect.whole S64x128, p⟩] : Buf (Elt F) (o0Loc d)) i = (takeT (m (t0Loc d)) X : Buf (Elt F) (o0Loc d)) i := by
  subst hoff hp
  intro i hi
  rw [← piece_set L c hc _ rfl h] at hi
  obtain ⟨y, -, rfl⟩ := Finset.mem_map.mp hi
  have hr := congrFun (View.read_writes_whole
    ((o0V.slice (Rect.unit (s := S50x4096x128) (oOff (wL L) c) S1x64x128.size h) (fun _ => rfl)).squeeze S64x128 squeezes_S1x64x128_S64x128).view
    fo (GP (m (t0Loc d)) X (wL L) c)) y
  rw [View.read_apply, cast_eq] at hr
  rw [hr]
  obtain ⟨E, hE⟩ : ∃ E : S50x4096x128.Idx,
      E = (Rect.unit (s := S50x4096x128) (oOff (wL L) c) S1x64x128.size h).emb (Fin.cons ⟨0, Nat.one_pos⟩ y) := ⟨_, rfl⟩
  have key : ((o0V.slice (Rect.unit (s := S50x4096x128) (oOff (wL L) c) S1x64x128.size h) (fun _ => rfl)).squeeze S64x128
      squeezes_S1x64x128_S64x128).view.emb y = E := by
    rw [hE]
    show (Rect.unit (s := S50x4096x128) (oOff (wL L) c) S1x64x128.size h).emb (Shape.reshapeEquiv _ y) = _
    rw [Shape.reshapeEquiv_cons_one]
  have e0 : (E 0).val = c / 2 + 1 * 0 := by rw [hE]; rfl
  have e1 : (E 1).val = 128 * (wL L).val + c % 2 * 64 + 1 * (y 0).val := by rw [hE]; rfl
  have e2 : (E 2).val = 0 + 1 * (y 1).val := by rw [hE]; rfl
  have hw : (wL L).val < 32 := (wL L).isLt
  have hy0 : (y 0).val < 64 := (y 0).isLt
  have hA : ixI (c / 2) (128 * (wL L).val + c % 2 * 64 + (y 0).val) = ValueIdx.ix2 (E 0) (E 1) := by
    funext a
    match a with
    | ⟨0, _⟩ => exact Fin.ext (by show (c / 2) % 50 = (E 0).val; rw [e0]; omega)
    | ⟨1, _⟩ => exact Fin.ext (by show (128 * (wL L).val + c % 2 * 64 + (y 0).val) % 4096 = (E 1).val; rw [e1]; omega)
  have hB : E 2 = y 1 := Fin.ext (by rw [e2]; omega)
  rw [key]
  unfold GP takeT
  rw [hA, hB]
  rfl

end

end Cert.Proof.KernelIdealSide

end
-- ==== Proof.RingLem0Ideal.lean ====
/-
  How a flight the run has just issued is put in the invariant's form, first table: the rests of the shares it borrowed are
  framed into it and joined, the piece of the result it writes is restated at the lookup.
-/
import proofs.«206480_g70196945486151_cont_9to1_m_271_23_alg».proof.Proof.RingInv0Ideal
import proofs.«206480_g70196945486151_cont_9to1_m_271_23_alg».proof.Proof.RingVal0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d))

/-- The table's elements as a gather addresses them. -/
abbrev TSL0 : Finset S100000x128.Idx :=
  (t0V.slice (Rect.unit (s := S100000x128) ![0, 0] S100000x128.size inb_S100000x128_S100000x128_0_0) (fun _ => rfl)).view.set

/-- A gather just issued, with the rests of the two shares it borrowed from, is a gather in flight in the invariant's form. -/
theorem gfl_intro0 (bV : Memref sig .scVector .vmem S64x128 .f32) (gs : DmaSem sig) (s : Fin 5) (c : ℕ)
    (g : Buf (Elt F) (bV.view.loc (TH d L))) (hg : bV.view.read (Elt F) g = GP (m (t0Loc d)) X (wL L) c)
    (WIN : Finset S50x128.Idx) :
    (iprop(Transfers.Flight countersEmb (TH d L) (.dma gs) (default : HIx 1) 262144
        iprop(((bV.view.loc (TH d L) ↦[bV.view.set]{fullShare} g) ∗ ((lV).view.loc (TH d L) ↦[WIN]{lq s} LC))
          ∗ ((t0V).view.loc (TH d L) ↦[TSL0]{tq s} m (t0Loc d)))
      ∗ ((t0V).view.loc (TH d L) ↦[Finset.univ \ TSL0]{tq s} m (t0Loc d))
      ∗ ((lV).view.loc (TH d L) ↦[Finset.univ \ WIN]{lq s} LC)) : sProp (𝕄 F))
    ⊢ GFl0 m d L X LC lq tq bV gs s c := by
  unfold GFl0
  iintro ⟨Hf, Ht, Hl⟩
  iexists g
  isplitr
  · ipureintro; exact hg
  ihave H := (Transfers.Flight_frame countersEmb (TH d L)
      (R := iprop(((t0V).view.loc (TH d L) ↦[Finset.univ \ TSL0]{tq s} m (t0Loc d)) ∗ ((lV).view.loc (TH d L) ↦[Finset.univ \ WIN]{lq s} LC)))) $$ [Hf Ht Hl]
  · isplitr [Hf]
    · isplitl [Ht] <;> iassumption
    · iexact Hf
  iapply (Transfers.Flight_mono countersEmb (TH d L) ?_) $$ H
  iintro ⟨⟨Ht, Hl⟩, ⟨Hb, Hlw⟩, Hts⟩
  isplitl [Hb Hlw Hl]
  · isplitl [Hb]; · iexact Hb
    iapply (pointsTo_split_subset (Finset.subset_univ WIN)).2
    isplitl [Hlw] <;> iassumption
  · iapply (pointsTo_split_subset (Finset.subset_univ TSL0)).2
    isplitl [Hts] <;> iassumption

/-- The memref the program copies chunk r of trip t out through (first loop). -/
abbrev oPc (L : grid0.Coords) (t : Fin k0_t1_loop.trips) (r : Fin 5) : Memref sig .scVector .hbm S64x128 .f32 :=
  (o0V.slice (Rect.unit (s := S50x4096x128) (k0_off5 L t (BitVec.ofNat 32 r.val)) S1x64x128.size (k0_off5_inb L t r)) (fun _ => rfl)).squeeze S64x128 squeezes_S1x64x128_S64x128

theorem chunk_lt (t : Fin k0_t1_loop.trips) (r : Fin 5) : 5 * t.val + r.val < 100 := by
  have h1 := t.isLt; have h20 : k0_t1_loop.trips = 20 := trips1; have h2 := r.isLt; omega

/-- That memref's elements are the chunk's piece. -/
theorem oPc_set (t : Fin k0_t1_loop.trips) (r : Fin 5) : (oPc L t r).view.set = opc (wL L) (5 * t.val + r.val) :=
  piece_set L (5 * t.val + r.val) (chunk_lt t r) _ (off5_eq r L t) _

/-- The piece untouched, as the program addresses it. -/
theorem pc_eq0 (t : Fin k0_t1_loop.trips) (r : Fin 5) :
    ((oPc L t r).view.loc (TH d L) ↦[(oPc L t r).view.set]{fullShare} fo : sProp (𝕄 F)) = Pc0 d L fo (5 * t.val + r.val) := by
  unfold Pc0; rw [oPc_set L t r]

/-- The piece written with the chunk's rows is the piece at the lookup. -/
theorem done_eq0 (t : Fin k0_t1_loop.trips) (r : Fin 5) (p : S64x128.Idx → Elt F .f32) (hp : p = GP (m (t0Loc d)) X (wL L) (5 * t.val + r.val)) :
    ((oPc L t r).view.loc (TH d L) ↦[(oPc L t r).view.set]{fullShare} (oPc L t r).view.writes (Elt F) fo [⟨Rect.whole S64x128, p⟩] : sProp (𝕄 F))
      = Dc0 m d L X (5 * t.val + r.val) := by
  unfold Dc0; rw [oPc_set L t r]
  exact pointsTo_congr (piece_val m d L X (5 * t.val + r.val) (chunk_lt t r) _ (off5_eq r L t) _ fo p hp)

/-- A copy-out just issued is a copy-out in flight in the invariant's form. -/
theorem sfl_intro0 (bV : Memref sig .scVector .vmem S64x128 .f32) (ss : DmaSem sig) (t : Fin k0_t1_loop.trips) (r : Fin 5)
    (g : Buf (Elt F) (bV.view.loc (TH d L))) (p : S64x128.Idx → Elt F .f32) (hp : p = GP (m (t0Loc d)) X (wL L) (5 * t.val + r.val)) :
    (Transfers.Flight countersEmb (TH d L) (.dma ss) (default : HIx 1) 262144
        iprop(((oPc L t r).view.loc (TH d L) ↦[(oPc L t r).view.set]{fullShare} (oPc L t r).view.writes (Elt F) fo [⟨Rect.whole S64x128, p⟩])
          ∗ (bV.view.loc (TH d L) ↦[bV.view.set]{fullShare} g)) : sProp (𝕄 F))
      ⊢ SFl0 m d L X bV ss (5 * t.val + r.val) := by
  unfold SFl0
  refine BIBase.Entails.trans (Transfers.Flight_mono countersEmb (TH d L) (D' := iprop(((o0V).view.loc (TH d L) ↦[opc (wL L) (5 * t.val + r.val)]{fullShare} G0 m d X) ∗ (bV.view.loc (TH d L) ↦[bV.view.set]{fullShare} g))) ?_) ?_
  · have e := done_eq0 m d L X fo t r p hp
    unfold Dc0 at e
    iintro ⟨Ho, Hb⟩
    isplitl [Ho]
    · iapply (Entails.of_eq e) $$ Ho
    · iexact Hb
  · iintro H
    iexists g
    iexact H

end

end Cert.Proof.KernelIdealSide

end
-- ==== Proof.RingClose0Ideal.lean ====
/-
  The end of a middle trip of the first loop: what the run holds after the trip's twenty transfer steps is the invariant
  at the next trip.
-/
import proofs.«206480_g70196945486151_cont_9to1_m_271_23_alg».proof.Proof.RingLem0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

/-- The tile's debts with a longer list of waits made, each on a cell of the kernels' own index. -/
theorem owes_intro (W'' : Waits sig (HIx 1)) (hW'' : ∀ p ∈ W'', p ∈ W ∨ p.2 = none) :
    (owes (TH d L) O W'' : sProp (𝕄 F)) ⊢ Owes d L O W := by
  unfold Owes
  iintro HO
  iexists W''
  isplitr
  · ipureintro; exact hW''
  · iexact HO

set_option maxHeartbeats 2000000 in
theorem close_mid0 (t : Fin k0_t1_loop.trips) (ht0 : t.val ≠ 0) (ht19 : t.val ≠ 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t0Loc d)) X (wL L) (5 * t.val + 5)) (hpg1 : pg1 = GP (m (t0Loc d)) X (wL L) (5 * t.val + 6))
    (hpg2 : pg2 = GP (m (t0Loc d)) X (wL L) (5 * t.val + 7))
    (hps0 : ps0 = GP (m (t0Loc d)) X (wL L) (5 * t.val + (0 : Fin 5).val)) (hps1 : ps1 = GP (m (t0Loc d)) X (wL L) (5 * t.val + (1 : Fin 5).val))
    (hps2 : ps2 = GP (m (t0Loc d)) X (wL L) (5 * t.val + (2 : Fin 5).val)) (hps3 : ps3 = GP (m (t0Loc d)) X (wL L) (5 * t.val + (3 : Fin 5).val))
    (hps4 : ps4 = GP (m (t0Loc d)) X (wL L) (5 * t.val + (4 : Fin 5).val))
    (WIN0 WIN1 WIN2 : Finset S50x128.Idx) :
    (iprop(((o0V).view.loc (TH d L) ↦[opc (wL L) (5 * t.val - 2)]{fullShare} G0 m d X) ∗ ((o0V).view.loc (TH d L) ↦[opc (wL L) (5 * t.val - 1)]{fullShare} G0 m d X)
      ∗ ((oPc L t 0).view.loc (TH d L) ↦[(oPc L t 0).view.set]{fullShare} (oPc L t 0).view.writes (Elt F) fo [⟨Rect.whole S64x128, ps0⟩])
      ∗ ((oPc L t 1).view.loc (TH d L) ↦[(oPc L t 1).view.set]{fullShare} (oPc L t 1).view.writes (Elt F) fo [⟨Rect.whole S64x128, ps1⟩])
      ∗ ((oPc L t 2).view.loc (TH d L) ↦[(oPc L t 2).view.set]{fullShare} (oPc L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t0V).view.loc (TH d L) ↦[TSL0]{tq 0} m (t0Loc d)))
      ∗ ((t0V).view.loc (TH d L) ↦[Finset.univ \ TSL0]{tq 0} m (t0Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t0V).view.loc (TH d L) ↦[TSL0]{tq 1} m (t0Loc d)))
      ∗ ((t0V).view.loc (TH d L) ↦[Finset.univ \ TSL0]{tq 1} m (t0Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t0V).view.loc (TH d L) ↦[TSL0]{tq 2} m (t0Loc d)))
      ∗ ((t0V).view.loc (TH d L) ↦[Finset.univ \ TSL0]{tq 2} m (t0Loc d)) ∗ ((lV).view.loc (TH d L) ↦[Finset.univ \ WIN2]{lq 2} LC)
      ∗ (semVal (TH d L, .dma cc0_scratch9.sem) 0 ∗ ((lV).view.loc (TH d L) ↦{lq 3} LC) ∗ ((t0V).view.loc (TH d L) ↦{tq 3} m (t0Loc d)))
      ∗ (semVal (TH d L, .dma cc0_scratch10.sem) 0 ∗ ((lV).view.loc (TH d L) ↦{lq 4} LC) ∗ ((t0V).view.loc (TH d L) ↦{tq 4} m (t0Loc d)))
      ∗ Transfers.Flight countersEmb (TH d L) (.dma cc0_scratch14.sem) (default : HIx 1) 262144
          iprop(((oPc L t 3).view.loc (TH d L) ↦[(oPc L t 3).view.set]{fullShare} (oPc L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc L t 4).view.loc (TH d L) ↦[(oPc L t 4).view.set]{fullShare} (oPc L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT0 d L fo) ∗ bigSep (Finset.range (t.val - 1)) (DT0 m d L X)
      ∗ ((o0V).view.loc (TH d L) ↦[opc (wL L) (5 * t.val - 5)]{fullShare} G0 m d X) ∗ ((o0V).view.loc (TH d L) ↦[opc (wL L) (5 * t.val - 4)]{fullShare} G0 m d X) ∗ ((o0V).view.loc (TH d L) ↦[opc (wL L) (5 * t.val - 3)]{fullShare} G0 m d X)
      ∗ Owes d L O W) : sProp (𝕄 F))
      ⊢ InvMid0 m d L X LC lq tq fo O W (t.val + 1) := by
  have ht1 : 1 ≤ t.val := Nat.one_le_iff_ne_zero.mpr ht0
  have eD : bigSep (Finset.range t.val) (DT0 m d L X) = iprop(bigSep (Finset.range (t.val - 1)) (DT0 m d L X) ∗ DT0 m d L X (t.val - 1)) := by
    have h := Geom.bigSep_range_succ' (Φ := DT0 m d L X) (t.val - 1)
    rwa [show t.val - 1 + 1 = t.val by omega] at h
  rw [InvMid0, IdleG0, IdleG0, show t.val + 1 - 1 = t.val by omega, eD, DT0,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc0
  have e0 := done_eq0 m d L X fo t 0 ps0 hps0
  have e1 := done_eq0 m d L X fo t 1 ps1 hps1
  have e2 := done_eq0 m d L X fo t 2 ps2 hps2
  unfold Dc0 at e0 e1 e2
  iintro ⟨HD2, HD1, HO0, HO1, HO2, HS0, HS1, HS2, HF0, HT0r, HL0r, HF1, HT1r, HL1r, HF2, HT2r, HL2r, HI3, HI4, HFS3, HFS4, HTodo, HDone, HD5, HD4, HD3, HO⟩
  isplitl [HF0 HT0r HL0r]
  · iapply (gfl_intro0 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro0 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro0 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro0 m d L X fo b3V cc0_scratch14.sem t 3 _ ps3 hps3) $$ HFS3
  isplitl [HFS4]
  · iapply (sfl_intro0 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelIdealSide

end
-- ==== Proof.RingCloseFirst0Ideal.lean ====
/-
  The end of the first trip of the first loop: what the run holds after the trip's transfer steps is the invariant at the
  second trip. Nothing was copied out before the first trip, so there is no earlier store to await and no earlier piece at
  the lookup: the finished trips' pieces are an iterated conjunction over the empty range, and the three loose pieces are
  the trip's own chunks 0, 1, 2.
-/
import proofs.«206480_g70196945486151_cont_9to1_m_271_23_alg».proof.Proof.RingClose0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

set_option maxHeartbeats 2000000 in
theorem close_first0 (t : Fin k0_t1_loop.trips) (ht : t.val = 0)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t0Loc d)) X (wL L) (5 * t.val + 5)) (hpg1 : pg1 = GP (m (t0Loc d)) X (wL L) (5 * t.val + 6))
    (hpg2 : pg2 = GP (m (t0Loc d)) X (wL L) (5 * t.val + 7))
    (hps0 : ps0 = GP (m (t0Loc d)) X (wL L) (5 * t.val + (0 : Fin 5).val)) (hps1 : ps1 = GP (m (t0Loc d)) X (wL L) (5 * t.val + (1 : Fin 5).val))
    (hps2 : ps2 = GP (m (t0Loc d)) X (wL L) (5 * t.val + (2 : Fin 5).val)) (hps3 : ps3 = GP (m (t0Loc d)) X (wL L) (5 * t.val + (3 : Fin 5).val))
    (hps4 : ps4 = GP (m (t0Loc d)) X (wL L) (5 * t.val + (4 : Fin 5).val))
    (WIN0 WIN1 WIN2 : Finset S50x128.Idx) :
    (iprop(((oPc L t 0).view.loc (TH d L) ↦[(oPc L t 0).view.set]{fullShare} (oPc L t 0).view.writes (Elt F) fo [⟨Rect.whole S64x128, ps0⟩])
      ∗ ((oPc L t 1).view.loc (TH d L) ↦[(oPc L t 1).view.set]{fullShare} (oPc L t 1).view.writes (Elt F) fo [⟨Rect.whole S64x128, ps1⟩])
      ∗ ((oPc L t 2).view.loc (TH d L) ↦[(oPc L t 2).view.set]{fullShare} (oPc L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t0V).view.loc (TH d L) ↦[TSL0]{tq 0} m (t0Loc d)))
      ∗ ((t0V).view.loc (TH d L) ↦[Finset.univ \ TSL0]{tq 0} m (t0Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t0V).view.loc (TH d L) ↦[TSL0]{tq 1} m (t0Loc d)))
      ∗ ((t0V).view.loc (TH d L) ↦[Finset.univ \ TSL0]{tq 1} m (t0Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t0V).view.loc (TH d L) ↦[TSL0]{tq 2} m (t0Loc d)))
      ∗ ((t0V).view.loc (TH d L) ↦[Finset.univ \ TSL0]{tq 2} m (t0Loc d)) ∗ ((lV).view.loc (TH d L) ↦[Finset.univ \ WIN2]{lq 2} LC)
      ∗ (semVal (TH d L, .dma cc0_scratch9.sem) 0 ∗ ((lV).view.loc (TH d L) ↦{lq 3} LC) ∗ ((t0V).view.loc (TH d L) ↦{tq 3} m (t0Loc d)))
      ∗ (semVal (TH d L, .dma cc0_scratch10.sem) 0 ∗ ((lV).view.loc (TH d L) ↦{lq 4} LC) ∗ ((t0V).view.loc (TH d L) ↦{tq 4} m (t0Loc d)))
      ∗ Transfers.Flight countersEmb (TH d L) (.dma cc0_scratch14.sem) (default : HIx 1) 262144
          iprop(((oPc L t 3).view.loc (TH d L) ↦[(oPc L t 3).view.set]{fullShare} (oPc L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc L t 4).view.loc (TH d L) ↦[(oPc L t 4).view.set]{fullShare} (oPc L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT0 d L fo)
      ∗ Owes d L O W) : sProp (𝕄 F))
      ⊢ InvMid0 m d L X LC lq tq fo O W (t.val + 1) := by
  have eD : bigSep (Finset.range t.val) (DT0 m d L X) = bigSep ∅ (DT0 m d L X) := by rw [ht, Finset.range_zero]
  rw [InvMid0, IdleG0, IdleG0, show t.val + 1 - 1 = t.val by omega, eD,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc0
  have e0 := done_eq0 m d L X fo t 0 ps0 hps0
  have e1 := done_eq0 m d L X fo t 1 ps1 hps1
  have e2 := done_eq0 m d L X fo t 2 ps2 hps2
  unfold Dc0 at e0 e1 e2
  iintro ⟨HO0, HO1, HO2, HS0, HS1, HS2, HF0, HT0r, HL0r, HF1, HT1r, HL1r, HF2, HT2r, HL2r, HI3, HI4, HFS3, HFS4, HTodo, HO⟩
  isplitl [HF0 HT0r HL0r]
  · iapply (gfl_intro0 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro0 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro0 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro0 m d L X fo b3V cc0_scratch14.sem t 3 _ ps3 hps3) $$ HFS3
  isplitl [HFS4]
  · iapply (sfl_intro0 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitr [HO0 HO1 HO2 HO]
  · rw [bigSep_empty]; iempintro
  isplitl [HO0]; · iapply (Entails.of_eq e0) $$ HO0
  isplitl [HO1]; · iapply (Entails.of_eq e1) $$ HO1
  isplitl [HO2]; · iapply (Entails.of_eq e2) $$ HO2
  iexact HO

end

end Cert.Proof.KernelIdealSide

end
-- ==== Proof.RingTripFirst0Ideal.lean ====
/-
  The first trip of the first loop: no copy-out is in flight yet, so the waits for chunks −2 and −1 are skipped; otherwise as a
  middle trip: the gathers of chunks 3 … 7 are started, those of chunks 0 … 4 awaited and their copies out started, the copies
  out of chunks 0, 1, 2 awaited.
-/
import proofs.«206480_g70196945486151_cont_9to1_m_271_23_alg».proof.Proof.RingCloseFirst0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_first0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32)
    (t : Fin k0_t1_loop.trips) (ht : t.val = 0) :
    (iprop(levAts (K (F := F)).L (K (F := F)).lev ∗ Inv00 m d L X LC lq tq fo O W) : sProp (𝕄 F))
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid0 m d L X LC lq tq fo O W (t.val + 1))) := by
  have ht19 : t.val ≠ 19 := by omega
  have h1 := (cond1_iff t).not.2 (not_not.2 ht)
  have h3 := (cond3_iff t).not.2 (not_not.2 ht)
  have h5 := cond5_all t
  have h7 := cond7_all t
  have h9 := cond9_all t
  have h2 := cond2_all t
  have h4 := cond4_all t
  have h6 := (cond6_iff t).2 ht19
  have h8 := (cond8_iff t).2 ht19
  have h10 := (cond10_iff t).2 ht19
  have ht20 : t.val < 20 := by have h := t.isLt; have e : k0_t1_loop.trips = 20 := trips1; omega
  have hinL := hIn
  unfold ListIn at hinL
  have eT : bigSep (Finset.Ico 0 20) (PT0 d L fo) = (iprop(PT0 d L fo t.val ∗ bigSep (Finset.Ico (t.val + 1) 20) (PT0 d L fo)) : sProp (𝕄 F)) := by
    rw [ht]; exact Geom.bigSep_Ico_head (by decide)
  rw [Inv00, GFl0, GFl0, GFl0, IdleB, IdleB, IdleG0, IdleG0, Owes, eT, PT0]
  unfold k0_t1_body
  iintro ⟨#Hlv, ⟨%g0, %hg0, Hg0⟩, ⟨%g1, %hg1, Hg1⟩, ⟨%g2, %hg2, Hg2⟩, ⟨%g3, Hb3⟩, ⟨%g4, Hb4⟩, Hs3, Hs4, ⟨Hg3, Hl3, Ht3⟩, ⟨Hg4, Hl4, Ht4⟩, Hs0, Hs1, Hs2, ⟨⟨HP0, HP1, HP2, HP3, HP4⟩, HTodo⟩, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq0 d L fo t 0).symm) $$ HP0
  ihave Ho1 := (Entails.of_eq (pc_eq0 d L fo t 1).symm) $$ HP1
  ihave Ho2 := (Entails.of_eq (pc_eq0 d L fo t 2).symm) $$ HP2
  ihave Ho3 := (Entails.of_eq (pc_eq0 d L fo t 3).symm) $$ HP3
  ihave Ho4 := (Entails.of_eq (pc_eq0 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_first0 m d L X LC lq tq fo O W t ht g0 g1 g2 g3 g4 _ _ _ _ _ _ _ _ _ _ (gather_val m d L X LC hL hX (5 * t.val + 5) (by omega) _ (off9_eq t ht19) _ _ _ _) (gather_val m d L X LC hL hX (5 * t.val + 6) (by omega) _ (off11_eq t ht19) _ _ _ _) (gather_val m d L X LC hL hX (5 * t.val + 7) (by omega) _ (off13_eq t ht19) _ _ _ _) (hg0.trans (congrArg (GP (m (t0Loc d)) X (wL L)) (by rw [ht]; try rfl))) (hg1.trans (congrArg (GP (m (t0Loc d)) X (wL L)) (by rw [ht]; try rfl))) (hg2.trans (congrArg (GP (m (t0Loc d)) X (wL L)) (by rw [ht]; try rfl))) ((View.read_writes_whole _ _ _).trans (gather_val m d L X LC hL hX (5 * t.val + 3) (by omega) _ (off3_eq t) _ _ _ _)) ((View.read_writes_whole _ _ _).trans (gather_val m d L X LC hL hX (5 * t.val + 4) (by omega) _ (off7_eq t) _ _ _ _)) _ _ _) $$ [Ho0 Ho1 Ho2 Hs0 Hs1 Hs2 Hg0 Hg0_src Hl0 Hg1 Hg1_src Hl1 Hg2 Hg2_src Hl2 Hg3 Hl3 Ht3 Hg4 Hl4 Ht4 Hs3 Hs4 HTodo HO]
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  iapply (owes_intro d L O W _ ?_) $$ HO
  intro p hp
  repeat (rcases Finset.mem_insert.mp hp with hp | hp; · exact .inr (hp ▸ rfl))
  exact hW' p hp

end Cert.Proof.KernelIdealSide

end
-- ==== Proof.RingTripMid0Ideal.lean ====
/-
  A middle trip (1 ≤ t ≤ 18) of the first loop. The trip awaits the copies out of chunks 5 t − 2 … 5 t + 2, starts the gathers of
  chunks 5 t + 3 … 5 t + 7, awaits the gathers of chunks 5 t … 5 t + 4 and starts their copies out; each slot's cell carries one
  transfer at a time, and a slot is written again only after its copy-out has been awaited.
-/
import proofs.«206480_g70196945486151_cont_9to1_m_271_23_alg».proof.Proof.RingClose0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_mid0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32)
    (t : Fin k0_t1_loop.trips) (ht0 : t.val ≠ 0) (ht19 : t.val ≠ 19) :
    (iprop(levAts (K (F := F)).L (K (F := F)).lev ∗ InvMid0 m d L X LC lq tq fo O W t.val) : sProp (𝕄 F))
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid0 m d L X LC lq tq fo O W (t.val + 1))) := by
  have h1 := (cond1_iff t).2 ht0
  have h3 := (cond3_iff t).2 ht0
  have h5 := cond5_all t
  have h7 := cond7_all t
  have h9 := cond9_all t
  have h2 := cond2_all t
  have h4 := cond4_all t
  have h6 := (cond6_iff t).2 ht19
  have h8 := (cond8_iff t).2 ht19
  have h10 := (cond10_iff t).2 ht19
  have ht20 : t.val < 20 := by have h := t.isLt; have e : k0_t1_loop.trips = 20 := trips1; omega
  have hinL := hIn
  unfold ListIn at hinL
  rw [InvMid0, GFl0, GFl0, GFl0, SFl0, SFl0, IdleG0, IdleG0, Owes, Geom.bigSep_Ico_head ht20, PT0, Dc0, Dc0, Dc0]
  unfold k0_t1_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq0 d L fo t 0).symm) $$ HP0
  ihave Ho1 := (Entails.of_eq (pc_eq0 d L fo t 1).symm) $$ HP1
  ihave Ho2 := (Entails.of_eq (pc_eq0 d L fo t 2).symm) $$ HP2
  ihave Ho3 := (Entails.of_eq (pc_eq0 d L fo t 3).symm) $$ HP3
  ihave Ho4 := (Entails.of_eq (pc_eq0 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_mid0 m d L X LC lq tq fo O W t ht0 ht19 g0 g1 g2 g3 g4 _ _ _ _ _ _ _ _ _ _ (gather_val m d L X LC hL hX (5 * t.val + 5) (by omega) _ (off9_eq t ht19) _ _ _ _) (gather_val m d L X LC hL hX (5 * t.val + 6) (by omega) _ (off11_eq t ht19) _ _ _ _) (gather_val m d L X LC hL hX (5 * t.val + 7) (by omega) _ (off13_eq t ht19) _ _ _ _) hg0 hg1 hg2 ((View.read_writes_whole _ _ _).trans (gather_val m d L X LC hL hX (5 * t.val + 3) (by omega) _ (off3_eq t) _ _ _ _)) ((View.read_writes_whole _ _ _).trans (gather_val m d L X LC hL hX (5 * t.val + 4) (by omega) _ (off7_eq t) _ _ _ _)) _ _ _) $$ [Hs3_dst Hs4_dst Ho0 Ho1 Ho2 Hs0 Hs1 Hs2 Hg0 Hg0_src Hl0 Hg1 Hg1_src Hl1 Hg2 Hg2_src Hl2 Hg3 Hl3 Ht3 Hg4 Hl4 Ht4 Hs3 Hs4 HTodo HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  isplitl [HDone]; · iexact HDone
  isplitl [HD5]; · iexact HD5
  isplitl [HD4]; · iexact HD4
  isplitl [HD3]; · iexact HD3
  iapply (owes_intro d L O W _ ?_) $$ HO
  intro p hp
  repeat (rcases Finset.mem_insert.mp hp with hp | hp; · exact .inr (hp ▸ rfl))
  exact hW' p hp

end Cert.Proof.KernelIdealSide

end
-- ==== Proof.RingCloseLast0Ideal.lean ====
/-
  The end of the last trip of the first loop: no gather is started for slots 0, 1, 2, which end at rest with their cells at
  zero and their read shares back; the copies out of the last two chunks are in flight; every earlier chunk's piece holds
  the lookup. The finished trips' pieces are those of the trips before the previous one, then the previous trip's five
  (three loose, two just drained), and the last trip's first three are loose.
-/
import proofs.«206480_g70196945486151_cont_9to1_m_271_23_alg».proof.Proof.RingClose0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

set_option maxHeartbeats 2000000 in
theorem close_last0 (t : Fin k0_t1_loop.trips) (ht : t.val = 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg3 pg4 ps0 ps1 ps2 ps3 ps4 : S64x128.Idx → Elt F .f32)
    (hps0 : ps0 = GP (m (t0Loc d)) X (wL L) (5 * t.val + (0 : Fin 5).val)) (hps1 : ps1 = GP (m (t0Loc d)) X (wL L) (5 * t.val + (1 : Fin 5).val))
    (hps2 : ps2 = GP (m (t0Loc d)) X (wL L) (5 * t.val + (2 : Fin 5).val)) (hps3 : ps3 = GP (m (t0Loc d)) X (wL L) (5 * t.val + (3 : Fin 5).val))
    (hps4 : ps4 = GP (m (t0Loc d)) X (wL L) (5 * t.val + (4 : Fin 5).val)) :
    (iprop(((o0V).view.loc (TH d L) ↦[opc (wL L) (5 * t.val - 2)]{fullShare} G0 m d X) ∗ ((o0V).view.loc (TH d L) ↦[opc (wL L) (5 * t.val - 1)]{fullShare} G0 m d X)
      ∗ ((oPc L t 0).view.loc (TH d L) ↦[(oPc L t 0).view.set]{fullShare} (oPc L t 0).view.writes (Elt F) fo [⟨Rect.whole S64x128, ps0⟩])
      ∗ ((oPc L t 1).view.loc (TH d L) ↦[(oPc L t 1).view.set]{fullShare} (oPc L t 1).view.writes (Elt F) fo [⟨Rect.whole S64x128, ps1⟩])
      ∗ ((oPc L t 2).view.loc (TH d L) ↦[(oPc L t 2).view.set]{fullShare} (oPc L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ ((b0V).view.loc (TH d L) ↦[(b0V).view.set]{fullShare} g0) ∗ ((b1V).view.loc (TH d L) ↦[(b1V).view.set]{fullShare} g1) ∗ ((b2V).view.loc (TH d L) ↦[(b2V).view.set]{fullShare} g2)
      ∗ (semVal (TH d L, .dma cc0_scratch6.sem) 0 ∗ ((lV).view.loc (TH d L) ↦{lq 0} LC) ∗ ((t0V).view.loc (TH d L) ↦{tq 0} m (t0Loc d)))
      ∗ (semVal (TH d L, .dma cc0_scratch7.sem) 0 ∗ ((lV).view.loc (TH d L) ↦{lq 1} LC) ∗ ((t0V).view.loc (TH d L) ↦{tq 1} m (t0Loc d)))
      ∗ (semVal (TH d L, .dma cc0_scratch8.sem) 0 ∗ ((lV).view.loc (TH d L) ↦{lq 2} LC) ∗ ((t0V).view.loc (TH d L) ↦{tq 2} m (t0Loc d)))
      ∗ (semVal (TH d L, .dma cc0_scratch9.sem) 0 ∗ ((lV).view.loc (TH d L) ↦{lq 3} LC) ∗ ((t0V).view.loc (TH d L) ↦{tq 3} m (t0Loc d)))
      ∗ (semVal (TH d L, .dma cc0_scratch10.sem) 0 ∗ ((lV).view.loc (TH d L) ↦{lq 4} LC) ∗ ((t0V).view.loc (TH d L) ↦{tq 4} m (t0Loc d)))
      ∗ Transfers.Flight countersEmb (TH d L) (.dma cc0_scratch14.sem) (default : HIx 1) 262144
          iprop(((oPc L t 3).view.loc (TH d L) ↦[(oPc L t 3).view.set]{fullShare} (oPc L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc L t 4).view.loc (TH d L) ↦[(oPc L t 4).view.set]{fullShare} (oPc L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.range (t.val - 1)) (DT0 m d L X)
      ∗ ((o0V).view.loc (TH d L) ↦[opc (wL L) (5 * t.val - 5)]{fullShare} G0 m d X) ∗ ((o0V).view.loc (TH d L) ↦[opc (wL L) (5 * t.val - 4)]{fullShare} G0 m d X) ∗ ((o0V).view.loc (TH d L) ↦[opc (wL L) (5 * t.val - 3)]{fullShare} G0 m d X)
      ∗ Owes d L O W) : sProp (𝕄 F))
      ⊢ InvEnd0 m d L X LC lq tq O W := by
  have eD : bigSep (Finset.range 19) (DT0 m d L X) = iprop(bigSep (Finset.range (t.val - 1)) (DT0 m d L X) ∗ DT0 m d L X (t.val - 1)) := by
    have h := Geom.bigSep_range_succ' (Φ := DT0 m d L X) (t.val - 1)
    rwa [show t.val - 1 + 1 = 19 by omega] at h
  unfold InvEnd0 IdleG0 IdleB
  rw [eD, DT0,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show (98 : ℕ) = 5 * t.val + (3 : Fin 5).val by show _ = 5 * t.val + 3; omega,
    show (99 : ℕ) = 5 * t.val + (4 : Fin 5).val by show _ = 5 * t.val + 4; omega,
    show (95 : ℕ) = 5 * t.val + (0 : Fin 5).val by show _ = 5 * t.val + 0; omega,
    show (96 : ℕ) = 5 * t.val + (1 : Fin 5).val by show _ = 5 * t.val + 1; omega,
    show (97 : ℕ) = 5 * t.val + (2 : Fin 5).val by show _ = 5 * t.val + 2; omega]
  unfold Dc0
  have e0 := done_eq0 m d L X fo t 0 ps0 hps0
  have e1 := done_eq0 m d L X fo t 1 ps1 hps1
  have e2 := done_eq0 m d L X fo t 2 ps2 hps2
  unfold Dc0 at e0 e1 e2
  iintro ⟨HD2, HD1, HO0, HO1, HO2, HS0, HS1, HS2, HB0, HB1, HB2, HI0, HI1, HI2, HI3, HI4, HFS3, HFS4, HDone, HD5, HD4, HD3, HO⟩
  isplitl [HFS3]
  · iapply (sfl_intro0 m d L X fo b3V cc0_scratch14.sem t 3 _ ps3 hps3) $$ HFS3
  isplitl [HFS4]
  · iapply (sfl_intro0 m d L X fo b4V cc0_scratch15.sem t 4 _ ps4 hps4) $$ HFS4
  isplitl [HB0]; · iexists g0; iexact HB0
  isplitl [HB1]; · iexists g1; iexact HB1
  isplitl [HB2]; · iexists g2; iexact HB2
  isplitl [HI0]; · iexact HI0
  isplitl [HI1]; · iexact HI1
  isplitl [HI2]; · iexact HI2
  isplitl [HI3]; · iexact HI3
  isplitl [HI4]; · iexact HI4
  isplitl [HS0]; · iexact HS0
  isplitl [HS1]; · iexact HS1
  isplitl [HS2]; · iexact HS2
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelIdealSide

end
-- ==== Proof.RingTripLast0Ideal.lean ====
/-
  The last trip (t = 19) of the first loop: chunks 100, 101, 102 do not exist, so no gather is started for slots 0, 1, 2, which end
  the trip at rest; otherwise as a middle trip. The copies out of chunks 98 and 99 are left in flight for the waits after the loop.
-/
import proofs.«206480_g70196945486151_cont_9to1_m_271_23_alg».proof.Proof.RingCloseLast0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_last0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32)
    (t : Fin k0_t1_loop.trips) (ht : t.val = 19) :
    (iprop(levAts (K (F := F)).L (K (F := F)).lev ∗ InvMid0 m d L X LC lq tq fo O W t.val) : sProp (𝕄 F))
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvEnd0 m d L X LC lq tq O W)) := by
  have ht0 : t.val ≠ 0 := by omega
  have h1 := (cond1_iff t).2 ht0
  have h3 := (cond3_iff t).2 ht0
  have h5 := cond5_all t
  have h7 := cond7_all t
  have h9 := cond9_all t
  have h2 := cond2_all t
  have h4 := cond4_all t
  have h6 := (cond6_iff t).not.2 (not_not.2 ht)
  have h8 := (cond8_iff t).not.2 (not_not.2 ht)
  have h10 := (cond10_iff t).not.2 (not_not.2 ht)
  have ht20 : t.val < 20 := by have h := t.isLt; have e : k0_t1_loop.trips = 20 := trips1; omega
  have hinL := hIn
  unfold ListIn at hinL
  rw [InvMid0, GFl0, GFl0, GFl0, SFl0, SFl0, IdleG0, IdleG0, Owes, Geom.bigSep_Ico_head ht20, PT0, Dc0, Dc0, Dc0]
  unfold k0_t1_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq0 d L fo t 0).symm) $$ HP0
  ihave Ho1 := (Entails.of_eq (pc_eq0 d L fo t 1).symm) $$ HP1
  ihave Ho2 := (Entails.of_eq (pc_eq0 d L fo t 2).symm) $$ HP2
  ihave Ho3 := (Entails.of_eq (pc_eq0 d L fo t 3).symm) $$ HP3
  ihave Ho4 := (Entails.of_eq (pc_eq0 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_last0 m d L X LC lq tq fo O W t ht g0 g1 g2 g3 g4 _ _ _ _ _ _ _ hg0 hg1 hg2 ((View.read_writes_whole _ _ _).trans (gather_val m d L X LC hL hX (5 * t.val + 3) (by omega) _ (off3_eq t) _ _ _ _)) ((View.read_writes_whole _ _ _).trans (gather_val m d L X LC hL hX (5 * t.val + 4) (by omega) _ (off7_eq t) _ _ _ _))) $$ [Hs3_dst Hs4_dst Ho0 Ho1 Ho2 Hs0 Hs1 Hs2 Hb0 Hb1 Hb2 Hg0 Hl0 Hg0_src Hg1 Hl1 Hg1_src Hg2 Hl2 Hg2_src Hg3 Hl3 Ht3 Hg4 Hl4 Ht4 Hs3 Hs4 HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hb0]; · iexact Hb0
  isplitl [Hb1]; · iexact Hb1
  isplitl [Hb2]; · iexact Hb2
  isplitl [Hg0 Hl0 Hg0_src]
  · isplitl [Hg0]; · iexact Hg0
    isplitl [Hl0]; · iexact Hl0
    iexact Hg0_src
  isplitl [Hg1 Hl1 Hg1_src]
  · isplitl [Hg1]; · iexact Hg1
    isplitl [Hl1]; · iexact Hl1
    iexact Hg1_src
  isplitl [Hg2 Hl2 Hg2_src]
  · isplitl [Hg2]; · iexact Hg2
    isplitl [Hl2]; · iexact Hl2
    iexact Hg2_src
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HDone]; · iexact HDone
  isplitl [HD5]; · iexact HD5
  isplitl [HD4]; · iexact HD4
  isplitl [HD3]; · iexact HD3
  iapply (owes_intro d L O W _ ?_) $$ HO
  intro p hp
  repeat (rcases Finset.mem_insert.mp hp with hp | hp; · exact .inr (hp ▸ rfl))
  exact hW' p hp

end Cert.Proof.KernelIdealSide

end
-- ==== Proof.RingStep0Ideal.lean ====
/-
  One trip of the first loop keeps the ring's invariant: the first, a middle and the last trip.
-/
import proofs.«206480_g70196945486151_cont_9to1_m_271_23_alg».proof.Proof.RingTripFirst0Ideal
import proofs.«206480_g70196945486151_cont_9to1_m_271_23_alg».proof.Proof.RingTripMid0Ideal
import proofs.«206480_g70196945486151_cont_9to1_m_271_23_alg».proof.Proof.RingTripLast0Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 2000000 in
theorem step0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32) (k : Fin k0_t1_loop.trips) :
    inv0 m d L X LC lq tq fo O W k.val
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 k ())
          (fun _ => inv0 m d L X LC lq tq fo O W (k.val + 1)) := by
  have hk : k.val < 20 := by have h := k.isLt; have e : k0_t1_loop.trips = 20 := trips1; omega
  unfold inv0
  by_cases h0 : k.val = 0
  · rw [if_pos h0, if_neg (show ¬ k.val + 1 = 0 by omega), if_neg (show ¬ k.val + 1 = 20 by omega)]
    exact trip_first0 m hF d L X hX LC hL hIn lq tq fo O W hO v2 k h0
  · by_cases h19 : k.val = 19
    · rw [if_neg h0, if_neg (show ¬ k.val = 20 by omega), if_neg (show ¬ k.val + 1 = 0 by omega), if_pos (show k.val + 1 = 20 by omega)]
      exact trip_last0 m hF d L X hX LC hL hIn lq tq fo O W hO v2 k h19
    · rw [if_neg h0, if_neg (show ¬ k.val = 20 by omega), if_neg (show ¬ k.val + 1 = 0 by omega), if_neg (show ¬ k.val + 1 = 20 by omega)]
      exact trip_mid0 m hF d L X hX LC hL hIn lq tq fo O W hO v2 k h0 h19

end Cert.Proof.KernelIdealSide

end
-- ==== Proof.Part19Ideal.lean ====
/-
  The tile's task, first table, from the copy of its row numbers to the last copy-out but one. The tile copies its 128 columns of
  the transposed row numbers into its list, starts the gathers of chunks 0, 1, 2, runs the ring's twenty trips, and waits for the
  copy-out of chunk 98. The table goes out as five read tokens and a remainder, the list — once copied — likewise; the tile's band of
  the result is cut into its hundred pieces and taken through the loop's invariant; at the end the tokens are joined back and
  ninety-nine pieces hold the lookup, the hundredth still in flight.
-/
import proofs.«206480_g70196945486151_cont_9to1_m_271_23_alg».proof.Proof.RingBand0Ideal
import proofs.«206480_g70196945486151_cont_9to1_m_271_23_alg».proof.Proof.RingLem0Ideal
import proofs.«206480_g70196945486151_cont_9to1_m_271_23_alg».proof.Proof.RingStep0Ideal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

variable [FloatOps F]

set_option maxHeartbeats 4000000 in
theorem part19_spec (m : (ℓ : Loc nD τ sig) → Buf (Elt F) ℓ) (hF : (K (F := F)).Facts) (d : Dev nD) (L : grid0.Coords)
    (X : Buf (Elt F) (i0Loc d)) (hX : ∀ j, (X j).toNat < 100000) (fo : Buf (Elt F) (o0Loc d)) (q0 qi0 : PosShare TreeShare)
    (O : CellTallies nD τ sig (HIx 1)) (W : Waits sig (HIx 1)) (hO : ∀ g, O g none = 0)
    (fl : Buf (Elt F) ((TH d L).loc cc0_scratch0)) (f0 : Buf (Elt F) ((TH d L).loc cc0_scratch1)) (f1 : Buf (Elt F) ((TH d L).loc cc0_scratch2))
    (f2 : Buf (Elt F) ((TH d L).loc cc0_scratch3)) (f3 : Buf (Elt F) ((TH d L).loc cc0_scratch4)) (f4 : Buf (Elt F) ((TH d L).loc cc0_scratch5)) :
    (iprop(levAts (K (F := F)).L (K (F := F)).lev
        ∗ (t0Loc d ↦{q0} m (t0Loc d)) ∗ (i0Loc d ↦{qi0} X) ∗ (o0Loc d ↦[oBandSet (wL L)]{fullShare} fo)
        ∗ ((TH d L).loc cc0_scratch0 ↦{fullShare} fl)
        ∗ ((TH d L).loc cc0_scratch1 ↦{fullShare} f0) ∗ ((TH d L).loc cc0_scratch2 ↦{fullShare} f1) ∗ ((TH d L).loc cc0_scratch3 ↦{fullShare} f2)
        ∗ ((TH d L).loc cc0_scratch4 ↦{fullShare} f3) ∗ ((TH d L).loc cc0_scratch5 ↦{fullShare} f4)
        ∗ semVal (TH d L, .dma cc0_scratch6.sem) 0 ∗ semVal (TH d L, .dma cc0_scratch7.sem) 0 ∗ semVal (TH d L, .dma cc0_scratch8.sem) 0
        ∗ semVal (TH d L, .dma cc0_scratch9.sem) 0 ∗ semVal (TH d L, .dma cc0_scratch10.sem) 0
        ∗ semVal (TH d L, .dma cc0_scratch11.sem) 0 ∗ semVal (TH d L, .dma cc0_scratch12.sem) 0 ∗ semVal (TH d L, .dma cc0_scratch13.sem) 0
        ∗ semVal (TH d L, .dma cc0_scratch14.sem) 0 ∗ semVal (TH d L, .dma cc0_scratch15.sem) 0
        ∗ semVal (TH d L, .dma cc0_scoped0.sem) 0
        ∗ owes (TH d L) O W) : sProp (𝕄 F))
      ⊢ wp frame (wpE (defs₀ (F := F)) 𝒱₀ (TH d L) none) Set.univ
          (k0_part19 L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1)
          fun _ => MidT0 m d L X q0 qi0 cc0_scoped0.sem O W := by
  simp only [k0_part19_eq_skeleton]; unfold k0_part19_skel
  iintro ⟨#Hlv, Ht, Hi, Ho, Hl, Hb0, Hb1, Hb2, Hb3, Hb4, Hg0, Hg1, Hg2, Hg3, Hg4, Hs0, Hs1, Hs2, Hs3, Hs4, Hr0, HO⟩
  ihave Hmw := (show levAts (K (F := F)).L (K (F := F)).lev ⊢ Transfers.MayWaits (TH d L) (default : HIx 1) O from
    (K (F := F)).mayWaits_none (thr := TH d L) hO) $$ Hlv
  ihave Hi' := (Entails.of_eq (pts_i0 (F := F) d L _ _).symm) $$ Hi
  ihave Hl' := (Entails.of_eq (pts_l (F := F) d L _).symm) $$ Hl
  ihave Ht' := (Entails.of_eq (pts_t0 (F := F) d L _ _).symm) $$ Ht
  ihave Ht2 := (Transfers.pointsTo_toks_split (ℓ := (t0V).view.loc (TH d L)) (S := Finset.univ) (f := m (t0Loc d)) q0 5) $$ Ht'
  icases Ht2 with ⟨Htr, Httoks⟩
  ihave Ht3 := (Entails.of_eq (bigSep_univ_five _)) $$ Httoks
  icases Ht3 with ⟨Ht0, Ht1, Ht2, Ht3, Ht4⟩
  ihave Hb0' := (Entails.of_eq (pts_sa (F := F) d L _).symm) $$ Hb0
  ihave Hb1' := (Entails.of_eq (pts_sb (F := F) d L _).symm) $$ Hb1
  ihave Hb2' := (Entails.of_eq (pts_sc (F := F) d L _).symm) $$ Hb2
  ihave Hb3' := (Entails.of_eq (pts_sd (F := F) d L _).symm) $$ Hb3
  ihave Hb4' := (Entails.of_eq (pts_se (F := F) d L _).symm) $$ Hb4
  ihave Ho' := (Entails.of_eq (pts_o0 (F := F) d L _ _).symm) $$ Ho
  sl_exec
  have hIn := listIn_of_copy d L X hX fl
  unfold ListIn at hIn
  ihave Hl2 := (Transfers.pointsTo_toks_split (ℓ := (lV).view.loc (TH d L)) (S := Finset.univ) fullShare 5) $$ Hl'
  icases Hl2 with ⟨Hlr, Hltoks⟩
  ihave Hl3 := (Entails.of_eq (bigSep_univ_five _)) $$ Hltoks
  icases Hl3 with ⟨Hl0, Hl1, Hl2, Hl3, Hl4⟩
  sl_exec
  have hL : ListOK0 d L X (LC0 d L X fl) := listOK_of_copy d L X fl
  have hIn' : ListIn d L (LC0 d L X fl) := listIn_of_copy d L X hX fl
  have hg0 : (b0V).view.read (Elt F) ((b0V).view.writes (Elt F) f0 [⟨Rect.whole S64x128, part19_spec.sl.gather0 m d L X fl hIn⟩]) = GP (m (t0Loc d)) X (wL L) 0 := by
    rw [read_writes_whole]; exact gather_val m d L X _ hL hX 0 (by omega) _ rfl _ _ _ _
  have hg1 : (b1V).view.read (Elt F) ((b1V).view.writes (Elt F) f1 [⟨Rect.whole S64x128, part19_spec.sl.gather1 m d L X fl hIn⟩]) = GP (m (t0Loc d)) X (wL L) 1 := by
    rw [read_writes_whole]; exact gather_val m d L X _ hL hX 1 (by omega) _ rfl _ _ _ _
  have hg2 : (b2V).view.read (Elt F) ((b2V).view.writes (Elt F) f2 [⟨Rect.whole S64x128, part19_spec.sl.gather2 m d L X fl hIn⟩]) = GP (m (t0Loc d)) X (wL L) 2 := by
    rw [read_writes_whole]; exact gather_val m d L X _ hL hX 2 (by omega) _ rfl _ _ _ _
  sl_for (fun k (_ : PUnit) => inv0 m d L X (LC0 d L X fl) lqP (tqP q0) fo O (insert ((SemLoc.dma cc0_scoped0.sem : SemLoc sig), (default : HIx 1)) W) k) $$ [Hg0 Ht0 Hlr Hg1 Ht1 Hl0 Hg2 Ht2 Hl1 Hb3' Hb4' Hs3 Hs4 Hg3 Hl2 Ht3 Hg4 Hl3 Ht4 Hs0 Hs1 Hs2 Ho' HO]
  · intro k acc
    exact step0 m hF d L X hX (LC0 d L X fl) hL hIn' lqP (tqP q0) fo O _ hO _ k
  · unfold inv0; rw [if_pos rfl]; unfold Inv00
    isplitr; · iexact Hlv
    isplitl [Hg0 Ht0 Hlr]
    · iapply (gfl_intro0 m d L X (LC0 d L X fl) lqP (tqP q0) b0V cc0_scratch6.sem 0 0 _ hg0 (lWin ![0, 0] inb_S50x128_S1x64_0_0))
      isplitl [Hg0]; · iexact Hg0
      isplitl [Ht0]; · iexact Ht0
      iexact Hlr
    isplitl [Hg1 Ht1 Hl0]
    · iapply (gfl_intro0 m d L X (LC0 d L X fl) lqP (tqP q0) b1V cc0_scratch7.sem 1 1 _ hg1 (lWin ![0, 64] inb_S50x128_S1x64_0_64))
      isplitl [Hg1]; · iexact Hg1
      isplitl [Ht1]; · iexact Ht1
      iexact Hl0
    isplitl [Hg2 Ht2 Hl1]
    · iapply (gfl_intro0 m d L X (LC0 d L X fl) lqP (tqP q0) b2V cc0_scratch8.sem 2 2 _ hg2 (lWin ![1, 0] inb_S50x128_S1x64_1_0))
      isplitl [Hg2]; · iexact Hg2
      isplitl [Ht2]; · iexact Ht2
      iexact Hl1
    isplitl [Hb3']
    · unfold IdleB; iexists f3; rw [show (b3V).view.set = Finset.univ from View.set_whole _]; iexact Hb3'
    isplitl [Hb4']
    · unfold IdleB; iexists f4; rw [show (b4V).view.set = Finset.univ from View.set_whole _]; iexact Hb4'
    isplitl [Hs3]; · iexact Hs3
    isplitl [Hs4]; · iexact Hs4
    isplitl [Hg3 Hl2 Ht3]
    · unfold IdleG0
      isplitl [Hg3]; · iexact Hg3
      isplitl [Hl2]; · iexact Hl2
      iexact Ht3
    isplitl [Hg4 Hl3 Ht4]
    · unfold IdleG0
      isplitl [Hg4]; · iexact Hg4
      isplitl [Hl3]; · iexact Hl3
      iexact Ht4
    isplitl [Hs0]; · iexact Hs0
    isplitl [Hs1]; · iexact Hs1
    isplitl [Hs2]; · iexact Hs2
    isplitl [Ho']
    · rw [← band_pieces0 d L fo]; iexact Ho'
    unfold Owes; iexists _; isplitr
    · ipureintro; exact fun p hp => .inl hp
    iexact HO
  · iintro %acc HI
    rw [show Scf.trips k0_t1_loop.lb k0_t1_loop.ub k0_t1_loop.st = 20 from trips1]
    unfold inv0; rw [if_neg (by decide), if_pos rfl]; unfold InvEnd0 SFl0 IdleB IdleG0 Owes
    icases HI with ⟨-, ⟨%g3, Hf3⟩, ⟨%g4, Hf4⟩, ⟨%g0, B0⟩, ⟨%g1, B1⟩, ⟨%g2, B2⟩, ⟨I0s, I0l, I0t⟩, ⟨I1s, I1l, I1t⟩, ⟨I2s, I2l, I2t⟩, ⟨I3s, I3l, I3t⟩, ⟨I4s, I4l, I4t⟩, Hs0, Hs1, Hs2, HD, D95, D96, D97, ⟨%W', %hW', HO⟩⟩
    -- the table's and the list's tokens joined back
    ihave Htj := (Transfers.pointsTo_toks_join (ℓ := (t0V).view.loc (TH d L)) (S := Finset.univ) (f := m (t0Loc d)) q0 5) $$ [Htr I0t I1t I2t I3t I4t]
    · isplitl [Htr]; · iexact Htr
      rw [bigSep_univ_five]
      isplitl [I0t]; · iexact I0t
      isplitl [I1t]; · iexact I1t
      isplitl [I2t]; · iexact I2t
      isplitl [I3t]; · iexact I3t
      iexact I4t
    ihave Hlj := (Transfers.pointsTo_toks_join (ℓ := (lV).view.loc (TH d L)) (S := Finset.univ) (f := LC0 d L X fl) fullShare 5) $$ [I0l I1l I2l I3l I4l Hl4]
    · isplitl [I0l]; · iexact I0l
      rw [bigSep_univ_five]
      isplitl [I1l]; · iexact I1l
      isplitl [I2l]; · iexact I2l
      isplitl [I3l]; · iexact I3l
      isplitl [I4l]; · iexact I4l
      iexact Hl4
    sl_exec
    sl_step
    iclear Hb0' Hb1' Hb2'
    unfold MidT0
    iexists (LC0 d L X fl)
    isplitl [Htj]; · iexact Htj
    isplitl [Hi']; · iexact Hi'
    isplitl [Hlj]; · iexact Hlj
    isplitl [B0]; · unfold IdleB; iexists g0; iexact B0
    isplitl [B1]; · unfold IdleB; iexists g1; iexact B1
    isplitl [B2]; · unfold IdleB; iexists g2; iexact B2
    isplitl [Hf3_src]; · unfold IdleB; iexists g3; iexact Hf3_src
    isplitl [Hf4]; · unfold SFl0; iexists g4; iexact Hf4
    isplitl [I0s]; · iexact I0s
    isplitl [I1s]; · iexact I1s
    isplitl [I2s]; · iexact I2s
    isplitl [I3s]; · iexact I3s
    isplitl [I4s]; · iexact I4s
    isplitl [Hs0]; · iexact Hs0
    isplitl [Hs1]; · iexact Hs1
    isplitl [Hs2]; · iexact Hs2
    isplitl [Hf3]; · iexact Hf3
    isplitl [Hr0]; · iexact Hr0
    isplitl [HD]; · iexact HD
    isplitl [D95]; · iexact D95
    isplitl [D96]; · iexact D96
    isplitl [D97]; · iexact D97
    isplitl [Hf3_dst]; · unfold Dc0; iexact Hf3_dst
    unfold Owes; iexists _; isplitr
    swap; · iexact HO
    ipureintro; intro p hp
    rcases Finset.mem_insert.mp hp with hp | hp
    · subst hp; exact .inr rfl
    rcases hW' p hp with h | h
    · rcases Finset.mem_insert.mp h with h | h
      · subst h; exact .inr rfl
      · exact .inl h
    · exact .inr h

end Cert.Proof.KernelIdealSide

end
-- ==== Proof.RingInv1Ideal.lean ====
/-
  The ring's invariant for the second table. Before trip t of the loop (t = 0 … 20; chunks 5 t … 5 t + 4 are the trip's):
  the gathers of chunks 5 t, 5 t + 1, 5 t + 2 are in flight into slots 0, 1, 2; the copies out of chunks 5 t − 2, 5 t − 1 are in
  flight from slots 3, 4; every earlier chunk's piece of the result holds the lookup; every later chunk's piece is untouched.
  A gather's flight carries its slot, and the slot's read shares of the list and of the table; a copy-out's flight carries
  the piece of the result, already at the lookup, and its slot.
-/
import proofs.«206480_g70196945486151_cont_9to1_m_271_23_alg».proof.Proof.RingSpecIdeal
import proofs.«206480_g70196945486151_cont_9to1_m_271_23_alg».proof.Proof.CondsIdeal
import proofs.«206480_g70196945486151_cont_9to1_m_271_23_alg».proof.Proof.BigSepNat

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

/-- The lookup into the second table, as contents of the first result. -/
abbrev G1 : Buf (Elt F) (o1Loc d) := takeT (m (t1Loc d)) X

/-- A gather of chunk `c` in flight into slot `bV` on cell `gs`: at its wait it hands back the slot holding the chunk's rows,
    and the slot's read shares of the list and of the table. -/
def GFl1 (bV : Memref sig .scVector .vmem S64x128 .f32) (gs : DmaSem sig) (s : Fin 5) (c : ℕ) : sProp (𝕄 F) :=
  iprop(∃ g : Buf (Elt F) (bV.view.loc (TH d L)), ⌜bV.view.read (Elt F) g = GP (m (t1Loc d)) X (wL L) c⌝ ∗
    Transfers.Flight countersEmb (TH d L) (.dma gs) (default : HIx 1) 262144
      iprop(((bV.view.loc (TH d L) ↦[bV.view.set]{fullShare} g) ∗ ((lV).view.loc (TH d L) ↦{lq s} LC))
        ∗ ((t1V).view.loc (TH d L) ↦{tq s} m (t1Loc d))))

/-- A copy-out of chunk `c` in flight from slot `bV` on cell `ss`: at its wait it hands back the chunk's piece of the
    result holding the lookup, and the slot. -/
def SFl1 (bV : Memref sig .scVector .vmem S64x128 .f32) (ss : DmaSem sig) (c : ℕ) : sProp (𝕄 F) :=
  iprop(∃ g : Buf (Elt F) (bV.view.loc (TH d L)),
    Transfers.Flight countersEmb (TH d L) (.dma ss) (default : HIx 1) 262144
      iprop(((o1V).view.loc (TH d L) ↦[opc (wL L) c]{fullShare} G1 m d X) ∗ (bV.view.loc (TH d L) ↦[bV.view.set]{fullShare} g)))

/-- Chunk `c`'s piece untouched, and holding the lookup. -/
def Pc1 (c : ℕ) : sProp (𝕄 F) := (o1V).view.loc (TH d L) ↦[opc (wL L) c]{fullShare} fo
def Dc1 (c : ℕ) : sProp (𝕄 F) := (o1V).view.loc (TH d L) ↦[opc (wL L) c]{fullShare} G1 m d X
/-- A trip's five pieces. -/
def PT1 (t : ℕ) : sProp (𝕄 F) :=
  iprop(Pc1 d L fo (5 * t) ∗ Pc1 d L fo (5 * t + 1) ∗ Pc1 d L fo (5 * t + 2) ∗ Pc1 d L fo (5 * t + 3) ∗ Pc1 d L fo (5 * t + 4))
def DT1 (t : ℕ) : sProp (𝕄 F) :=
  iprop(Dc1 m d L X (5 * t) ∗ Dc1 m d L X (5 * t + 1) ∗ Dc1 m d L X (5 * t + 2) ∗ Dc1 m d L X (5 * t + 3) ∗ Dc1 m d L X (5 * t + 4))

/-- A slot's gather side at rest: its cell at zero and its read shares of the list and of the table. -/
def IdleG1 (gs : DmaSem sig) (s : Fin 5) : sProp (𝕄 F) :=
  iprop(semVal (TH d L, .dma gs) 0 ∗ ((lV).view.loc (TH d L) ↦{lq s} LC) ∗ ((t1V).view.loc (TH d L) ↦{tq s} m (t1Loc d)))
/-- A slot at rest, at some contents. -/
def IdleB1 (bV : Memref sig .scVector .vmem S64x128 .f32) : sProp (𝕄 F) :=
  iprop(∃ g : Buf (Elt F) (bV.view.loc (TH d L)), bV.view.loc (TH d L) ↦[bV.view.set]{fullShare} g)
/-- What the tile owes, and the waits it has made. -/
def Owes1 : sProp (𝕄 F) := iprop(∃ W', ⌜∀ p ∈ W', p ∈ W ∨ p.2 = none⌝ ∗ owes (TH d L) O W')

/-- Before a trip 1 ≤ t ≤ 19. -/
def InvMid1 (t : ℕ) : sProp (𝕄 F) :=
  iprop(GFl1 m d L X LC lq tq b0V cc0_scratch6.sem 0 (5 * t) ∗ GFl1 m d L X LC lq tq b1V cc0_scratch7.sem 1 (5 * t + 1)
    ∗ GFl1 m d L X LC lq tq b2V cc0_scratch8.sem 2 (5 * t + 2)
    ∗ SFl1 m d L X b3V cc0_scratch14.sem (5 * t - 2) ∗ SFl1 m d L X b4V cc0_scratch15.sem (5 * t - 1)
    ∗ IdleG1 m d L LC lq tq cc0_scratch9.sem 3 ∗ IdleG1 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico t 20) (PT1 d L fo) ∗ bigSep (Finset.range (t - 1)) (DT1 m d L X)
    ∗ Dc1 m d L X (5 * t - 5) ∗ Dc1 m d L X (5 * t - 4) ∗ Dc1 m d L X (5 * t - 3)
    ∗ Owes1 d L O W)

/-- Before the first trip: nothing copied out yet, slots 3 and 4 at rest. -/
def Inv01 : sProp (𝕄 F) :=
  iprop(GFl1 m d L X LC lq tq b0V cc0_scratch6.sem 0 0 ∗ GFl1 m d L X LC lq tq b1V cc0_scratch7.sem 1 1
    ∗ GFl1 m d L X LC lq tq b2V cc0_scratch8.sem 2 2
    ∗ IdleB1 d L b3V ∗ IdleB1 d L b4V ∗ semVal (TH d L, .dma cc0_scratch14.sem) 0 ∗ semVal (TH d L, .dma cc0_scratch15.sem) 0
    ∗ IdleG1 m d L LC lq tq cc0_scratch9.sem 3 ∗ IdleG1 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico 0 20) (PT1 d L fo)
    ∗ Owes1 d L O W)

/-- After the last trip: every gather done, the copies out of chunks 98 and 99 in flight. -/
def InvEnd1 : sProp (𝕄 F) :=
  iprop(SFl1 m d L X b3V cc0_scratch14.sem 98 ∗ SFl1 m d L X b4V cc0_scratch15.sem 99
    ∗ IdleB1 d L b0V ∗ IdleB1 d L b1V ∗ IdleB1 d L b2V
    ∗ IdleG1 m d L LC lq tq cc0_scratch6.sem 0 ∗ IdleG1 m d L LC lq tq cc0_scratch7.sem 1 ∗ IdleG1 m d L LC lq tq cc0_scratch8.sem 2
    ∗ IdleG1 m d L LC lq tq cc0_scratch9.sem 3 ∗ IdleG1 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.range 19) (DT1 m d L X)
    ∗ Dc1 m d L X 95 ∗ Dc1 m d L X 96 ∗ Dc1 m d L X 97
    ∗ Owes1 d L O W)

/-- The loop's invariant. -/
def inv1 (k : ℕ) : sProp (𝕄 F) :=
  iprop(levAts (K (F := F)).L (K (F := F)).lev ∗
    (if k = 0 then Inv01 m d L X LC lq tq fo O W else if k = 20 then InvEnd1 m d L X LC lq tq O W else InvMid1 m d L X LC lq tq fo O W k))

end

end Cert.Proof.KernelIdealSide

end
-- ==== Proof.RingBand1Ideal.lean ====
/-
  The second table's arrays as the tile's task names them, its band of the result cut into the hundred pieces the ring moves (grouped
  by trips, as the loop's invariant holds them), and what the task holds between the two tables.
-/
import proofs.«206480_g70196945486151_cont_9to1_m_271_23_alg».proof.Proof.RingAuxIdeal
import proofs.«206480_g70196945486151_cont_9to1_m_271_23_alg».proof.Proof.RingInv1Ideal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

/-! ## The second table's arrays in the launch's spelling and in the task's -/

theorem pts_t1 (d : Dev nD) (L : grid0.Coords) (q : PosShare TreeShare) (f : Buf (Elt F) (t1Loc d)) :
    ((t1V).view.loc (TH d L) ↦{q} f : sProp (𝕄 F)) = t1Loc d ↦{q} f := rfl
theorem pts_i1 (d : Dev nD) (L : grid0.Coords) (q : PosShare TreeShare) (f : Buf (Elt F) (i1Loc d)) :
    ((i1V).view.loc (TH d L) ↦{q} f : sProp (𝕄 F)) = i1Loc d ↦{q} f := rfl
theorem pts_o1 (d : Dev nD) (L : grid0.Coords) (S : Finset S50x4096x128.Idx) (f : Buf (Elt F) (o1Loc d)) :
    ((o1V).view.loc (TH d L) ↦[S]{fullShare} f : sProp (𝕄 F)) = o1Loc d ↦[S]{fullShare} f := rfl

/-- The list after the copy of the tile's columns of the transposed row numbers. -/
abbrev LC1 (d : Dev nD) (L : grid0.Coords) (X : Buf (Elt F) (i1Loc d)) (fl : Buf (Elt F) ((TH d L).loc cc0_scratch0)) : Buf (Elt F) ((TH d L).loc cc0_scratch0) :=
  View.write (Elt F) lV.view fl
    (ReadAs.same.apply ((i1V.slice (Rect.unit (s := S50x4096) (k0_off1 L) S50x128.size (k0_off1_inb L)) (fun _ => rfl)).view.read (Elt F) X)) Finset.univ

/-! ## The band cut into its hundred pieces, by trips -/

theorem band_cut1 (d : Dev nD) (L : grid0.Coords) (f : Buf (Elt F) (o1Loc d)) :
    ((o1V).view.loc (TH d L) ↦[oBandSet (wL L)]{fullShare} f : sProp (𝕄 F))
      = bigSep (Finset.range 20) fun t => iprop(((o1V).view.loc (TH d L) ↦[opc (wL L) (5 * t)]{fullShare} f)
          ∗ ((o1V).view.loc (TH d L) ↦[opc (wL L) (5 * t + 1)]{fullShare} f) ∗ ((o1V).view.loc (TH d L) ↦[opc (wL L) (5 * t + 2)]{fullShare} f)
          ∗ ((o1V).view.loc (TH d L) ↦[opc (wL L) (5 * t + 3)]{fullShare} f) ∗ ((o1V).view.loc (TH d L) ↦[opc (wL L) (5 * t + 4)]{fullShare} f)) := by
  rw [← Geom.bigSep_range_mul5 (Φ := fun c => ((o1V).view.loc (TH d L) ↦[opc (wL L) c]{fullShare} f : sProp (𝕄 F))) 20,
    ← pointsTo_biUnion (Finset.range (5 * 20)) (ℓ := (o1V).view.loc (TH d L)) (opc (wL L)) (Geom.opiece_disjoint (wL L))]
  exact congrArg (fun S => ((o1V).view.loc (TH d L) ↦[S]{fullShare} f : sProp (𝕄 F))) (Geom.opiece_cover (wL L)).symm

theorem band_pieces1 (d : Dev nD) (L : grid0.Coords) (fo : Buf (Elt F) (o1Loc d)) :
    ((o1V).view.loc (TH d L) ↦[oBandSet (wL L)]{fullShare} fo : sProp (𝕄 F)) = bigSep (Finset.Ico 0 20) (PT1 d L fo) := by
  rw [band_cut1, Geom.bigSep_Ico_zero]; rfl
theorem band_done1 (m : (ℓ : Loc nD τ sig) → Buf (Elt F) ℓ) (d : Dev nD) (L : grid0.Coords) (X : Buf (Elt F) (i1Loc d)) :
    ((o1V).view.loc (TH d L) ↦[oBandSet (wL L)]{fullShare} G1 m d X : sProp (𝕄 F)) = bigSep (Finset.range 20) (DT1 m d L X) := by
  rw [band_cut1]; rfl

/-! ## After the loop and the wait for chunk 98

The table's and the row numbers' shares are back, the list is whole, slots 0 … 3 are at rest, chunk 99's copy-out is still in flight
from slot 4, every cell but its own is at zero (`rs` is the cell the copy of the row numbers used), ninety-nine pieces hold the lookup. -/
def MidT1 (m : (ℓ : Loc nD τ sig) → Buf (Elt F) ℓ) (d : Dev nD) (L : grid0.Coords) (X : Buf (Elt F) (i1Loc d)) (q0 qi0 : PosShare TreeShare)
    (rs : DmaSem sig) (O : CellTallies nD τ sig (HIx 1)) (W : Waits sig (HIx 1)) : sProp (𝕄 F) :=
  iprop(∃ LC : Buf (Elt F) ((TH d L).loc cc0_scratch0),
    (t1Loc d ↦{q0} m (t1Loc d)) ∗ (i1Loc d ↦{qi0} X) ∗ ((TH d L).loc cc0_scratch0 ↦{fullShare} LC)
    ∗ IdleB1 d L b0V ∗ IdleB1 d L b1V ∗ IdleB1 d L b2V ∗ IdleB1 d L b3V
    ∗ SFl1 m d L X b4V cc0_scratch15.sem 99
    ∗ semVal (TH d L, .dma cc0_scratch6.sem) 0 ∗ semVal (TH d L, .dma cc0_scratch7.sem) 0 ∗ semVal (TH d L, .dma cc0_scratch8.sem) 0
    ∗ semVal (TH d L, .dma cc0_scratch9.sem) 0 ∗ semVal (TH d L, .dma cc0_scratch10.sem) 0
    ∗ semVal (TH d L, .dma cc0_scratch11.sem) 0 ∗ semVal (TH d L, .dma cc0_scratch12.sem) 0 ∗ semVal (TH d L, .dma cc0_scratch13.sem) 0
    ∗ semVal (TH d L, .dma cc0_scratch14.sem) 0
    ∗ semVal (TH d L, .dma rs) 0
    ∗ bigSep (Finset.range 19) (DT1 m d L X) ∗ Dc1 m d L X 95 ∗ Dc1 m d L X 96 ∗ Dc1 m d L X 97 ∗ Dc1 m d L X 98
    ∗ Owes1 d L O W)

end Cert.Proof.KernelIdealSide

end
-- ==== Proof.RingVal1Ideal.lean ====
/-
  The values the ring moves, second table. The printed offset chains of the second loop in closed form: slot b of trip t
  handles chunk 5 t + b, whose window of the list starts at row c / 2, position (c mod 2) · 64, and whose piece of the result
  starts at row c / 2, position 128 w + (c mod 2) · 64. The list, once the tile's 128 columns of the transposed row numbers
  are copied into it, reads through chunk c's window the row numbers at positions 128 w + (c mod 2) · 64 … of row c / 2, all
  in range; a gather through that window delivers, at (y₀, y₁), entry y₁ of the table's row named at position y₀ of the
  window; and the piece of the result the program addresses for chunk c is the piece the cut names, holding the lookup
  once the chunk's rows are written to it. Index arithmetic throughout: a window's index is the offset plus the
  coordinate, a squeezed window's index is the coordinate behind a leading 0.
-/
import proofs.«206480_g70196945486151_cont_9to1_m_271_23_alg».proof.Proof.RingSpecIdeal
import proofs.«206480_g70196945486151_cont_9to1_m_271_23_alg».proof.Proof.CondsIdeal

noncomputable section

namespace Cert.Proof.KernelIdealSide

open Cert.KernelIdeal Cert.KernelIdeal.Gen
open Idealize.ShloMosaic
open Idealize.ShloMosaic.SparseCore (S V T)
open Cert.Proof.Geom (lOff oOff lOff_inb oOff_inb)

variable {F : FTy → Type}

/-! ## The printed offsets in closed form (second loop) -/

theorem off16_eq : ∀ t : Fin k0_t2_loop.trips, k0_off16 t = lOff (5 * t.val + 3) := by decide +kernel
theorem off20_eq : ∀ t : Fin k0_t2_loop.trips, k0_off20 t = lOff (5 * t.val + 4) := by decide +kernel
theorem off22_eq : ∀ t : Fin k0_t2_loop.trips, t.val ≠ 19 → k0_off22 t = lOff (5 * t.val + 5) := by decide +kernel
theorem off24_eq : ∀ t : Fin k0_t2_loop.trips, t.val ≠ 19 → k0_off24 t = lOff (5 * t.val + 6) := by decide +kernel
theorem off26_eq : ∀ t : Fin k0_t2_loop.trips, t.val ≠ 19 → k0_off26 t = lOff (5 * t.val + 7) := by decide +kernel
theorem off18_eq (r : Fin 5) : ∀ (L : grid0.Coords) (t : Fin k0_t2_loop.trips), k0_off18 L t (BitVec.ofNat 32 r.val) = oOff (wL L) (5 * t.val + r.val) := by
  revert r; decide +kernel

/-- On the indexed axis 0 a gather's source index is the row the list names. -/
theorem gidx1 {s t : Shape} (hg : s.Gathers 0 t) (R : Fin (t.size hg.axis') → Fin (s.size hg.axis)) (y : t.Idx)
    (h0 : 0 < s.rank) : (hg.idx R y ⟨0, h0⟩).val = (R (y hg.axis')).val :=
  congrArg Fin.val (Shape.Gathers.idx_axis hg R y)

section

variable (m : (ℓ : Loc nD τ sig) → Buf (Elt F) ℓ) (d : Dev nD) (L : grid0.Coords)
variable (X : Buf (Elt F) (i1Loc d)) (LC : Buf (Elt F) ((TH d L).loc cc0_scratch0))

/-- The list holds the tile's columns of the transposed row numbers: chunk `c`'s window reads positions
    128 w + (c % 2) · 64 … of row c / 2. -/
def ListOK1 : Prop :=
  ∀ (c : ℕ) (_ : c < 100) (off : Fin 2 → ℕ) (_ : off = lOff c) (h : ∀ a, off a + S1x64.size a ≤ S50x128.size a)
    (h' : ∀ a, (Rect.unit (s := S50x128) off S1x64.size h).stride a = 1) (x : S64.Idx),
    View.read (Elt F) ((lV.slice (Rect.unit (s := S50x128) off S1x64.size h) h').squeeze S64 squeezes_S1x64_S64).view LC x
      = X (ixI (c / 2) (128 * (wL L).val + (c % 2) * 64 + (x 0).val))

/-- Every window of the list reads row numbers in range. -/
def ListIn1 : Prop :=
  ∀ (off : Fin 2 → ℕ) (h : ∀ a, off a + S1x64.size a ≤ S50x128.size a) (h' : ∀ a, (Rect.unit (s := S50x128) off S1x64.size h).stride a = 1) (x : S64.Idx),
    (View.read (Elt F) ((lV.slice (Rect.unit (s := S50x128) off S1x64.size h) h').squeeze S64 squeezes_S1x64_S64).view LC x).toNat < 100000

/-- After the copy of the tile's columns into the list (whatever it held before). -/
theorem listOK_of_copy1 (fl : Buf (Elt F) ((TH d L).loc cc0_scratch0)) :
    ListOK1 d L X (View.write (Elt F) lV.view fl
      (ReadAs.same.apply ((i1V.slice (Rect.unit (s := S50x4096) (k0_off1 L) S50x128.size (k0_off1_inb L)) (fun _ => rfl)).view.read (Elt F) X)) Finset.univ) := by
  intro c hc off hoff h h' x
  subst hoff
  rw [View.write_whole_univ]
  rw [View.read_apply, cast_eq, ReadAs.apply_same, View.read_apply, cast_eq]
  congr 1
  funext a
  refine Fin.ext ?_
  simp only [Memref.view_squeeze, Memref.view_slice, Memref.view_whole, View.emb_reshape, View.emb_slice, View.emb_whole,
    Function.Embedding.trans_apply, Function.Embedding.refl_apply, Equiv.coe_toEmbedding, Rect.emb_apply, Rect.off_unit, Rect.stride_unit]
  rw [Shape.reshapeEquiv_cons_one]
  have hw : (wL L).val = 16 * (L 0).val + (L 1).val := rfl
  have hL0 : (L 0).val < 2 := (L 0).isLt
  have hL1 : (L 1).val < 16 := (L 1).isLt
  have hx : (x 0).val < 64 := (x 0).isLt
  match a with
  | ⟨0, _⟩ =>
    show k0_off1 L 0 + 1 * (lOff c 0 + 1 * 0) = (c / 2) % 50
    rw [k0_off1_eq L]
    show 0 + 1 * (c / 2 + 1 * 0) = (c / 2) % 50
    omega
  | ⟨1, _⟩ =>
    show k0_off1 L 1 + 1 * (lOff c 1 + 1 * (x 0).val) = (128 * (wL L).val + c % 2 * 64 + (x 0).val) % 4096
    rw [k0_off1_eq L, hw]
    show 2048 * (L 0).val + 128 * (L 1).val + 1 * (c % 2 * 64 + 1 * (x 0).val) = _
    omega

theorem listIn_of_copy1 (hX : ∀ j, (X j).toNat < 100000) (fl : Buf (Elt F) ((TH d L).loc cc0_scratch0)) :
    ListIn1 d L (View.write (Elt F) lV.view fl
      (ReadAs.same.apply ((i1V.slice (Rect.unit (s := S50x4096) (k0_off1 L) S50x128.size (k0_off1_inb L)) (fun _ => rfl)).view.read (Elt F) X)) Finset.univ) := by
  intro off h h' x
  rw [View.write_whole_univ, View.read_apply, cast_eq, ReadAs.apply_same, View.read_apply, cast_eq]
  exact hX _

/-- What a gather of chunk `c` delivers. -/
theorem gather_val1 (hL : ListOK1 d L X LC) (hX : ∀ j, (X j).toNat < 100000) (c : ℕ) (hc : c < 100) (off : Fin 2 → ℕ) (hoff : off = lOff c)
    (h : ∀ a, off a + S1x64.size a ≤ S50x128.size a) (h' : ∀ a, (Rect.unit (s := S50x128) off S1x64.size h).stride a = 1)
    (hn : S64.numel = S64x128.size gathers_S100000x128_S64x128.axis')
    (hin : ∀ x, (View.read (Elt F) ((lV.slice (Rect.unit (s := S50x128) off S1x64.size h) h').squeeze S64 squeezes_S1x64_S64).view LC x).toNat
      < S100000x128.size gathers_S100000x128_S64x128.axis) :
    SparseCore.gatherPayload gathers_S100000x128_S64x128
        ((t1V.slice (Rect.unit (s := S100000x128) ![0, 0] S100000x128.size inb_S100000x128_S100000x128_0_0) (fun _ => rfl)).view.read (Elt F) (m (t1Loc d)))
        (SparseCore.rows (View.read (Elt F) ((lV.slice (Rect.unit (s := S50x128) off S1x64.size h) h').squeeze S64 squeezes_S1x64_S64).view LC) hn hin)
      = GP (m (t1Loc d)) X (wL L) c := by
  subst hoff
  funext y
  have hx0 : ((S64.rowMajor.symm ((y gathers_S100000x128_S64x128.axis').cast hn.symm)) 0).val = (y 0).val :=
    (Shape.rowMajor_val_one _).symm.trans (congrArg Fin.val (Equiv.apply_symm_apply _ _))
  have hrow := hL c hc (lOff c) rfl h h' (S64.rowMajor.symm ((y gathers_S100000x128_S64x128.axis').cast hn.symm))
  unfold SparseCore.gatherPayload GP
  rw [View.read_apply, cast_eq]
  congr 1
  funext a
  refine Fin.ext ?_
  simp only [Memref.view_slice, Memref.view_whole, View.emb_slice, View.emb_whole,
    Function.Embedding.trans_apply, Function.Embedding.refl_apply, Rect.emb_apply, Rect.off_unit, Rect.stride_unit]
  simp only [Memref.view_squeeze, Memref.view_slice, Memref.view_whole] at hrow
  match a with
  | ⟨0, _⟩ =>
    show 0 + 1 * (gathers_S100000x128_S64x128.idx _ y ⟨0, _⟩).val = (Cert.Lookup.rowOf _).val
    rw [gidx1]
    unfold SparseCore.rows
    dsimp only
    rw [hrow, hx0, Cert.Lookup.rowOf_val (hX _)]
    omega
  | ⟨1, _⟩ =>
    show 0 + 1 * (y 1).val = (y 1).val
    omega

/-- Chunk `c`'s piece of the result, as the program addresses it, is the piece the cut names. -/
theorem piece_set1 (c : ℕ) (hc : c < 100) (off : Fin 3 → ℕ) (hoff : off = oOff (wL L) c) (h : ∀ a, off a + S1x64x128.size a ≤ S50x4096x128.size a) :
    ((o1V.slice (Rect.unit (s := S50x4096x128) off S1x64x128.size h) (fun _ => rfl)).squeeze S64x128 squeezes_S1x64x128_S64x128).view.set = opc (wL L) c := by
  subst hoff
  unfold opc Cert.Proof.Geom.opiece
  rw [dif_pos hc]
  simp only [Memref.view_squeeze, Memref.view_slice, Memref.view_whole, View.set_reshape, View.set_slice_whole]

/-- The piece written with the chunk's rows holds the lookup. -/
theorem piece_val1 (c : ℕ) (hc : c < 100) (off : Fin 3 → ℕ) (hoff : off = oOff (wL L) c) (h : ∀ a, off a + S1x64x128.size a ≤ S50x4096x128.size a)
    (fo : Buf (Elt F) (o1Loc d)) (p : S64x128.Idx → Elt F .f32) (hp : p = GP (m (t1Loc d)) X (wL L) c) :
    ∀ i ∈ opc (wL L) c,
      (((o1V.slice (Rect.unit (s := S50x4096x128) off S1x64x128.size h) (fun _ => rfl)).squeeze S64x128 squeezes_S1x64x128_S64x128).view.writes (Elt F) fo
        [⟨Rect.whole S64x128, p⟩] : Buf (Elt F) (o1Loc d)) i = (takeT (m (t1Loc d)) X : Buf (Elt F) (o1Loc d)) i := by
  subst hoff hp
  intro i hi
  rw [← piece_set1 L c hc _ rfl h] at hi
  obtain ⟨y, -, rfl⟩ := Finset.mem_map.mp hi
  have hr := congrFun (View.read_writes_whole
    ((o1V.slice (Rect.unit (s := S50x4096x128) (oOff (wL L) c) S1x64x128.size h) (fun _ => rfl)).squeeze S64x128 squeezes_S1x64x128_S64x128).view
    fo (GP (m (t1Loc d)) X (wL L) c)) y
  rw [View.read_apply, cast_eq] at hr
  rw [hr]
  obtain ⟨E, hE⟩ : ∃ E : S50x4096x128.Idx,
      E = (Rect.unit (s := S50x4096x128) (oOff (wL L) c) S1x64x128.size h).emb (Fin.cons ⟨0, Nat.one_pos⟩ y) := ⟨_, rfl⟩
  have key : ((o1V.slice (Rect.unit (s := S50x4096x128) (oOff (wL L) c) S1x64x128.size h) (fun _ => rfl)).squeeze S64x128
      squeezes_S1x64x128_S64x128).view.emb y = E := by
    rw [hE]
    show (Rect.unit (s := S50x4096x128) (oOff (wL L) c) S1x64x128.size h).emb (Shape.reshapeEquiv _ y) = _
    rw [Shape.reshapeEquiv_cons_one]
  have e0 : (E 0).val = c / 2 + 1 * 0 := by rw [hE]; rfl
  have e1 : (E 1).val = 128 * (wL L).val + c % 2 * 64 + 1 * (y 0).val := by rw [hE]; rfl
  have e2 : (E 2).val = 0 + 1 * (y 1).val := by rw [hE]; rfl
  have hw : (wL L).val < 32 := (wL L).isLt
  have hy0 : (y 0).val < 64 := (y 0).isLt
  have hA : ixI (c / 2) (128 * (wL L).val + c % 2 * 64 + (y 0).val) = ValueIdx.ix2 (E 0) (E 1) := by
    funext a
    match a with
    | ⟨0, _⟩ => exact Fin.ext (by show (c / 2) % 50 = (E 0).val; rw [e0]; omega)
    | ⟨1, _⟩ => exact Fin.ext (by show (128 * (wL L).val + c % 2 * 64 + (y 0).val) % 4096 = (E 1).val; rw [e1]; omega)
  have hB : E 2 = y 1 := Fin.ext (by rw [e2]; omega)
  rw [key]
  unfold GP takeT
  rw [hA, hB]
  rfl

end

end Cert.Proof.KernelIdealSide

end
-- ==== Proof.RingLem1Ideal.lean ====
/-
  How a flight the run has just issued is put in the invariant's form, second table: the rests of the shares it borrowed are
  framed into it and joined, the piece of the result it writes is restated at the lookup.
-/
import proofs.«206480_g70196945486151_cont_9to1_m_271_23_alg».proof.Proof.RingInv1Ideal
import proofs.«206480_g70196945486151_cont_9to1_m_271_23_alg».proof.Proof.RingVal1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d))

/-- The table's elements as a gather addresses them. -/
abbrev TSL1 : Finset S100000x128.Idx :=
  (t1V.slice (Rect.unit (s := S100000x128) ![0, 0] S100000x128.size inb_S100000x128_S100000x128_0_0) (fun _ => rfl)).view.set

/-- A gather just issued, with the rests of the two shares it borrowed from, is a gather in flight in the invariant's form. -/
theorem gfl_intro1 (bV : Memref sig .scVector .vmem S64x128 .f32) (gs : DmaSem sig) (s : Fin 5) (c : ℕ)
    (g : Buf (Elt F) (bV.view.loc (TH d L))) (hg : bV.view.read (Elt F) g = GP (m (t1Loc d)) X (wL L) c)
    (WIN : Finset S50x128.Idx) :
    (iprop(Transfers.Flight countersEmb (TH d L) (.dma gs) (default : HIx 1) 262144
        iprop(((bV.view.loc (TH d L) ↦[bV.view.set]{fullShare} g) ∗ ((lV).view.loc (TH d L) ↦[WIN]{lq s} LC))
          ∗ ((t1V).view.loc (TH d L) ↦[TSL1]{tq s} m (t1Loc d)))
      ∗ ((t1V).view.loc (TH d L) ↦[Finset.univ \ TSL1]{tq s} m (t1Loc d))
      ∗ ((lV).view.loc (TH d L) ↦[Finset.univ \ WIN]{lq s} LC)) : sProp (𝕄 F))
    ⊢ GFl1 m d L X LC lq tq bV gs s c := by
  unfold GFl1
  iintro ⟨Hf, Ht, Hl⟩
  iexists g
  isplitr
  · ipureintro; exact hg
  ihave H := (Transfers.Flight_frame countersEmb (TH d L)
      (R := iprop(((t1V).view.loc (TH d L) ↦[Finset.univ \ TSL1]{tq s} m (t1Loc d)) ∗ ((lV).view.loc (TH d L) ↦[Finset.univ \ WIN]{lq s} LC)))) $$ [Hf Ht Hl]
  · isplitr [Hf]
    · isplitl [Ht] <;> iassumption
    · iexact Hf
  iapply (Transfers.Flight_mono countersEmb (TH d L) ?_) $$ H
  iintro ⟨⟨Ht, Hl⟩, ⟨Hb, Hlw⟩, Hts⟩
  isplitl [Hb Hlw Hl]
  · isplitl [Hb]; · iexact Hb
    iapply (pointsTo_split_subset (Finset.subset_univ WIN)).2
    isplitl [Hlw] <;> iassumption
  · iapply (pointsTo_split_subset (Finset.subset_univ TSL1)).2
    isplitl [Hts] <;> iassumption

/-- The memref the program copies chunk r of trip t out through (second loop). -/
abbrev oPc1 (L : grid0.Coords) (t : Fin k0_t2_loop.trips) (r : Fin 5) : Memref sig .scVector .hbm S64x128 .f32 :=
  (o1V.slice (Rect.unit (s := S50x4096x128) (k0_off18 L t (BitVec.ofNat 32 r.val)) S1x64x128.size (k0_off18_inb L t r)) (fun _ => rfl)).squeeze S64x128 squeezes_S1x64x128_S64x128

theorem chunk_lt1 (t : Fin k0_t2_loop.trips) (r : Fin 5) : 5 * t.val + r.val < 100 := by
  have h1 := t.isLt; have h20 : k0_t2_loop.trips = 20 := trips2; have h2 := r.isLt; omega

/-- That memref's elements are the chunk's piece. -/
theorem oPc_set1 (t : Fin k0_t2_loop.trips) (r : Fin 5) : (oPc1 L t r).view.set = opc (wL L) (5 * t.val + r.val) :=
  piece_set1 L (5 * t.val + r.val) (chunk_lt1 t r) _ (off18_eq r L t) _

/-- The piece untouched, as the program addresses it. -/
theorem pc_eq1 (t : Fin k0_t2_loop.trips) (r : Fin 5) :
    ((oPc1 L t r).view.loc (TH d L) ↦[(oPc1 L t r).view.set]{fullShare} fo : sProp (𝕄 F)) = Pc1 d L fo (5 * t.val + r.val) := by
  unfold Pc1; rw [oPc_set1 L t r]

/-- The piece written with the chunk's rows is the piece at the lookup. -/
theorem done_eq1 (t : Fin k0_t2_loop.trips) (r : Fin 5) (p : S64x128.Idx → Elt F .f32) (hp : p = GP (m (t1Loc d)) X (wL L) (5 * t.val + r.val)) :
    ((oPc1 L t r).view.loc (TH d L) ↦[(oPc1 L t r).view.set]{fullShare} (oPc1 L t r).view.writes (Elt F) fo [⟨Rect.whole S64x128, p⟩] : sProp (𝕄 F))
      = Dc1 m d L X (5 * t.val + r.val) := by
  unfold Dc1; rw [oPc_set1 L t r]
  exact pointsTo_congr (piece_val1 m d L X (5 * t.val + r.val) (chunk_lt1 t r) _ (off18_eq r L t) _ fo p hp)

/-- A copy-out just issued is a copy-out in flight in the invariant's form. -/
theorem sfl_intro1 (bV : Memref sig .scVector .vmem S64x128 .f32) (ss : DmaSem sig) (t : Fin k0_t2_loop.trips) (r : Fin 5)
    (g : Buf (Elt F) (bV.view.loc (TH d L))) (p : S64x128.Idx → Elt F .f32) (hp : p = GP (m (t1Loc d)) X (wL L) (5 * t.val + r.val)) :
    (Transfers.Flight countersEmb (TH d L) (.dma ss) (default : HIx 1) 262144
        iprop(((oPc1 L t r).view.loc (TH d L) ↦[(oPc1 L t r).view.set]{fullShare} (oPc1 L t r).view.writes (Elt F) fo [⟨Rect.whole S64x128, p⟩])
          ∗ (bV.view.loc (TH d L) ↦[bV.view.set]{fullShare} g)) : sProp (𝕄 F))
      ⊢ SFl1 m d L X bV ss (5 * t.val + r.val) := by
  unfold SFl1
  refine BIBase.Entails.trans (Transfers.Flight_mono countersEmb (TH d L) (D' := iprop(((o1V).view.loc (TH d L) ↦[opc (wL L) (5 * t.val + r.val)]{fullShare} G1 m d X) ∗ (bV.view.loc (TH d L) ↦[bV.view.set]{fullShare} g))) ?_) ?_
  · have e := done_eq1 m d L X fo t r p hp
    unfold Dc1 at e
    iintro ⟨Ho, Hb⟩
    isplitl [Ho]
    · iapply (Entails.of_eq e) $$ Ho
    · iexact Hb
  · iintro H
    iexists g
    iexact H

end

end Cert.Proof.KernelIdealSide

end
-- ==== Proof.RingClose1Ideal.lean ====
/-
  The end of a middle trip of the second loop: what the run holds after the trip's twenty transfer steps is the invariant
  at the next trip.
-/
import proofs.«206480_g70196945486151_cont_9to1_m_271_23_alg».proof.Proof.RingLem1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

/-- The tile's debts with a longer list of waits made, each on a cell of the kernels' own index. -/
theorem owes_intro1 (W'' : Waits sig (HIx 1)) (hW'' : ∀ p ∈ W'', p ∈ W ∨ p.2 = none) :
    (owes (TH d L) O W'' : sProp (𝕄 F)) ⊢ Owes1 d L O W := by
  unfold Owes1
  iintro HO
  iexists W''
  isplitr
  · ipureintro; exact hW''
  · iexact HO

set_option maxHeartbeats 2000000 in
theorem close_mid1 (t : Fin k0_t2_loop.trips) (ht0 : t.val ≠ 0) (ht19 : t.val ≠ 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t1Loc d)) X (wL L) (5 * t.val + 5)) (hpg1 : pg1 = GP (m (t1Loc d)) X (wL L) (5 * t.val + 6))
    (hpg2 : pg2 = GP (m (t1Loc d)) X (wL L) (5 * t.val + 7))
    (hps0 : ps0 = GP (m (t1Loc d)) X (wL L) (5 * t.val + (0 : Fin 5).val)) (hps1 : ps1 = GP (m (t1Loc d)) X (wL L) (5 * t.val + (1 : Fin 5).val))
    (hps2 : ps2 = GP (m (t1Loc d)) X (wL L) (5 * t.val + (2 : Fin 5).val)) (hps3 : ps3 = GP (m (t1Loc d)) X (wL L) (5 * t.val + (3 : Fin 5).val))
    (hps4 : ps4 = GP (m (t1Loc d)) X (wL L) (5 * t.val + (4 : Fin 5).val))
    (WIN0 WIN1 WIN2 : Finset S50x128.Idx) :
    (iprop(((o1V).view.loc (TH d L) ↦[opc (wL L) (5 * t.val - 2)]{fullShare} G1 m d X) ∗ ((o1V).view.loc (TH d L) ↦[opc (wL L) (5 * t.val - 1)]{fullShare} G1 m d X)
      ∗ ((oPc1 L t 0).view.loc (TH d L) ↦[(oPc1 L t 0).view.set]{fullShare} (oPc1 L t 0).view.writes (Elt F) fo [⟨Rect.whole S64x128, ps0⟩])
      ∗ ((oPc1 L t 1).view.loc (TH d L) ↦[(oPc1 L t 1).view.set]{fullShare} (oPc1 L t 1).view.writes (Elt F) fo [⟨Rect.whole S64x128, ps1⟩])
      ∗ ((oPc1 L t 2).view.loc (TH d L) ↦[(oPc1 L t 2).view.set]{fullShare} (oPc1 L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t1V).view.loc (TH d L) ↦[TSL1]{tq 0} m (t1Loc d)))
      ∗ ((t1V).view.loc (TH d L) ↦[Finset.univ \ TSL1]{tq 0} m (t1Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t1V).view.loc (TH d L) ↦[TSL1]{tq 1} m (t1Loc d)))
      ∗ ((t1V).view.loc (TH d L) ↦[Finset.univ \ TSL1]{tq 1} m (t1Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t1V).view.loc (TH d L) ↦[TSL1]{tq 2} m (t1Loc d)))
      ∗ ((t1V).view.loc (TH d L) ↦[Finset.univ \ TSL1]{tq 2} m (t1Loc d)) ∗ ((lV).view.loc (TH d L) ↦[Finset.univ \ WIN2]{lq 2} LC)
      ∗ (semVal (TH d L, .dma cc0_scratch9.sem) 0 ∗ ((lV).view.loc (TH d L) ↦{lq 3} LC) ∗ ((t1V).view.loc (TH d L) ↦{tq 3} m (t1Loc d)))
      ∗ (semVal (TH d L, .dma cc0_scratch10.sem) 0 ∗ ((lV).view.loc (TH d L) ↦{lq 4} LC) ∗ ((t1V).view.loc (TH d L) ↦{tq 4} m (t1Loc d)))
      ∗ Transfers.Flight countersEmb (TH d L) (.dma cc0_scratch14.sem) (default : HIx 1) 262144
          iprop(((oPc1 L t 3).view.loc (TH d L) ↦[(oPc1 L t 3).view.set]{fullShare} (oPc1 L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc1 L t 4).view.loc (TH d L) ↦[(oPc1 L t 4).view.set]{fullShare} (oPc1 L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT1 d L fo) ∗ bigSep (Finset.range (t.val - 1)) (DT1 m d L X)
      ∗ ((o1V).view.loc (TH d L) ↦[opc (wL L) (5 * t.val - 5)]{fullShare} G1 m d X) ∗ ((o1V).view.loc (TH d L) ↦[opc (wL L) (5 * t.val - 4)]{fullShare} G1 m d X) ∗ ((o1V).view.loc (TH d L) ↦[opc (wL L) (5 * t.val - 3)]{fullShare} G1 m d X)
      ∗ Owes1 d L O W) : sProp (𝕄 F))
      ⊢ InvMid1 m d L X LC lq tq fo O W (t.val + 1) := by
  have ht1 : 1 ≤ t.val := Nat.one_le_iff_ne_zero.mpr ht0
  have eD : bigSep (Finset.range t.val) (DT1 m d L X) = iprop(bigSep (Finset.range (t.val - 1)) (DT1 m d L X) ∗ DT1 m d L X (t.val - 1)) := by
    have h := Geom.bigSep_range_succ' (Φ := DT1 m d L X) (t.val - 1)
    rwa [show t.val - 1 + 1 = t.val by omega] at h
  rw [InvMid1, IdleG1, IdleG1, show t.val + 1 - 1 = t.val by omega, eD, DT1,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc1
  have e0 := done_eq1 m d L X fo t 0 ps0 hps0
  have e1 := done_eq1 m d L X fo t 1 ps1 hps1
  have e2 := done_eq1 m d L X fo t 2 ps2 hps2
  unfold Dc1 at e0 e1 e2
  iintro ⟨HD2, HD1, HO0, HO1, HO2, HS0, HS1, HS2, HF0, HT0r, HL0r, HF1, HT1r, HL1r, HF2, HT2r, HL2r, HI3, HI4, HFS3, HFS4, HTodo, HDone, HD5, HD4, HD3, HO⟩
  isplitl [HF0 HT0r HL0r]
  · iapply (gfl_intro1 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro1 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro1 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro1 m d L X fo b3V cc0_scratch14.sem t 3 _ ps3 hps3) $$ HFS3
  isplitl [HFS4]
  · iapply (sfl_intro1 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelIdealSide

end
-- ==== Proof.RingCloseFirst1Ideal.lean ====
/-
  The end of the first trip of the second loop: what the run holds after the trip's transfer steps is the invariant at the
  second trip. Nothing was copied out before the first trip, so there is no earlier store to await and no earlier piece at
  the lookup: the finished trips' pieces are an iterated conjunction over the empty range, and the three loose pieces are
  the trip's own chunks 0, 1, 2.
-/
import proofs.«206480_g70196945486151_cont_9to1_m_271_23_alg».proof.Proof.RingClose1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

set_option maxHeartbeats 2000000 in
theorem close_first1 (t : Fin k0_t2_loop.trips) (ht : t.val = 0)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t1Loc d)) X (wL L) (5 * t.val + 5)) (hpg1 : pg1 = GP (m (t1Loc d)) X (wL L) (5 * t.val + 6))
    (hpg2 : pg2 = GP (m (t1Loc d)) X (wL L) (5 * t.val + 7))
    (hps0 : ps0 = GP (m (t1Loc d)) X (wL L) (5 * t.val + (0 : Fin 5).val)) (hps1 : ps1 = GP (m (t1Loc d)) X (wL L) (5 * t.val + (1 : Fin 5).val))
    (hps2 : ps2 = GP (m (t1Loc d)) X (wL L) (5 * t.val + (2 : Fin 5).val)) (hps3 : ps3 = GP (m (t1Loc d)) X (wL L) (5 * t.val + (3 : Fin 5).val))
    (hps4 : ps4 = GP (m (t1Loc d)) X (wL L) (5 * t.val + (4 : Fin 5).val))
    (WIN0 WIN1 WIN2 : Finset S50x128.Idx) :
    (iprop(((oPc1 L t 0).view.loc (TH d L) ↦[(oPc1 L t 0).view.set]{fullShare} (oPc1 L t 0).view.writes (Elt F) fo [⟨Rect.whole S64x128, ps0⟩])
      ∗ ((oPc1 L t 1).view.loc (TH d L) ↦[(oPc1 L t 1).view.set]{fullShare} (oPc1 L t 1).view.writes (Elt F) fo [⟨Rect.whole S64x128, ps1⟩])
      ∗ ((oPc1 L t 2).view.loc (TH d L) ↦[(oPc1 L t 2).view.set]{fullShare} (oPc1 L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t1V).view.loc (TH d L) ↦[TSL1]{tq 0} m (t1Loc d)))
      ∗ ((t1V).view.loc (TH d L) ↦[Finset.univ \ TSL1]{tq 0} m (t1Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t1V).view.loc (TH d L) ↦[TSL1]{tq 1} m (t1Loc d)))
      ∗ ((t1V).view.loc (TH d L) ↦[Finset.univ \ TSL1]{tq 1} m (t1Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t1V).view.loc (TH d L) ↦[TSL1]{tq 2} m (t1Loc d)))
      ∗ ((t1V).view.loc (TH d L) ↦[Finset.univ \ TSL1]{tq 2} m (t1Loc d)) ∗ ((lV).view.loc (TH d L) ↦[Finset.univ \ WIN2]{lq 2} LC)
      ∗ (semVal (TH d L, .dma cc0_scratch9.sem) 0 ∗ ((lV).view.loc (TH d L) ↦{lq 3} LC) ∗ ((t1V).view.loc (TH d L) ↦{tq 3} m (t1Loc d)))
      ∗ (semVal (TH d L, .dma cc0_scratch10.sem) 0 ∗ ((lV).view.loc (TH d L) ↦{lq 4} LC) ∗ ((t1V).view.loc (TH d L) ↦{tq 4} m (t1Loc d)))
      ∗ Transfers.Flight countersEmb (TH d L) (.dma cc0_scratch14.sem) (default : HIx 1) 262144
          iprop(((oPc1 L t 3).view.loc (TH d L) ↦[(oPc1 L t 3).view.set]{fullShare} (oPc1 L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc1 L t 4).view.loc (TH d L) ↦[(oPc1 L t 4).view.set]{fullShare} (oPc1 L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT1 d L fo)
      ∗ Owes1 d L O W) : sProp (𝕄 F))
      ⊢ InvMid1 m d L X LC lq tq fo O W (t.val + 1) := by
  have eD : bigSep (Finset.range t.val) (DT1 m d L X) = bigSep ∅ (DT1 m d L X) := by rw [ht, Finset.range_zero]
  rw [InvMid1, IdleG1, IdleG1, show t.val + 1 - 1 = t.val by omega, eD,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc1
  have e0 := done_eq1 m d L X fo t 0 ps0 hps0
  have e1 := done_eq1 m d L X fo t 1 ps1 hps1
  have e2 := done_eq1 m d L X fo t 2 ps2 hps2
  unfold Dc1 at e0 e1 e2
  iintro ⟨HO0, HO1, HO2, HS0, HS1, HS2, HF0, HT0r, HL0r, HF1, HT1r, HL1r, HF2, HT2r, HL2r, HI3, HI4, HFS3, HFS4, HTodo, HO⟩
  isplitl [HF0 HT0r HL0r]
  · iapply (gfl_intro1 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro1 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro1 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro1 m d L X fo b3V cc0_scratch14.sem t 3 _ ps3 hps3) $$ HFS3
  isplitl [HFS4]
  · iapply (sfl_intro1 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitr [HO0 HO1 HO2 HO]
  · rw [bigSep_empty]; iempintro
  isplitl [HO0]; · iapply (Entails.of_eq e0) $$ HO0
  isplitl [HO1]; · iapply (Entails.of_eq e1) $$ HO1
  isplitl [HO2]; · iapply (Entails.of_eq e2) $$ HO2
  iexact HO

end

end Cert.Proof.KernelIdealSide

end
-- ==== Proof.RingTripFirst1Ideal.lean ====
/-
  The first trip of the second loop: no copy-out is in flight yet, so the waits for chunks −2 and −1 are skipped; otherwise as a
  middle trip: the gathers of chunks 3 … 7 are started, those of chunks 0 … 4 awaited and their copies out started, the copies
  out of chunks 0, 1, 2 awaited.
-/
import proofs.«206480_g70196945486151_cont_9to1_m_271_23_alg».proof.Proof.RingCloseFirst1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_first1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32)
    (t : Fin k0_t2_loop.trips) (ht : t.val = 0) :
    (iprop(levAts (K (F := F)).L (K (F := F)).lev ∗ Inv01 m d L X LC lq tq fo O W) : sProp (𝕄 F))
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid1 m d L X LC lq tq fo O W (t.val + 1))) := by
  have ht19 : t.val ≠ 19 := by omega
  have h1 := (cond11_iff t).not.2 (not_not.2 ht)
  have h3 := (cond13_iff t).not.2 (not_not.2 ht)
  have h5 := cond15_all t
  have h7 := cond17_all t
  have h9 := cond19_all t
  have h2 := cond12_all t
  have h4 := cond14_all t
  have h6 := (cond16_iff t).2 ht19
  have h8 := (cond18_iff t).2 ht19
  have h10 := (cond20_iff t).2 ht19
  have ht20 : t.val < 20 := by have h := t.isLt; have e : k0_t2_loop.trips = 20 := trips2; omega
  have hinL := hIn
  unfold ListIn1 at hinL
  have eT : bigSep (Finset.Ico 0 20) (PT1 d L fo) = (iprop(PT1 d L fo t.val ∗ bigSep (Finset.Ico (t.val + 1) 20) (PT1 d L fo)) : sProp (𝕄 F)) := by
    rw [ht]; exact Geom.bigSep_Ico_head (by decide)
  rw [Inv01, GFl1, GFl1, GFl1, IdleB1, IdleB1, IdleG1, IdleG1, Owes1, eT, PT1]
  unfold k0_t2_body
  iintro ⟨#Hlv, ⟨%g0, %hg0, Hg0⟩, ⟨%g1, %hg1, Hg1⟩, ⟨%g2, %hg2, Hg2⟩, ⟨%g3, Hb3⟩, ⟨%g4, Hb4⟩, Hs3, Hs4, ⟨Hg3, Hl3, Ht3⟩, ⟨Hg4, Hl4, Ht4⟩, Hs0, Hs1, Hs2, ⟨⟨HP0, HP1, HP2, HP3, HP4⟩, HTodo⟩, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq1 d L fo t 0).symm) $$ HP0
  ihave Ho1 := (Entails.of_eq (pc_eq1 d L fo t 1).symm) $$ HP1
  ihave Ho2 := (Entails.of_eq (pc_eq1 d L fo t 2).symm) $$ HP2
  ihave Ho3 := (Entails.of_eq (pc_eq1 d L fo t 3).symm) $$ HP3
  ihave Ho4 := (Entails.of_eq (pc_eq1 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_first1 m d L X LC lq tq fo O W t ht g0 g1 g2 g3 g4 _ _ _ _ _ _ _ _ _ _ (gather_val1 m d L X LC hL hX (5 * t.val + 5) (by omega) _ (off22_eq t ht19) _ _ _ _) (gather_val1 m d L X LC hL hX (5 * t.val + 6) (by omega) _ (off24_eq t ht19) _ _ _ _) (gather_val1 m d L X LC hL hX (5 * t.val + 7) (by omega) _ (off26_eq t ht19) _ _ _ _) (hg0.trans (congrArg (GP (m (t1Loc d)) X (wL L)) (by rw [ht]; try rfl))) (hg1.trans (congrArg (GP (m (t1Loc d)) X (wL L)) (by rw [ht]; try rfl))) (hg2.trans (congrArg (GP (m (t1Loc d)) X (wL L)) (by rw [ht]; try rfl))) ((View.read_writes_whole _ _ _).trans (gather_val1 m d L X LC hL hX (5 * t.val + 3) (by omega) _ (off16_eq t) _ _ _ _)) ((View.read_writes_whole _ _ _).trans (gather_val1 m d L X LC hL hX (5 * t.val + 4) (by omega) _ (off20_eq t) _ _ _ _)) _ _ _) $$ [Ho0 Ho1 Ho2 Hs0 Hs1 Hs2 Hg0 Hg0_src Hl0 Hg1 Hg1_src Hl1 Hg2 Hg2_src Hl2 Hg3 Hl3 Ht3 Hg4 Hl4 Ht4 Hs3 Hs4 HTodo HO]
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  iapply (owes_intro1 d L O W _ ?_) $$ HO
  intro p hp
  repeat (rcases Finset.mem_insert.mp hp with hp | hp; · exact .inr (hp ▸ rfl))
  exact hW' p hp

end Cert.Proof.KernelIdealSide

end
-- ==== Proof.RingTripMid1Ideal.lean ====
/-
  A middle trip (1 ≤ t ≤ 18) of the second loop. The trip awaits the copies out of chunks 5 t − 2 … 5 t + 2, starts the gathers of
  chunks 5 t + 3 … 5 t + 7, awaits the gathers of chunks 5 t … 5 t + 4 and starts their copies out; each slot's cell carries one
  transfer at a time, and a slot is written again only after its copy-out has been awaited.
-/
import proofs.«206480_g70196945486151_cont_9to1_m_271_23_alg».proof.Proof.RingClose1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_mid1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32)
    (t : Fin k0_t2_loop.trips) (ht0 : t.val ≠ 0) (ht19 : t.val ≠ 19) :
    (iprop(levAts (K (F := F)).L (K (F := F)).lev ∗ InvMid1 m d L X LC lq tq fo O W t.val) : sProp (𝕄 F))
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid1 m d L X LC lq tq fo O W (t.val + 1))) := by
  have h1 := (cond11_iff t).2 ht0
  have h3 := (cond13_iff t).2 ht0
  have h5 := cond15_all t
  have h7 := cond17_all t
  have h9 := cond19_all t
  have h2 := cond12_all t
  have h4 := cond14_all t
  have h6 := (cond16_iff t).2 ht19
  have h8 := (cond18_iff t).2 ht19
  have h10 := (cond20_iff t).2 ht19
  have ht20 : t.val < 20 := by have h := t.isLt; have e : k0_t2_loop.trips = 20 := trips2; omega
  have hinL := hIn
  unfold ListIn1 at hinL
  rw [InvMid1, GFl1, GFl1, GFl1, SFl1, SFl1, IdleG1, IdleG1, Owes1, Geom.bigSep_Ico_head ht20, PT1, Dc1, Dc1, Dc1]
  unfold k0_t2_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq1 d L fo t 0).symm) $$ HP0
  ihave Ho1 := (Entails.of_eq (pc_eq1 d L fo t 1).symm) $$ HP1
  ihave Ho2 := (Entails.of_eq (pc_eq1 d L fo t 2).symm) $$ HP2
  ihave Ho3 := (Entails.of_eq (pc_eq1 d L fo t 3).symm) $$ HP3
  ihave Ho4 := (Entails.of_eq (pc_eq1 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_mid1 m d L X LC lq tq fo O W t ht0 ht19 g0 g1 g2 g3 g4 _ _ _ _ _ _ _ _ _ _ (gather_val1 m d L X LC hL hX (5 * t.val + 5) (by omega) _ (off22_eq t ht19) _ _ _ _) (gather_val1 m d L X LC hL hX (5 * t.val + 6) (by omega) _ (off24_eq t ht19) _ _ _ _) (gather_val1 m d L X LC hL hX (5 * t.val + 7) (by omega) _ (off26_eq t ht19) _ _ _ _) hg0 hg1 hg2 ((View.read_writes_whole _ _ _).trans (gather_val1 m d L X LC hL hX (5 * t.val + 3) (by omega) _ (off16_eq t) _ _ _ _)) ((View.read_writes_whole _ _ _).trans (gather_val1 m d L X LC hL hX (5 * t.val + 4) (by omega) _ (off20_eq t) _ _ _ _)) _ _ _) $$ [Hs3_dst Hs4_dst Ho0 Ho1 Ho2 Hs0 Hs1 Hs2 Hg0 Hg0_src Hl0 Hg1 Hg1_src Hl1 Hg2 Hg2_src Hl2 Hg3 Hl3 Ht3 Hg4 Hl4 Ht4 Hs3 Hs4 HTodo HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  isplitl [HDone]; · iexact HDone
  isplitl [HD5]; · iexact HD5
  isplitl [HD4]; · iexact HD4
  isplitl [HD3]; · iexact HD3
  iapply (owes_intro1 d L O W _ ?_) $$ HO
  intro p hp
  repeat (rcases Finset.mem_insert.mp hp with hp | hp; · exact .inr (hp ▸ rfl))
  exact hW' p hp

end Cert.Proof.KernelIdealSide

end
-- ==== Proof.RingCloseLast1Ideal.lean ====
/-
  The end of the last trip of the second loop: no gather is started for slots 0, 1, 2, which end at rest with their cells at
  zero and their read shares back; the copies out of the last two chunks are in flight; every earlier chunk's piece holds
  the lookup. The finished trips' pieces are those of the trips before the previous one, then the previous trip's five
  (three loose, two just drained), and the last trip's first three are loose.
-/
import proofs.«206480_g70196945486151_cont_9to1_m_271_23_alg».proof.Proof.RingClose1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

set_option maxHeartbeats 2000000 in
theorem close_last1 (t : Fin k0_t2_loop.trips) (ht : t.val = 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg3 pg4 ps0 ps1 ps2 ps3 ps4 : S64x128.Idx → Elt F .f32)
    (hps0 : ps0 = GP (m (t1Loc d)) X (wL L) (5 * t.val + (0 : Fin 5).val)) (hps1 : ps1 = GP (m (t1Loc d)) X (wL L) (5 * t.val + (1 : Fin 5).val))
    (hps2 : ps2 = GP (m (t1Loc d)) X (wL L) (5 * t.val + (2 : Fin 5).val)) (hps3 : ps3 = GP (m (t1Loc d)) X (wL L) (5 * t.val + (3 : Fin 5).val))
    (hps4 : ps4 = GP (m (t1Loc d)) X (wL L) (5 * t.val + (4 : Fin 5).val)) :
    (iprop(((o1V).view.loc (TH d L) ↦[opc (wL L) (5 * t.val - 2)]{fullShare} G1 m d X) ∗ ((o1V).view.loc (TH d L) ↦[opc (wL L) (5 * t.val - 1)]{fullShare} G1 m d X)
      ∗ ((oPc1 L t 0).view.loc (TH d L) ↦[(oPc1 L t 0).view.set]{fullShare} (oPc1 L t 0).view.writes (Elt F) fo [⟨Rect.whole S64x128, ps0⟩])
      ∗ ((oPc1 L t 1).view.loc (TH d L) ↦[(oPc1 L t 1).view.set]{fullShare} (oPc1 L t 1).view.writes (Elt F) fo [⟨Rect.whole S64x128, ps1⟩])
      ∗ ((oPc1 L t 2).view.loc (TH d L) ↦[(oPc1 L t 2).view.set]{fullShare} (oPc1 L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ ((b0V).view.loc (TH d L) ↦[(b0V).view.set]{fullShare} g0) ∗ ((b1V).view.loc (TH d L) ↦[(b1V).view.set]{fullShare} g1) ∗ ((b2V).view.loc (TH d L) ↦[(b2V).view.set]{fullShare} g2)
      ∗ (semVal (TH d L, .dma cc0_scratch6.sem) 0 ∗ ((lV).view.loc (TH d L) ↦{lq 0} LC) ∗ ((t1V).view.loc (TH d L) ↦{tq 0} m (t1Loc d)))
      ∗ (semVal (TH d L, .dma cc0_scratch7.sem) 0 ∗ ((lV).view.loc (TH d L) ↦{lq 1} LC) ∗ ((t1V).view.loc (TH d L) ↦{tq 1} m (t1Loc d)))
      ∗ (semVal (TH d L, .dma cc0_scratch8.sem) 0 ∗ ((lV).view.loc (TH d L) ↦{lq 2} LC) ∗ ((t1V).view.loc (TH d L) ↦{tq 2} m (t1Loc d)))
      ∗ (semVal (TH d L, .dma cc0_scratch9.sem) 0 ∗ ((lV).view.loc (TH d L) ↦{lq 3} LC) ∗ ((t1V).view.loc (TH d L) ↦{tq 3} m (t1Loc d)))
      ∗ (semVal (TH d L, .dma cc0_scratch10.sem) 0 ∗ ((lV).view.loc (TH d L) ↦{lq 4} LC) ∗ ((t1V).view.loc (TH d L) ↦{tq 4} m (t1Loc d)))
      ∗ Transfers.Flight countersEmb (TH d L) (.dma cc0_scratch14.sem) (default : HIx 1) 262144
          iprop(((oPc1 L t 3).view.loc (TH d L) ↦[(oPc1 L t 3).view.set]{fullShare} (oPc1 L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc1 L t 4).view.loc (TH d L) ↦[(oPc1 L t 4).view.set]{fullShare} (oPc1 L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.range (t.val - 1)) (DT1 m d L X)
      ∗ ((o1V).view.loc (TH d L) ↦[opc (wL L) (5 * t.val - 5)]{fullShare} G1 m d X) ∗ ((o1V).view.loc (TH d L) ↦[opc (wL L) (5 * t.val - 4)]{fullShare} G1 m d X) ∗ ((o1V).view.loc (TH d L) ↦[opc (wL L) (5 * t.val - 3)]{fullShare} G1 m d X)
      ∗ Owes1 d L O W) : sProp (𝕄 F))
      ⊢ InvEnd1 m d L X LC lq tq O W := by
  have eD : bigSep (Finset.range 19) (DT1 m d L X) = iprop(bigSep (Finset.range (t.val - 1)) (DT1 m d L X) ∗ DT1 m d L X (t.val - 1)) := by
    have h := Geom.bigSep_range_succ' (Φ := DT1 m d L X) (t.val - 1)
    rwa [show t.val - 1 + 1 = 19 by omega] at h
  unfold InvEnd1 IdleG1 IdleB1
  rw [eD, DT1,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show (98 : ℕ) = 5 * t.val + (3 : Fin 5).val by show _ = 5 * t.val + 3; omega,
    show (99 : ℕ) = 5 * t.val + (4 : Fin 5).val by show _ = 5 * t.val + 4; omega,
    show (95 : ℕ) = 5 * t.val + (0 : Fin 5).val by show _ = 5 * t.val + 0; omega,
    show (96 : ℕ) = 5 * t.val + (1 : Fin 5).val by show _ = 5 * t.val + 1; omega,
    show (97 : ℕ) = 5 * t.val + (2 : Fin 5).val by show _ = 5 * t.val + 2; omega]
  unfold Dc1
  have e0 := done_eq1 m d L X fo t 0 ps0 hps0
  have e1 := done_eq1 m d L X fo t 1 ps1 hps1
  have e2 := done_eq1 m d L X fo t 2 ps2 hps2
  unfold Dc1 at e0 e1 e2
  iintro ⟨HD2, HD1, HO0, HO1, HO2, HS0, HS1, HS2, HB0, HB1, HB2, HI0, HI1, HI2, HI3, HI4, HFS3, HFS4, HDone, HD5, HD4, HD3, HO⟩
  isplitl [HFS3]
  · iapply (sfl_intro1 m d L X fo b3V cc0_scratch14.sem t 3 _ ps3 hps3) $$ HFS3
  isplitl [HFS4]
  · iapply (sfl_intro1 m d L X fo b4V cc0_scratch15.sem t 4 _ ps4 hps4) $$ HFS4
  isplitl [HB0]; · iexists g0; iexact HB0
  isplitl [HB1]; · iexists g1; iexact HB1
  isplitl [HB2]; · iexists g2; iexact HB2
  isplitl [HI0]; · iexact HI0
  isplitl [HI1]; · iexact HI1
  isplitl [HI2]; · iexact HI2
  isplitl [HI3]; · iexact HI3
  isplitl [HI4]; · iexact HI4
  isplitl [HS0]; · iexact HS0
  isplitl [HS1]; · iexact HS1
  isplitl [HS2]; · iexact HS2
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelIdealSide

end
-- ==== Proof.RingTripLast1Ideal.lean ====
/-
  The last trip (t = 19) of the second loop: chunks 100, 101, 102 do not exist, so no gather is started for slots 0, 1, 2, which end
  the trip at rest; otherwise as a middle trip. The copies out of chunks 98 and 99 are left in flight for the waits after the loop.
-/
import proofs.«206480_g70196945486151_cont_9to1_m_271_23_alg».proof.Proof.RingCloseLast1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_last1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32)
    (t : Fin k0_t2_loop.trips) (ht : t.val = 19) :
    (iprop(levAts (K (F := F)).L (K (F := F)).lev ∗ InvMid1 m d L X LC lq tq fo O W t.val) : sProp (𝕄 F))
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvEnd1 m d L X LC lq tq O W)) := by
  have ht0 : t.val ≠ 0 := by omega
  have h1 := (cond11_iff t).2 ht0
  have h3 := (cond13_iff t).2 ht0
  have h5 := cond15_all t
  have h7 := cond17_all t
  have h9 := cond19_all t
  have h2 := cond12_all t
  have h4 := cond14_all t
  have h6 := (cond16_iff t).not.2 (not_not.2 ht)
  have h8 := (cond18_iff t).not.2 (not_not.2 ht)
  have h10 := (cond20_iff t).not.2 (not_not.2 ht)
  have ht20 : t.val < 20 := by have h := t.isLt; have e : k0_t2_loop.trips = 20 := trips2; omega
  have hinL := hIn
  unfold ListIn1 at hinL
  rw [InvMid1, GFl1, GFl1, GFl1, SFl1, SFl1, IdleG1, IdleG1, Owes1, Geom.bigSep_Ico_head ht20, PT1, Dc1, Dc1, Dc1]
  unfold k0_t2_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq1 d L fo t 0).symm) $$ HP0
  ihave Ho1 := (Entails.of_eq (pc_eq1 d L fo t 1).symm) $$ HP1
  ihave Ho2 := (Entails.of_eq (pc_eq1 d L fo t 2).symm) $$ HP2
  ihave Ho3 := (Entails.of_eq (pc_eq1 d L fo t 3).symm) $$ HP3
  ihave Ho4 := (Entails.of_eq (pc_eq1 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_last1 m d L X LC lq tq fo O W t ht g0 g1 g2 g3 g4 _ _ _ _ _ _ _ hg0 hg1 hg2 ((View.read_writes_whole _ _ _).trans (gather_val1 m d L X LC hL hX (5 * t.val + 3) (by omega) _ (off16_eq t) _ _ _ _)) ((View.read_writes_whole _ _ _).trans (gather_val1 m d L X LC hL hX (5 * t.val + 4) (by omega) _ (off20_eq t) _ _ _ _))) $$ [Hs3_dst Hs4_dst Ho0 Ho1 Ho2 Hs0 Hs1 Hs2 Hb0 Hb1 Hb2 Hg0 Hl0 Hg0_src Hg1 Hl1 Hg1_src Hg2 Hl2 Hg2_src Hg3 Hl3 Ht3 Hg4 Hl4 Ht4 Hs3 Hs4 HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hb0]; · iexact Hb0
  isplitl [Hb1]; · iexact Hb1
  isplitl [Hb2]; · iexact Hb2
  isplitl [Hg0 Hl0 Hg0_src]
  · isplitl [Hg0]; · iexact Hg0
    isplitl [Hl0]; · iexact Hl0
    iexact Hg0_src
  isplitl [Hg1 Hl1 Hg1_src]
  · isplitl [Hg1]; · iexact Hg1
    isplitl [Hl1]; · iexact Hl1
    iexact Hg1_src
  isplitl [Hg2 Hl2 Hg2_src]
  · isplitl [Hg2]; · iexact Hg2
    isplitl [Hl2]; · iexact Hl2
    iexact Hg2_src
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HDone]; · iexact HDone
  isplitl [HD5]; · iexact HD5
  isplitl [HD4]; · iexact HD4
  isplitl [HD3]; · iexact HD3
  iapply (owes_intro1 d L O W _ ?_) $$ HO
  intro p hp
  repeat (rcases Finset.mem_insert.mp hp with hp | hp; · exact .inr (hp ▸ rfl))
  exact hW' p hp

end Cert.Proof.KernelIdealSide

end
-- ==== Proof.RingStep1Ideal.lean ====
/-
  One trip of the second loop keeps the ring's invariant: the first, a middle and the last trip.
-/
import proofs.«206480_g70196945486151_cont_9to1_m_271_23_alg».proof.Proof.RingTripFirst1Ideal
import proofs.«206480_g70196945486151_cont_9to1_m_271_23_alg».proof.Proof.RingTripMid1Ideal
import proofs.«206480_g70196945486151_cont_9to1_m_271_23_alg».proof.Proof.RingTripLast1Ideal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 2000000 in
theorem step1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32) (k : Fin k0_t2_loop.trips) :
    inv1 m d L X LC lq tq fo O W k.val
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 k ())
          (fun _ => inv1 m d L X LC lq tq fo O W (k.val + 1)) := by
  have hk : k.val < 20 := by have h := k.isLt; have e : k0_t2_loop.trips = 20 := trips2; omega
  unfold inv1
  by_cases h0 : k.val = 0
  · rw [if_pos h0, if_neg (show ¬ k.val + 1 = 0 by omega), if_neg (show ¬ k.val + 1 = 20 by omega)]
    exact trip_first1 m hF d L X hX LC hL hIn lq tq fo O W hO v2 k h0
  · by_cases h19 : k.val = 19
    · rw [if_neg h0, if_neg (show ¬ k.val = 20 by omega), if_neg (show ¬ k.val + 1 = 0 by omega), if_pos (show k.val + 1 = 20 by omega)]
      exact trip_last1 m hF d L X hX LC hL hIn lq tq fo O W hO v2 k h19
    · rw [if_neg h0, if_neg (show ¬ k.val = 20 by omega), if_neg (show ¬ k.val + 1 = 0 by omega), if_neg (show ¬ k.val + 1 = 20 by omega)]
      exact trip_mid1 m hF d L X hX LC hL hIn lq tq fo O W hO v2 k h0 h19

end Cert.Proof.KernelIdealSide

end
-- ==== Proof.Part20Ideal.lean ====
/-
  The tile's task from the first table's last copy-out to the second table's last but one. The tile waits for the copy-out of the
  first table's chunk 99 — its band of the first result then holds the lookup whole —, and does for the second table what it did for
  the first: the copy of its columns of the second array of row numbers into the list, the gathers of chunks 0, 1, 2, the ring's
  twenty trips, the wait for the copy-out of chunk 98.
-/
import proofs.«206480_g70196945486151_cont_9to1_m_271_23_alg».proof.Proof.Part19Ideal
import proofs.«206480_g70196945486151_cont_9to1_m_271_23_alg».proof.Proof.RingBand1Ideal
import proofs.«206480_g70196945486151_cont_9to1_m_271_23_alg».proof.Proof.RingLem1Ideal
import proofs.«206480_g70196945486151_cont_9to1_m_271_23_alg».proof.Proof.RingStep1Ideal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

variable [FloatOps F]

set_option maxHeartbeats 8000000 in
theorem part20_spec (m : (ℓ : Loc nD τ sig) → Buf (Elt F) ℓ) (hF : (K (F := F)).Facts) (d : Dev nD) (L : grid0.Coords)
    (XA : Buf (Elt F) (i0Loc d)) (qA qiA : PosShare TreeShare)
    (X : Buf (Elt F) (i1Loc d)) (hX : ∀ j, (X j).toNat < 100000) (fo : Buf (Elt F) (o1Loc d)) (q0 qi0 : PosShare TreeShare)
    (O : CellTallies nD τ sig (HIx 1)) (W : Waits sig (HIx 1)) (hO : ∀ g, O g none = 0) (v2 : BitVec 32) :
    (iprop(levAts (K (F := F)).L (K (F := F)).lev
        ∗ MidT0 m d L XA qA qiA cc0_scoped0.sem O W
        ∗ (t1Loc d ↦{q0} m (t1Loc d)) ∗ (i1Loc d ↦{qi0} X) ∗ (o1Loc d ↦[oBandSet (wL L)]{fullShare} fo)
        ∗ semVal (TH d L, .dma cc0_scoped1.sem) 0) : sProp (𝕄 F))
      ⊢ wp frame (wpE (defs₀ (F := F)) 𝒱₀ (TH d L) none) Set.univ
          (k0_part20 L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2)
          fun _ => iprop(((t0Loc d ↦{qA} m (t0Loc d)) ∗ (i0Loc d ↦{qiA} XA) ∗ (o0Loc d ↦[oBandSet (wL L)]{fullShare} G0 m d XA)
              ∗ semVal (TH d L, .dma cc0_scoped0.sem) 0)
            ∗ MidT1 m d L X q0 qi0 cc0_scoped1.sem O W) := by
  simp only [k0_part20_eq_skeleton]; unfold k0_part20_skel
  unfold MidT0 SFl0 IdleB Owes
  rw [show (b0V).view.set = Finset.univ from View.set_whole _, show (b1V).view.set = Finset.univ from View.set_whole _,
    show (b2V).view.set = Finset.univ from View.set_whole _, show (b3V).view.set = Finset.univ from View.set_whole _,
    show (b4V).view.set = Finset.univ from View.set_whole _]
  iintro ⟨#Hlv, ⟨%fl, HtA, HiA, Hl, ⟨%f0, Hb0'⟩, ⟨%f1, Hb1'⟩, ⟨%f2, Hb2'⟩, ⟨%f3, Hb3'⟩, ⟨%g4, Hf4⟩, Hg0, Hg1, Hg2, Hg3, Hg4, Hs0, Hs1, Hs2, Hs3, HrA, HD, D95, D96, D97, D98, ⟨%W0, %hW0, HO⟩⟩, Ht, Hi, Ho, Hr0⟩
  ihave Hmw := (show levAts (K (F := F)).L (K (F := F)).lev ⊢ Transfers.MayWaits (TH d L) (default : HIx 1) O from
    (K (F := F)).mayWaits_none (thr := TH d L) hO) $$ Hlv
  ihave Hi' := (Entails.of_eq (pts_i1 (F := F) d L _ _).symm) $$ Hi
  ihave Hl' := (Entails.of_eq (pts_l (F := F) d L _).symm) $$ Hl
  ihave Ht' := (Entails.of_eq (pts_t1 (F := F) d L _ _).symm) $$ Ht
  ihave Ht2 := (Transfers.pointsTo_toks_split (ℓ := (t1V).view.loc (TH d L)) (S := Finset.univ) (f := m (t1Loc d)) q0 5) $$ Ht'
  icases Ht2 with ⟨Htr, Httoks⟩
  ihave Ht3 := (Entails.of_eq (bigSep_univ_five _)) $$ Httoks
  icases Ht3 with ⟨Ht0, Ht1, Ht2, Ht3, Ht4⟩
  ihave Ho' := (Entails.of_eq (pts_o1 (F := F) d L _ _).symm) $$ Ho
  -- the wait for the first table's last copy-out, the copy of the second table's row numbers into the list and its wait
  sl_exec
  -- the first table's band: all hundred pieces hold the lookup
  ihave HoA := (Entails.of_eq (band_done0 m d L XA).symm) $$ [HD D95 D96 D97 D98 Hf4_dst]
  · rw [show Finset.range 20 = Finset.range (19 + 1) from rfl, Geom.bigSep_range_succ' 19]
    isplitl [HD]; · iexact HD
    unfold DT0
    isplitl [D95]; · iexact D95
    isplitl [D96]; · iexact D96
    isplitl [D97]; · iexact D97
    isplitl [D98]; · iexact D98
    unfold Dc0; iexact Hf4_dst
  have hIn := listIn_of_copy1 d L X hX fl
  unfold ListIn1 at hIn
  ihave Hl2 := (Transfers.pointsTo_toks_split (ℓ := (lV).view.loc (TH d L)) (S := Finset.univ) fullShare 5) $$ Hl'
  icases Hl2 with ⟨Hlr, Hltoks⟩
  ihave Hl3 := (Entails.of_eq (bigSep_univ_five _)) $$ Hltoks
  icases Hl3 with ⟨Hl0, Hl1, Hl2, Hl3, Hl4⟩
  sl_exec
  have hL : ListOK1 d L X (LC1 d L X fl) := listOK_of_copy1 d L X fl
  have hIn' : ListIn1 d L (LC1 d L X fl) := listIn_of_copy1 d L X hX fl
  have hg0 : (b0V).view.read (Elt F) ((b0V).view.writes (Elt F) f0 [⟨Rect.whole S64x128, part20_spec.sl.gather0 m d L X fl hIn⟩]) = GP (m (t1Loc d)) X (wL L) 0 := by
    rw [read_writes_whole]; exact gather_val1 m d L X _ hL hX 0 (by omega) _ rfl _ _ _ _
  have hg1 : (b1V).view.read (Elt F) ((b1V).view.writes (Elt F) f1 [⟨Rect.whole S64x128, part20_spec.sl.gather1 m d L X fl hIn⟩]) = GP (m (t1Loc d)) X (wL L) 1 := by
    rw [read_writes_whole]; exact gather_val1 m d L X _ hL hX 1 (by omega) _ rfl _ _ _ _
  have hg2 : (b2V).view.read (Elt F) ((b2V).view.writes (Elt F) f2 [⟨Rect.whole S64x128, part20_spec.sl.gather2 m d L X fl hIn⟩]) = GP (m (t1Loc d)) X (wL L) 2 := by
    rw [read_writes_whole]; exact gather_val1 m d L X _ hL hX 2 (by omega) _ rfl _ _ _ _
  sl_for (fun k (_ : PUnit) => inv1 m d L X (LC1 d L X fl) lqP (tqP q0) fo O (insert ((SemLoc.dma cc0_scoped1.sem : SemLoc sig), (default : HIx 1)) (insert ((SemLoc.dma cc0_scratch15.sem : SemLoc sig), (default : HIx 1)) W0)) k) $$ [Hg0 Ht0 Hlr Hg1 Ht1 Hl0 Hg2 Ht2 Hl1 Hb3' Hf4_src Hs3 Hf4 Hg3 Hl2 Ht3 Hg4 Hl3 Ht4 Hs0 Hs1 Hs2 Ho' HO]
  · intro k acc
    exact step1 m hF d L X hX (LC1 d L X fl) hL hIn' lqP (tqP q0) fo O _ hO v2 k
  · unfold inv1; rw [if_pos rfl]; unfold Inv01
    isplitr; · iexact Hlv
    isplitl [Hg0 Ht0 Hlr]
    · iapply (gfl_intro1 m d L X (LC1 d L X fl) lqP (tqP q0) b0V cc0_scratch6.sem 0 0 _ hg0 (lWin ![0, 0] inb_S50x128_S1x64_0_0))
      isplitl [Hg0]; · iexact Hg0
      isplitl [Ht0]; · iexact Ht0
      iexact Hlr
    isplitl [Hg1 Ht1 Hl0]
    · iapply (gfl_intro1 m d L X (LC1 d L X fl) lqP (tqP q0) b1V cc0_scratch7.sem 1 1 _ hg1 (lWin ![0, 64] inb_S50x128_S1x64_0_64))
      isplitl [Hg1]; · iexact Hg1
      isplitl [Ht1]; · iexact Ht1
      iexact Hl0
    isplitl [Hg2 Ht2 Hl1]
    · iapply (gfl_intro1 m d L X (LC1 d L X fl) lqP (tqP q0) b2V cc0_scratch8.sem 2 2 _ hg2 (lWin ![1, 0] inb_S50x128_S1x64_1_0))
      isplitl [Hg2]; · iexact Hg2
      isplitl [Ht2]; · iexact Ht2
      iexact Hl1
    isplitl [Hb3']
    · unfold IdleB1; iexists f3; rw [show (b3V).view.set = Finset.univ from View.set_whole _]; iexact Hb3'
    isplitl [Hf4_src]
    · unfold IdleB1; iexists g4; rw [show (b4V).view.set = Finset.univ from View.set_whole _]; iexact Hf4_src
    isplitl [Hs3]; · iexact Hs3
    isplitl [Hf4]; · iexact Hf4
    isplitl [Hg3 Hl2 Ht3]
    · unfold IdleG1
      isplitl [Hg3]; · iexact Hg3
      isplitl [Hl2]; · iexact Hl2
      iexact Ht3
    isplitl [Hg4 Hl3 Ht4]
    · unfold IdleG1
      isplitl [Hg4]; · iexact Hg4
      isplitl [Hl3]; · iexact Hl3
      iexact Ht4
    isplitl [Hs0]; · iexact Hs0
    isplitl [Hs1]; · iexact Hs1
    isplitl [Hs2]; · iexact Hs2
    isplitl [Ho']
    · rw [← band_pieces1 d L fo]; iexact Ho'
    unfold Owes1; iexists _; isplitr
    · ipureintro; exact fun p hp => .inl hp
    iexact HO
  · iintro %acc HI
    rw [show Scf.trips k0_t2_loop.lb k0_t2_loop.ub k0_t2_loop.st = 20 from trips2]
    unfold inv1; rw [if_neg (by decide), if_pos rfl]; unfold InvEnd1 SFl1 IdleB1 IdleG1 Owes1
    icases HI with ⟨-, ⟨%g3, Hf3⟩, ⟨%g4, Hf4⟩, ⟨%g0, B0⟩, ⟨%g1, B1⟩, ⟨%g2, B2⟩, ⟨I0s, I0l, I0t⟩, ⟨I1s, I1l, I1t⟩, ⟨I2s, I2l, I2t⟩, ⟨I3s, I3l, I3t⟩, ⟨I4s, I4l, I4t⟩, Hs0, Hs1, Hs2, HD, D95, D96, D97, ⟨%W', %hW', HO⟩⟩
    -- the table's and the list's tokens joined back
    ihave Htj := (Transfers.pointsTo_toks_join (ℓ := (t1V).view.loc (TH d L)) (S := Finset.univ) (f := m (t1Loc d)) q0 5) $$ [Htr I0t I1t I2t I3t I4t]
    · isplitl [Htr]; · iexact Htr
      rw [bigSep_univ_five]
      isplitl [I0t]; · iexact I0t
      isplitl [I1t]; · iexact I1t
      isplitl [I2t]; · iexact I2t
      isplitl [I3t]; · iexact I3t
      iexact I4t
    ihave Hlj := (Transfers.pointsTo_toks_join (ℓ := (lV).view.loc (TH d L)) (S := Finset.univ) (f := LC1 d L X fl) fullShare 5) $$ [I0l I1l I2l I3l I4l Hl4]
    · isplitl [I0l]; · iexact I0l
      rw [bigSep_univ_five]
      isplitl [I1l]; · iexact I1l
      isplitl [I2l]; · iexact I2l
      isplitl [I3l]; · iexact I3l
      isplitl [I4l]; · iexact I4l
      iexact Hl4
    sl_exec
    sl_step
    iclear Hb0' Hb1' Hb2'
    isplitl [HtA HiA HoA HrA]
    · isplitl [HtA]; · iexact HtA
      isplitl [HiA]; · iexact HiA
      isplitl [HoA]; · iexact HoA
      iexact HrA
    unfold MidT1
    iexists (LC1 d L X fl)
    isplitl [Htj]; · iexact Htj
    isplitl [Hi']; · iexact Hi'
    isplitl [Hlj]; · iexact Hlj
    isplitl [B0]; · unfold IdleB1; iexists g0; iexact B0
    isplitl [B1]; · unfold IdleB1; iexists g1; iexact B1
    isplitl [B2]; · unfold IdleB1; iexists g2; iexact B2
    isplitl [Hf3_src]; · unfold IdleB1; iexists g3; iexact Hf3_src
    isplitl [Hf4]; · unfold SFl1; iexists g4; iexact Hf4
    isplitl [I0s]; · iexact I0s
    isplitl [I1s]; · iexact I1s
    isplitl [I2s]; · iexact I2s
    isplitl [I3s]; · iexact I3s
    isplitl [I4s]; · iexact I4s
    isplitl [Hs0]; · iexact Hs0
    isplitl [Hs1]; · iexact Hs1
    isplitl [Hs2]; · iexact Hs2
    isplitl [Hf3]; · iexact Hf3
    isplitl [Hr0]; · iexact Hr0
    isplitl [HD]; · iexact HD
    isplitl [D95]; · iexact D95
    isplitl [D96]; · iexact D96
    isplitl [D97]; · iexact D97
    isplitl [Hf3_dst]; · unfold Dc1; iexact Hf3_dst
    unfold Owes1; iexists _; isplitr
    swap; · iexact HO
    ipureintro; intro p hp
    rcases Finset.mem_insert.mp hp with hp | hp
    · subst hp; exact .inr rfl
    rcases hW' p hp with h | h
    · rcases Finset.mem_insert.mp h with h | h
      · subst h; exact .inr rfl
      rcases Finset.mem_insert.mp h with h | h
      · subst h; exact .inr rfl
      · exact hW0 p h
    · exact .inr h

end Cert.Proof.KernelIdealSide

end
-- ==== Proof.ScopedIdeal.lean ====
/-
  A tile's own scratch taken out of the launch's bundles. The launch hands each vector subcore all of its own scoped
  buffers at some contents and all of its own scoped semaphore cells at zero, each as one iterated separating
  conjunction over the finite set of them. The tile's task names six of those buffers (the list of row numbers and five
  staging slots) and twelve of those cells (ten transfer semaphores declared as scratch and two allocated in regions):
  each bundle is those, one by one in order, and the rest. An iterated conjunction over a set is, for any list of
  distinct members, the members' conjuncts in the list's order and then the conjunction over the set with them erased.
-/
import proofs.«206480_g70196945486151_cont_9to1_m_271_23_alg».proof.Proof.TileSpecIdeal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Members of a set taken out of an iterated conjunction, in a list's order -/

/-- A finite set with the members of a list erased, one after another. -/
def eraseAll {I : Type} [DecidableEq I] (s : Finset I) : List I → Finset I
  | [] => s
  | a :: l => eraseAll (s.erase a) l

/-- For a list of distinct members of `s`: the conjunction over `s` is the list's conjuncts, in order, then the conjunction
    over `s` with the list erased. -/
theorem bigSep_eraseAll {M : Type} [URA M] {I : Type} [DecidableEq I] (Φ : I → sProp M) :
    ∀ (l : List I) (s : Finset I), l.Nodup → (∀ a ∈ l, a ∈ s) →
      bigSep s Φ = l.foldr (fun a acc => iprop(Φ a ∗ acc)) (bigSep (eraseAll s l) Φ)
  | [], _, _, _ => rfl
  | a :: l, s, hnd, hmem =>
    have hnd' := List.nodup_cons.mp hnd
    (SparseCore.bigSep_erase' (hmem a (List.mem_cons.2 (Or.inl rfl)))).trans
      (congrArg (fun X => iprop(Φ a ∗ X))
        (bigSep_eraseAll Φ l (s.erase a) hnd'.2 fun b hb =>
          Finset.mem_erase.mpr ⟨fun e => hnd'.1 (e ▸ hb), hmem b (List.mem_cons.2 (Or.inr hb))⟩))

/-! ## The tile's twelve semaphore cells and six buffers -/

/-- The transfer semaphores the task names: the ten declared as scratch, then the two allocated in regions. -/
abbrev semList : List (SemLoc sig) :=
  [.dma cc0_scratch6.sem, .dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scratch15.sem, .dma cc0_scoped0.sem, .dma cc0_scoped1.sem]

/-- The scratch buffers the task names: the list of row numbers, then the five staging slots. -/
abbrev bufList : List (Ref sig .scVector) := [cc0_scratch0, cc0_scratch1, cc0_scratch2, cc0_scratch3, cc0_scratch4, cc0_scratch5]

theorem semList_nodup : semList.Nodup := by decide
theorem semList_scoped : ∀ a ∈ semList, a.isScoped .scVector = true := by decide
theorem bufList_nodup : bufList.Nodup := by decide
theorem bufList_owner (c : Fin τ.nSC) (j : Fin τ.nSub) :
    ∀ r ∈ bufList, ((Proc.scVector c j).devRef r : DevRef τ sig).owner = .proc (.scVector c j) := by
  intro r hr
  repeat (cases hr with | head => rfl | tail _ hr => ?_)
  exact nomatch hr

/-- The tile's own semaphore cells at zero: the twelve it names, then the rest. -/
theorem ownSems0_TH (d : Dev nD) (L : grid0.Coords) :
    (ownSems0 (TH d L) : sProp (𝕄 F))
      = iprop(semVal ((TH d L, .dma cc0_scratch6.sem) : GSem nD τ sig) 0
          ∗ semVal ((TH d L, .dma cc0_scratch7.sem) : GSem nD τ sig) 0
          ∗ semVal ((TH d L, .dma cc0_scratch8.sem) : GSem nD τ sig) 0
          ∗ semVal ((TH d L, .dma cc0_scratch9.sem) : GSem nD τ sig) 0
          ∗ semVal ((TH d L, .dma cc0_scratch10.sem) : GSem nD τ sig) 0
          ∗ semVal ((TH d L, .dma cc0_scratch11.sem) : GSem nD τ sig) 0
          ∗ semVal ((TH d L, .dma cc0_scratch12.sem) : GSem nD τ sig) 0
          ∗ semVal ((TH d L, .dma cc0_scratch13.sem) : GSem nD τ sig) 0
          ∗ semVal ((TH d L, .dma cc0_scratch14.sem) : GSem nD τ sig) 0
          ∗ semVal ((TH d L, .dma cc0_scratch15.sem) : GSem nD τ sig) 0
          ∗ semVal ((TH d L, .dma cc0_scoped0.sem) : GSem nD τ sig) 0
          ∗ semVal ((TH d L, .dma cc0_scoped1.sem) : GSem nD τ sig) 0
          ∗ bigSep (eraseAll (ownCells (TH d L)) (semList.map (Prod.mk (TH d L)))) fun g => semVal g 0) := by
  unfold SparseCore.Cfg.ownSems0
  exact bigSep_eraseAll _ (semList.map (Prod.mk (TH d L))) _
    (semList_nodup.map fun _ _ e => (Prod.mk.inj e).2)
    (fun g hg => by
      obtain ⟨a, ha, rfl⟩ := List.mem_map.mp hg
      exact mem_ownCells.mpr ⟨rfl, semList_scoped a ha⟩)

/-- The tile's own buffers, each whole at some contents: the six it names, then the rest. -/
theorem ownBufs_TH (d : Dev nD) (L : grid0.Coords) :
    (ownBufs (TH d L) : sProp (𝕄 F))
      = iprop((∃ f, (TH d L).loc cc0_scratch0 ↦{fullShare} f)
          ∗ (∃ f, (TH d L).loc cc0_scratch1 ↦{fullShare} f)
          ∗ (∃ f, (TH d L).loc cc0_scratch2 ↦{fullShare} f)
          ∗ (∃ f, (TH d L).loc cc0_scratch3 ↦{fullShare} f)
          ∗ (∃ f, (TH d L).loc cc0_scratch4 ↦{fullShare} f)
          ∗ (∃ f, (TH d L).loc cc0_scratch5 ↦{fullShare} f)
          ∗ bigSep (eraseAll (ownRefs (τ := τ) (.scVector (cV L) (jV L))) (bufList.map (Proc.scVector (cV L) (jV L)).devRef))
              fun b => iprop(∃ f, ((d, b) : Loc nD τ sig) ↦{fullShare} f)) := by
  unfold SparseCore.Cfg.ownBufs
  exact bigSep_eraseAll _ (bufList.map (Proc.scVector (cV L) (jV L)).devRef) _
    (bufList_nodup.map (Proc.devRef_injective _))
    (fun b hb => by
      obtain ⟨r, hr, rfl⟩ := List.mem_map.mp hb
      exact SparseCore.Cfg.mem_ownRefs_of_owner (bufList_owner _ _ r hr))

/-- The two bundles the launch hands the tile, unpacked. -/
theorem scoped_unpack (hF : (K (F := F)).Facts) (d : Dev nD) (L : grid0.Coords) :
    (iprop(scopedBufs (TH d L) ∗ scopedSems0 (TH d L)) : sProp (𝕄 F))
      = iprop(((∃ f, (TH d L).loc cc0_scratch0 ↦{fullShare} f)
            ∗ (∃ f, (TH d L).loc cc0_scratch1 ↦{fullShare} f)
            ∗ (∃ f, (TH d L).loc cc0_scratch2 ↦{fullShare} f)
            ∗ (∃ f, (TH d L).loc cc0_scratch3 ↦{fullShare} f)
            ∗ (∃ f, (TH d L).loc cc0_scratch4 ↦{fullShare} f)
            ∗ (∃ f, (TH d L).loc cc0_scratch5 ↦{fullShare} f)
            ∗ bigSep (eraseAll (ownRefs (τ := τ) (.scVector (cV L) (jV L))) (bufList.map (Proc.scVector (cV L) (jV L)).devRef))
                fun b => iprop(∃ f, ((d, b) : Loc nD τ sig) ↦{fullShare} f))
          ∗ (semVal ((TH d L, .dma cc0_scratch6.sem) : GSem nD τ sig) 0
            ∗ semVal ((TH d L, .dma cc0_scratch7.sem) : GSem nD τ sig) 0
            ∗ semVal ((TH d L, .dma cc0_scratch8.sem) : GSem nD τ sig) 0
            ∗ semVal ((TH d L, .dma cc0_scratch9.sem) : GSem nD τ sig) 0
            ∗ semVal ((TH d L, .dma cc0_scratch10.sem) : GSem nD τ sig) 0
            ∗ semVal ((TH d L, .dma cc0_scratch11.sem) : GSem nD τ sig) 0
            ∗ semVal ((TH d L, .dma cc0_scratch12.sem) : GSem nD τ sig) 0
            ∗ semVal ((TH d L, .dma cc0_scratch13.sem) : GSem nD τ sig) 0
            ∗ semVal ((TH d L, .dma cc0_scratch14.sem) : GSem nD τ sig) 0
            ∗ semVal ((TH d L, .dma cc0_scratch15.sem) : GSem nD τ sig) 0
            ∗ semVal ((TH d L, .dma cc0_scoped0.sem) : GSem nD τ sig) 0
            ∗ semVal ((TH d L, .dma cc0_scoped1.sem) : GSem nD τ sig) 0
            ∗ bigSep (eraseAll (ownCells (TH d L)) (semList.map (Prod.mk (TH d L)))) fun g => semVal g 0)) := by
  rw [(K (F := F)).scopedBufs_V hF d (cV L) (jV L), SparseCore.Cfg.scopedSems0_V (Val := Elt F) d (cV L) (jV L),
    ownSems0_TH, ownBufs_TH]

end Cert.Proof.KernelIdealSide

end
-- ==== Proof.TileBodyIdeal.lean ====
/-
  The tile's task: for each of the two tables in turn, the copy of the tile's columns of the transposed row numbers into its list, the
  gathers of the table's rows chunk by chunk into five staging slots and their copies out to the tile's band of the result, three
  gathers ahead. The two tables' phases are proved apart; here they are put one after the other, between the unpacking of the tile's
  scratch from the launch's bundles and its packing back.
-/
import proofs.«206480_g70196945486151_cont_9to1_m_271_23_alg».proof.Proof.Part20Ideal
import proofs.«206480_g70196945486151_cont_9to1_m_271_23_alg».proof.Proof.ScopedIdeal

noncomputable section

namespace Cert.Proof.KernelIdealSide

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

set_option maxHeartbeats 4000000 in
theorem tile_body [FloatOps F] (m : (ℓ : Loc nD τ sig) → Buf (Elt F) ℓ) (hF : (K (F := F)).Facts) (d : Dev nD) (L : grid0.Coords)
    (X0 : Buf (Elt F) (i0Loc d)) (X1 : Buf (Elt F) (i1Loc d)) (hX0 : ∀ j, (X0 j).toNat < 100000) (hX1 : ∀ j, (X1 j).toNat < 100000)
    (fo0 : Buf (Elt F) (o0Loc d)) (fo1 : Buf (Elt F) (o1Loc d)) (q0 q1 qi0 qi1 : PosShare TreeShare)
    (O : CellTallies nD τ sig (HIx 1)) (W : Waits sig (HIx 1)) (hO : ∀ g, O g none = 0) :
    (iprop(levAts (K (F := F)).L (K (F := F)).lev ∗ emp
        ∗ TileIn m d (wL L) X0 X1 q0 q1 qi0 qi1 fo0 fo1
        ∗ scopedBufs (TH d L) ∗ scopedSems0 (TH d L) ∗ owes (TH d L) O W) : sProp (𝕄 F))
      ⊢ wp frame (wpE (defs₀ (F := F)) 𝒱₀ (TH d L) none) Set.univ
          (cc0__body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1)
          fun _ => iprop(TileOut m d (wL L) X0 X1 q0 q1 qi0 qi1
            ∗ scopedBufs (TH d L) ∗ scopedSems0 (TH d L)
            ∗ ∃ W', ⌜∀ p ∈ W', p ∈ W ∨ p.2 = none⌝ ∗ owes (TH d L) O W') := by
  simp only [cc0__body_eq_skeleton]; unfold cc0__body_skel
  rw [(K (F := F)).scopedBufs_V hF d (cV L) (jV L), SparseCore.Cfg.scopedSems0_V (Val := Elt F) d (cV L) (jV L), ownSems0_TH, ownBufs_TH]
  iintro ⟨#Hlv, -, ⟨Ht0, Ht1, Hi0, Hi1, Ho0, Ho1⟩, ⟨⟨%fl, Hl⟩, ⟨%f0, Hb0⟩, ⟨%f1, Hb1⟩, ⟨%f2, Hb2⟩, ⟨%f3, Hb3⟩, ⟨%f4, Hb4⟩, Hbrest⟩, ⟨Hc6, Hc7, Hc8, Hc9, Hc10, Hc11, Hc12, Hc13, Hc14, Hc15, Hr0, Hr1, Hsrest⟩, HO⟩
  ihave Hmw := (show levAts (K (F := F)).L (K (F := F)).lev ⊢ Transfers.MayWaits (TH d L) (default : HIx 1) O from
    (K (F := F)).mayWaits_none (thr := TH d L) hO) $$ Hlv
  -- the first table, to its last copy-out but one
  rw [wp_bind]
  iapply (wp_wand_r frame (wpE (defs₀ (F := F)) 𝒱₀ (TH d L) none) Set.univ) $$ [Ht0 Ht1 Hi0 Hi1 Ho0 Ho1 Hl Hb0 Hb1 Hb2 Hb3 Hb4 Hbrest Hc6 Hc7 Hc8 Hc9 Hc10 Hc11 Hc12 Hc13 Hc14 Hc15 Hr0 Hr1 Hsrest HO]
  isplitl [Ht0 Hi0 Ho0 Hl Hb0 Hb1 Hb2 Hb3 Hb4 Hc6 Hc7 Hc8 Hc9 Hc10 Hc11 Hc12 Hc13 Hc14 Hc15 Hr0 HO]
  · iapply (part19_spec m hF d L X0 hX0 fo0 q0 qi0 O W hO fl f0 f1 f2 f3 f4)
    isplitr; · iexact Hlv
    isplitl [Ht0]; · iexact Ht0
    isplitl [Hi0]; · iexact Hi0
    isplitl [Ho0]; · iexact Ho0
    isplitl [Hl]; · iexact Hl
    isplitl [Hb0]; · iexact Hb0
    isplitl [Hb1]; · iexact Hb1
    isplitl [Hb2]; · iexact Hb2
    isplitl [Hb3]; · iexact Hb3
    isplitl [Hb4]; · iexact Hb4
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hr0]; · iexact Hr0
    iexact HO
  iintro %v2 HM
  -- the first table's last copy-out, and the second table to its last copy-out but one
  rw [wp_bind]
  iapply (wp_wand_r frame (wpE (defs₀ (F := F)) 𝒱₀ (TH d L) none) Set.univ) $$ [HM Ht1 Hi1 Ho1 Hr1 Hbrest Hsrest]
  isplitl [HM Ht1 Hi1 Ho1 Hr1]
  · iapply (part20_spec m hF d L X0 q0 qi0 X1 hX1 fo1 q1 qi1 O W hO v2)
    isplitr; · iexact Hlv
    isplitl [HM]; · iexact HM
    isplitl [Ht1]; · iexact Ht1
    isplitl [Hi1]; · iexact Hi1
    isplitl [Ho1]; · iexact Ho1
    iexact Hr1
  iintro %u ⟨⟨Ht0, Hi0, Ho0, Hr0⟩, HM1⟩
  -- the second table's last copy-out
  unfold MidT1 SFl1 IdleB1 Owes1
  rw [show (b0V).view.set = Finset.univ from View.set_whole _, show (b1V).view.set = Finset.univ from View.set_whole _,
    show (b2V).view.set = Finset.univ from View.set_whole _, show (b3V).view.set = Finset.univ from View.set_whole _,
    show (b4V).view.set = Finset.univ from View.set_whole _]
  icases HM1 with ⟨%LC, Ht1, Hi1, Hl, ⟨%g0, B0⟩, ⟨%g1, B1⟩, ⟨%g2, B2⟩, ⟨%g3, B3⟩, ⟨%g4, Hf4⟩, Hc6, Hc7, Hc8, Hc9, Hc10, Hc11, Hc12, Hc13, Hc14, Hr1, HD, D95, D96, D97, D98, ⟨%W', %hW', HO⟩⟩
  sl_exec
  sl_step
  -- the tile's holdings back: the shares, the first band, and the second band, whose hundred pieces all hold the lookup
  isplitl [Ht0 Ht1 Hi0 Hi1 Ho0 HD D95 D96 D97 D98 Hf4_dst]
  · isplitl [Ht0]; · iexact Ht0
    isplitl [Ht1]; · iexact Ht1
    isplitl [Hi0]; · iexact Hi0
    isplitl [Hi1]; · iexact Hi1
    isplitl [Ho0]; · iexact Ho0
    iapply (Entails.of_eq (band_done1 m d L X1).symm)
    rw [show Finset.range 20 = Finset.range (19 + 1) from rfl, Geom.bigSep_range_succ' 19]
    isplitl [HD]; · iexact HD
    unfold DT1
    isplitl [D95]; · iexact D95
    isplitl [D96]; · iexact D96
    isplitl [D97]; · iexact D97
    isplitl [D98]; · iexact D98
    unfold Dc1; iexact Hf4_dst
  isplitl [Hl B0 B1 B2 B3 Hf4_src Hbrest]
  · isplitl [Hl]; · iexists LC; iexact Hl
    isplitl [B0]; · iexists g0; iexact B0
    isplitl [B1]; · iexists g1; iexact B1
    isplitl [B2]; · iexists g2; iexact B2
    isplitl [B3]; · iexists g3; iexact B3
    isplitl [Hf4_src]; · iexists g4; iexact Hf4_src
    iexact Hbrest
  isplitl [Hc6 Hc7 Hc8 Hc9 Hc10 Hc11 Hc12 Hc13 Hc14 Hf4 Hr0 Hr1 Hsrest]
  · isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hf4]; · iexact Hf4
    isplitl [Hr0]; · iexact Hr0
    isplitl [Hr1]; · iexact Hr1
    iexact Hsrest
  iexists _; isplitr
  swap; · iexact HO
  ipureintro; intro p hp
  rcases Finset.mem_insert.mp hp with hp | hp
  · subst hp; exact .inr rfl
  · exact hW' p hp

end Cert.Proof.KernelIdealSide

end
-- ==== Proof.ValueTIdeal.lean ====
/-
  The host's transposes around the lookup cancel. The kernel reads the row numbers transposed ([50, 4096]) and writes the
  result with its two leading axes swapped ([50, 4096, 128]); the host transposes the row numbers before the call and the
  results after it. Entry (r, l, h) of the transposed result is entry (l, r, h) of the kernel's, which is entry h of the table's
  row idsT (l, r) = ids (r, l): the lookup of the specification.
-/
import proofs.«206480_g70196945486151_cont_9to1_m_271_23_alg».proof.Proof.SetupIdeal
import Idealize.ShloMosaic.Lib.ValueLayout

noncomputable section

namespace Cert.Proof.KernelIdealSide

open Cert.KernelIdeal Cert.KernelIdeal.Gen

open Idealize.ShloMosaic Idealize.ShloMosaic.ValueIdx

/-- A rank-3 array with its two leading axes swapped (permutation [1, 0, 2]) reads, at (j, i, k), the operand at (i, j, k). -/
theorem transpose_ix3_102_apply {a b c : ℕ} {α : Type} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun e => match e with | ⟨0, _⟩ => rfl | ⟨1, _⟩ => rfl | ⟨2, _⟩ => rfl

/-- The kernel's lookup over the transposed row numbers, its leading axes swapped back, is the specification's lookup. -/
theorem take_of_transposes {α : Type} (tab : S100000x128.Idx → α) (ids : IVec S4096x50 32)
    (h1 : S4096x50.Transposes [1, 0] S50x4096) (h2 : S50x4096x128.Transposes [1, 0, 2] S4096x50x128) :
    transpose S4096x50x128 [1, 0, 2] (takeT tab (transpose S50x4096 [1, 0] ids h1)) h2 = Cert.Lookup.take tab ids := by
  funext i
  obtain ⟨r, l, h, rfl⟩ : ∃ r l h, i = ix3 r l h := ⟨_, _, _, eq_ix3 i⟩
  rw [transpose_ix3_102_apply]
  show tab (ix2 (Cert.Lookup.rowOf (transpose S50x4096 [1, 0] ids h1 (ix2 l r))) h) = tab (ix2 (Cert.Lookup.rowOf (ids (ix2 r l))) h)
  rw [transpose_ix2_apply]

/-- An entry of the transposed row numbers is an entry of the row numbers: a bound on all of these is a bound on all of those. -/
theorem transpose_ids_lt (ids : IVec S4096x50 32) (h1 : S4096x50.Transposes [1, 0] S50x4096) (n : ℕ)
    (hids : ∀ j, (ids j).toNat < n) : ∀ j, (transpose S50x4096 [1, 0] ids h1 j).toNat < n :=
  fun j => hids _

end Cert.Proof.KernelIdealSide

end
-- ==== Proof.LaunchPayIdeal.lean ====
/-
  What the launch handshakes carry for the lookup kernel, and the two obligations over it. The one call hands each of the two
  SparseCores, already cut per tile, what its sixteen tiles take: of each table and of each transposed array of row numbers a
  thirty-second share (the full share halved five times, leaf w for tile w = 16 · core + subcore), and of each result the tile's
  band of 128 rows of the middle axis. A tile gives its shares back unchanged and its bands holding the lookup; since every band
  is held at the same whole-array function, the thirty-two bands join to the whole result at that function with no choice made.
-/
import proofs.«206480_g70196945486151_cont_9to1_m_271_23_alg».proof.Proof.TileBodyIdeal
import proofs.«206480_g70196945486151_cont_9to1_m_271_23_alg».proof.Proof.ValueTIdeal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arguments and results of @main, and the transposed row numbers -/

abbrev a0Loc (d : Dev nD) : Loc nD τ sig := (SparseCore.T d).loc main_arg0
abbrev a1Loc (d : Dev nD) : Loc nD τ sig := (SparseCore.T d).loc main_arg1
abbrev r0Loc (d : Dev nD) : Loc nD τ sig := (SparseCore.T d).loc main_v3
abbrev r1Loc (d : Dev nD) : Loc nD τ sig := (SparseCore.T d).loc main_v4

variable (m : (ℓ : Loc nD τ sig) → Buf (Elt F) ℓ) (ρ : Dev nD → PrngReg)

/-- The row numbers as the kernel reads them: the host's transposes of the two arguments. -/
abbrev X0 (d : Dev nD) : Buf (Elt F) (i0Loc d) := transpose S50x4096 [1, 0] (m (a0Loc d)) transposes_S4096x50_S50x4096_1_0
abbrev X1 (d : Dev nD) : Buf (Elt F) (i1Loc d) := transpose S50x4096 [1, 0] (m (a1Loc d)) transposes_S4096x50_S50x4096_1_0
/-- The kernel's two results. -/
abbrev Y0 (d : Dev nD) : Buf (Elt F) (o0Loc d) := takeT (m (t0Loc d)) (X0 m d)
abbrev Y1 (d : Dev nD) : Buf (Elt F) (o1Loc d) := takeT (m (t1Loc d)) (X1 m d)

/-! ## Shares: the full share halved n times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp (𝕄 F)) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp (𝕄 F)))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp (𝕄 F))), bigSep_univ_sum]
    congr 1 <;> refine bigSep_congr fun i _ => ?_
    · rw [leaf_inl]
    · rw [leaf_inr]

/-- Tile `w`'s share of an array every tile reads. -/
abbrev sq (w : Fin 32) : PosShare TreeShare := leaf 5 fullShare w

omit m ρ in
theorem shares32 (ℓ : Loc nD τ sig) (f : Buf (Elt F) ℓ) :
    (ℓ ↦{fullShare} f : sProp (𝕄 F)) = bigSep Finset.univ fun w : Fin 32 => ℓ ↦{sq w} f :=
  pointsTo_leaves Finset.univ f 5 fullShare

/-! ## The bands of a result -/

omit m ρ in
theorem obands_disjoint : ∀ i ∈ (Finset.univ : Finset (Fin 32)), ∀ j ∈ (Finset.univ : Finset (Fin 32)), i ≠ j → Disjoint (oBandSet i) (oBandSet j) :=
  fun _ _ _ _ h => Rect.part_disjoint odiv h
omit m ρ in
theorem obands_cover : (Finset.univ : Finset (Fin 32)).biUnion oBandSet = Finset.univ := Rect.biUnion_part odiv

omit m ρ in
theorem o0Pts_bands (d : Dev nD) (f : Buf (Elt F) (o0Loc d)) :
    (o0Loc d ↦{fullShare} f : sProp (𝕄 F)) = bigSep Finset.univ fun w : Fin 32 => o0Loc d ↦[oBandSet w]{fullShare} f := by
  rw [← pointsTo_biUnion Finset.univ (ℓ := o0Loc d) oBandSet obands_disjoint, obands_cover]; try rfl
omit m ρ in
theorem o1Pts_bands (d : Dev nD) (f : Buf (Elt F) (o1Loc d)) :
    (o1Loc d ↦{fullShare} f : sProp (𝕄 F)) = bigSep Finset.univ fun w : Fin 32 => o1Loc d ↦[oBandSet w]{fullShare} f := by
  rw [← pointsTo_biUnion Finset.univ (ℓ := o1Loc d) oBandSet obands_disjoint, obands_cover]; try rfl

/-! ## The thirty-two tiles as two SparseCores of sixteen -/

/-- Tile numbers as (core, subcore) pairs. -/
def wEquiv : Fin 2 × Fin 16 ≃ Fin 32 where
  toFun p := wOf p.1 p.2
  invFun w := (⟨w.val / 16, by have := w.isLt; omega⟩, ⟨w.val % 16, Nat.mod_lt _ (by decide)⟩)
  left_inv p := by
    obtain ⟨⟨c, hc⟩, ⟨i, hi⟩⟩ := p
    refine Prod.ext (Fin.ext ?_) (Fin.ext ?_)
    · show (16 * c + i) / 16 = c; omega
    · show (16 * c + i) % 16 = i; omega
  right_inv w := by
    refine Fin.ext ?_
    show 16 * (w.val / 16) + w.val % 16 = w.val; omega

omit m ρ in
theorem bigSep_tiles (Φ : Fin 32 → sProp (𝕄 F)) :
    (bigSep Finset.univ fun c : Fin 2 => bigSep Finset.univ fun i : Fin 16 => Φ (wOf c i)) = bigSep Finset.univ Φ := by
  rw [bigSep_univ_equiv wEquiv Φ, bigSep_univ_prod]; rfl

/-! ## What the tiles take and give, whole -/

/-- What tile `w` takes, at the launch contents of the results, and what it gives back. -/
abbrev tileIn (d : Dev nD) (w : Fin 32) : sProp (𝕄 F) :=
  TileIn m d w (X0 m d) (X1 m d) (sq w) (sq w) (sq w) (sq w) (m (o0Loc d)) (m (o1Loc d))
abbrev tileOut (d : Dev nD) (w : Fin 32) : sProp (𝕄 F) :=
  TileOut m d w (X0 m d) (X1 m d) (sq w) (sq w) (sq w) (sq w)

/-- The thirty-two tiles' holdings are the six arrays whole: the tables and the row numbers at the full share, the results at the
    one function every band is held at. -/
theorem tiles_eq (d : Dev nD) (fo0 : Buf (Elt F) (o0Loc d)) (fo1 : Buf (Elt F) (o1Loc d)) :
    (bigSep Finset.univ fun w : Fin 32 => TileIn m d w (X0 m d) (X1 m d) (sq w) (sq w) (sq w) (sq w) fo0 fo1)
      = iprop((t0Loc d ↦{fullShare} m (t0Loc d)) ∗ (t1Loc d ↦{fullShare} m (t1Loc d)) ∗ (i0Loc d ↦{fullShare} X0 m d) ∗ (i1Loc d ↦{fullShare} X1 m d)
          ∗ (o0Loc d ↦{fullShare} fo0) ∗ (o1Loc d ↦{fullShare} fo1)) := by
  show (bigSep Finset.univ fun w : Fin 32 => iprop((t0Loc d ↦{sq w} m (t0Loc d)) ∗ (t1Loc d ↦{sq w} m (t1Loc d)) ∗ (i0Loc d ↦{sq w} X0 m d) ∗ (i1Loc d ↦{sq w} X1 m d)
      ∗ (o0Loc d ↦[oBandSet w]{fullShare} fo0) ∗ (o1Loc d ↦[oBandSet w]{fullShare} fo1))) = _
  rw [bigSep_sep', bigSep_sep', bigSep_sep', bigSep_sep', bigSep_sep',
    shares32 (t0Loc d) (m (t0Loc d)), shares32 (t1Loc d) (m (t1Loc d)), shares32 (i0Loc d) (X0 m d), shares32 (i1Loc d) (X1 m d),
    o0Pts_bands d fo0, o1Pts_bands d fo1]

/-! ## What the handshakes carry -/

/-- The one call: each SparseCore is handed its sixteen tiles' holdings, already cut; each tile takes its own and gives it back
    with its bands of the results holding the lookup. -/
def P : (K (F := F)).Pay (nD := nD) (Val := Elt F) (Name := ℕ) (U := UU) where
  st := fun q d c => match q with | 0 => bigSep Finset.univ fun i : Fin 16 => tileIn m d (wOf (Fin.cast nCore_zero c) i)
  dn := fun q d c => match q with | 0 => bigSep Finset.univ fun i : Fin 16 => tileOut m d (wOf (Fin.cast nCore_zero c) i)
  go := fun q d c i => match q with | 0 => tileIn m d (wOf (Fin.cast nCore_zero c) (Fin.cast nSub_zero i))
  td := fun q d c i => match q with | 0 => tileOut m d (wOf (Fin.cast nCore_zero c) (Fin.cast nSub_zero i))
  x := fun _ _ => iprop(emp)

instance P_storable : (P (F := F) m).IsStorable where
  st q d c := match q with
    | 0 => (inferInstance : BI.Storable (upEmb : UEmb _ (𝕄 F)) (bigSep Finset.univ fun i : Fin 16 => tileIn m d (wOf (Fin.cast nCore_zero c) i)))
  dn q d c := match q with
    | 0 => (inferInstance : BI.Storable (upEmb : UEmb _ (𝕄 F)) (bigSep Finset.univ fun i : Fin 16 => tileOut m d (wOf (Fin.cast nCore_zero c) i)))
  go q d c i := match q with
    | 0 => (inferInstance : BI.Storable (upEmb : UEmb _ (𝕄 F)) (tileIn m d (wOf (Fin.cast nCore_zero c) (Fin.cast nSub_zero i))))
  td q d c i := match q with
    | 0 => (inferInstance : BI.Storable (upEmb : UEmb _ (𝕄 F)) (tileOut m d (wOf (Fin.cast nCore_zero c) (Fin.cast nSub_zero i))))

theorem P_st (d : Dev nD) (c : Fin ((K (F := F)).nCore 0)) :
    (P m).st 0 d c = bigSep Finset.univ fun i : Fin 16 => tileIn m d (wOf (Fin.cast nCore_zero c) i) := rfl
theorem P_dn (d : Dev nD) (c : Fin ((K (F := F)).nCore 0)) :
    (P m).dn 0 d c = bigSep Finset.univ fun i : Fin 16 => tileOut m d (wOf (Fin.cast nCore_zero c) i) := rfl
theorem P_go (d : Dev nD) (c : Fin ((K (F := F)).nCore 0)) (i : Fin ((K (F := F)).nSub 0)) :
    (P m).go 0 d c i = tileIn m d (wOf (Fin.cast nCore_zero c) (Fin.cast nSub_zero i)) := rfl
theorem P_td (d : Dev nD) (c : Fin ((K (F := F)).nCore 0)) (i : Fin ((K (F := F)).nSub 0)) :
    (P m).td 0 d c i = tileOut m d (wOf (Fin.cast nCore_zero c) (Fin.cast nSub_zero i)) := rfl

omit m ρ in
theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)
omit m ρ in
theorem bigSep_cores (Φ : Fin 2 → sProp (𝕄 F)) :
    (bigSep Finset.univ fun c : Fin ((K (F := F)).nCore 0) => Φ (Fin.cast nCore_zero c)) = bigSep Finset.univ Φ :=
  bigSep_congr fun _ _ => congrArg Φ (Fin.ext rfl)

/-- What the call takes from the TensorCore: the six arrays whole, the results at their launch contents. -/
theorem st0_eq (d : Dev nD) :
    (bigSep Finset.univ fun c : Fin ((K (F := F)).nCore 0) => (P m).st 0 d c)
      = iprop((t0Loc d ↦{fullShare} m (t0Loc d)) ∗ (t1Loc d ↦{fullShare} m (t1Loc d)) ∗ (i0Loc d ↦{fullShare} X0 m d) ∗ (i1Loc d ↦{fullShare} X1 m d)
          ∗ (o0Loc d ↦{fullShare} m (o0Loc d)) ∗ (o1Loc d ↦{fullShare} m (o1Loc d))) := by
  rw [← tiles_eq m d (m (o0Loc d)) (m (o1Loc d)), ← bigSep_tiles (F := F) (fun w => tileIn m d w),
    ← bigSep_cores (F := F) (fun c => bigSep Finset.univ fun i : Fin 16 => tileIn m d (wOf c i))]
  exact bigSep_congr fun c _ => P_st m d c
/-- What it gives back: the six arrays whole, the results holding the lookup. -/
theorem dn0_eq (d : Dev nD) :
    (bigSep Finset.univ fun c : Fin ((K (F := F)).nCore 0) => (P m).dn 0 d c)
      = iprop((t0Loc d ↦{fullShare} m (t0Loc d)) ∗ (t1Loc d ↦{fullShare} m (t1Loc d)) ∗ (i0Loc d ↦{fullShare} X0 m d) ∗ (i1Loc d ↦{fullShare} X1 m d)
          ∗ (o0Loc d ↦{fullShare} Y0 m d) ∗ (o1Loc d ↦{fullShare} Y1 m d)) := by
  rw [← tiles_eq m d (Y0 m d) (Y1 m d), ← bigSep_tiles (F := F) (fun w => tileOut m d w),
    ← bigSep_cores (F := F) (fun c => bigSep Finset.univ fun i : Fin 16 => tileOut m d (wOf c i))]
  exact bigSep_congr fun c _ => P_dn m d c

/-! ## The tile's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

omit m ρ in
theorem defs₀_vector (c : Fin τ.nSC) (s : Fin τ.nSub) :
    defs₀ (F := F) (.scVector c s) 0 ()
      = SparseCore.onTile hcore0 hsub0 (fun c s => cc0__body (coordsV c s)
          t0V (Memref.isWhole_whole _) t1V (Memref.isWhole_whole _) i0V (Memref.isWhole_whole _) i1V (Memref.isWhole_whole _)
          o0V (Memref.isWhole_whole _) o1V (Memref.isWhole_whole _) lV (Memref.isWhole_whole _) b0V (Memref.isWhole_whole _) b1V (Memref.isWhole_whole _)
          b2V (Memref.isWhole_whole _) b3V (Memref.isWhole_whole _) b4V (Memref.isWhole_whole _)
          cc0_scratch6 cc0_scratch7 cc0_scratch8 cc0_scratch9 cc0_scratch10 cc0_scratch11 cc0_scratch12 cc0_scratch13 cc0_scratch14 cc0_scratch15
          cc0_scoped0 cc0_scoped1) ⟨⟩ c s := rfl

omit m ρ [FloatOps F] in
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the tile's task asks of the launch memory: every transposed row number names a row of the tables. -/
def PreOK : Prop := ∀ d : Dev nD, (∀ j, (X0 m d j).toNat < 100000) ∧ ∀ j, (X1 m d j).toNat < 100000

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go, P_td]
  exact (tile_body m hF d (coordsV ⟨_, hci.1⟩ ⟨_, hci.2⟩) (X0 m d) (X1 m d) (hpre d).1 (hpre d).2 (m (o0Loc d)) (m (o1Loc d))
    (sq (wOf (Fin.cast nCore_zero c) (Fin.cast nSub_zero i))) (sq (wOf (Fin.cast nCore_zero c) (Fin.cast nSub_zero i)))
    (sq (wOf (Fin.cast nCore_zero c) (Fin.cast nSub_zero i))) (sq (wOf (Fin.cast nCore_zero c) (Fin.cast nSub_zero i))) O W hO).trans
      (wp_mono frame _ _ fun _ => obl_post)

/-! ## The split among a SparseCore's tiles: already made -/

omit [FloatOps F] in
theorem vecSplit : (K (F := F)).VecSplit' (P m) 0 := by
  intro d c
  rw [P_st, P_dn]
  show _ ⊢ |={Set.univ}=> iprop(
      (bigSep Finset.univ fun i : Fin ((K (F := F)).nSub 0) => (P m).go 0 d c i)
      ∗ ((bigSep Finset.univ fun i : Fin ((K (F := F)).nSub 0) => (P m).td 0 d c i)
          -∗ bigSep Finset.univ fun i : Fin 16 => tileOut m d (wOf (Fin.cast nCore_zero c) i)))
  rw [show (fun i : Fin ((K (F := F)).nSub 0) => (P m).go 0 d c i) = fun i => tileIn m d (wOf (Fin.cast nCore_zero c) (Fin.cast nSub_zero i)) from rfl,
    show (fun i : Fin ((K (F := F)).nSub 0) => (P m).td 0 d c i) = fun i => tileOut m d (wOf (Fin.cast nCore_zero c) (Fin.cast nSub_zero i)) from rfl,
    bigSep_tasks (F := F) (fun i => tileIn m d (wOf (Fin.cast nCore_zero c) i)),
    bigSep_tasks (F := F) (fun i => tileOut m d (wOf (Fin.cast nCore_zero c) i))]
  iintro H; imodintro
  isplitl [H]; · iexact H
  iintro H; iexact H

/-! ## The launch element of the certificate's ghost state -/

def u₀ : UU := (initOf (K (F := F)).hsCells (K (F := F)).hsToks, 1)

omit m ρ [FloatOps F] in
theorem bigSep_emp' {I : Type} (s : Finset I) : (bigSep s fun _ => iprop(emp)) = (iprop(emp) : sProp (𝕄 F)) := bigSep_emp_const s

omit [FloatOps F] in
theorem hu₀ : (ownU (u₀ (F := F)) : sProp (𝕄 F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KernelIdealSide

end
-- ==== Proof.LaunchIdeal.lean ====
/-
  The lookup kernel's run. On each device's TensorCore @main transposes the two arrays of row numbers, makes the one SparseCore
  call — handing the tables and the transposed row numbers out as thirty-two shares and the two results as thirty-two bands, and
  taking them back with the results holding the lookup —, and transposes the two results. The arguments end unchanged; each
  final result is the specification's lookup, the host's transposes before and after the call cancelling.
-/
import proofs.«206480_g70196945486151_cont_9to1_m_271_23_alg».proof.Proof.LaunchPayIdeal

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.StableHlo (held wp_hlo_within)

variable (m : (ℓ : Loc nD τ sig) → Buf (Elt F) ℓ) (ρ : Dev nD → PrngReg)

/-! ## The TensorCore's arrays and the four host operations -/

abbrev a0' : DevRef τ sig := Proc.devRef .tc (main_arg0 : Ref sig .tc)
abbrev a1' : DevRef τ sig := Proc.devRef .tc (main_arg1 : Ref sig .tc)
abbrev t0' : DevRef τ sig := Proc.devRef .tc (main_arg2 : Ref sig .tc)
abbrev t1' : DevRef τ sig := Proc.devRef .tc (main_arg3 : Ref sig .tc)
abbrev i0' : DevRef τ sig := Proc.devRef .tc (main_v0 : Ref sig .tc)
abbrev i1' : DevRef τ sig := Proc.devRef .tc (main_v1 : Ref sig .tc)
abbrev o0' : DevRef τ sig := Proc.devRef .tc (main_v2_0 : Ref sig .tc)
abbrev o1' : DevRef τ sig := Proc.devRef .tc (main_v2_1 : Ref sig .tc)
abbrev r0' : DevRef τ sig := Proc.devRef .tc (main_v3 : Ref sig .tc)
abbrev r1' : DevRef τ sig := Proc.devRef .tc (main_v4 : Ref sig .tc)

abbrev opI0 : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opI1 : HloOp τ sig (Elt F) := StableHlo.unary main_arg1 main_v1 ((transpose S50x4096 [1, 0] · transposes_S4096x50_S50x4096_1_0) : (⟨S4096x50, .i32⟩ : BufTy).Contents (Elt F) → (⟨S50x4096, .i32⟩ : BufTy).Contents (Elt F))
abbrev opR0 : HloOp τ sig (Elt F) := StableHlo.unary main_v2_0 main_v3 ((transpose S4096x50x128 [1, 0, 2] · transposes_S50x4096x128_S4096x50x128_1_0_2) : (⟨S50x4096x128, .f32⟩ : BufTy).Contents (Elt F) → (⟨S4096x50x128, .f32⟩ : BufTy).Contents (Elt F))
abbrev opR1 : HloOp τ sig (Elt F) := StableHlo.unary main_v2_1 main_v4 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The final results: the kernel's, their two leading axes swapped back. -/
abbrev R0 (d : Dev nD) : Buf (Elt F) (r0Loc d) := transpose S4096x50x128 [1, 0, 2] (Y0 m d) transposes_S50x4096x128_S4096x50x128_1_0_2
abbrev R1 (d : Dev nD) : Buf (Elt F) (r1Loc d) := transpose S4096x50x128 [1, 0, 2] (Y1 m d) transposes_S50x4096x128_S4096x50x128_1_0_2

omit m ρ in
/-- Two distinct arrays held whole. -/
theorem held_pair (d : Dev nD) {x y : DevRef τ sig} (hxy : x ≠ y) (W : Valuation τ sig (Elt F)) :
    (held (SparseCore.T d) {x, y} W : sProp (𝕄 F)) = iprop((((d, x) : Loc nD τ sig) ↦{fullShare} W x) ∗ (((d, y) : Loc nD τ sig) ↦{fullShare} W y)) := by
  unfold held
  rw [SparseCore.bigSep_insert' (by rw [Finset.mem_singleton]; exact hxy), bigSep_singleton]

omit m ρ in
/-- After `%y = f %x`: `x` as it was, `y` at `f` of it. -/
theorem held_unary (d : Dev nD) (x y : Ref sig .tc) (hxy : x ≠ y) (f : x.ty.Contents (Elt F) → y.ty.Contents (Elt F)) (hx hy) (W : Valuation τ sig (Elt F)) :
    (held (SparseCore.T d) {Proc.devRef .tc x, Proc.devRef .tc y} ((StableHlo.unary (τ := τ) x y f hx hy).result W) : sProp (𝕄 F))
      = iprop((((d, Proc.devRef .tc x) : Loc nD τ sig) ↦{fullShare} W (Proc.devRef .tc x)) ∗ (((d, Proc.devRef .tc y) : Loc nD τ sig) ↦{fullShare} f (W (Proc.devRef .tc x)))) := by
  rw [held_pair d (StableHlo.devRef_ne_of_ne hxy), StableHlo.unary_result_ne x y f hx hy W hxy, StableHlo.unary_result]

/-- The launch valuation, and the valuations the two results stand at after the call. -/
def V0 (d : Dev nD) : Valuation τ sig (Elt F) := fun b => m (d, b)
def VY0 (d : Dev nD) : Valuation τ sig (Elt F) := Function.update (V0 m d) o0' (Y0 m d)
def VY1 (d : Dev nD) : Valuation τ sig (Elt F) := Function.update (V0 m d) o1' (Y1 m d)

theorem VY0_o (d : Dev nD) : VY0 m d o0' = Y0 m d := Function.update_self _ _ _
theorem VY0_r (d : Dev nD) : VY0 m d r0' = m (r0Loc d) := Function.update_of_ne (show r0' ≠ o0' by decide) _ _
theorem VY1_o (d : Dev nD) : VY1 m d o1' = Y1 m d := Function.update_self _ _ _
theorem VY1_r (d : Dev nD) : VY1 m d r1' = m (r1Loc d) := Function.update_of_ne (show r1' ≠ o1' by decide) _ _

omit m ρ in
theorem unscopedBufs_eq (d : Dev nD) (W : (b : Ref sig .tc) → Buf (Elt F) ((d.tc : Thread nD τ).loc b)) :
    (unscopedBufs d W : sProp (𝕄 F))
      = iprop((a0Loc d ↦{fullShare} W main_arg0) ∗ (a1Loc d ↦{fullShare} W main_arg1) ∗ (t0Loc d ↦{fullShare} W main_arg2) ∗ (t1Loc d ↦{fullShare} W main_arg3)
          ∗ (i0Loc d ↦{fullShare} W main_v0) ∗ (i1Loc d ↦{fullShare} W main_v1) ∗ (o0Loc d ↦{fullShare} W main_v2_0) ∗ (o1Loc d ↦{fullShare} W main_v2_1)
          ∗ (r0Loc d ↦{fullShare} W main_v3) ∗ (r1Loc d ↦{fullShare} W main_v4)) := by
  unfold unscopedBufs
  rw [show (Finset.univ.filter fun b : Ref sig .tc => ¬ b.isScoped) = {main_arg0, main_arg1, main_arg2, main_arg3, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem hI0 : (opI0 (F := F)).bufs ⊆ ({a0', i0'} : Finset (DevRef τ sig)) := subset_rfl
theorem hI1 : (opI1 (F := F)).bufs ⊆ ({a1', i1'} : Finset (DevRef τ sig)) := subset_rfl
theorem hR0 : (opR0 (F := F)).bufs ⊆ ({o0', r0'} : Finset (DevRef τ sig)) := subset_rfl
theorem hR1 : (opR1 (F := F)).bufs ⊆ ({o1', r1'} : Finset (DevRef τ sig)) := subset_rfl

/-- What @main leaves the claim: the four arguments at their launch contents, the two results at the transposed lookups. -/
abbrev FIN (d : Dev nD) : sProp (𝕄 F) :=
  iprop((a0Loc d ↦{fullShare} m (a0Loc d)) ∗ (a1Loc d ↦{fullShare} m (a1Loc d)) ∗ (t0Loc d ↦{fullShare} m (t0Loc d)) ∗ (t1Loc d ↦{fullShare} m (t1Loc d))
    ∗ (r0Loc d ↦{fullShare} R0 m d) ∗ (r1Loc d ↦{fullShare} R1 m d))

variable [FloatOps F]

set_option maxRecDepth 16384 in
/-- @main on device `d`'s TensorCore: the two transposes of the row numbers, the call (the library's `wp_run`: the six arrays out
    to the tiles and back), the two transposes of the results; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ht0, Ht1, Hi0, Hi1, Ho0, Ho1, Hr0, Hr1⟩, -, -⟩, -⟩
  -- the row numbers transposed
  iapply (wp_hlo_within 𝒱 (SparseCore.T d) none Set.univ (op := opI0) (S := {a0', i0'}) hI0 (V := V0 m d)) $$ [Hb Ha0 Hi0]
  · isplitl [Hb]; · iexact Hb
    rw [held_pair d (show a0' ≠ i0' by decide)]
    isplitl [Ha0]; · iexact Ha0
    iexact Hi0
  iintro ⟨Hb, Hheld⟩
  ihave Hh := (Entails.of_eq (held_unary (F := F) d main_arg0 main_v0 (by decide) _ _ _ (V0 m d))) $$ Hheld
  icases Hh with ⟨Ha0, Hi0⟩
  rw [wp_ret]; imodintro
  iapply (wp_hlo_within 𝒱 (SparseCore.T d) none Set.univ (op := opI1) (S := {a1', i1'}) hI1 (V := V0 m d)) $$ [Hb Ha1 Hi1]
  · isplitl [Hb]; · iexact Hb
    rw [held_pair d (show a1' ≠ i1' by decide)]
    isplitl [Ha1]; · iexact Ha1
    iexact Hi1
  iintro ⟨Hb, Hheld⟩
  ihave Hh := (Entails.of_eq (held_unary (F := F) d main_arg1 main_v1 (by decide) _ _ _ (V0 m d))) $$ Hheld
  icases Hh with ⟨Ha1, Hi1⟩
  rw [wp_ret]; imodintro
  -- the call: the tables, the transposed row numbers and the results out to the thirty-two tiles and back
  iapply ((K (F := F)).wp_run (D (F := F)) 𝒱 (EH := EH) (P := P m) κ d 0) $$ [Hst Ht0 Ht1 Hi0 Hi1 Ho0 Ho1 Hb Ha0 Ha1 Hr0 Hr1]
  isplitr; · iexact Hctx
  isplitl [Hst]; · iexact Hst
  isplitl [Ht0 Ht1 Hi0 Hi1 Ho0 Ho1]
  · rw [st0_eq]
    isplitl [Ht0]; · iexact Ht0
    isplitl [Ht1]; · iexact Ht1
    isplitl [Hi0]; · iexact Hi0
    isplitl [Hi1]; · iexact Hi1
    isplitl [Ho0]; · iexact Ho0
    iexact Ho1
  iintro ⟨Hst, Hdn⟩
  ihave Hdn' := (Entails.of_eq (dn0_eq m d)) $$ Hdn
  icases Hdn' with ⟨Ht0, Ht1, -, -, Ho0, Ho1⟩
  -- the results transposed
  iapply (wp_hlo_within 𝒱 (SparseCore.T d) none Set.univ (op := opR0) (S := {o0', r0'}) hR0 (V := VY0 m d)) $$ [Hb Ho0 Hr0]
  · isplitl [Hb]; · iexact Hb
    rw [held_pair d (show o0' ≠ r0' by decide), VY0_o, VY0_r]
    isplitl [Ho0]; · iexact Ho0
    iexact Hr0
  iintro ⟨Hb, Hheld⟩
  ihave Hh := (Entails.of_eq ((held_unary (F := F) d main_v2_0 main_v3 (by decide) _ _ _ (VY0 m d)).trans (by rw [VY0_o]))) $$ Hheld
  icases Hh with ⟨-, Hr0⟩
  rw [wp_ret]; imodintro
  iapply (wp_hlo_within 𝒱 (SparseCore.T d) none Set.univ (op := opR1) (S := {o1', r1'}) hR1 (V := VY1 m d)) $$ [Hb Ho1 Hr1]
  · isplitl [Hb]; · iexact Hb
    rw [held_pair d (show o1' ≠ r1' by decide), VY1_o, VY1_r]
    isplitl [Ho1]; · iexact Ho1
    iexact Hr1
  iintro ⟨Hb, Hheld⟩
  ihave Hh := (Entails.of_eq ((held_unary (F := F) d main_v2_1 main_v4 (by decide) _ _ _ (VY1 m d)).trans (by rw [VY1_o]))) $$ Hheld
  icases Hh with ⟨-, Hr1⟩
  rw [wp_ret]; imodintro; imodintro
  isplitl [Hst]; · iexact Hst
  isplitl [Ha0]; · iexact Ha0
  isplitl [Ha1]; · iexact Ha1
  isplitl [Ht0]; · iexact Ht0
  isplitl [Ht1]; · iexact Ht1
  isplitl [Hr0]; · iexact Hr0
  iexact Hr1

/-- What the final memory holds, per device. -/
def fq (d : Dev nD) (s' : Phys nD τ sig (Elt F)) : Prop :=
  s'.mem.mem (a0Loc d) = m (a0Loc d) ∧ s'.mem.mem (a1Loc d) = m (a1Loc d) ∧ s'.mem.mem (t0Loc d) = m (t0Loc d) ∧ s'.mem.mem (t1Loc d) = m (t1Loc d)
    ∧ s'.mem.mem (r0Loc d) = R0 m d ∧ s'.mem.mem (r1Loc d) = R1 m d

omit ρ [FloatOps F] in
set_option maxRecDepth 16384 in
theorem hfin (d : Dev nD) (s' : Phys nD τ sig (Elt F)) : iprop(FIN m d ∗ SI s') ⊢ (⌜fq m d s'⌝ : sProp (𝕄 F)) := by
  iintro ⟨⟨Ha0, Ha1, Ht0, Ht1, Hr0, Hr1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (persistent_entails_right (SI_pointsTo_agree (st := s') (ℓ := t0Loc d) (I := Finset.univ) (q := fullShare) (f := m (t0Loc d)))) $$ [HSI Ht0]
  · isplitl [HSI] <;> iassumption
  icases H with ⟨%h3, HSI, -⟩
  ihave H := (persistent_entails_right (SI_pointsTo_agree (st := s') (ℓ := t1Loc d) (I := Finset.univ) (q := fullShare) (f := m (t1Loc d)))) $$ [HSI Ht1]
  · isplitl [HSI] <;> iassumption
  icases H with ⟨%h4, HSI, -⟩
  ihave H := (persistent_entails_right (SI_pointsTo_agree (st := s') (ℓ := r0Loc d) (I := Finset.univ) (q := fullShare) (f := R0 m d))) $$ [HSI Hr0]
  · isplitl [HSI] <;> iassumption
  icases H with ⟨%h5, HSI, -⟩
  ihave H := (SI_pointsTo_agree (st := s') (ℓ := r1Loc d) (I := Finset.univ) (q := fullShare) (f := R1 m d)) $$ [HSI Hr1]
  · isplitl [HSI] <;> iassumption
  icases H with %h6
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i)⟩

/-! ## The program's run -/

/-- The kernel's run: under the row numbers in range, every weakly fair execution of the thirty-five threads terminates, nothing
    faulting; the two results hold the specification's lookup of the two tables, the four arguments are unchanged. -/
theorem run_main [∀ e, Nonempty (Elt F e)]
    (h0 : ∀ c : Dev nD, Cert.Lookup.InRange (m ((c.tc : Thread nD τ).loc main_arg0))) (h1 : ∀ c : Dev nD, Cert.Lookup.InRange (m ((c.tc : Thread nD τ).loc main_arg1))) :
    θ_run (Cert.KernelIdeal.defs (F := F)) (Cert.KernelIdeal.threads (F := F)) ⟨m, fun _ => 0, ρ⟩ (fun r => ∀ c : Dev nD,
        r.2.mem ((c.tc : Thread nD τ).loc main_v3) = Cert.Lookup.take (m ((c.tc : Thread nD τ).loc main_arg2)) (m ((c.tc : Thread nD τ).loc main_arg0))
      ∧ r.2.mem ((c.tc : Thread nD τ).loc main_v4) = Cert.Lookup.take (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  have hpre : PreOK m := fun d => ⟨transpose_ids_lt _ _ _ (h0 d), transpose_ids_lt _ _ _ (h1 d)⟩
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => by
      obtain ⟨e0, e1, e2, e3, e4, e5⟩ := h c
      exact ⟨e4.trans (take_of_transposes _ _ _ _), e5.trans (take_of_transposes _ _ _ _), e0, e1, e2, e3⟩)

end Cert.Proof.KernelIdealSide

end
-- ==== Proof.SetupBits.lean ====
/-
  The lookup kernel as the SparseCore launch theorem sees it, and the names both the tile's task and the launch use: the
  configuration, the resource algebra (the handshakes' rounds beside the transfers' counters), the device's arrays as
  locations and as the memrefs the task addresses them by, and the cut of the two results among the 32 tiles. Tile w
  (core w / 16, subcore w % 16) owns, of each result array of shape [50, 4096, 128], the rows 128 w … 128 w + 127 of its middle
  axis; of the tables and of the transposed row numbers every tile holds a read share.
-/
import proofs.«206480_g70196945486151_cont_9to1_m_271_23_alg».proof.Defs
import proofs.«206480_g70196945486151_cont_9to1_m_271_23_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206480_g70196945486151_cont_9to1_m_271_23_alg».proof.Proof.Gen.Kernel
import proofs.«206480_g70196945486151_cont_9to1_m_271_23_alg».proof.Proof.Gen.Kernel.Skeleton

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev 𝕄 (F : FTy → Type) : Type := MT nD τ sig (HIx 1) (Elt F) ℕ UU ℕ

abbrev EH : Emb UH (𝕄 F) := embL

/-! ## The arrays -/

/-- The tables, the transposed row numbers and the two results, as locations of device `d`. -/
abbrev t0Loc (d : Dev nD) : Loc nD τ sig := (SparseCore.T d).loc main_arg2
abbrev t1Loc (d : Dev nD) : Loc nD τ sig := (SparseCore.T d).loc main_arg3
abbrev i0Loc (d : Dev nD) : Loc nD τ sig := (SparseCore.T d).loc main_v0
abbrev i1Loc (d : Dev nD) : Loc nD τ sig := (SparseCore.T d).loc main_v1
abbrev o0Loc (d : Dev nD) : Loc nD τ sig := (SparseCore.T d).loc main_v2_0
abbrev o1Loc (d : Dev nD) : Loc nD τ sig := (SparseCore.T d).loc main_v2_1

abbrev t0V : Memref sig .scVector .hbm S100000x128 .f32 := Memref.whole main_arg2_scv
abbrev t1V : Memref sig .scVector .hbm S100000x128 .f32 := Memref.whole main_arg3_scv
abbrev i0V : Memref sig .scVector .hbm S50x4096 .i32 := Memref.whole main_v0_scv
abbrev i1V : Memref sig .scVector .hbm S50x4096 .i32 := Memref.whole main_v1_scv
abbrev o0V : Memref sig .scVector .hbm S50x4096x128 .f32 := Memref.whole main_v2_0_scv
abbrev o1V : Memref sig .scVector .hbm S50x4096x128 .f32 := Memref.whole main_v2_1_scv
/-- A tile's scratch: the list of row numbers and the five staging slots. -/
abbrev lV : Memref sig .scVector .vmem S50x128 .i32 := Memref.whole cc0_scratch0
abbrev b0V : Memref sig .scVector .vmem S64x128 .f32 := Memref.whole cc0_scratch1
abbrev b1V : Memref sig .scVector .vmem S64x128 .f32 := Memref.whole cc0_scratch2
abbrev b2V : Memref sig .scVector .vmem S64x128 .f32 := Memref.whole cc0_scratch3
abbrev b3V : Memref sig .scVector .vmem S64x128 .f32 := Memref.whole cc0_scratch4
abbrev b4V : Memref sig .scVector .vmem S64x128 .f32 := Memref.whole cc0_scratch5

/-! ## The cut of a result among the tiles -/

theorem odiv : 32 ∣ S50x4096x128.size 1 := ⟨128, rfl⟩
/-- Tile `w`'s rows of a result: rows 128 w … 128 w + 127 of the middle axis. -/
abbrev oband (w : Fin 32) : Rect S50x4096x128 := Rect.part (s := S50x4096x128) (a₀ := 1) odiv w
abbrev oBandSet (w : Fin 32) : Finset S50x4096x128.Idx := (oband w).set

/-- The tile number of subcore `i` of core `c`. -/
def wOf (c : Fin 2) (i : Fin 16) : Fin 32 := ⟨16 * c.val + i.val, by omega⟩

/-! ## The lookup as the kernel computes it, before the host's transposes

Entry (l, r, h) of a result is entry h of the table's row `idsT (l, r)`. -/

def takeT {α : Type} (tab : S100000x128.Idx → α) (idsT : IVec S50x4096 32) : S50x4096x128.Idx → α :=
  fun j => tab (ValueIdx.ix2 (Cert.Lookup.rowOf (idsT (ValueIdx.ix2 (j 0) (j 1)))) (j 2))

end Cert.Proof.KernelSide

end
-- ==== Proof.TileSpecBits.lean ====
/-
  What one tile's task takes and gives back. Tile w takes a read share of each table and of each transposed array of row
  numbers, and its own rows of the two result arrays at whatever they hold; it gives the shares back unchanged and its rows of
  each result holding the lookup: entry (l, r, h) is entry h of the table's row idsT (l, r).
-/
import proofs.«206480_g70196945486151_cont_9to1_m_271_23_alg».proof.Proof.SetupBits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The core, the subcore and the thread of the tile at grid coordinates `L`. -/
abbrev cV (L : grid0.Coords) : Fin τ.nSC := (L 0).castLE hcore0
abbrev jV (L : grid0.Coords) : Fin τ.nSub := (L 1).castLE hsub0
abbrev TH (d : Dev nD) (L : grid0.Coords) : Thread nD τ := V d (cV L) (jV L)

theorem bound_zero : grid0.bound 0 = 2 := rfl
theorem bound_one : grid0.bound 1 = 16 := rfl
/-- The tile number at grid coordinates `L`: 16 · core + subcore. -/
def wL (L : grid0.Coords) : Fin 32 := wOf (Fin.cast bound_zero (L 0)) (Fin.cast bound_one (L 1))

section

variable (m : (ℓ : Loc nD τ sig) → Buf (Elt F) ℓ) (d : Dev nD) (w : Fin 32)
variable (X0 : Buf (Elt F) (i0Loc d)) (X1 : Buf (Elt F) (i1Loc d)) (q0 q1 qi0 qi1 : PosShare TreeShare)

/-- What tile `w` is handed: the shares, and its rows of the results at some contents. -/
abbrev TileIn (fo0 : Buf (Elt F) (o0Loc d)) (fo1 : Buf (Elt F) (o1Loc d)) : sProp (𝕄 F) :=
  iprop((t0Loc d ↦{q0} m (t0Loc d)) ∗ (t1Loc d ↦{q1} m (t1Loc d)) ∗ (i0Loc d ↦{qi0} X0) ∗ (i1Loc d ↦{qi1} X1)
      ∗ (o0Loc d ↦[oBandSet w]{fullShare} fo0) ∗ (o1Loc d ↦[oBandSet w]{fullShare} fo1))

/-- What tile `w` hands back: the shares, and its rows of the results holding the lookup. -/
abbrev TileOut : sProp (𝕄 F) :=
  iprop((t0Loc d ↦{q0} m (t0Loc d)) ∗ (t1Loc d ↦{q1} m (t1Loc d)) ∗ (i0Loc d ↦{qi0} X0) ∗ (i1Loc d ↦{qi1} X1)
      ∗ (o0Loc d ↦[oBandSet w]{fullShare} (takeT (m (t0Loc d)) X0 : Buf (Elt F) (o0Loc d)))
      ∗ (o1Loc d ↦[oBandSet w]{fullShare} (takeT (m (t1Loc d)) X1 : Buf (Elt F) (o1Loc d))))

end

end Cert.Proof.KernelSide

end
-- ==== Proof.RingAuxBits.lean ====
/-
  Small facts the tile's task uses for either table: its scratch buffers in the launch's spelling and in the task's, a conjunction
  over five, a read after a whole write, the read shares of the list and of a table the ring's five slots work through, and the
  elements of the list a gather reads.
-/
import proofs.«206480_g70196945486151_cont_9to1_m_271_23_alg».proof.Proof.TileSpecBits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The tile's scratch in the launch's spelling and in the task's -/

theorem pts_l (d : Dev nD) (L : grid0.Coords) (f : Buf (Elt F) ((TH d L).loc cc0_scratch0)) :
    ((lV).view.loc (TH d L) ↦{fullShare} f : sProp (𝕄 F)) = (TH d L).loc cc0_scratch0 ↦{fullShare} f := rfl
theorem pts_sa (d : Dev nD) (L : grid0.Coords) (f : Buf (Elt F) ((TH d L).loc cc0_scratch1)) :
    ((b0V).view.loc (TH d L) ↦{fullShare} f : sProp (𝕄 F)) = (TH d L).loc cc0_scratch1 ↦{fullShare} f := rfl
theorem pts_sb (d : Dev nD) (L : grid0.Coords) (f : Buf (Elt F) ((TH d L).loc cc0_scratch2)) :
    ((b1V).view.loc (TH d L) ↦{fullShare} f : sProp (𝕄 F)) = (TH d L).loc cc0_scratch2 ↦{fullShare} f := rfl
theorem pts_sc (d : Dev nD) (L : grid0.Coords) (f : Buf (Elt F) ((TH d L).loc cc0_scratch3)) :
    ((b2V).view.loc (TH d L) ↦{fullShare} f : sProp (𝕄 F)) = (TH d L).loc cc0_scratch3 ↦{fullShare} f := rfl
theorem pts_sd (d : Dev nD) (L : grid0.Coords) (f : Buf (Elt F) ((TH d L).loc cc0_scratch4)) :
    ((b3V).view.loc (TH d L) ↦{fullShare} f : sProp (𝕄 F)) = (TH d L).loc cc0_scratch4 ↦{fullShare} f := rfl
theorem pts_se (d : Dev nD) (L : grid0.Coords) (f : Buf (Elt F) ((TH d L).loc cc0_scratch5)) :
    ((b4V).view.loc (TH d L) ↦{fullShare} f : sProp (𝕄 F)) = (TH d L).loc cc0_scratch5 ↦{fullShare} f := rfl

/-- A conjunction over five. -/
theorem bigSep_univ_five {M : Type} [URA M] (Φ : Fin 5 → sProp M) :
    bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- A view read after one write of the whole shape reads the payload. -/
theorem read_writes_whole {κ : Kind} {sp : Space} {s : Shape} {e : EltTy} (v : View sig κ sp s e) (f : v.ty.Contents (Elt F)) (p : s.Idx → Elt F e) :
    v.read (Elt F) (v.writes (Elt F) f [⟨Rect.whole s, p⟩]) = p := by
  funext y
  have h := View.read_writes_cons_emb v f (Rect.whole s) p [] y
  rwa [Rect.emb_whole_apply] at h

/-! ## The shares the ring's slots read through -/

/-- The list's: the remainder after five tokens for slot 0, tokens 0 … 3 for slots 1 … 4 (token 4 stays aside). -/
abbrev lqP : Fin 5 → PosShare TreeShare
  | 0 => Transfers.shareDrop fullShare 5
  | 1 => Transfers.shareTok fullShare 5 0
  | 2 => Transfers.shareTok fullShare 5 1
  | 3 => Transfers.shareTok fullShare 5 2
  | 4 => Transfers.shareTok fullShare 5 3
/-- A table's: token s for slot s (the remainder stays aside). -/
abbrev tqP (q : PosShare TreeShare) : Fin 5 → PosShare TreeShare := fun s => Transfers.shareTok q 5 s

/-- The elements of the list a gather reads its row numbers from. -/
abbrev lWin (off : Fin 2 → ℕ) (h : ∀ a, off a + S1x64.size a ≤ S50x128.size a) : Finset S50x128.Idx :=
  ((lV.slice (Rect.unit (s := S50x128) off S1x64.size h) (fun _ => rfl)).squeeze S64 squeezes_S1x64_S64).view.set

end Cert.Proof.KernelSide

end
-- ==== Proof.RingSpecBits.lean ====
/-
  The ring's vocabulary. The tile moves each table's rows in 100 chunks of 64: chunk c is the 64 positions
  128 w + (c % 2) · 64 … of row c / 2 of the transposed row numbers, gathered into a staging slot and copied out to the same
  positions of row c / 2 of the result. `GP` is what a slot holds once chunk c has been gathered.
-/
import proofs.«206480_g70196945486151_cont_9to1_m_271_23_alg».proof.Proof.TileSpecBits
import proofs.«206480_g70196945486151_cont_9to1_m_271_23_alg».proof.Proof.ChunkGeom

noncomputable section

namespace Cert.Proof.KernelSide

open Cert.Kernel Cert.Kernel.Gen
open Idealize.ShloMosaic

/-- A position of the transposed row numbers from natural coordinates (reduced into range; the identity in range). -/
def ixI (a b : ℕ) : S50x4096.Idx := ValueIdx.ix2 ⟨a % 50, Nat.mod_lt _ (by decide)⟩ ⟨b % 4096, Nat.mod_lt _ (by decide)⟩

/-- What a staging slot holds once chunk `c` of tile `w` has been gathered: at (y₀, y₁), entry y₁ of the table's row
    named at position 128 w + (c % 2) · 64 + y₀ of row c / 2 of the transposed row numbers. -/
def GP {α : Type} (tab : S100000x128.Idx → α) (X : IVec S50x4096 32) (w : Fin 32) (c : ℕ) : S64x128.Idx → α :=
  fun y => tab (ValueIdx.ix2 (Cert.Lookup.rowOf (X (ixI (c / 2) (128 * w.val + (c % 2) * 64 + (y 0).val)))) (y 1))

/-- Chunk `c`'s piece of tile `w`'s rows of a result. -/
abbrev opc (w : Fin 32) (c : ℕ) : Finset S50x4096x128.Idx := Cert.Proof.Geom.opiece w c

end Cert.Proof.KernelSide

end
-- ==== Proof.CondsBits.lean ====
/-
  The ring's guards in closed form. In trip t of either loop, slot b handles chunk 5 t + b: the store of chunk 5 t + b − 2 is
  awaited when that chunk exists (every time but the first trip's slots 0 and 1), and the gather of chunk 5 t + b + 3 is
  started when that chunk exists (every time but the last trip's slots 2, 3, 4).
-/
import proofs.«206480_g70196945486151_cont_9to1_m_271_23_alg».proof.Proof.SetupBits

namespace Cert.Proof.KernelSide

open Cert.Kernel Cert.Kernel.Gen
open Idealize.ShloMosaic

theorem trips1 : k0_t1_loop.trips = 20 := by decide +kernel
theorem trips2 : k0_t2_loop.trips = 20 := by decide +kernel

theorem cond1_iff : ∀ t : Fin k0_t1_loop.trips, k0_cond1 t = 1#1 ↔ t.val ≠ 0 := by decide +kernel
theorem cond3_iff : ∀ t : Fin k0_t1_loop.trips, k0_cond3 t = 1#1 ↔ t.val ≠ 0 := by decide +kernel
theorem cond5_all : ∀ t : Fin k0_t1_loop.trips, k0_cond5 t = 1#1 := by decide +kernel
theorem cond7_all : ∀ t : Fin k0_t1_loop.trips, k0_cond7 t = 1#1 := by decide +kernel
theorem cond9_all : ∀ t : Fin k0_t1_loop.trips, k0_cond9 t = 1#1 := by decide +kernel
theorem cond2_all : ∀ t : Fin k0_t1_loop.trips, k0_cond2 t = 1#1 := by decide +kernel
theorem cond4_all : ∀ t : Fin k0_t1_loop.trips, k0_cond4 t = 1#1 := by decide +kernel
theorem cond6_iff : ∀ t : Fin k0_t1_loop.trips, k0_cond6 t = 1#1 ↔ t.val ≠ 19 := by decide +kernel
theorem cond8_iff : ∀ t : Fin k0_t1_loop.trips, k0_cond8 t = 1#1 ↔ t.val ≠ 19 := by decide +kernel
theorem cond10_iff : ∀ t : Fin k0_t1_loop.trips, k0_cond10 t = 1#1 ↔ t.val ≠ 19 := by decide +kernel

theorem cond11_iff : ∀ t : Fin k0_t2_loop.trips, k0_cond11 t = 1#1 ↔ t.val ≠ 0 := by decide +kernel
theorem cond13_iff : ∀ t : Fin k0_t2_loop.trips, k0_cond13 t = 1#1 ↔ t.val ≠ 0 := by decide +kernel
theorem cond15_all : ∀ t : Fin k0_t2_loop.trips, k0_cond15 t = 1#1 := by decide +kernel
theorem cond17_all : ∀ t : Fin k0_t2_loop.trips, k0_cond17 t = 1#1 := by decide +kernel
theorem cond19_all : ∀ t : Fin k0_t2_loop.trips, k0_cond19 t = 1#1 := by decide +kernel
theorem cond12_all : ∀ t : Fin k0_t2_loop.trips, k0_cond12 t = 1#1 := by decide +kernel
theorem cond14_all : ∀ t : Fin k0_t2_loop.trips, k0_cond14 t = 1#1 := by decide +kernel
theorem cond16_iff : ∀ t : Fin k0_t2_loop.trips, k0_cond16 t = 1#1 ↔ t.val ≠ 19 := by decide +kernel
theorem cond18_iff : ∀ t : Fin k0_t2_loop.trips, k0_cond18 t = 1#1 ↔ t.val ≠ 19 := by decide +kernel
theorem cond20_iff : ∀ t : Fin k0_t2_loop.trips, k0_cond20 t = 1#1 ↔ t.val ≠ 19 := by decide +kernel

end Cert.Proof.KernelSide
-- ==== Proof.RingInv0Bits.lean ====
/-
  The ring's invariant for the first table. Before trip t of the loop (t = 0 … 20; chunks 5 t … 5 t + 4 are the trip's):
  the gathers of chunks 5 t, 5 t + 1, 5 t + 2 are in flight into slots 0, 1, 2; the copies out of chunks 5 t − 2, 5 t − 1 are in
  flight from slots 3, 4; every earlier chunk's piece of the result holds the lookup; every later chunk's piece is untouched.
  A gather's flight carries its slot, and the slot's read shares of the list and of the table; a copy-out's flight carries
  the piece of the result, already at the lookup, and its slot.
-/
import proofs.«206480_g70196945486151_cont_9to1_m_271_23_alg».proof.Proof.RingSpecBits
import proofs.«206480_g70196945486151_cont_9to1_m_271_23_alg».proof.Proof.CondsBits
import proofs.«206480_g70196945486151_cont_9to1_m_271_23_alg».proof.Proof.BigSepNat

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

/-- The lookup into the first table, as contents of the first result. -/
abbrev G0 : Buf (Elt F) (o0Loc d) := takeT (m (t0Loc d)) X

/-- A gather of chunk `c` in flight into slot `bV` on cell `gs`: at its wait it hands back the slot holding the chunk's rows,
    and the slot's read shares of the list and of the table. -/
def GFl0 (bV : Memref sig .scVector .vmem S64x128 .f32) (gs : DmaSem sig) (s : Fin 5) (c : ℕ) : sProp (𝕄 F) :=
  iprop(∃ g : Buf (Elt F) (bV.view.loc (TH d L)), ⌜bV.view.read (Elt F) g = GP (m (t0Loc d)) X (wL L) c⌝ ∗
    Transfers.Flight countersEmb (TH d L) (.dma gs) (default : HIx 1) 262144
      iprop(((bV.view.loc (TH d L) ↦[bV.view.set]{fullShare} g) ∗ ((lV).view.loc (TH d L) ↦{lq s} LC))
        ∗ ((t0V).view.loc (TH d L) ↦{tq s} m (t0Loc d))))

/-- A copy-out of chunk `c` in flight from slot `bV` on cell `ss`: at its wait it hands back the chunk's piece of the
    result holding the lookup, and the slot. -/
def SFl0 (bV : Memref sig .scVector .vmem S64x128 .f32) (ss : DmaSem sig) (c : ℕ) : sProp (𝕄 F) :=
  iprop(∃ g : Buf (Elt F) (bV.view.loc (TH d L)),
    Transfers.Flight countersEmb (TH d L) (.dma ss) (default : HIx 1) 262144
      iprop(((o0V).view.loc (TH d L) ↦[opc (wL L) c]{fullShare} G0 m d X) ∗ (bV.view.loc (TH d L) ↦[bV.view.set]{fullShare} g)))

/-- Chunk `c`'s piece untouched, and holding the lookup. -/
def Pc0 (c : ℕ) : sProp (𝕄 F) := (o0V).view.loc (TH d L) ↦[opc (wL L) c]{fullShare} fo
def Dc0 (c : ℕ) : sProp (𝕄 F) := (o0V).view.loc (TH d L) ↦[opc (wL L) c]{fullShare} G0 m d X
/-- A trip's five pieces. -/
def PT0 (t : ℕ) : sProp (𝕄 F) :=
  iprop(Pc0 d L fo (5 * t) ∗ Pc0 d L fo (5 * t + 1) ∗ Pc0 d L fo (5 * t + 2) ∗ Pc0 d L fo (5 * t + 3) ∗ Pc0 d L fo (5 * t + 4))
def DT0 (t : ℕ) : sProp (𝕄 F) :=
  iprop(Dc0 m d L X (5 * t) ∗ Dc0 m d L X (5 * t + 1) ∗ Dc0 m d L X (5 * t + 2) ∗ Dc0 m d L X (5 * t + 3) ∗ Dc0 m d L X (5 * t + 4))

/-- A slot's gather side at rest: its cell at zero and its read shares of the list and of the table. -/
def IdleG0 (gs : DmaSem sig) (s : Fin 5) : sProp (𝕄 F) :=
  iprop(semVal (TH d L, .dma gs) 0 ∗ ((lV).view.loc (TH d L) ↦{lq s} LC) ∗ ((t0V).view.loc (TH d L) ↦{tq s} m (t0Loc d)))
/-- A slot at rest, at some contents. -/
def IdleB (bV : Memref sig .scVector .vmem S64x128 .f32) : sProp (𝕄 F) :=
  iprop(∃ g : Buf (Elt F) (bV.view.loc (TH d L)), bV.view.loc (TH d L) ↦[bV.view.set]{fullShare} g)
/-- What the tile owes, and the waits it has made. -/
def Owes : sProp (𝕄 F) := iprop(∃ W', ⌜∀ p ∈ W', p ∈ W ∨ p.2 = none⌝ ∗ owes (TH d L) O W')

/-- Before a trip 1 ≤ t ≤ 19. -/
def InvMid0 (t : ℕ) : sProp (𝕄 F) :=
  iprop(GFl0 m d L X LC lq tq b0V cc0_scratch6.sem 0 (5 * t) ∗ GFl0 m d L X LC lq tq b1V cc0_scratch7.sem 1 (5 * t + 1)
    ∗ GFl0 m d L X LC lq tq b2V cc0_scratch8.sem 2 (5 * t + 2)
    ∗ SFl0 m d L X b3V cc0_scratch14.sem (5 * t - 2) ∗ SFl0 m d L X b4V cc0_scratch15.sem (5 * t - 1)
    ∗ IdleG0 m d L LC lq tq cc0_scratch9.sem 3 ∗ IdleG0 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico t 20) (PT0 d L fo) ∗ bigSep (Finset.range (t - 1)) (DT0 m d L X)
    ∗ Dc0 m d L X (5 * t - 5) ∗ Dc0 m d L X (5 * t - 4) ∗ Dc0 m d L X (5 * t - 3)
    ∗ Owes d L O W)

/-- Before the first trip: nothing copied out yet, slots 3 and 4 at rest. -/
def Inv00 : sProp (𝕄 F) :=
  iprop(GFl0 m d L X LC lq tq b0V cc0_scratch6.sem 0 0 ∗ GFl0 m d L X LC lq tq b1V cc0_scratch7.sem 1 1
    ∗ GFl0 m d L X LC lq tq b2V cc0_scratch8.sem 2 2
    ∗ IdleB d L b3V ∗ IdleB d L b4V ∗ semVal (TH d L, .dma cc0_scratch14.sem) 0 ∗ semVal (TH d L, .dma cc0_scratch15.sem) 0
    ∗ IdleG0 m d L LC lq tq cc0_scratch9.sem 3 ∗ IdleG0 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico 0 20) (PT0 d L fo)
    ∗ Owes d L O W)

/-- After the last trip: every gather done, the copies out of chunks 98 and 99 in flight. -/
def InvEnd0 : sProp (𝕄 F) :=
  iprop(SFl0 m d L X b3V cc0_scratch14.sem 98 ∗ SFl0 m d L X b4V cc0_scratch15.sem 99
    ∗ IdleB d L b0V ∗ IdleB d L b1V ∗ IdleB d L b2V
    ∗ IdleG0 m d L LC lq tq cc0_scratch6.sem 0 ∗ IdleG0 m d L LC lq tq cc0_scratch7.sem 1 ∗ IdleG0 m d L LC lq tq cc0_scratch8.sem 2
    ∗ IdleG0 m d L LC lq tq cc0_scratch9.sem 3 ∗ IdleG0 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.range 19) (DT0 m d L X)
    ∗ Dc0 m d L X 95 ∗ Dc0 m d L X 96 ∗ Dc0 m d L X 97
    ∗ Owes d L O W)

/-- The loop's invariant. -/
def inv0 (k : ℕ) : sProp (𝕄 F) :=
  iprop(levAts (K (F := F)).L (K (F := F)).lev ∗
    (if k = 0 then Inv00 m d L X LC lq tq fo O W else if k = 20 then InvEnd0 m d L X LC lq tq O W else InvMid0 m d L X LC lq tq fo O W k))

end

end Cert.Proof.KernelSide

end
-- ==== Proof.RingBand0Bits.lean ====
/-
  The first table's arrays as the tile's task names them, its band of the result cut into the hundred pieces the ring moves (grouped
  by trips, as the loop's invariant holds them), and what the task holds between the two tables.
-/
import proofs.«206480_g70196945486151_cont_9to1_m_271_23_alg».proof.Proof.RingAuxBits
import proofs.«206480_g70196945486151_cont_9to1_m_271_23_alg».proof.Proof.RingInv0Bits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

/-! ## The first table's arrays in the launch's spelling and in the task's -/

theorem pts_t0 (d : Dev nD) (L : grid0.Coords) (q : PosShare TreeShare) (f : Buf (Elt F) (t0Loc d)) :
    ((t0V).view.loc (TH d L) ↦{q} f : sProp (𝕄 F)) = t0Loc d ↦{q} f := rfl
theorem pts_i0 (d : Dev nD) (L : grid0.Coords) (q : PosShare TreeShare) (f : Buf (Elt F) (i0Loc d)) :
    ((i0V).view.loc (TH d L) ↦{q} f : sProp (𝕄 F)) = i0Loc d ↦{q} f := rfl
theorem pts_o0 (d : Dev nD) (L : grid0.Coords) (S : Finset S50x4096x128.Idx) (f : Buf (Elt F) (o0Loc d)) :
    ((o0V).view.loc (TH d L) ↦[S]{fullShare} f : sProp (𝕄 F)) = o0Loc d ↦[S]{fullShare} f := rfl

/-- The list after the copy of the tile's columns of the transposed row numbers. -/
abbrev LC0 (d : Dev nD) (L : grid0.Coords) (X : Buf (Elt F) (i0Loc d)) (fl : Buf (Elt F) ((TH d L).loc cc0_scratch0)) : Buf (Elt F) ((TH d L).loc cc0_scratch0) :=
  View.write (Elt F) lV.view fl
    (ReadAs.same.apply ((i0V.slice (Rect.unit (s := S50x4096) (k0_off1 L) S50x128.size (k0_off1_inb L)) (fun _ => rfl)).view.read (Elt F) X)) Finset.univ

/-! ## The band cut into its hundred pieces, by trips -/

theorem band_cut0 (d : Dev nD) (L : grid0.Coords) (f : Buf (Elt F) (o0Loc d)) :
    ((o0V).view.loc (TH d L) ↦[oBandSet (wL L)]{fullShare} f : sProp (𝕄 F))
      = bigSep (Finset.range 20) fun t => iprop(((o0V).view.loc (TH d L) ↦[opc (wL L) (5 * t)]{fullShare} f)
          ∗ ((o0V).view.loc (TH d L) ↦[opc (wL L) (5 * t + 1)]{fullShare} f) ∗ ((o0V).view.loc (TH d L) ↦[opc (wL L) (5 * t + 2)]{fullShare} f)
          ∗ ((o0V).view.loc (TH d L) ↦[opc (wL L) (5 * t + 3)]{fullShare} f) ∗ ((o0V).view.loc (TH d L) ↦[opc (wL L) (5 * t + 4)]{fullShare} f)) := by
  rw [← Geom.bigSep_range_mul5 (Φ := fun c => ((o0V).view.loc (TH d L) ↦[opc (wL L) c]{fullShare} f : sProp (𝕄 F))) 20,
    ← pointsTo_biUnion (Finset.range (5 * 20)) (ℓ := (o0V).view.loc (TH d L)) (opc (wL L)) (Geom.opiece_disjoint (wL L))]
  exact congrArg (fun S => ((o0V).view.loc (TH d L) ↦[S]{fullShare} f : sProp (𝕄 F))) (Geom.opiece_cover (wL L)).symm

theorem band_pieces0 (d : Dev nD) (L : grid0.Coords) (fo : Buf (Elt F) (o0Loc d)) :
    ((o0V).view.loc (TH d L) ↦[oBandSet (wL L)]{fullShare} fo : sProp (𝕄 F)) = bigSep (Finset.Ico 0 20) (PT0 d L fo) := by
  rw [band_cut0, Geom.bigSep_Ico_zero]; rfl
theorem band_done0 (m : (ℓ : Loc nD τ sig) → Buf (Elt F) ℓ) (d : Dev nD) (L : grid0.Coords) (X : Buf (Elt F) (i0Loc d)) :
    ((o0V).view.loc (TH d L) ↦[oBandSet (wL L)]{fullShare} G0 m d X : sProp (𝕄 F)) = bigSep (Finset.range 20) (DT0 m d L X) := by
  rw [band_cut0]; rfl

/-! ## After the loop and the wait for chunk 98

The table's and the row numbers' shares are back, the list is whole, slots 0 … 3 are at rest, chunk 99's copy-out is still in flight
from slot 4, every cell but its own is at zero (`rs` is the cell the copy of the row numbers used), ninety-nine pieces hold the lookup. -/
def MidT0 (m : (ℓ : Loc nD τ sig) → Buf (Elt F) ℓ) (d : Dev nD) (L : grid0.Coords) (X : Buf (Elt F) (i0Loc d)) (q0 qi0 : PosShare TreeShare)
    (rs : DmaSem sig) (O : CellTallies nD τ sig (HIx 1)) (W : Waits sig (HIx 1)) : sProp (𝕄 F) :=
  iprop(∃ LC : Buf (Elt F) ((TH d L).loc cc0_scratch0),
    (t0Loc d ↦{q0} m (t0Loc d)) ∗ (i0Loc d ↦{qi0} X) ∗ ((TH d L).loc cc0_scratch0 ↦{fullShare} LC)
    ∗ IdleB d L b0V ∗ IdleB d L b1V ∗ IdleB d L b2V ∗ IdleB d L b3V
    ∗ SFl0 m d L X b4V cc0_scratch15.sem 99
    ∗ semVal (TH d L, .dma cc0_scratch6.sem) 0 ∗ semVal (TH d L, .dma cc0_scratch7.sem) 0 ∗ semVal (TH d L, .dma cc0_scratch8.sem) 0
    ∗ semVal (TH d L, .dma cc0_scratch9.sem) 0 ∗ semVal (TH d L, .dma cc0_scratch10.sem) 0
    ∗ semVal (TH d L, .dma cc0_scratch11.sem) 0 ∗ semVal (TH d L, .dma cc0_scratch12.sem) 0 ∗ semVal (TH d L, .dma cc0_scratch13.sem) 0
    ∗ semVal (TH d L, .dma cc0_scratch14.sem) 0
    ∗ semVal (TH d L, .dma rs) 0
    ∗ bigSep (Finset.range 19) (DT0 m d L X) ∗ Dc0 m d L X 95 ∗ Dc0 m d L X 96 ∗ Dc0 m d L X 97 ∗ Dc0 m d L X 98
    ∗ Owes d L O W)

end Cert.Proof.KernelSide

end
-- ==== Proof.RingVal0Bits.lean ====
/-
  The values the ring moves, first table. The printed offset chains of the first loop in closed form: slot b of trip t
  handles chunk 5 t + b, whose window of the list starts at row c / 2, position (c mod 2) · 64, and whose piece of the result
  starts at row c / 2, position 128 w + (c mod 2) · 64. The list, once the tile's 128 columns of the transposed row numbers
  are copied into it, reads through chunk c's window the row numbers at positions 128 w + (c mod 2) · 64 … of row c / 2, all
  in range; a gather through that window delivers, at (y₀, y₁), entry y₁ of the table's row named at position y₀ of the
  window; and the piece of the result the program addresses for chunk c is the piece the cut names, holding the lookup
  once the chunk's rows are written to it. Index arithmetic throughout: a window's index is the offset plus the
  coordinate, a squeezed window's index is the coordinate behind a leading 0.
-/
import proofs.«206480_g70196945486151_cont_9to1_m_271_23_alg».proof.Proof.RingSpecBits
import proofs.«206480_g70196945486151_cont_9to1_m_271_23_alg».proof.Proof.CondsBits

noncomputable section

namespace Cert.Proof.KernelSide

open Cert.Kernel Cert.Kernel.Gen
open Idealize.ShloMosaic
open Idealize.ShloMosaic.SparseCore (S V T)
open Cert.Proof.Geom (lOff oOff lOff_inb oOff_inb)

variable {F : FTy → Type}

/-! ## The printed offsets in closed form (first loop) -/

theorem off3_eq : ∀ t : Fin k0_t1_loop.trips, k0_off3 t = lOff (5 * t.val + 3) := by decide +kernel
theorem off7_eq : ∀ t : Fin k0_t1_loop.trips, k0_off7 t = lOff (5 * t.val + 4) := by decide +kernel
theorem off9_eq : ∀ t : Fin k0_t1_loop.trips, t.val ≠ 19 → k0_off9 t = lOff (5 * t.val + 5) := by decide +kernel
theorem off11_eq : ∀ t : Fin k0_t1_loop.trips, t.val ≠ 19 → k0_off11 t = lOff (5 * t.val + 6) := by decide +kernel
theorem off13_eq : ∀ t : Fin k0_t1_loop.trips, t.val ≠ 19 → k0_off13 t = lOff (5 * t.val + 7) := by decide +kernel
theorem off5_eq (r : Fin 5) : ∀ (L : grid0.Coords) (t : Fin k0_t1_loop.trips), k0_off5 L t (BitVec.ofNat 32 r.val) = oOff (wL L) (5 * t.val + r.val) := by
  revert r; decide +kernel

/-- On the indexed axis 0 a gather's source index is the row the list names. -/
theorem gidx0 {s t : Shape} (hg : s.Gathers 0 t) (R : Fin (t.size hg.axis') → Fin (s.size hg.axis)) (y : t.Idx)
    (h0 : 0 < s.rank) : (hg.idx R y ⟨0, h0⟩).val = (R (y hg.axis')).val :=
  congrArg Fin.val (Shape.Gathers.idx_axis hg R y)

section

variable (m : (ℓ : Loc nD τ sig) → Buf (Elt F) ℓ) (d : Dev nD) (L : grid0.Coords)
variable (X : Buf (Elt F) (i0Loc d)) (LC : Buf (Elt F) ((TH d L).loc cc0_scratch0))

/-- The list holds the tile's columns of the transposed row numbers: chunk `c`'s window reads positions
    128 w + (c % 2) · 64 … of row c / 2. -/
def ListOK0 : Prop :=
  ∀ (c : ℕ) (_ : c < 100) (off : Fin 2 → ℕ) (_ : off = lOff c) (h : ∀ a, off a + S1x64.size a ≤ S50x128.size a)
    (h' : ∀ a, (Rect.unit (s := S50x128) off S1x64.size h).stride a = 1) (x : S64.Idx),
    View.read (Elt F) ((lV.slice (Rect.unit (s := S50x128) off S1x64.size h) h').squeeze S64 squeezes_S1x64_S64).view LC x
      = X (ixI (c / 2) (128 * (wL L).val + (c % 2) * 64 + (x 0).val))

/-- Every window of the list reads row numbers in range. -/
def ListIn : Prop :=
  ∀ (off : Fin 2 → ℕ) (h : ∀ a, off a + S1x64.size a ≤ S50x128.size a) (h' : ∀ a, (Rect.unit (s := S50x128) off S1x64.size h).stride a = 1) (x : S64.Idx),
    (View.read (Elt F) ((lV.slice (Rect.unit (s := S50x128) off S1x64.size h) h').squeeze S64 squeezes_S1x64_S64).view LC x).toNat < 100000

/-- After the copy of the tile's columns into the list (whatever it held before). -/
theorem listOK_of_copy (fl : Buf (Elt F) ((TH d L).loc cc0_scratch0)) :
    ListOK0 d L X (View.write (Elt F) lV.view fl
      (ReadAs.same.apply ((i0V.slice (Rect.unit (s := S50x4096) (k0_off1 L) S50x128.size (k0_off1_inb L)) (fun _ => rfl)).view.read (Elt F) X)) Finset.univ) := by
  intro c hc off hoff h h' x
  subst hoff
  rw [View.write_whole_univ]
  rw [View.read_apply, cast_eq, ReadAs.apply_same, View.read_apply, cast_eq]
  congr 1
  funext a
  refine Fin.ext ?_
  simp only [Memref.view_squeeze, Memref.view_slice, Memref.view_whole, View.emb_reshape, View.emb_slice, View.emb_whole,
    Function.Embedding.trans_apply, Function.Embedding.refl_apply, Equiv.coe_toEmbedding, Rect.emb_apply, Rect.off_unit, Rect.stride_unit]
  rw [Shape.reshapeEquiv_cons_one]
  have hw : (wL L).val = 16 * (L 0).val + (L 1).val := rfl
  have hL0 : (L 0).val < 2 := (L 0).isLt
  have hL1 : (L 1).val < 16 := (L 1).isLt
  have hx : (x 0).val < 64 := (x 0).isLt
  match a with
  | ⟨0, _⟩ =>
    show k0_off1 L 0 + 1 * (lOff c 0 + 1 * 0) = (c / 2) % 50
    rw [k0_off1_eq L]
    show 0 + 1 * (c / 2 + 1 * 0) = (c / 2) % 50
    omega
  | ⟨1, _⟩ =>
    show k0_off1 L 1 + 1 * (lOff c 1 + 1 * (x 0).val) = (128 * (wL L).val + c % 2 * 64 + (x 0).val) % 4096
    rw [k0_off1_eq L, hw]
    show 2048 * (L 0).val + 128 * (L 1).val + 1 * (c % 2 * 64 + 1 * (x 0).val) = _
    omega

theorem listIn_of_copy (hX : ∀ j, (X j).toNat < 100000) (fl : Buf (Elt F) ((TH d L).loc cc0_scratch0)) :
    ListIn d L (View.write (Elt F) lV.view fl
      (ReadAs.same.apply ((i0V.slice (Rect.unit (s := S50x4096) (k0_off1 L) S50x128.size (k0_off1_inb L)) (fun _ => rfl)).view.read (Elt F) X)) Finset.univ) := by
  intro off h h' x
  rw [View.write_whole_univ, View.read_apply, cast_eq, ReadAs.apply_same, View.read_apply, cast_eq]
  exact hX _

/-- What a gather of chunk `c` delivers. -/
theorem gather_val (hL : ListOK0 d L X LC) (hX : ∀ j, (X j).toNat < 100000) (c : ℕ) (hc : c < 100) (off : Fin 2 → ℕ) (hoff : off = lOff c)
    (h : ∀ a, off a + S1x64.size a ≤ S50x128.size a) (h' : ∀ a, (Rect.unit (s := S50x128) off S1x64.size h).stride a = 1)
    (hn : S64.numel = S64x128.size gathers_S100000x128_S64x128.axis')
    (hin : ∀ x, (View.read (Elt F) ((lV.slice (Rect.unit (s := S50x128) off S1x64.size h) h').squeeze S64 squeezes_S1x64_S64).view LC x).toNat
      < S100000x128.size gathers_S100000x128_S64x128.axis) :
    SparseCore.gatherPayload gathers_S100000x128_S64x128
        ((t0V.slice (Rect.unit (s := S100000x128) ![0, 0] S100000x128.size inb_S100000x128_S100000x128_0_0) (fun _ => rfl)).view.read (Elt F) (m (t0Loc d)))
        (SparseCore.rows (View.read (Elt F) ((lV.slice (Rect.unit (s := S50x128) off S1x64.size h) h').squeeze S64 squeezes_S1x64_S64).view LC) hn hin)
      = GP (m (t0Loc d)) X (wL L) c := by
  subst hoff
  funext y
  have hx0 : ((S64.rowMajor.symm ((y gathers_S100000x128_S64x128.axis').cast hn.symm)) 0).val = (y 0).val :=
    (Shape.rowMajor_val_one _).symm.trans (congrArg Fin.val (Equiv.apply_symm_apply _ _))
  have hrow := hL c hc (lOff c) rfl h h' (S64.rowMajor.symm ((y gathers_S100000x128_S64x128.axis').cast hn.symm))
  unfold SparseCore.gatherPayload GP
  rw [View.read_apply, cast_eq]
  congr 1
  funext a
  refine Fin.ext ?_
  simp only [Memref.view_slice, Memref.view_whole, View.emb_slice, View.emb_whole,
    Function.Embedding.trans_apply, Function.Embedding.refl_apply, Rect.emb_apply, Rect.off_unit, Rect.stride_unit]
  simp only [Memref.view_squeeze, Memref.view_slice, Memref.view_whole] at hrow
  match a with
  | ⟨0, _⟩ =>
    show 0 + 1 * (gathers_S100000x128_S64x128.idx _ y ⟨0, _⟩).val = (Cert.Lookup.rowOf _).val
    rw [gidx0]
    unfold SparseCore.rows
    dsimp only
    rw [hrow, hx0, Cert.Lookup.rowOf_val (hX _)]
    omega
  | ⟨1, _⟩ =>
    show 0 + 1 * (y 1).val = (y 1).val
    omega

/-- Chunk `c`'s piece of the result, as the program addresses it, is the piece the cut names. -/
theorem piece_set (c : ℕ) (hc : c < 100) (off : Fin 3 → ℕ) (hoff : off = oOff (wL L) c) (h : ∀ a, off a + S1x64x128.size a ≤ S50x4096x128.size a) :
    ((o0V.slice (Rect.unit (s := S50x4096x128) off S1x64x128.size h) (fun _ => rfl)).squeeze S64x128 squeezes_S1x64x128_S64x128).view.set = opc (wL L) c := by
  subst hoff
  unfold opc Cert.Proof.Geom.opiece
  rw [dif_pos hc]
  simp only [Memref.view_squeeze, Memref.view_slice, Memref.view_whole, View.set_reshape, View.set_slice_whole]

/-- The piece written with the chunk's rows holds the lookup. -/
theorem piece_val (c : ℕ) (hc : c < 100) (off : Fin 3 → ℕ) (hoff : off = oOff (wL L) c) (h : ∀ a, off a + S1x64x128.size a ≤ S50x4096x128.size a)
    (fo : Buf (Elt F) (o0Loc d)) (p : S64x128.Idx → Elt F .f32) (hp : p = GP (m (t0Loc d)) X (wL L) c) :
    ∀ i ∈ opc (wL L) c,
      (((o0V.slice (Rect.unit (s := S50x4096x128) off S1x64x128.size h) (fun _ => rfl)).squeeze S64x128 squeezes_S1x64x128_S64x128).view.writes (Elt F) fo
        [⟨Rect.whole S64x128, p⟩] : Buf (Elt F) (o0Loc d)) i = (takeT (m (t0Loc d)) X : Buf (Elt F) (o0Loc d)) i := by
  subst hoff hp
  intro i hi
  rw [← piece_set L c hc _ rfl h] at hi
  obtain ⟨y, -, rfl⟩ := Finset.mem_map.mp hi
  have hr := congrFun (View.read_writes_whole
    ((o0V.slice (Rect.unit (s := S50x4096x128) (oOff (wL L) c) S1x64x128.size h) (fun _ => rfl)).squeeze S64x128 squeezes_S1x64x128_S64x128).view
    fo (GP (m (t0Loc d)) X (wL L) c)) y
  rw [View.read_apply, cast_eq] at hr
  rw [hr]
  obtain ⟨E, hE⟩ : ∃ E : S50x4096x128.Idx,
      E = (Rect.unit (s := S50x4096x128) (oOff (wL L) c) S1x64x128.size h).emb (Fin.cons ⟨0, Nat.one_pos⟩ y) := ⟨_, rfl⟩
  have key : ((o0V.slice (Rect.unit (s := S50x4096x128) (oOff (wL L) c) S1x64x128.size h) (fun _ => rfl)).squeeze S64x128
      squeezes_S1x64x128_S64x128).view.emb y = E := by
    rw [hE]
    show (Rect.unit (s := S50x4096x128) (oOff (wL L) c) S1x64x128.size h).emb (Shape.reshapeEquiv _ y) = _
    rw [Shape.reshapeEquiv_cons_one]
  have e0 : (E 0).val = c / 2 + 1 * 0 := by rw [hE]; rfl
  have e1 : (E 1).val = 128 * (wL L).val + c % 2 * 64 + 1 * (y 0).val := by rw [hE]; rfl
  have e2 : (E 2).val = 0 + 1 * (y 1).val := by rw [hE]; rfl
  have hw : (wL L).val < 32 := (wL L).isLt
  have hy0 : (y 0).val < 64 := (y 0).isLt
  have hA : ixI (c / 2) (128 * (wL L).val + c % 2 * 64 + (y 0).val) = ValueIdx.ix2 (E 0) (E 1) := by
    funext a
    match a with
    | ⟨0, _⟩ => exact Fin.ext (by show (c / 2) % 50 = (E 0).val; rw [e0]; omega)
    | ⟨1, _⟩ => exact Fin.ext (by show (128 * (wL L).val + c % 2 * 64 + (y 0).val) % 4096 = (E 1).val; rw [e1]; omega)
  have hB : E 2 = y 1 := Fin.ext (by rw [e2]; omega)
  rw [key]
  unfold GP takeT
  rw [hA, hB]
  rfl

end

end Cert.Proof.KernelSide

end
-- ==== Proof.RingLem0Bits.lean ====
/-
  How a flight the run has just issued is put in the invariant's form, first table: the rests of the shares it borrowed are
  framed into it and joined, the piece of the result it writes is restated at the lookup.
-/
import proofs.«206480_g70196945486151_cont_9to1_m_271_23_alg».proof.Proof.RingInv0Bits
import proofs.«206480_g70196945486151_cont_9to1_m_271_23_alg».proof.Proof.RingVal0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d))

/-- The table's elements as a gather addresses them. -/
abbrev TSL0 : Finset S100000x128.Idx :=
  (t0V.slice (Rect.unit (s := S100000x128) ![0, 0] S100000x128.size inb_S100000x128_S100000x128_0_0) (fun _ => rfl)).view.set

/-- A gather just issued, with the rests of the two shares it borrowed from, is a gather in flight in the invariant's form. -/
theorem gfl_intro0 (bV : Memref sig .scVector .vmem S64x128 .f32) (gs : DmaSem sig) (s : Fin 5) (c : ℕ)
    (g : Buf (Elt F) (bV.view.loc (TH d L))) (hg : bV.view.read (Elt F) g = GP (m (t0Loc d)) X (wL L) c)
    (WIN : Finset S50x128.Idx) :
    (iprop(Transfers.Flight countersEmb (TH d L) (.dma gs) (default : HIx 1) 262144
        iprop(((bV.view.loc (TH d L) ↦[bV.view.set]{fullShare} g) ∗ ((lV).view.loc (TH d L) ↦[WIN]{lq s} LC))
          ∗ ((t0V).view.loc (TH d L) ↦[TSL0]{tq s} m (t0Loc d)))
      ∗ ((t0V).view.loc (TH d L) ↦[Finset.univ \ TSL0]{tq s} m (t0Loc d))
      ∗ ((lV).view.loc (TH d L) ↦[Finset.univ \ WIN]{lq s} LC)) : sProp (𝕄 F))
    ⊢ GFl0 m d L X LC lq tq bV gs s c := by
  unfold GFl0
  iintro ⟨Hf, Ht, Hl⟩
  iexists g
  isplitr
  · ipureintro; exact hg
  ihave H := (Transfers.Flight_frame countersEmb (TH d L)
      (R := iprop(((t0V).view.loc (TH d L) ↦[Finset.univ \ TSL0]{tq s} m (t0Loc d)) ∗ ((lV).view.loc (TH d L) ↦[Finset.univ \ WIN]{lq s} LC)))) $$ [Hf Ht Hl]
  · isplitr [Hf]
    · isplitl [Ht] <;> iassumption
    · iexact Hf
  iapply (Transfers.Flight_mono countersEmb (TH d L) ?_) $$ H
  iintro ⟨⟨Ht, Hl⟩, ⟨Hb, Hlw⟩, Hts⟩
  isplitl [Hb Hlw Hl]
  · isplitl [Hb]; · iexact Hb
    iapply (pointsTo_split_subset (Finset.subset_univ WIN)).2
    isplitl [Hlw] <;> iassumption
  · iapply (pointsTo_split_subset (Finset.subset_univ TSL0)).2
    isplitl [Hts] <;> iassumption

/-- The memref the program copies chunk r of trip t out through (first loop). -/
abbrev oPc (L : grid0.Coords) (t : Fin k0_t1_loop.trips) (r : Fin 5) : Memref sig .scVector .hbm S64x128 .f32 :=
  (o0V.slice (Rect.unit (s := S50x4096x128) (k0_off5 L t (BitVec.ofNat 32 r.val)) S1x64x128.size (k0_off5_inb L t r)) (fun _ => rfl)).squeeze S64x128 squeezes_S1x64x128_S64x128

theorem chunk_lt (t : Fin k0_t1_loop.trips) (r : Fin 5) : 5 * t.val + r.val < 100 := by
  have h1 := t.isLt; have h20 : k0_t1_loop.trips = 20 := trips1; have h2 := r.isLt; omega

/-- That memref's elements are the chunk's piece. -/
theorem oPc_set (t : Fin k0_t1_loop.trips) (r : Fin 5) : (oPc L t r).view.set = opc (wL L) (5 * t.val + r.val) :=
  piece_set L (5 * t.val + r.val) (chunk_lt t r) _ (off5_eq r L t) _

/-- The piece untouched, as the program addresses it. -/
theorem pc_eq0 (t : Fin k0_t1_loop.trips) (r : Fin 5) :
    ((oPc L t r).view.loc (TH d L) ↦[(oPc L t r).view.set]{fullShare} fo : sProp (𝕄 F)) = Pc0 d L fo (5 * t.val + r.val) := by
  unfold Pc0; rw [oPc_set L t r]

/-- The piece written with the chunk's rows is the piece at the lookup. -/
theorem done_eq0 (t : Fin k0_t1_loop.trips) (r : Fin 5) (p : S64x128.Idx → Elt F .f32) (hp : p = GP (m (t0Loc d)) X (wL L) (5 * t.val + r.val)) :
    ((oPc L t r).view.loc (TH d L) ↦[(oPc L t r).view.set]{fullShare} (oPc L t r).view.writes (Elt F) fo [⟨Rect.whole S64x128, p⟩] : sProp (𝕄 F))
      = Dc0 m d L X (5 * t.val + r.val) := by
  unfold Dc0; rw [oPc_set L t r]
  exact pointsTo_congr (piece_val m d L X (5 * t.val + r.val) (chunk_lt t r) _ (off5_eq r L t) _ fo p hp)

/-- A copy-out just issued is a copy-out in flight in the invariant's form. -/
theorem sfl_intro0 (bV : Memref sig .scVector .vmem S64x128 .f32) (ss : DmaSem sig) (t : Fin k0_t1_loop.trips) (r : Fin 5)
    (g : Buf (Elt F) (bV.view.loc (TH d L))) (p : S64x128.Idx → Elt F .f32) (hp : p = GP (m (t0Loc d)) X (wL L) (5 * t.val + r.val)) :
    (Transfers.Flight countersEmb (TH d L) (.dma ss) (default : HIx 1) 262144
        iprop(((oPc L t r).view.loc (TH d L) ↦[(oPc L t r).view.set]{fullShare} (oPc L t r).view.writes (Elt F) fo [⟨Rect.whole S64x128, p⟩])
          ∗ (bV.view.loc (TH d L) ↦[bV.view.set]{fullShare} g)) : sProp (𝕄 F))
      ⊢ SFl0 m d L X bV ss (5 * t.val + r.val) := by
  unfold SFl0
  refine BIBase.Entails.trans (Transfers.Flight_mono countersEmb (TH d L) (D' := iprop(((o0V).view.loc (TH d L) ↦[opc (wL L) (5 * t.val + r.val)]{fullShare} G0 m d X) ∗ (bV.view.loc (TH d L) ↦[bV.view.set]{fullShare} g))) ?_) ?_
  · have e := done_eq0 m d L X fo t r p hp
    unfold Dc0 at e
    iintro ⟨Ho, Hb⟩
    isplitl [Ho]
    · iapply (Entails.of_eq e) $$ Ho
    · iexact Hb
  · iintro H
    iexists g
    iexact H

end

end Cert.Proof.KernelSide

end
-- ==== Proof.RingClose0Bits.lean ====
/-
  The end of a middle trip of the first loop: what the run holds after the trip's twenty transfer steps is the invariant
  at the next trip.
-/
import proofs.«206480_g70196945486151_cont_9to1_m_271_23_alg».proof.Proof.RingLem0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

/-- The tile's debts with a longer list of waits made, each on a cell of the kernels' own index. -/
theorem owes_intro (W'' : Waits sig (HIx 1)) (hW'' : ∀ p ∈ W'', p ∈ W ∨ p.2 = none) :
    (owes (TH d L) O W'' : sProp (𝕄 F)) ⊢ Owes d L O W := by
  unfold Owes
  iintro HO
  iexists W''
  isplitr
  · ipureintro; exact hW''
  · iexact HO

set_option maxHeartbeats 2000000 in
theorem close_mid0 (t : Fin k0_t1_loop.trips) (ht0 : t.val ≠ 0) (ht19 : t.val ≠ 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t0Loc d)) X (wL L) (5 * t.val + 5)) (hpg1 : pg1 = GP (m (t0Loc d)) X (wL L) (5 * t.val + 6))
    (hpg2 : pg2 = GP (m (t0Loc d)) X (wL L) (5 * t.val + 7))
    (hps0 : ps0 = GP (m (t0Loc d)) X (wL L) (5 * t.val + (0 : Fin 5).val)) (hps1 : ps1 = GP (m (t0Loc d)) X (wL L) (5 * t.val + (1 : Fin 5).val))
    (hps2 : ps2 = GP (m (t0Loc d)) X (wL L) (5 * t.val + (2 : Fin 5).val)) (hps3 : ps3 = GP (m (t0Loc d)) X (wL L) (5 * t.val + (3 : Fin 5).val))
    (hps4 : ps4 = GP (m (t0Loc d)) X (wL L) (5 * t.val + (4 : Fin 5).val))
    (WIN0 WIN1 WIN2 : Finset S50x128.Idx) :
    (iprop(((o0V).view.loc (TH d L) ↦[opc (wL L) (5 * t.val - 2)]{fullShare} G0 m d X) ∗ ((o0V).view.loc (TH d L) ↦[opc (wL L) (5 * t.val - 1)]{fullShare} G0 m d X)
      ∗ ((oPc L t 0).view.loc (TH d L) ↦[(oPc L t 0).view.set]{fullShare} (oPc L t 0).view.writes (Elt F) fo [⟨Rect.whole S64x128, ps0⟩])
      ∗ ((oPc L t 1).view.loc (TH d L) ↦[(oPc L t 1).view.set]{fullShare} (oPc L t 1).view.writes (Elt F) fo [⟨Rect.whole S64x128, ps1⟩])
      ∗ ((oPc L t 2).view.loc (TH d L) ↦[(oPc L t 2).view.set]{fullShare} (oPc L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t0V).view.loc (TH d L) ↦[TSL0]{tq 0} m (t0Loc d)))
      ∗ ((t0V).view.loc (TH d L) ↦[Finset.univ \ TSL0]{tq 0} m (t0Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t0V).view.loc (TH d L) ↦[TSL0]{tq 1} m (t0Loc d)))
      ∗ ((t0V).view.loc (TH d L) ↦[Finset.univ \ TSL0]{tq 1} m (t0Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t0V).view.loc (TH d L) ↦[TSL0]{tq 2} m (t0Loc d)))
      ∗ ((t0V).view.loc (TH d L) ↦[Finset.univ \ TSL0]{tq 2} m (t0Loc d)) ∗ ((lV).view.loc (TH d L) ↦[Finset.univ \ WIN2]{lq 2} LC)
      ∗ (semVal (TH d L, .dma cc0_scratch9.sem) 0 ∗ ((lV).view.loc (TH d L) ↦{lq 3} LC) ∗ ((t0V).view.loc (TH d L) ↦{tq 3} m (t0Loc d)))
      ∗ (semVal (TH d L, .dma cc0_scratch10.sem) 0 ∗ ((lV).view.loc (TH d L) ↦{lq 4} LC) ∗ ((t0V).view.loc (TH d L) ↦{tq 4} m (t0Loc d)))
      ∗ Transfers.Flight countersEmb (TH d L) (.dma cc0_scratch14.sem) (default : HIx 1) 262144
          iprop(((oPc L t 3).view.loc (TH d L) ↦[(oPc L t 3).view.set]{fullShare} (oPc L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc L t 4).view.loc (TH d L) ↦[(oPc L t 4).view.set]{fullShare} (oPc L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT0 d L fo) ∗ bigSep (Finset.range (t.val - 1)) (DT0 m d L X)
      ∗ ((o0V).view.loc (TH d L) ↦[opc (wL L) (5 * t.val - 5)]{fullShare} G0 m d X) ∗ ((o0V).view.loc (TH d L) ↦[opc (wL L) (5 * t.val - 4)]{fullShare} G0 m d X) ∗ ((o0V).view.loc (TH d L) ↦[opc (wL L) (5 * t.val - 3)]{fullShare} G0 m d X)
      ∗ Owes d L O W) : sProp (𝕄 F))
      ⊢ InvMid0 m d L X LC lq tq fo O W (t.val + 1) := by
  have ht1 : 1 ≤ t.val := Nat.one_le_iff_ne_zero.mpr ht0
  have eD : bigSep (Finset.range t.val) (DT0 m d L X) = iprop(bigSep (Finset.range (t.val - 1)) (DT0 m d L X) ∗ DT0 m d L X (t.val - 1)) := by
    have h := Geom.bigSep_range_succ' (Φ := DT0 m d L X) (t.val - 1)
    rwa [show t.val - 1 + 1 = t.val by omega] at h
  rw [InvMid0, IdleG0, IdleG0, show t.val + 1 - 1 = t.val by omega, eD, DT0,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc0
  have e0 := done_eq0 m d L X fo t 0 ps0 hps0
  have e1 := done_eq0 m d L X fo t 1 ps1 hps1
  have e2 := done_eq0 m d L X fo t 2 ps2 hps2
  unfold Dc0 at e0 e1 e2
  iintro ⟨HD2, HD1, HO0, HO1, HO2, HS0, HS1, HS2, HF0, HT0r, HL0r, HF1, HT1r, HL1r, HF2, HT2r, HL2r, HI3, HI4, HFS3, HFS4, HTodo, HDone, HD5, HD4, HD3, HO⟩
  isplitl [HF0 HT0r HL0r]
  · iapply (gfl_intro0 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro0 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro0 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro0 m d L X fo b3V cc0_scratch14.sem t 3 _ ps3 hps3) $$ HFS3
  isplitl [HFS4]
  · iapply (sfl_intro0 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelSide

end
-- ==== Proof.RingCloseFirst0Bits.lean ====
/-
  The end of the first trip of the first loop: what the run holds after the trip's transfer steps is the invariant at the
  second trip. Nothing was copied out before the first trip, so there is no earlier store to await and no earlier piece at
  the lookup: the finished trips' pieces are an iterated conjunction over the empty range, and the three loose pieces are
  the trip's own chunks 0, 1, 2.
-/
import proofs.«206480_g70196945486151_cont_9to1_m_271_23_alg».proof.Proof.RingClose0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

set_option maxHeartbeats 2000000 in
theorem close_first0 (t : Fin k0_t1_loop.trips) (ht : t.val = 0)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t0Loc d)) X (wL L) (5 * t.val + 5)) (hpg1 : pg1 = GP (m (t0Loc d)) X (wL L) (5 * t.val + 6))
    (hpg2 : pg2 = GP (m (t0Loc d)) X (wL L) (5 * t.val + 7))
    (hps0 : ps0 = GP (m (t0Loc d)) X (wL L) (5 * t.val + (0 : Fin 5).val)) (hps1 : ps1 = GP (m (t0Loc d)) X (wL L) (5 * t.val + (1 : Fin 5).val))
    (hps2 : ps2 = GP (m (t0Loc d)) X (wL L) (5 * t.val + (2 : Fin 5).val)) (hps3 : ps3 = GP (m (t0Loc d)) X (wL L) (5 * t.val + (3 : Fin 5).val))
    (hps4 : ps4 = GP (m (t0Loc d)) X (wL L) (5 * t.val + (4 : Fin 5).val))
    (WIN0 WIN1 WIN2 : Finset S50x128.Idx) :
    (iprop(((oPc L t 0).view.loc (TH d L) ↦[(oPc L t 0).view.set]{fullShare} (oPc L t 0).view.writes (Elt F) fo [⟨Rect.whole S64x128, ps0⟩])
      ∗ ((oPc L t 1).view.loc (TH d L) ↦[(oPc L t 1).view.set]{fullShare} (oPc L t 1).view.writes (Elt F) fo [⟨Rect.whole S64x128, ps1⟩])
      ∗ ((oPc L t 2).view.loc (TH d L) ↦[(oPc L t 2).view.set]{fullShare} (oPc L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t0V).view.loc (TH d L) ↦[TSL0]{tq 0} m (t0Loc d)))
      ∗ ((t0V).view.loc (TH d L) ↦[Finset.univ \ TSL0]{tq 0} m (t0Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t0V).view.loc (TH d L) ↦[TSL0]{tq 1} m (t0Loc d)))
      ∗ ((t0V).view.loc (TH d L) ↦[Finset.univ \ TSL0]{tq 1} m (t0Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t0V).view.loc (TH d L) ↦[TSL0]{tq 2} m (t0Loc d)))
      ∗ ((t0V).view.loc (TH d L) ↦[Finset.univ \ TSL0]{tq 2} m (t0Loc d)) ∗ ((lV).view.loc (TH d L) ↦[Finset.univ \ WIN2]{lq 2} LC)
      ∗ (semVal (TH d L, .dma cc0_scratch9.sem) 0 ∗ ((lV).view.loc (TH d L) ↦{lq 3} LC) ∗ ((t0V).view.loc (TH d L) ↦{tq 3} m (t0Loc d)))
      ∗ (semVal (TH d L, .dma cc0_scratch10.sem) 0 ∗ ((lV).view.loc (TH d L) ↦{lq 4} LC) ∗ ((t0V).view.loc (TH d L) ↦{tq 4} m (t0Loc d)))
      ∗ Transfers.Flight countersEmb (TH d L) (.dma cc0_scratch14.sem) (default : HIx 1) 262144
          iprop(((oPc L t 3).view.loc (TH d L) ↦[(oPc L t 3).view.set]{fullShare} (oPc L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc L t 4).view.loc (TH d L) ↦[(oPc L t 4).view.set]{fullShare} (oPc L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT0 d L fo)
      ∗ Owes d L O W) : sProp (𝕄 F))
      ⊢ InvMid0 m d L X LC lq tq fo O W (t.val + 1) := by
  have eD : bigSep (Finset.range t.val) (DT0 m d L X) = bigSep ∅ (DT0 m d L X) := by rw [ht, Finset.range_zero]
  rw [InvMid0, IdleG0, IdleG0, show t.val + 1 - 1 = t.val by omega, eD,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc0
  have e0 := done_eq0 m d L X fo t 0 ps0 hps0
  have e1 := done_eq0 m d L X fo t 1 ps1 hps1
  have e2 := done_eq0 m d L X fo t 2 ps2 hps2
  unfold Dc0 at e0 e1 e2
  iintro ⟨HO0, HO1, HO2, HS0, HS1, HS2, HF0, HT0r, HL0r, HF1, HT1r, HL1r, HF2, HT2r, HL2r, HI3, HI4, HFS3, HFS4, HTodo, HO⟩
  isplitl [HF0 HT0r HL0r]
  · iapply (gfl_intro0 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro0 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro0 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro0 m d L X fo b3V cc0_scratch14.sem t 3 _ ps3 hps3) $$ HFS3
  isplitl [HFS4]
  · iapply (sfl_intro0 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitr [HO0 HO1 HO2 HO]
  · rw [bigSep_empty]; iempintro
  isplitl [HO0]; · iapply (Entails.of_eq e0) $$ HO0
  isplitl [HO1]; · iapply (Entails.of_eq e1) $$ HO1
  isplitl [HO2]; · iapply (Entails.of_eq e2) $$ HO2
  iexact HO

end

end Cert.Proof.KernelSide

end
-- ==== Proof.RingTripFirst0Bits.lean ====
/-
  The first trip of the first loop: no copy-out is in flight yet, so the waits for chunks −2 and −1 are skipped; otherwise as a
  middle trip: the gathers of chunks 3 … 7 are started, those of chunks 0 … 4 awaited and their copies out started, the copies
  out of chunks 0, 1, 2 awaited.
-/
import proofs.«206480_g70196945486151_cont_9to1_m_271_23_alg».proof.Proof.RingCloseFirst0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_first0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32)
    (t : Fin k0_t1_loop.trips) (ht : t.val = 0) :
    (iprop(levAts (K (F := F)).L (K (F := F)).lev ∗ Inv00 m d L X LC lq tq fo O W) : sProp (𝕄 F))
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid0 m d L X LC lq tq fo O W (t.val + 1))) := by
  have ht19 : t.val ≠ 19 := by omega
  have h1 := (cond1_iff t).not.2 (not_not.2 ht)
  have h3 := (cond3_iff t).not.2 (not_not.2 ht)
  have h5 := cond5_all t
  have h7 := cond7_all t
  have h9 := cond9_all t
  have h2 := cond2_all t
  have h4 := cond4_all t
  have h6 := (cond6_iff t).2 ht19
  have h8 := (cond8_iff t).2 ht19
  have h10 := (cond10_iff t).2 ht19
  have ht20 : t.val < 20 := by have h := t.isLt; have e : k0_t1_loop.trips = 20 := trips1; omega
  have hinL := hIn
  unfold ListIn at hinL
  have eT : bigSep (Finset.Ico 0 20) (PT0 d L fo) = (iprop(PT0 d L fo t.val ∗ bigSep (Finset.Ico (t.val + 1) 20) (PT0 d L fo)) : sProp (𝕄 F)) := by
    rw [ht]; exact Geom.bigSep_Ico_head (by decide)
  rw [Inv00, GFl0, GFl0, GFl0, IdleB, IdleB, IdleG0, IdleG0, Owes, eT, PT0]
  unfold k0_t1_body
  iintro ⟨#Hlv, ⟨%g0, %hg0, Hg0⟩, ⟨%g1, %hg1, Hg1⟩, ⟨%g2, %hg2, Hg2⟩, ⟨%g3, Hb3⟩, ⟨%g4, Hb4⟩, Hs3, Hs4, ⟨Hg3, Hl3, Ht3⟩, ⟨Hg4, Hl4, Ht4⟩, Hs0, Hs1, Hs2, ⟨⟨HP0, HP1, HP2, HP3, HP4⟩, HTodo⟩, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq0 d L fo t 0).symm) $$ HP0
  ihave Ho1 := (Entails.of_eq (pc_eq0 d L fo t 1).symm) $$ HP1
  ihave Ho2 := (Entails.of_eq (pc_eq0 d L fo t 2).symm) $$ HP2
  ihave Ho3 := (Entails.of_eq (pc_eq0 d L fo t 3).symm) $$ HP3
  ihave Ho4 := (Entails.of_eq (pc_eq0 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_first0 m d L X LC lq tq fo O W t ht g0 g1 g2 g3 g4 _ _ _ _ _ _ _ _ _ _ (gather_val m d L X LC hL hX (5 * t.val + 5) (by omega) _ (off9_eq t ht19) _ _ _ _) (gather_val m d L X LC hL hX (5 * t.val + 6) (by omega) _ (off11_eq t ht19) _ _ _ _) (gather_val m d L X LC hL hX (5 * t.val + 7) (by omega) _ (off13_eq t ht19) _ _ _ _) (hg0.trans (congrArg (GP (m (t0Loc d)) X (wL L)) (by rw [ht]; try rfl))) (hg1.trans (congrArg (GP (m (t0Loc d)) X (wL L)) (by rw [ht]; try rfl))) (hg2.trans (congrArg (GP (m (t0Loc d)) X (wL L)) (by rw [ht]; try rfl))) ((View.read_writes_whole _ _ _).trans (gather_val m d L X LC hL hX (5 * t.val + 3) (by omega) _ (off3_eq t) _ _ _ _)) ((View.read_writes_whole _ _ _).trans (gather_val m d L X LC hL hX (5 * t.val + 4) (by omega) _ (off7_eq t) _ _ _ _)) _ _ _) $$ [Ho0 Ho1 Ho2 Hs0 Hs1 Hs2 Hg0 Hg0_src Hl0 Hg1 Hg1_src Hl1 Hg2 Hg2_src Hl2 Hg3 Hl3 Ht3 Hg4 Hl4 Ht4 Hs3 Hs4 HTodo HO]
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  iapply (owes_intro d L O W _ ?_) $$ HO
  intro p hp
  repeat (rcases Finset.mem_insert.mp hp with hp | hp; · exact .inr (hp ▸ rfl))
  exact hW' p hp

end Cert.Proof.KernelSide

end
-- ==== Proof.RingTripMid0Bits.lean ====
/-
  A middle trip (1 ≤ t ≤ 18) of the first loop. The trip awaits the copies out of chunks 5 t − 2 … 5 t + 2, starts the gathers of
  chunks 5 t + 3 … 5 t + 7, awaits the gathers of chunks 5 t … 5 t + 4 and starts their copies out; each slot's cell carries one
  transfer at a time, and a slot is written again only after its copy-out has been awaited.
-/
import proofs.«206480_g70196945486151_cont_9to1_m_271_23_alg».proof.Proof.RingClose0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_mid0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32)
    (t : Fin k0_t1_loop.trips) (ht0 : t.val ≠ 0) (ht19 : t.val ≠ 19) :
    (iprop(levAts (K (F := F)).L (K (F := F)).lev ∗ InvMid0 m d L X LC lq tq fo O W t.val) : sProp (𝕄 F))
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid0 m d L X LC lq tq fo O W (t.val + 1))) := by
  have h1 := (cond1_iff t).2 ht0
  have h3 := (cond3_iff t).2 ht0
  have h5 := cond5_all t
  have h7 := cond7_all t
  have h9 := cond9_all t
  have h2 := cond2_all t
  have h4 := cond4_all t
  have h6 := (cond6_iff t).2 ht19
  have h8 := (cond8_iff t).2 ht19
  have h10 := (cond10_iff t).2 ht19
  have ht20 : t.val < 20 := by have h := t.isLt; have e : k0_t1_loop.trips = 20 := trips1; omega
  have hinL := hIn
  unfold ListIn at hinL
  rw [InvMid0, GFl0, GFl0, GFl0, SFl0, SFl0, IdleG0, IdleG0, Owes, Geom.bigSep_Ico_head ht20, PT0, Dc0, Dc0, Dc0]
  unfold k0_t1_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq0 d L fo t 0).symm) $$ HP0
  ihave Ho1 := (Entails.of_eq (pc_eq0 d L fo t 1).symm) $$ HP1
  ihave Ho2 := (Entails.of_eq (pc_eq0 d L fo t 2).symm) $$ HP2
  ihave Ho3 := (Entails.of_eq (pc_eq0 d L fo t 3).symm) $$ HP3
  ihave Ho4 := (Entails.of_eq (pc_eq0 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_mid0 m d L X LC lq tq fo O W t ht0 ht19 g0 g1 g2 g3 g4 _ _ _ _ _ _ _ _ _ _ (gather_val m d L X LC hL hX (5 * t.val + 5) (by omega) _ (off9_eq t ht19) _ _ _ _) (gather_val m d L X LC hL hX (5 * t.val + 6) (by omega) _ (off11_eq t ht19) _ _ _ _) (gather_val m d L X LC hL hX (5 * t.val + 7) (by omega) _ (off13_eq t ht19) _ _ _ _) hg0 hg1 hg2 ((View.read_writes_whole _ _ _).trans (gather_val m d L X LC hL hX (5 * t.val + 3) (by omega) _ (off3_eq t) _ _ _ _)) ((View.read_writes_whole _ _ _).trans (gather_val m d L X LC hL hX (5 * t.val + 4) (by omega) _ (off7_eq t) _ _ _ _)) _ _ _) $$ [Hs3_dst Hs4_dst Ho0 Ho1 Ho2 Hs0 Hs1 Hs2 Hg0 Hg0_src Hl0 Hg1 Hg1_src Hl1 Hg2 Hg2_src Hl2 Hg3 Hl3 Ht3 Hg4 Hl4 Ht4 Hs3 Hs4 HTodo HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  isplitl [HDone]; · iexact HDone
  isplitl [HD5]; · iexact HD5
  isplitl [HD4]; · iexact HD4
  isplitl [HD3]; · iexact HD3
  iapply (owes_intro d L O W _ ?_) $$ HO
  intro p hp
  repeat (rcases Finset.mem_insert.mp hp with hp | hp; · exact .inr (hp ▸ rfl))
  exact hW' p hp

end Cert.Proof.KernelSide

end
-- ==== Proof.RingCloseLast0Bits.lean ====
/-
  The end of the last trip of the first loop: no gather is started for slots 0, 1, 2, which end at rest with their cells at
  zero and their read shares back; the copies out of the last two chunks are in flight; every earlier chunk's piece holds
  the lookup. The finished trips' pieces are those of the trips before the previous one, then the previous trip's five
  (three loose, two just drained), and the last trip's first three are loose.
-/
import proofs.«206480_g70196945486151_cont_9to1_m_271_23_alg».proof.Proof.RingClose0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i0Loc d)) (LC : Buf (Elt F) ((TH d L).loc cc0_scratch0)) (lq tq : Fin 5 → PosShare TreeShare)
variable (fo : Buf (Elt F) (o0Loc d)) (O : CellTallies nD τ sig (HIx 1)) (W : Waits sig (HIx 1))

set_option maxHeartbeats 2000000 in
theorem close_last0 (t : Fin k0_t1_loop.trips) (ht : t.val = 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg3 pg4 ps0 ps1 ps2 ps3 ps4 : S64x128.Idx → Elt F .f32)
    (hps0 : ps0 = GP (m (t0Loc d)) X (wL L) (5 * t.val + (0 : Fin 5).val)) (hps1 : ps1 = GP (m (t0Loc d)) X (wL L) (5 * t.val + (1 : Fin 5).val))
    (hps2 : ps2 = GP (m (t0Loc d)) X (wL L) (5 * t.val + (2 : Fin 5).val)) (hps3 : ps3 = GP (m (t0Loc d)) X (wL L) (5 * t.val + (3 : Fin 5).val))
    (hps4 : ps4 = GP (m (t0Loc d)) X (wL L) (5 * t.val + (4 : Fin 5).val)) :
    (iprop(((o0V).view.loc (TH d L) ↦[opc (wL L) (5 * t.val - 2)]{fullShare} G0 m d X) ∗ ((o0V).view.loc (TH d L) ↦[opc (wL L) (5 * t.val - 1)]{fullShare} G0 m d X)
      ∗ ((oPc L t 0).view.loc (TH d L) ↦[(oPc L t 0).view.set]{fullShare} (oPc L t 0).view.writes (Elt F) fo [⟨Rect.whole S64x128, ps0⟩])
      ∗ ((oPc L t 1).view.loc (TH d L) ↦[(oPc L t 1).view.set]{fullShare} (oPc L t 1).view.writes (Elt F) fo [⟨Rect.whole S64x128, ps1⟩])
      ∗ ((oPc L t 2).view.loc (TH d L) ↦[(oPc L t 2).view.set]{fullShare} (oPc L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ ((b0V).view.loc (TH d L) ↦[(b0V).view.set]{fullShare} g0) ∗ ((b1V).view.loc (TH d L) ↦[(b1V).view.set]{fullShare} g1) ∗ ((b2V).view.loc (TH d L) ↦[(b2V).view.set]{fullShare} g2)
      ∗ (semVal (TH d L, .dma cc0_scratch6.sem) 0 ∗ ((lV).view.loc (TH d L) ↦{lq 0} LC) ∗ ((t0V).view.loc (TH d L) ↦{tq 0} m (t0Loc d)))
      ∗ (semVal (TH d L, .dma cc0_scratch7.sem) 0 ∗ ((lV).view.loc (TH d L) ↦{lq 1} LC) ∗ ((t0V).view.loc (TH d L) ↦{tq 1} m (t0Loc d)))
      ∗ (semVal (TH d L, .dma cc0_scratch8.sem) 0 ∗ ((lV).view.loc (TH d L) ↦{lq 2} LC) ∗ ((t0V).view.loc (TH d L) ↦{tq 2} m (t0Loc d)))
      ∗ (semVal (TH d L, .dma cc0_scratch9.sem) 0 ∗ ((lV).view.loc (TH d L) ↦{lq 3} LC) ∗ ((t0V).view.loc (TH d L) ↦{tq 3} m (t0Loc d)))
      ∗ (semVal (TH d L, .dma cc0_scratch10.sem) 0 ∗ ((lV).view.loc (TH d L) ↦{lq 4} LC) ∗ ((t0V).view.loc (TH d L) ↦{tq 4} m (t0Loc d)))
      ∗ Transfers.Flight countersEmb (TH d L) (.dma cc0_scratch14.sem) (default : HIx 1) 262144
          iprop(((oPc L t 3).view.loc (TH d L) ↦[(oPc L t 3).view.set]{fullShare} (oPc L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc L t 4).view.loc (TH d L) ↦[(oPc L t 4).view.set]{fullShare} (oPc L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.range (t.val - 1)) (DT0 m d L X)
      ∗ ((o0V).view.loc (TH d L) ↦[opc (wL L) (5 * t.val - 5)]{fullShare} G0 m d X) ∗ ((o0V).view.loc (TH d L) ↦[opc (wL L) (5 * t.val - 4)]{fullShare} G0 m d X) ∗ ((o0V).view.loc (TH d L) ↦[opc (wL L) (5 * t.val - 3)]{fullShare} G0 m d X)
      ∗ Owes d L O W) : sProp (𝕄 F))
      ⊢ InvEnd0 m d L X LC lq tq O W := by
  have eD : bigSep (Finset.range 19) (DT0 m d L X) = iprop(bigSep (Finset.range (t.val - 1)) (DT0 m d L X) ∗ DT0 m d L X (t.val - 1)) := by
    have h := Geom.bigSep_range_succ' (Φ := DT0 m d L X) (t.val - 1)
    rwa [show t.val - 1 + 1 = 19 by omega] at h
  unfold InvEnd0 IdleG0 IdleB
  rw [eD, DT0,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show (98 : ℕ) = 5 * t.val + (3 : Fin 5).val by show _ = 5 * t.val + 3; omega,
    show (99 : ℕ) = 5 * t.val + (4 : Fin 5).val by show _ = 5 * t.val + 4; omega,
    show (95 : ℕ) = 5 * t.val + (0 : Fin 5).val by show _ = 5 * t.val + 0; omega,
    show (96 : ℕ) = 5 * t.val + (1 : Fin 5).val by show _ = 5 * t.val + 1; omega,
    show (97 : ℕ) = 5 * t.val + (2 : Fin 5).val by show _ = 5 * t.val + 2; omega]
  unfold Dc0
  have e0 := done_eq0 m d L X fo t 0 ps0 hps0
  have e1 := done_eq0 m d L X fo t 1 ps1 hps1
  have e2 := done_eq0 m d L X fo t 2 ps2 hps2
  unfold Dc0 at e0 e1 e2
  iintro ⟨HD2, HD1, HO0, HO1, HO2, HS0, HS1, HS2, HB0, HB1, HB2, HI0, HI1, HI2, HI3, HI4, HFS3, HFS4, HDone, HD5, HD4, HD3, HO⟩
  isplitl [HFS3]
  · iapply (sfl_intro0 m d L X fo b3V cc0_scratch14.sem t 3 _ ps3 hps3) $$ HFS3
  isplitl [HFS4]
  · iapply (sfl_intro0 m d L X fo b4V cc0_scratch15.sem t 4 _ ps4 hps4) $$ HFS4
  isplitl [HB0]; · iexists g0; iexact HB0
  isplitl [HB1]; · iexists g1; iexact HB1
  isplitl [HB2]; · iexists g2; iexact HB2
  isplitl [HI0]; · iexact HI0
  isplitl [HI1]; · iexact HI1
  isplitl [HI2]; · iexact HI2
  isplitl [HI3]; · iexact HI3
  isplitl [HI4]; · iexact HI4
  isplitl [HS0]; · iexact HS0
  isplitl [HS1]; · iexact HS1
  isplitl [HS2]; · iexact HS2
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelSide

end
-- ==== Proof.RingTripLast0Bits.lean ====
/-
  The last trip (t = 19) of the first loop: chunks 100, 101, 102 do not exist, so no gather is started for slots 0, 1, 2, which end
  the trip at rest; otherwise as a middle trip. The copies out of chunks 98 and 99 are left in flight for the waits after the loop.
-/
import proofs.«206480_g70196945486151_cont_9to1_m_271_23_alg».proof.Proof.RingCloseLast0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_last0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32)
    (t : Fin k0_t1_loop.trips) (ht : t.val = 19) :
    (iprop(levAts (K (F := F)).L (K (F := F)).lev ∗ InvMid0 m d L X LC lq tq fo O W t.val) : sProp (𝕄 F))
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvEnd0 m d L X LC lq tq O W)) := by
  have ht0 : t.val ≠ 0 := by omega
  have h1 := (cond1_iff t).2 ht0
  have h3 := (cond3_iff t).2 ht0
  have h5 := cond5_all t
  have h7 := cond7_all t
  have h9 := cond9_all t
  have h2 := cond2_all t
  have h4 := cond4_all t
  have h6 := (cond6_iff t).not.2 (not_not.2 ht)
  have h8 := (cond8_iff t).not.2 (not_not.2 ht)
  have h10 := (cond10_iff t).not.2 (not_not.2 ht)
  have ht20 : t.val < 20 := by have h := t.isLt; have e : k0_t1_loop.trips = 20 := trips1; omega
  have hinL := hIn
  unfold ListIn at hinL
  rw [InvMid0, GFl0, GFl0, GFl0, SFl0, SFl0, IdleG0, IdleG0, Owes, Geom.bigSep_Ico_head ht20, PT0, Dc0, Dc0, Dc0]
  unfold k0_t1_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq0 d L fo t 0).symm) $$ HP0
  ihave Ho1 := (Entails.of_eq (pc_eq0 d L fo t 1).symm) $$ HP1
  ihave Ho2 := (Entails.of_eq (pc_eq0 d L fo t 2).symm) $$ HP2
  ihave Ho3 := (Entails.of_eq (pc_eq0 d L fo t 3).symm) $$ HP3
  ihave Ho4 := (Entails.of_eq (pc_eq0 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_last0 m d L X LC lq tq fo O W t ht g0 g1 g2 g3 g4 _ _ _ _ _ _ _ hg0 hg1 hg2 ((View.read_writes_whole _ _ _).trans (gather_val m d L X LC hL hX (5 * t.val + 3) (by omega) _ (off3_eq t) _ _ _ _)) ((View.read_writes_whole _ _ _).trans (gather_val m d L X LC hL hX (5 * t.val + 4) (by omega) _ (off7_eq t) _ _ _ _))) $$ [Hs3_dst Hs4_dst Ho0 Ho1 Ho2 Hs0 Hs1 Hs2 Hb0 Hb1 Hb2 Hg0 Hl0 Hg0_src Hg1 Hl1 Hg1_src Hg2 Hl2 Hg2_src Hg3 Hl3 Ht3 Hg4 Hl4 Ht4 Hs3 Hs4 HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hb0]; · iexact Hb0
  isplitl [Hb1]; · iexact Hb1
  isplitl [Hb2]; · iexact Hb2
  isplitl [Hg0 Hl0 Hg0_src]
  · isplitl [Hg0]; · iexact Hg0
    isplitl [Hl0]; · iexact Hl0
    iexact Hg0_src
  isplitl [Hg1 Hl1 Hg1_src]
  · isplitl [Hg1]; · iexact Hg1
    isplitl [Hl1]; · iexact Hl1
    iexact Hg1_src
  isplitl [Hg2 Hl2 Hg2_src]
  · isplitl [Hg2]; · iexact Hg2
    isplitl [Hl2]; · iexact Hl2
    iexact Hg2_src
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HDone]; · iexact HDone
  isplitl [HD5]; · iexact HD5
  isplitl [HD4]; · iexact HD4
  isplitl [HD3]; · iexact HD3
  iapply (owes_intro d L O W _ ?_) $$ HO
  intro p hp
  repeat (rcases Finset.mem_insert.mp hp with hp | hp; · exact .inr (hp ▸ rfl))
  exact hW' p hp

end Cert.Proof.KernelSide

end
-- ==== Proof.RingStep0Bits.lean ====
/-
  One trip of the first loop keeps the ring's invariant: the first, a middle and the last trip.
-/
import proofs.«206480_g70196945486151_cont_9to1_m_271_23_alg».proof.Proof.RingTripFirst0Bits
import proofs.«206480_g70196945486151_cont_9to1_m_271_23_alg».proof.Proof.RingTripMid0Bits
import proofs.«206480_g70196945486151_cont_9to1_m_271_23_alg».proof.Proof.RingTripLast0Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 2000000 in
theorem step0 [FloatOps F] (m : (ℓ : Loc nD τ sig) → Buf (Elt F) ℓ) (hF : (K (F := F)).Facts) (d : Dev nD) (L : grid0.Coords)
    (X : Buf (Elt F) (i0Loc d)) (hX : ∀ j, (X j).toNat < 100000) (LC : Buf (Elt F) ((TH d L).loc cc0_scratch0))
    (hL : ListOK0 d L X LC) (hIn : ListIn d L LC) (lq tq : Fin 5 → PosShare TreeShare) (fo : Buf (Elt F) (o0Loc d))
    (O : CellTallies nD τ sig (HIx 1)) (W : Waits sig (HIx 1)) (hO : ∀ g, O g none = 0) (v2 : BitVec 32) (k : Fin k0_t1_loop.trips) :
    inv0 m d L X LC lq tq fo O W k.val
      ⊢ wp frame (wpE (defs₀ (F := F)) 𝒱₀ (TH d L) none) Set.univ
          (k0_t1_body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 k ())
          (fun _ => inv0 m d L X LC lq tq fo O W (k.val + 1)) := by
  have hk : k.val < 20 := by have h := k.isLt; have e : k0_t1_loop.trips = 20 := trips1; omega
  unfold inv0
  by_cases h0 : k.val = 0
  · rw [if_pos h0, if_neg (show ¬ k.val + 1 = 0 by omega), if_neg (show ¬ k.val + 1 = 20 by omega)]
    exact trip_first0 m hF d L X hX LC hL hIn lq tq fo O W hO v2 k h0
  · by_cases h19 : k.val = 19
    · rw [if_neg h0, if_neg (show ¬ k.val = 20 by omega), if_neg (show ¬ k.val + 1 = 0 by omega), if_pos (show k.val + 1 = 20 by omega)]
      exact trip_last0 m hF d L X hX LC hL hIn lq tq fo O W hO v2 k h19
    · rw [if_neg h0, if_neg (show ¬ k.val = 20 by omega), if_neg (show ¬ k.val + 1 = 0 by omega), if_neg (show ¬ k.val + 1 = 20 by omega)]
      exact trip_mid0 m hF d L X hX LC hL hIn lq tq fo O W hO v2 k h0 h19

end Cert.Proof.KernelSide

end
-- ==== Proof.Part19Bits.lean ====
/-
  The tile's task, first table, from the copy of its row numbers to the last copy-out but one. The tile copies its 128 columns of
  the transposed row numbers into its list, starts the gathers of chunks 0, 1, 2, runs the ring's twenty trips, and waits for the
  copy-out of chunk 98. The table goes out as five read tokens and a remainder, the list — once copied — likewise; the tile's band of
  the result is cut into its hundred pieces and taken through the loop's invariant; at the end the tokens are joined back and
  ninety-nine pieces hold the lookup, the hundredth still in flight.
-/
import proofs.«206480_g70196945486151_cont_9to1_m_271_23_alg».proof.Proof.RingBand0Bits
import proofs.«206480_g70196945486151_cont_9to1_m_271_23_alg».proof.Proof.RingLem0Bits
import proofs.«206480_g70196945486151_cont_9to1_m_271_23_alg».proof.Proof.RingStep0Bits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

variable [FloatOps F]

set_option maxHeartbeats 4000000 in
theorem part19_spec (m : (ℓ : Loc nD τ sig) → Buf (Elt F) ℓ) (hF : (K (F := F)).Facts) (d : Dev nD) (L : grid0.Coords)
    (X : Buf (Elt F) (i0Loc d)) (hX : ∀ j, (X j).toNat < 100000) (fo : Buf (Elt F) (o0Loc d)) (q0 qi0 : PosShare TreeShare)
    (O : CellTallies nD τ sig (HIx 1)) (W : Waits sig (HIx 1)) (hO : ∀ g, O g none = 0)
    (fl : Buf (Elt F) ((TH d L).loc cc0_scratch0)) (f0 : Buf (Elt F) ((TH d L).loc cc0_scratch1)) (f1 : Buf (Elt F) ((TH d L).loc cc0_scratch2))
    (f2 : Buf (Elt F) ((TH d L).loc cc0_scratch3)) (f3 : Buf (Elt F) ((TH d L).loc cc0_scratch4)) (f4 : Buf (Elt F) ((TH d L).loc cc0_scratch5)) :
    (iprop(levAts (K (F := F)).L (K (F := F)).lev
        ∗ (t0Loc d ↦{q0} m (t0Loc d)) ∗ (i0Loc d ↦{qi0} X) ∗ (o0Loc d ↦[oBandSet (wL L)]{fullShare} fo)
        ∗ ((TH d L).loc cc0_scratch0 ↦{fullShare} fl)
        ∗ ((TH d L).loc cc0_scratch1 ↦{fullShare} f0) ∗ ((TH d L).loc cc0_scratch2 ↦{fullShare} f1) ∗ ((TH d L).loc cc0_scratch3 ↦{fullShare} f2)
        ∗ ((TH d L).loc cc0_scratch4 ↦{fullShare} f3) ∗ ((TH d L).loc cc0_scratch5 ↦{fullShare} f4)
        ∗ semVal (TH d L, .dma cc0_scratch6.sem) 0 ∗ semVal (TH d L, .dma cc0_scratch7.sem) 0 ∗ semVal (TH d L, .dma cc0_scratch8.sem) 0
        ∗ semVal (TH d L, .dma cc0_scratch9.sem) 0 ∗ semVal (TH d L, .dma cc0_scratch10.sem) 0
        ∗ semVal (TH d L, .dma cc0_scratch11.sem) 0 ∗ semVal (TH d L, .dma cc0_scratch12.sem) 0 ∗ semVal (TH d L, .dma cc0_scratch13.sem) 0
        ∗ semVal (TH d L, .dma cc0_scratch14.sem) 0 ∗ semVal (TH d L, .dma cc0_scratch15.sem) 0
        ∗ semVal (TH d L, .dma cc0_scoped0.sem) 0
        ∗ owes (TH d L) O W) : sProp (𝕄 F))
      ⊢ wp frame (wpE (defs₀ (F := F)) 𝒱₀ (TH d L) none) Set.univ
          (k0_part19 L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1)
          fun _ => MidT0 m d L X q0 qi0 cc0_scoped0.sem O W := by
  simp only [k0_part19_eq_skeleton]; unfold k0_part19_skel
  iintro ⟨#Hlv, Ht, Hi, Ho, Hl, Hb0, Hb1, Hb2, Hb3, Hb4, Hg0, Hg1, Hg2, Hg3, Hg4, Hs0, Hs1, Hs2, Hs3, Hs4, Hr0, HO⟩
  ihave Hmw := (show levAts (K (F := F)).L (K (F := F)).lev ⊢ Transfers.MayWaits (TH d L) (default : HIx 1) O from
    (K (F := F)).mayWaits_none (thr := TH d L) hO) $$ Hlv
  ihave Hi' := (Entails.of_eq (pts_i0 (F := F) d L _ _).symm) $$ Hi
  ihave Hl' := (Entails.of_eq (pts_l (F := F) d L _).symm) $$ Hl
  ihave Ht' := (Entails.of_eq (pts_t0 (F := F) d L _ _).symm) $$ Ht
  ihave Ht2 := (Transfers.pointsTo_toks_split (ℓ := (t0V).view.loc (TH d L)) (S := Finset.univ) (f := m (t0Loc d)) q0 5) $$ Ht'
  icases Ht2 with ⟨Htr, Httoks⟩
  ihave Ht3 := (Entails.of_eq (bigSep_univ_five _)) $$ Httoks
  icases Ht3 with ⟨Ht0, Ht1, Ht2, Ht3, Ht4⟩
  ihave Hb0' := (Entails.of_eq (pts_sa (F := F) d L _).symm) $$ Hb0
  ihave Hb1' := (Entails.of_eq (pts_sb (F := F) d L _).symm) $$ Hb1
  ihave Hb2' := (Entails.of_eq (pts_sc (F := F) d L _).symm) $$ Hb2
  ihave Hb3' := (Entails.of_eq (pts_sd (F := F) d L _).symm) $$ Hb3
  ihave Hb4' := (Entails.of_eq (pts_se (F := F) d L _).symm) $$ Hb4
  ihave Ho' := (Entails.of_eq (pts_o0 (F := F) d L _ _).symm) $$ Ho
  sl_exec
  have hIn := listIn_of_copy d L X hX fl
  unfold ListIn at hIn
  ihave Hl2 := (Transfers.pointsTo_toks_split (ℓ := (lV).view.loc (TH d L)) (S := Finset.univ) fullShare 5) $$ Hl'
  icases Hl2 with ⟨Hlr, Hltoks⟩
  ihave Hl3 := (Entails.of_eq (bigSep_univ_five _)) $$ Hltoks
  icases Hl3 with ⟨Hl0, Hl1, Hl2, Hl3, Hl4⟩
  sl_exec
  have hL : ListOK0 d L X (LC0 d L X fl) := listOK_of_copy d L X fl
  have hIn' : ListIn d L (LC0 d L X fl) := listIn_of_copy d L X hX fl
  have hg0 : (b0V).view.read (Elt F) ((b0V).view.writes (Elt F) f0 [⟨Rect.whole S64x128, part19_spec.sl.gather0 m d L X fl hIn⟩]) = GP (m (t0Loc d)) X (wL L) 0 := by
    rw [read_writes_whole]; exact gather_val m d L X _ hL hX 0 (by omega) _ rfl _ _ _ _
  have hg1 : (b1V).view.read (Elt F) ((b1V).view.writes (Elt F) f1 [⟨Rect.whole S64x128, part19_spec.sl.gather1 m d L X fl hIn⟩]) = GP (m (t0Loc d)) X (wL L) 1 := by
    rw [read_writes_whole]; exact gather_val m d L X _ hL hX 1 (by omega) _ rfl _ _ _ _
  have hg2 : (b2V).view.read (Elt F) ((b2V).view.writes (Elt F) f2 [⟨Rect.whole S64x128, part19_spec.sl.gather2 m d L X fl hIn⟩]) = GP (m (t0Loc d)) X (wL L) 2 := by
    rw [read_writes_whole]; exact gather_val m d L X _ hL hX 2 (by omega) _ rfl _ _ _ _
  sl_for (fun k (_ : PUnit) => inv0 m d L X (LC0 d L X fl) lqP (tqP q0) fo O (insert ((SemLoc.dma cc0_scoped0.sem : SemLoc sig), (default : HIx 1)) W) k) $$ [Hg0 Ht0 Hlr Hg1 Ht1 Hl0 Hg2 Ht2 Hl1 Hb3' Hb4' Hs3 Hs4 Hg3 Hl2 Ht3 Hg4 Hl3 Ht4 Hs0 Hs1 Hs2 Ho' HO]
  · intro k acc
    exact step0 m hF d L X hX (LC0 d L X fl) hL hIn' lqP (tqP q0) fo O _ hO _ k
  · unfold inv0; rw [if_pos rfl]; unfold Inv00
    isplitr; · iexact Hlv
    isplitl [Hg0 Ht0 Hlr]
    · iapply (gfl_intro0 m d L X (LC0 d L X fl) lqP (tqP q0) b0V cc0_scratch6.sem 0 0 _ hg0 (lWin ![0, 0] inb_S50x128_S1x64_0_0))
      isplitl [Hg0]; · iexact Hg0
      isplitl [Ht0]; · iexact Ht0
      iexact Hlr
    isplitl [Hg1 Ht1 Hl0]
    · iapply (gfl_intro0 m d L X (LC0 d L X fl) lqP (tqP q0) b1V cc0_scratch7.sem 1 1 _ hg1 (lWin ![0, 64] inb_S50x128_S1x64_0_64))
      isplitl [Hg1]; · iexact Hg1
      isplitl [Ht1]; · iexact Ht1
      iexact Hl0
    isplitl [Hg2 Ht2 Hl1]
    · iapply (gfl_intro0 m d L X (LC0 d L X fl) lqP (tqP q0) b2V cc0_scratch8.sem 2 2 _ hg2 (lWin ![1, 0] inb_S50x128_S1x64_1_0))
      isplitl [Hg2]; · iexact Hg2
      isplitl [Ht2]; · iexact Ht2
      iexact Hl1
    isplitl [Hb3']
    · unfold IdleB; iexists f3; rw [show (b3V).view.set = Finset.univ from View.set_whole _]; iexact Hb3'
    isplitl [Hb4']
    · unfold IdleB; iexists f4; rw [show (b4V).view.set = Finset.univ from View.set_whole _]; iexact Hb4'
    isplitl [Hs3]; · iexact Hs3
    isplitl [Hs4]; · iexact Hs4
    isplitl [Hg3 Hl2 Ht3]
    · unfold IdleG0
      isplitl [Hg3]; · iexact Hg3
      isplitl [Hl2]; · iexact Hl2
      iexact Ht3
    isplitl [Hg4 Hl3 Ht4]
    · unfold IdleG0
      isplitl [Hg4]; · iexact Hg4
      isplitl [Hl3]; · iexact Hl3
      iexact Ht4
    isplitl [Hs0]; · iexact Hs0
    isplitl [Hs1]; · iexact Hs1
    isplitl [Hs2]; · iexact Hs2
    isplitl [Ho']
    · rw [← band_pieces0 d L fo]; iexact Ho'
    unfold Owes; iexists _; isplitr
    · ipureintro; exact fun p hp => .inl hp
    iexact HO
  · iintro %acc HI
    rw [show Scf.trips k0_t1_loop.lb k0_t1_loop.ub k0_t1_loop.st = 20 from trips1]
    unfold inv0; rw [if_neg (by decide), if_pos rfl]; unfold InvEnd0 SFl0 IdleB IdleG0 Owes
    icases HI with ⟨-, ⟨%g3, Hf3⟩, ⟨%g4, Hf4⟩, ⟨%g0, B0⟩, ⟨%g1, B1⟩, ⟨%g2, B2⟩, ⟨I0s, I0l, I0t⟩, ⟨I1s, I1l, I1t⟩, ⟨I2s, I2l, I2t⟩, ⟨I3s, I3l, I3t⟩, ⟨I4s, I4l, I4t⟩, Hs0, Hs1, Hs2, HD, D95, D96, D97, ⟨%W', %hW', HO⟩⟩
    -- the table's and the list's tokens joined back
    ihave Htj := (Transfers.pointsTo_toks_join (ℓ := (t0V).view.loc (TH d L)) (S := Finset.univ) (f := m (t0Loc d)) q0 5) $$ [Htr I0t I1t I2t I3t I4t]
    · isplitl [Htr]; · iexact Htr
      rw [bigSep_univ_five]
      isplitl [I0t]; · iexact I0t
      isplitl [I1t]; · iexact I1t
      isplitl [I2t]; · iexact I2t
      isplitl [I3t]; · iexact I3t
      iexact I4t
    ihave Hlj := (Transfers.pointsTo_toks_join (ℓ := (lV).view.loc (TH d L)) (S := Finset.univ) (f := LC0 d L X fl) fullShare 5) $$ [I0l I1l I2l I3l I4l Hl4]
    · isplitl [I0l]; · iexact I0l
      rw [bigSep_univ_five]
      isplitl [I1l]; · iexact I1l
      isplitl [I2l]; · iexact I2l
      isplitl [I3l]; · iexact I3l
      isplitl [I4l]; · iexact I4l
      iexact Hl4
    sl_exec
    sl_step
    iclear Hb0' Hb1' Hb2'
    unfold MidT0
    iexists (LC0 d L X fl)
    isplitl [Htj]; · iexact Htj
    isplitl [Hi']; · iexact Hi'
    isplitl [Hlj]; · iexact Hlj
    isplitl [B0]; · unfold IdleB; iexists g0; iexact B0
    isplitl [B1]; · unfold IdleB; iexists g1; iexact B1
    isplitl [B2]; · unfold IdleB; iexists g2; iexact B2
    isplitl [Hf3_src]; · unfold IdleB; iexists g3; iexact Hf3_src
    isplitl [Hf4]; · unfold SFl0; iexists g4; iexact Hf4
    isplitl [I0s]; · iexact I0s
    isplitl [I1s]; · iexact I1s
    isplitl [I2s]; · iexact I2s
    isplitl [I3s]; · iexact I3s
    isplitl [I4s]; · iexact I4s
    isplitl [Hs0]; · iexact Hs0
    isplitl [Hs1]; · iexact Hs1
    isplitl [Hs2]; · iexact Hs2
    isplitl [Hf3]; · iexact Hf3
    isplitl [Hr0]; · iexact Hr0
    isplitl [HD]; · iexact HD
    isplitl [D95]; · iexact D95
    isplitl [D96]; · iexact D96
    isplitl [D97]; · iexact D97
    isplitl [Hf3_dst]; · unfold Dc0; iexact Hf3_dst
    unfold Owes; iexists _; isplitr
    swap; · iexact HO
    ipureintro; intro p hp
    rcases Finset.mem_insert.mp hp with hp | hp
    · subst hp; exact .inr rfl
    rcases hW' p hp with h | h
    · rcases Finset.mem_insert.mp h with h | h
      · subst h; exact .inr rfl
      · exact .inl h
    · exact .inr h

end Cert.Proof.KernelSide

end
-- ==== Proof.RingInv1Bits.lean ====
/-
  The ring's invariant for the second table. Before trip t of the loop (t = 0 … 20; chunks 5 t … 5 t + 4 are the trip's):
  the gathers of chunks 5 t, 5 t + 1, 5 t + 2 are in flight into slots 0, 1, 2; the copies out of chunks 5 t − 2, 5 t − 1 are in
  flight from slots 3, 4; every earlier chunk's piece of the result holds the lookup; every later chunk's piece is untouched.
  A gather's flight carries its slot, and the slot's read shares of the list and of the table; a copy-out's flight carries
  the piece of the result, already at the lookup, and its slot.
-/
import proofs.«206480_g70196945486151_cont_9to1_m_271_23_alg».proof.Proof.RingSpecBits
import proofs.«206480_g70196945486151_cont_9to1_m_271_23_alg».proof.Proof.CondsBits
import proofs.«206480_g70196945486151_cont_9to1_m_271_23_alg».proof.Proof.BigSepNat

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

/-- The lookup into the second table, as contents of the first result. -/
abbrev G1 : Buf (Elt F) (o1Loc d) := takeT (m (t1Loc d)) X

/-- A gather of chunk `c` in flight into slot `bV` on cell `gs`: at its wait it hands back the slot holding the chunk's rows,
    and the slot's read shares of the list and of the table. -/
def GFl1 (bV : Memref sig .scVector .vmem S64x128 .f32) (gs : DmaSem sig) (s : Fin 5) (c : ℕ) : sProp (𝕄 F) :=
  iprop(∃ g : Buf (Elt F) (bV.view.loc (TH d L)), ⌜bV.view.read (Elt F) g = GP (m (t1Loc d)) X (wL L) c⌝ ∗
    Transfers.Flight countersEmb (TH d L) (.dma gs) (default : HIx 1) 262144
      iprop(((bV.view.loc (TH d L) ↦[bV.view.set]{fullShare} g) ∗ ((lV).view.loc (TH d L) ↦{lq s} LC))
        ∗ ((t1V).view.loc (TH d L) ↦{tq s} m (t1Loc d))))

/-- A copy-out of chunk `c` in flight from slot `bV` on cell `ss`: at its wait it hands back the chunk's piece of the
    result holding the lookup, and the slot. -/
def SFl1 (bV : Memref sig .scVector .vmem S64x128 .f32) (ss : DmaSem sig) (c : ℕ) : sProp (𝕄 F) :=
  iprop(∃ g : Buf (Elt F) (bV.view.loc (TH d L)),
    Transfers.Flight countersEmb (TH d L) (.dma ss) (default : HIx 1) 262144
      iprop(((o1V).view.loc (TH d L) ↦[opc (wL L) c]{fullShare} G1 m d X) ∗ (bV.view.loc (TH d L) ↦[bV.view.set]{fullShare} g)))

/-- Chunk `c`'s piece untouched, and holding the lookup. -/
def Pc1 (c : ℕ) : sProp (𝕄 F) := (o1V).view.loc (TH d L) ↦[opc (wL L) c]{fullShare} fo
def Dc1 (c : ℕ) : sProp (𝕄 F) := (o1V).view.loc (TH d L) ↦[opc (wL L) c]{fullShare} G1 m d X
/-- A trip's five pieces. -/
def PT1 (t : ℕ) : sProp (𝕄 F) :=
  iprop(Pc1 d L fo (5 * t) ∗ Pc1 d L fo (5 * t + 1) ∗ Pc1 d L fo (5 * t + 2) ∗ Pc1 d L fo (5 * t + 3) ∗ Pc1 d L fo (5 * t + 4))
def DT1 (t : ℕ) : sProp (𝕄 F) :=
  iprop(Dc1 m d L X (5 * t) ∗ Dc1 m d L X (5 * t + 1) ∗ Dc1 m d L X (5 * t + 2) ∗ Dc1 m d L X (5 * t + 3) ∗ Dc1 m d L X (5 * t + 4))

/-- A slot's gather side at rest: its cell at zero and its read shares of the list and of the table. -/
def IdleG1 (gs : DmaSem sig) (s : Fin 5) : sProp (𝕄 F) :=
  iprop(semVal (TH d L, .dma gs) 0 ∗ ((lV).view.loc (TH d L) ↦{lq s} LC) ∗ ((t1V).view.loc (TH d L) ↦{tq s} m (t1Loc d)))
/-- A slot at rest, at some contents. -/
def IdleB1 (bV : Memref sig .scVector .vmem S64x128 .f32) : sProp (𝕄 F) :=
  iprop(∃ g : Buf (Elt F) (bV.view.loc (TH d L)), bV.view.loc (TH d L) ↦[bV.view.set]{fullShare} g)
/-- What the tile owes, and the waits it has made. -/
def Owes1 : sProp (𝕄 F) := iprop(∃ W', ⌜∀ p ∈ W', p ∈ W ∨ p.2 = none⌝ ∗ owes (TH d L) O W')

/-- Before a trip 1 ≤ t ≤ 19. -/
def InvMid1 (t : ℕ) : sProp (𝕄 F) :=
  iprop(GFl1 m d L X LC lq tq b0V cc0_scratch6.sem 0 (5 * t) ∗ GFl1 m d L X LC lq tq b1V cc0_scratch7.sem 1 (5 * t + 1)
    ∗ GFl1 m d L X LC lq tq b2V cc0_scratch8.sem 2 (5 * t + 2)
    ∗ SFl1 m d L X b3V cc0_scratch14.sem (5 * t - 2) ∗ SFl1 m d L X b4V cc0_scratch15.sem (5 * t - 1)
    ∗ IdleG1 m d L LC lq tq cc0_scratch9.sem 3 ∗ IdleG1 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico t 20) (PT1 d L fo) ∗ bigSep (Finset.range (t - 1)) (DT1 m d L X)
    ∗ Dc1 m d L X (5 * t - 5) ∗ Dc1 m d L X (5 * t - 4) ∗ Dc1 m d L X (5 * t - 3)
    ∗ Owes1 d L O W)

/-- Before the first trip: nothing copied out yet, slots 3 and 4 at rest. -/
def Inv01 : sProp (𝕄 F) :=
  iprop(GFl1 m d L X LC lq tq b0V cc0_scratch6.sem 0 0 ∗ GFl1 m d L X LC lq tq b1V cc0_scratch7.sem 1 1
    ∗ GFl1 m d L X LC lq tq b2V cc0_scratch8.sem 2 2
    ∗ IdleB1 d L b3V ∗ IdleB1 d L b4V ∗ semVal (TH d L, .dma cc0_scratch14.sem) 0 ∗ semVal (TH d L, .dma cc0_scratch15.sem) 0
    ∗ IdleG1 m d L LC lq tq cc0_scratch9.sem 3 ∗ IdleG1 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.Ico 0 20) (PT1 d L fo)
    ∗ Owes1 d L O W)

/-- After the last trip: every gather done, the copies out of chunks 98 and 99 in flight. -/
def InvEnd1 : sProp (𝕄 F) :=
  iprop(SFl1 m d L X b3V cc0_scratch14.sem 98 ∗ SFl1 m d L X b4V cc0_scratch15.sem 99
    ∗ IdleB1 d L b0V ∗ IdleB1 d L b1V ∗ IdleB1 d L b2V
    ∗ IdleG1 m d L LC lq tq cc0_scratch6.sem 0 ∗ IdleG1 m d L LC lq tq cc0_scratch7.sem 1 ∗ IdleG1 m d L LC lq tq cc0_scratch8.sem 2
    ∗ IdleG1 m d L LC lq tq cc0_scratch9.sem 3 ∗ IdleG1 m d L LC lq tq cc0_scratch10.sem 4
    ∗ semVal (TH d L, .dma cc0_scratch11.sem) 0 ∗ semVal (TH d L, .dma cc0_scratch12.sem) 0 ∗ semVal (TH d L, .dma cc0_scratch13.sem) 0
    ∗ bigSep (Finset.range 19) (DT1 m d L X)
    ∗ Dc1 m d L X 95 ∗ Dc1 m d L X 96 ∗ Dc1 m d L X 97
    ∗ Owes1 d L O W)

/-- The loop's invariant. -/
def inv1 (k : ℕ) : sProp (𝕄 F) :=
  iprop(levAts (K (F := F)).L (K (F := F)).lev ∗
    (if k = 0 then Inv01 m d L X LC lq tq fo O W else if k = 20 then InvEnd1 m d L X LC lq tq O W else InvMid1 m d L X LC lq tq fo O W k))

end

end Cert.Proof.KernelSide

end
-- ==== Proof.RingBand1Bits.lean ====
/-
  The second table's arrays as the tile's task names them, its band of the result cut into the hundred pieces the ring moves (grouped
  by trips, as the loop's invariant holds them), and what the task holds between the two tables.
-/
import proofs.«206480_g70196945486151_cont_9to1_m_271_23_alg».proof.Proof.RingAuxBits
import proofs.«206480_g70196945486151_cont_9to1_m_271_23_alg».proof.Proof.RingInv1Bits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

/-! ## The second table's arrays in the launch's spelling and in the task's -/

theorem pts_t1 (d : Dev nD) (L : grid0.Coords) (q : PosShare TreeShare) (f : Buf (Elt F) (t1Loc d)) :
    ((t1V).view.loc (TH d L) ↦{q} f : sProp (𝕄 F)) = t1Loc d ↦{q} f := rfl
theorem pts_i1 (d : Dev nD) (L : grid0.Coords) (q : PosShare TreeShare) (f : Buf (Elt F) (i1Loc d)) :
    ((i1V).view.loc (TH d L) ↦{q} f : sProp (𝕄 F)) = i1Loc d ↦{q} f := rfl
theorem pts_o1 (d : Dev nD) (L : grid0.Coords) (S : Finset S50x4096x128.Idx) (f : Buf (Elt F) (o1Loc d)) :
    ((o1V).view.loc (TH d L) ↦[S]{fullShare} f : sProp (𝕄 F)) = o1Loc d ↦[S]{fullShare} f := rfl

/-- The list after the copy of the tile's columns of the transposed row numbers. -/
abbrev LC1 (d : Dev nD) (L : grid0.Coords) (X : Buf (Elt F) (i1Loc d)) (fl : Buf (Elt F) ((TH d L).loc cc0_scratch0)) : Buf (Elt F) ((TH d L).loc cc0_scratch0) :=
  View.write (Elt F) lV.view fl
    (ReadAs.same.apply ((i1V.slice (Rect.unit (s := S50x4096) (k0_off1 L) S50x128.size (k0_off1_inb L)) (fun _ => rfl)).view.read (Elt F) X)) Finset.univ

/-! ## The band cut into its hundred pieces, by trips -/

theorem band_cut1 (d : Dev nD) (L : grid0.Coords) (f : Buf (Elt F) (o1Loc d)) :
    ((o1V).view.loc (TH d L) ↦[oBandSet (wL L)]{fullShare} f : sProp (𝕄 F))
      = bigSep (Finset.range 20) fun t => iprop(((o1V).view.loc (TH d L) ↦[opc (wL L) (5 * t)]{fullShare} f)
          ∗ ((o1V).view.loc (TH d L) ↦[opc (wL L) (5 * t + 1)]{fullShare} f) ∗ ((o1V).view.loc (TH d L) ↦[opc (wL L) (5 * t + 2)]{fullShare} f)
          ∗ ((o1V).view.loc (TH d L) ↦[opc (wL L) (5 * t + 3)]{fullShare} f) ∗ ((o1V).view.loc (TH d L) ↦[opc (wL L) (5 * t + 4)]{fullShare} f)) := by
  rw [← Geom.bigSep_range_mul5 (Φ := fun c => ((o1V).view.loc (TH d L) ↦[opc (wL L) c]{fullShare} f : sProp (𝕄 F))) 20,
    ← pointsTo_biUnion (Finset.range (5 * 20)) (ℓ := (o1V).view.loc (TH d L)) (opc (wL L)) (Geom.opiece_disjoint (wL L))]
  exact congrArg (fun S => ((o1V).view.loc (TH d L) ↦[S]{fullShare} f : sProp (𝕄 F))) (Geom.opiece_cover (wL L)).symm

theorem band_pieces1 (d : Dev nD) (L : grid0.Coords) (fo : Buf (Elt F) (o1Loc d)) :
    ((o1V).view.loc (TH d L) ↦[oBandSet (wL L)]{fullShare} fo : sProp (𝕄 F)) = bigSep (Finset.Ico 0 20) (PT1 d L fo) := by
  rw [band_cut1, Geom.bigSep_Ico_zero]; rfl
theorem band_done1 (m : (ℓ : Loc nD τ sig) → Buf (Elt F) ℓ) (d : Dev nD) (L : grid0.Coords) (X : Buf (Elt F) (i1Loc d)) :
    ((o1V).view.loc (TH d L) ↦[oBandSet (wL L)]{fullShare} G1 m d X : sProp (𝕄 F)) = bigSep (Finset.range 20) (DT1 m d L X) := by
  rw [band_cut1]; rfl

/-! ## After the loop and the wait for chunk 98

The table's and the row numbers' shares are back, the list is whole, slots 0 … 3 are at rest, chunk 99's copy-out is still in flight
from slot 4, every cell but its own is at zero (`rs` is the cell the copy of the row numbers used), ninety-nine pieces hold the lookup. -/
def MidT1 (m : (ℓ : Loc nD τ sig) → Buf (Elt F) ℓ) (d : Dev nD) (L : grid0.Coords) (X : Buf (Elt F) (i1Loc d)) (q0 qi0 : PosShare TreeShare)
    (rs : DmaSem sig) (O : CellTallies nD τ sig (HIx 1)) (W : Waits sig (HIx 1)) : sProp (𝕄 F) :=
  iprop(∃ LC : Buf (Elt F) ((TH d L).loc cc0_scratch0),
    (t1Loc d ↦{q0} m (t1Loc d)) ∗ (i1Loc d ↦{qi0} X) ∗ ((TH d L).loc cc0_scratch0 ↦{fullShare} LC)
    ∗ IdleB1 d L b0V ∗ IdleB1 d L b1V ∗ IdleB1 d L b2V ∗ IdleB1 d L b3V
    ∗ SFl1 m d L X b4V cc0_scratch15.sem 99
    ∗ semVal (TH d L, .dma cc0_scratch6.sem) 0 ∗ semVal (TH d L, .dma cc0_scratch7.sem) 0 ∗ semVal (TH d L, .dma cc0_scratch8.sem) 0
    ∗ semVal (TH d L, .dma cc0_scratch9.sem) 0 ∗ semVal (TH d L, .dma cc0_scratch10.sem) 0
    ∗ semVal (TH d L, .dma cc0_scratch11.sem) 0 ∗ semVal (TH d L, .dma cc0_scratch12.sem) 0 ∗ semVal (TH d L, .dma cc0_scratch13.sem) 0
    ∗ semVal (TH d L, .dma cc0_scratch14.sem) 0
    ∗ semVal (TH d L, .dma rs) 0
    ∗ bigSep (Finset.range 19) (DT1 m d L X) ∗ Dc1 m d L X 95 ∗ Dc1 m d L X 96 ∗ Dc1 m d L X 97 ∗ Dc1 m d L X 98
    ∗ Owes1 d L O W)

end Cert.Proof.KernelSide

end
-- ==== Proof.RingVal1Bits.lean ====
/-
  The values the ring moves, second table. The printed offset chains of the second loop in closed form: slot b of trip t
  handles chunk 5 t + b, whose window of the list starts at row c / 2, position (c mod 2) · 64, and whose piece of the result
  starts at row c / 2, position 128 w + (c mod 2) · 64. The list, once the tile's 128 columns of the transposed row numbers
  are copied into it, reads through chunk c's window the row numbers at positions 128 w + (c mod 2) · 64 … of row c / 2, all
  in range; a gather through that window delivers, at (y₀, y₁), entry y₁ of the table's row named at position y₀ of the
  window; and the piece of the result the program addresses for chunk c is the piece the cut names, holding the lookup
  once the chunk's rows are written to it. Index arithmetic throughout: a window's index is the offset plus the
  coordinate, a squeezed window's index is the coordinate behind a leading 0.
-/
import proofs.«206480_g70196945486151_cont_9to1_m_271_23_alg».proof.Proof.RingSpecBits
import proofs.«206480_g70196945486151_cont_9to1_m_271_23_alg».proof.Proof.CondsBits

noncomputable section

namespace Cert.Proof.KernelSide

open Cert.Kernel Cert.Kernel.Gen
open Idealize.ShloMosaic
open Idealize.ShloMosaic.SparseCore (S V T)
open Cert.Proof.Geom (lOff oOff lOff_inb oOff_inb)

variable {F : FTy → Type}

/-! ## The printed offsets in closed form (second loop) -/

theorem off16_eq : ∀ t : Fin k0_t2_loop.trips, k0_off16 t = lOff (5 * t.val + 3) := by decide +kernel
theorem off20_eq : ∀ t : Fin k0_t2_loop.trips, k0_off20 t = lOff (5 * t.val + 4) := by decide +kernel
theorem off22_eq : ∀ t : Fin k0_t2_loop.trips, t.val ≠ 19 → k0_off22 t = lOff (5 * t.val + 5) := by decide +kernel
theorem off24_eq : ∀ t : Fin k0_t2_loop.trips, t.val ≠ 19 → k0_off24 t = lOff (5 * t.val + 6) := by decide +kernel
theorem off26_eq : ∀ t : Fin k0_t2_loop.trips, t.val ≠ 19 → k0_off26 t = lOff (5 * t.val + 7) := by decide +kernel
theorem off18_eq (r : Fin 5) : ∀ (L : grid0.Coords) (t : Fin k0_t2_loop.trips), k0_off18 L t (BitVec.ofNat 32 r.val) = oOff (wL L) (5 * t.val + r.val) := by
  revert r; decide +kernel

/-- On the indexed axis 0 a gather's source index is the row the list names. -/
theorem gidx1 {s t : Shape} (hg : s.Gathers 0 t) (R : Fin (t.size hg.axis') → Fin (s.size hg.axis)) (y : t.Idx)
    (h0 : 0 < s.rank) : (hg.idx R y ⟨0, h0⟩).val = (R (y hg.axis')).val :=
  congrArg Fin.val (Shape.Gathers.idx_axis hg R y)

section

variable (m : (ℓ : Loc nD τ sig) → Buf (Elt F) ℓ) (d : Dev nD) (L : grid0.Coords)
variable (X : Buf (Elt F) (i1Loc d)) (LC : Buf (Elt F) ((TH d L).loc cc0_scratch0))

/-- The list holds the tile's columns of the transposed row numbers: chunk `c`'s window reads positions
    128 w + (c % 2) · 64 … of row c / 2. -/
def ListOK1 : Prop :=
  ∀ (c : ℕ) (_ : c < 100) (off : Fin 2 → ℕ) (_ : off = lOff c) (h : ∀ a, off a + S1x64.size a ≤ S50x128.size a)
    (h' : ∀ a, (Rect.unit (s := S50x128) off S1x64.size h).stride a = 1) (x : S64.Idx),
    View.read (Elt F) ((lV.slice (Rect.unit (s := S50x128) off S1x64.size h) h').squeeze S64 squeezes_S1x64_S64).view LC x
      = X (ixI (c / 2) (128 * (wL L).val + (c % 2) * 64 + (x 0).val))

/-- Every window of the list reads row numbers in range. -/
def ListIn1 : Prop :=
  ∀ (off : Fin 2 → ℕ) (h : ∀ a, off a + S1x64.size a ≤ S50x128.size a) (h' : ∀ a, (Rect.unit (s := S50x128) off S1x64.size h).stride a = 1) (x : S64.Idx),
    (View.read (Elt F) ((lV.slice (Rect.unit (s := S50x128) off S1x64.size h) h').squeeze S64 squeezes_S1x64_S64).view LC x).toNat < 100000

/-- After the copy of the tile's columns into the list (whatever it held before). -/
theorem listOK_of_copy1 (fl : Buf (Elt F) ((TH d L).loc cc0_scratch0)) :
    ListOK1 d L X (View.write (Elt F) lV.view fl
      (ReadAs.same.apply ((i1V.slice (Rect.unit (s := S50x4096) (k0_off1 L) S50x128.size (k0_off1_inb L)) (fun _ => rfl)).view.read (Elt F) X)) Finset.univ) := by
  intro c hc off hoff h h' x
  subst hoff
  rw [View.write_whole_univ]
  rw [View.read_apply, cast_eq, ReadAs.apply_same, View.read_apply, cast_eq]
  congr 1
  funext a
  refine Fin.ext ?_
  simp only [Memref.view_squeeze, Memref.view_slice, Memref.view_whole, View.emb_reshape, View.emb_slice, View.emb_whole,
    Function.Embedding.trans_apply, Function.Embedding.refl_apply, Equiv.coe_toEmbedding, Rect.emb_apply, Rect.off_unit, Rect.stride_unit]
  rw [Shape.reshapeEquiv_cons_one]
  have hw : (wL L).val = 16 * (L 0).val + (L 1).val := rfl
  have hL0 : (L 0).val < 2 := (L 0).isLt
  have hL1 : (L 1).val < 16 := (L 1).isLt
  have hx : (x 0).val < 64 := (x 0).isLt
  match a with
  | ⟨0, _⟩ =>
    show k0_off1 L 0 + 1 * (lOff c 0 + 1 * 0) = (c / 2) % 50
    rw [k0_off1_eq L]
    show 0 + 1 * (c / 2 + 1 * 0) = (c / 2) % 50
    omega
  | ⟨1, _⟩ =>
    show k0_off1 L 1 + 1 * (lOff c 1 + 1 * (x 0).val) = (128 * (wL L).val + c % 2 * 64 + (x 0).val) % 4096
    rw [k0_off1_eq L, hw]
    show 2048 * (L 0).val + 128 * (L 1).val + 1 * (c % 2 * 64 + 1 * (x 0).val) = _
    omega

theorem listIn_of_copy1 (hX : ∀ j, (X j).toNat < 100000) (fl : Buf (Elt F) ((TH d L).loc cc0_scratch0)) :
    ListIn1 d L (View.write (Elt F) lV.view fl
      (ReadAs.same.apply ((i1V.slice (Rect.unit (s := S50x4096) (k0_off1 L) S50x128.size (k0_off1_inb L)) (fun _ => rfl)).view.read (Elt F) X)) Finset.univ) := by
  intro off h h' x
  rw [View.write_whole_univ, View.read_apply, cast_eq, ReadAs.apply_same, View.read_apply, cast_eq]
  exact hX _

/-- What a gather of chunk `c` delivers. -/
theorem gather_val1 (hL : ListOK1 d L X LC) (hX : ∀ j, (X j).toNat < 100000) (c : ℕ) (hc : c < 100) (off : Fin 2 → ℕ) (hoff : off = lOff c)
    (h : ∀ a, off a + S1x64.size a ≤ S50x128.size a) (h' : ∀ a, (Rect.unit (s := S50x128) off S1x64.size h).stride a = 1)
    (hn : S64.numel = S64x128.size gathers_S100000x128_S64x128.axis')
    (hin : ∀ x, (View.read (Elt F) ((lV.slice (Rect.unit (s := S50x128) off S1x64.size h) h').squeeze S64 squeezes_S1x64_S64).view LC x).toNat
      < S100000x128.size gathers_S100000x128_S64x128.axis) :
    SparseCore.gatherPayload gathers_S100000x128_S64x128
        ((t1V.slice (Rect.unit (s := S100000x128) ![0, 0] S100000x128.size inb_S100000x128_S100000x128_0_0) (fun _ => rfl)).view.read (Elt F) (m (t1Loc d)))
        (SparseCore.rows (View.read (Elt F) ((lV.slice (Rect.unit (s := S50x128) off S1x64.size h) h').squeeze S64 squeezes_S1x64_S64).view LC) hn hin)
      = GP (m (t1Loc d)) X (wL L) c := by
  subst hoff
  funext y
  have hx0 : ((S64.rowMajor.symm ((y gathers_S100000x128_S64x128.axis').cast hn.symm)) 0).val = (y 0).val :=
    (Shape.rowMajor_val_one _).symm.trans (congrArg Fin.val (Equiv.apply_symm_apply _ _))
  have hrow := hL c hc (lOff c) rfl h h' (S64.rowMajor.symm ((y gathers_S100000x128_S64x128.axis').cast hn.symm))
  unfold SparseCore.gatherPayload GP
  rw [View.read_apply, cast_eq]
  congr 1
  funext a
  refine Fin.ext ?_
  simp only [Memref.view_slice, Memref.view_whole, View.emb_slice, View.emb_whole,
    Function.Embedding.trans_apply, Function.Embedding.refl_apply, Rect.emb_apply, Rect.off_unit, Rect.stride_unit]
  simp only [Memref.view_squeeze, Memref.view_slice, Memref.view_whole] at hrow
  match a with
  | ⟨0, _⟩ =>
    show 0 + 1 * (gathers_S100000x128_S64x128.idx _ y ⟨0, _⟩).val = (Cert.Lookup.rowOf _).val
    rw [gidx1]
    unfold SparseCore.rows
    dsimp only
    rw [hrow, hx0, Cert.Lookup.rowOf_val (hX _)]
    omega
  | ⟨1, _⟩ =>
    show 0 + 1 * (y 1).val = (y 1).val
    omega

/-- Chunk `c`'s piece of the result, as the program addresses it, is the piece the cut names. -/
theorem piece_set1 (c : ℕ) (hc : c < 100) (off : Fin 3 → ℕ) (hoff : off = oOff (wL L) c) (h : ∀ a, off a + S1x64x128.size a ≤ S50x4096x128.size a) :
    ((o1V.slice (Rect.unit (s := S50x4096x128) off S1x64x128.size h) (fun _ => rfl)).squeeze S64x128 squeezes_S1x64x128_S64x128).view.set = opc (wL L) c := by
  subst hoff
  unfold opc Cert.Proof.Geom.opiece
  rw [dif_pos hc]
  simp only [Memref.view_squeeze, Memref.view_slice, Memref.view_whole, View.set_reshape, View.set_slice_whole]

/-- The piece written with the chunk's rows holds the lookup. -/
theorem piece_val1 (c : ℕ) (hc : c < 100) (off : Fin 3 → ℕ) (hoff : off = oOff (wL L) c) (h : ∀ a, off a + S1x64x128.size a ≤ S50x4096x128.size a)
    (fo : Buf (Elt F) (o1Loc d)) (p : S64x128.Idx → Elt F .f32) (hp : p = GP (m (t1Loc d)) X (wL L) c) :
    ∀ i ∈ opc (wL L) c,
      (((o1V.slice (Rect.unit (s := S50x4096x128) off S1x64x128.size h) (fun _ => rfl)).squeeze S64x128 squeezes_S1x64x128_S64x128).view.writes (Elt F) fo
        [⟨Rect.whole S64x128, p⟩] : Buf (Elt F) (o1Loc d)) i = (takeT (m (t1Loc d)) X : Buf (Elt F) (o1Loc d)) i := by
  subst hoff hp
  intro i hi
  rw [← piece_set1 L c hc _ rfl h] at hi
  obtain ⟨y, -, rfl⟩ := Finset.mem_map.mp hi
  have hr := congrFun (View.read_writes_whole
    ((o1V.slice (Rect.unit (s := S50x4096x128) (oOff (wL L) c) S1x64x128.size h) (fun _ => rfl)).squeeze S64x128 squeezes_S1x64x128_S64x128).view
    fo (GP (m (t1Loc d)) X (wL L) c)) y
  rw [View.read_apply, cast_eq] at hr
  rw [hr]
  obtain ⟨E, hE⟩ : ∃ E : S50x4096x128.Idx,
      E = (Rect.unit (s := S50x4096x128) (oOff (wL L) c) S1x64x128.size h).emb (Fin.cons ⟨0, Nat.one_pos⟩ y) := ⟨_, rfl⟩
  have key : ((o1V.slice (Rect.unit (s := S50x4096x128) (oOff (wL L) c) S1x64x128.size h) (fun _ => rfl)).squeeze S64x128
      squeezes_S1x64x128_S64x128).view.emb y = E := by
    rw [hE]
    show (Rect.unit (s := S50x4096x128) (oOff (wL L) c) S1x64x128.size h).emb (Shape.reshapeEquiv _ y) = _
    rw [Shape.reshapeEquiv_cons_one]
  have e0 : (E 0).val = c / 2 + 1 * 0 := by rw [hE]; rfl
  have e1 : (E 1).val = 128 * (wL L).val + c % 2 * 64 + 1 * (y 0).val := by rw [hE]; rfl
  have e2 : (E 2).val = 0 + 1 * (y 1).val := by rw [hE]; rfl
  have hw : (wL L).val < 32 := (wL L).isLt
  have hy0 : (y 0).val < 64 := (y 0).isLt
  have hA : ixI (c / 2) (128 * (wL L).val + c % 2 * 64 + (y 0).val) = ValueIdx.ix2 (E 0) (E 1) := by
    funext a
    match a with
    | ⟨0, _⟩ => exact Fin.ext (by show (c / 2) % 50 = (E 0).val; rw [e0]; omega)
    | ⟨1, _⟩ => exact Fin.ext (by show (128 * (wL L).val + c % 2 * 64 + (y 0).val) % 4096 = (E 1).val; rw [e1]; omega)
  have hB : E 2 = y 1 := Fin.ext (by rw [e2]; omega)
  rw [key]
  unfold GP takeT
  rw [hA, hB]
  rfl

end

end Cert.Proof.KernelSide

end
-- ==== Proof.RingLem1Bits.lean ====
/-
  How a flight the run has just issued is put in the invariant's form, second table: the rests of the shares it borrowed are
  framed into it and joined, the piece of the result it writes is restated at the lookup.
-/
import proofs.«206480_g70196945486151_cont_9to1_m_271_23_alg».proof.Proof.RingInv1Bits
import proofs.«206480_g70196945486151_cont_9to1_m_271_23_alg».proof.Proof.RingVal1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d))

/-- The table's elements as a gather addresses them. -/
abbrev TSL1 : Finset S100000x128.Idx :=
  (t1V.slice (Rect.unit (s := S100000x128) ![0, 0] S100000x128.size inb_S100000x128_S100000x128_0_0) (fun _ => rfl)).view.set

/-- A gather just issued, with the rests of the two shares it borrowed from, is a gather in flight in the invariant's form. -/
theorem gfl_intro1 (bV : Memref sig .scVector .vmem S64x128 .f32) (gs : DmaSem sig) (s : Fin 5) (c : ℕ)
    (g : Buf (Elt F) (bV.view.loc (TH d L))) (hg : bV.view.read (Elt F) g = GP (m (t1Loc d)) X (wL L) c)
    (WIN : Finset S50x128.Idx) :
    (iprop(Transfers.Flight countersEmb (TH d L) (.dma gs) (default : HIx 1) 262144
        iprop(((bV.view.loc (TH d L) ↦[bV.view.set]{fullShare} g) ∗ ((lV).view.loc (TH d L) ↦[WIN]{lq s} LC))
          ∗ ((t1V).view.loc (TH d L) ↦[TSL1]{tq s} m (t1Loc d)))
      ∗ ((t1V).view.loc (TH d L) ↦[Finset.univ \ TSL1]{tq s} m (t1Loc d))
      ∗ ((lV).view.loc (TH d L) ↦[Finset.univ \ WIN]{lq s} LC)) : sProp (𝕄 F))
    ⊢ GFl1 m d L X LC lq tq bV gs s c := by
  unfold GFl1
  iintro ⟨Hf, Ht, Hl⟩
  iexists g
  isplitr
  · ipureintro; exact hg
  ihave H := (Transfers.Flight_frame countersEmb (TH d L)
      (R := iprop(((t1V).view.loc (TH d L) ↦[Finset.univ \ TSL1]{tq s} m (t1Loc d)) ∗ ((lV).view.loc (TH d L) ↦[Finset.univ \ WIN]{lq s} LC)))) $$ [Hf Ht Hl]
  · isplitr [Hf]
    · isplitl [Ht] <;> iassumption
    · iexact Hf
  iapply (Transfers.Flight_mono countersEmb (TH d L) ?_) $$ H
  iintro ⟨⟨Ht, Hl⟩, ⟨Hb, Hlw⟩, Hts⟩
  isplitl [Hb Hlw Hl]
  · isplitl [Hb]; · iexact Hb
    iapply (pointsTo_split_subset (Finset.subset_univ WIN)).2
    isplitl [Hlw] <;> iassumption
  · iapply (pointsTo_split_subset (Finset.subset_univ TSL1)).2
    isplitl [Hts] <;> iassumption

/-- The memref the program copies chunk r of trip t out through (second loop). -/
abbrev oPc1 (L : grid0.Coords) (t : Fin k0_t2_loop.trips) (r : Fin 5) : Memref sig .scVector .hbm S64x128 .f32 :=
  (o1V.slice (Rect.unit (s := S50x4096x128) (k0_off18 L t (BitVec.ofNat 32 r.val)) S1x64x128.size (k0_off18_inb L t r)) (fun _ => rfl)).squeeze S64x128 squeezes_S1x64x128_S64x128

theorem chunk_lt1 (t : Fin k0_t2_loop.trips) (r : Fin 5) : 5 * t.val + r.val < 100 := by
  have h1 := t.isLt; have h20 : k0_t2_loop.trips = 20 := trips2; have h2 := r.isLt; omega

/-- That memref's elements are the chunk's piece. -/
theorem oPc_set1 (t : Fin k0_t2_loop.trips) (r : Fin 5) : (oPc1 L t r).view.set = opc (wL L) (5 * t.val + r.val) :=
  piece_set1 L (5 * t.val + r.val) (chunk_lt1 t r) _ (off18_eq r L t) _

/-- The piece untouched, as the program addresses it. -/
theorem pc_eq1 (t : Fin k0_t2_loop.trips) (r : Fin 5) :
    ((oPc1 L t r).view.loc (TH d L) ↦[(oPc1 L t r).view.set]{fullShare} fo : sProp (𝕄 F)) = Pc1 d L fo (5 * t.val + r.val) := by
  unfold Pc1; rw [oPc_set1 L t r]

/-- The piece written with the chunk's rows is the piece at the lookup. -/
theorem done_eq1 (t : Fin k0_t2_loop.trips) (r : Fin 5) (p : S64x128.Idx → Elt F .f32) (hp : p = GP (m (t1Loc d)) X (wL L) (5 * t.val + r.val)) :
    ((oPc1 L t r).view.loc (TH d L) ↦[(oPc1 L t r).view.set]{fullShare} (oPc1 L t r).view.writes (Elt F) fo [⟨Rect.whole S64x128, p⟩] : sProp (𝕄 F))
      = Dc1 m d L X (5 * t.val + r.val) := by
  unfold Dc1; rw [oPc_set1 L t r]
  exact pointsTo_congr (piece_val1 m d L X (5 * t.val + r.val) (chunk_lt1 t r) _ (off18_eq r L t) _ fo p hp)

/-- A copy-out just issued is a copy-out in flight in the invariant's form. -/
theorem sfl_intro1 (bV : Memref sig .scVector .vmem S64x128 .f32) (ss : DmaSem sig) (t : Fin k0_t2_loop.trips) (r : Fin 5)
    (g : Buf (Elt F) (bV.view.loc (TH d L))) (p : S64x128.Idx → Elt F .f32) (hp : p = GP (m (t1Loc d)) X (wL L) (5 * t.val + r.val)) :
    (Transfers.Flight countersEmb (TH d L) (.dma ss) (default : HIx 1) 262144
        iprop(((oPc1 L t r).view.loc (TH d L) ↦[(oPc1 L t r).view.set]{fullShare} (oPc1 L t r).view.writes (Elt F) fo [⟨Rect.whole S64x128, p⟩])
          ∗ (bV.view.loc (TH d L) ↦[bV.view.set]{fullShare} g)) : sProp (𝕄 F))
      ⊢ SFl1 m d L X bV ss (5 * t.val + r.val) := by
  unfold SFl1
  refine BIBase.Entails.trans (Transfers.Flight_mono countersEmb (TH d L) (D' := iprop(((o1V).view.loc (TH d L) ↦[opc (wL L) (5 * t.val + r.val)]{fullShare} G1 m d X) ∗ (bV.view.loc (TH d L) ↦[bV.view.set]{fullShare} g))) ?_) ?_
  · have e := done_eq1 m d L X fo t r p hp
    unfold Dc1 at e
    iintro ⟨Ho, Hb⟩
    isplitl [Ho]
    · iapply (Entails.of_eq e) $$ Ho
    · iexact Hb
  · iintro H
    iexists g
    iexact H

end

end Cert.Proof.KernelSide

end
-- ==== Proof.RingClose1Bits.lean ====
/-
  The end of a middle trip of the second loop: what the run holds after the trip's twenty transfer steps is the invariant
  at the next trip.
-/
import proofs.«206480_g70196945486151_cont_9to1_m_271_23_alg».proof.Proof.RingLem1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

/-- The tile's debts with a longer list of waits made, each on a cell of the kernels' own index. -/
theorem owes_intro1 (W'' : Waits sig (HIx 1)) (hW'' : ∀ p ∈ W'', p ∈ W ∨ p.2 = none) :
    (owes (TH d L) O W'' : sProp (𝕄 F)) ⊢ Owes1 d L O W := by
  unfold Owes1
  iintro HO
  iexists W''
  isplitr
  · ipureintro; exact hW''
  · iexact HO

set_option maxHeartbeats 2000000 in
theorem close_mid1 (t : Fin k0_t2_loop.trips) (ht0 : t.val ≠ 0) (ht19 : t.val ≠ 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t1Loc d)) X (wL L) (5 * t.val + 5)) (hpg1 : pg1 = GP (m (t1Loc d)) X (wL L) (5 * t.val + 6))
    (hpg2 : pg2 = GP (m (t1Loc d)) X (wL L) (5 * t.val + 7))
    (hps0 : ps0 = GP (m (t1Loc d)) X (wL L) (5 * t.val + (0 : Fin 5).val)) (hps1 : ps1 = GP (m (t1Loc d)) X (wL L) (5 * t.val + (1 : Fin 5).val))
    (hps2 : ps2 = GP (m (t1Loc d)) X (wL L) (5 * t.val + (2 : Fin 5).val)) (hps3 : ps3 = GP (m (t1Loc d)) X (wL L) (5 * t.val + (3 : Fin 5).val))
    (hps4 : ps4 = GP (m (t1Loc d)) X (wL L) (5 * t.val + (4 : Fin 5).val))
    (WIN0 WIN1 WIN2 : Finset S50x128.Idx) :
    (iprop(((o1V).view.loc (TH d L) ↦[opc (wL L) (5 * t.val - 2)]{fullShare} G1 m d X) ∗ ((o1V).view.loc (TH d L) ↦[opc (wL L) (5 * t.val - 1)]{fullShare} G1 m d X)
      ∗ ((oPc1 L t 0).view.loc (TH d L) ↦[(oPc1 L t 0).view.set]{fullShare} (oPc1 L t 0).view.writes (Elt F) fo [⟨Rect.whole S64x128, ps0⟩])
      ∗ ((oPc1 L t 1).view.loc (TH d L) ↦[(oPc1 L t 1).view.set]{fullShare} (oPc1 L t 1).view.writes (Elt F) fo [⟨Rect.whole S64x128, ps1⟩])
      ∗ ((oPc1 L t 2).view.loc (TH d L) ↦[(oPc1 L t 2).view.set]{fullShare} (oPc1 L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t1V).view.loc (TH d L) ↦[TSL1]{tq 0} m (t1Loc d)))
      ∗ ((t1V).view.loc (TH d L) ↦[Finset.univ \ TSL1]{tq 0} m (t1Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t1V).view.loc (TH d L) ↦[TSL1]{tq 1} m (t1Loc d)))
      ∗ ((t1V).view.loc (TH d L) ↦[Finset.univ \ TSL1]{tq 1} m (t1Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t1V).view.loc (TH d L) ↦[TSL1]{tq 2} m (t1Loc d)))
      ∗ ((t1V).view.loc (TH d L) ↦[Finset.univ \ TSL1]{tq 2} m (t1Loc d)) ∗ ((lV).view.loc (TH d L) ↦[Finset.univ \ WIN2]{lq 2} LC)
      ∗ (semVal (TH d L, .dma cc0_scratch9.sem) 0 ∗ ((lV).view.loc (TH d L) ↦{lq 3} LC) ∗ ((t1V).view.loc (TH d L) ↦{tq 3} m (t1Loc d)))
      ∗ (semVal (TH d L, .dma cc0_scratch10.sem) 0 ∗ ((lV).view.loc (TH d L) ↦{lq 4} LC) ∗ ((t1V).view.loc (TH d L) ↦{tq 4} m (t1Loc d)))
      ∗ Transfers.Flight countersEmb (TH d L) (.dma cc0_scratch14.sem) (default : HIx 1) 262144
          iprop(((oPc1 L t 3).view.loc (TH d L) ↦[(oPc1 L t 3).view.set]{fullShare} (oPc1 L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc1 L t 4).view.loc (TH d L) ↦[(oPc1 L t 4).view.set]{fullShare} (oPc1 L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT1 d L fo) ∗ bigSep (Finset.range (t.val - 1)) (DT1 m d L X)
      ∗ ((o1V).view.loc (TH d L) ↦[opc (wL L) (5 * t.val - 5)]{fullShare} G1 m d X) ∗ ((o1V).view.loc (TH d L) ↦[opc (wL L) (5 * t.val - 4)]{fullShare} G1 m d X) ∗ ((o1V).view.loc (TH d L) ↦[opc (wL L) (5 * t.val - 3)]{fullShare} G1 m d X)
      ∗ Owes1 d L O W) : sProp (𝕄 F))
      ⊢ InvMid1 m d L X LC lq tq fo O W (t.val + 1) := by
  have ht1 : 1 ≤ t.val := Nat.one_le_iff_ne_zero.mpr ht0
  have eD : bigSep (Finset.range t.val) (DT1 m d L X) = iprop(bigSep (Finset.range (t.val - 1)) (DT1 m d L X) ∗ DT1 m d L X (t.val - 1)) := by
    have h := Geom.bigSep_range_succ' (Φ := DT1 m d L X) (t.val - 1)
    rwa [show t.val - 1 + 1 = t.val by omega] at h
  rw [InvMid1, IdleG1, IdleG1, show t.val + 1 - 1 = t.val by omega, eD, DT1,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc1
  have e0 := done_eq1 m d L X fo t 0 ps0 hps0
  have e1 := done_eq1 m d L X fo t 1 ps1 hps1
  have e2 := done_eq1 m d L X fo t 2 ps2 hps2
  unfold Dc1 at e0 e1 e2
  iintro ⟨HD2, HD1, HO0, HO1, HO2, HS0, HS1, HS2, HF0, HT0r, HL0r, HF1, HT1r, HL1r, HF2, HT2r, HL2r, HI3, HI4, HFS3, HFS4, HTodo, HDone, HD5, HD4, HD3, HO⟩
  isplitl [HF0 HT0r HL0r]
  · iapply (gfl_intro1 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro1 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro1 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro1 m d L X fo b3V cc0_scratch14.sem t 3 _ ps3 hps3) $$ HFS3
  isplitl [HFS4]
  · iapply (sfl_intro1 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelSide

end
-- ==== Proof.RingCloseFirst1Bits.lean ====
/-
  The end of the first trip of the second loop: what the run holds after the trip's transfer steps is the invariant at the
  second trip. Nothing was copied out before the first trip, so there is no earlier store to await and no earlier piece at
  the lookup: the finished trips' pieces are an iterated conjunction over the empty range, and the three loose pieces are
  the trip's own chunks 0, 1, 2.
-/
import proofs.«206480_g70196945486151_cont_9to1_m_271_23_alg».proof.Proof.RingClose1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

set_option maxHeartbeats 2000000 in
theorem close_first1 (t : Fin k0_t2_loop.trips) (ht : t.val = 0)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg0 pg1 pg2 pg3 pg4 ps0 ps1 ps2 ps3 ps4 : S64x128.Idx → Elt F .f32)
    (hpg0 : pg0 = GP (m (t1Loc d)) X (wL L) (5 * t.val + 5)) (hpg1 : pg1 = GP (m (t1Loc d)) X (wL L) (5 * t.val + 6))
    (hpg2 : pg2 = GP (m (t1Loc d)) X (wL L) (5 * t.val + 7))
    (hps0 : ps0 = GP (m (t1Loc d)) X (wL L) (5 * t.val + (0 : Fin 5).val)) (hps1 : ps1 = GP (m (t1Loc d)) X (wL L) (5 * t.val + (1 : Fin 5).val))
    (hps2 : ps2 = GP (m (t1Loc d)) X (wL L) (5 * t.val + (2 : Fin 5).val)) (hps3 : ps3 = GP (m (t1Loc d)) X (wL L) (5 * t.val + (3 : Fin 5).val))
    (hps4 : ps4 = GP (m (t1Loc d)) X (wL L) (5 * t.val + (4 : Fin 5).val))
    (WIN0 WIN1 WIN2 : Finset S50x128.Idx) :
    (iprop(((oPc1 L t 0).view.loc (TH d L) ↦[(oPc1 L t 0).view.set]{fullShare} (oPc1 L t 0).view.writes (Elt F) fo [⟨Rect.whole S64x128, ps0⟩])
      ∗ ((oPc1 L t 1).view.loc (TH d L) ↦[(oPc1 L t 1).view.set]{fullShare} (oPc1 L t 1).view.writes (Elt F) fo [⟨Rect.whole S64x128, ps1⟩])
      ∗ ((oPc1 L t 2).view.loc (TH d L) ↦[(oPc1 L t 2).view.set]{fullShare} (oPc1 L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ Transfers.Flight countersEmb (TH d L) (.dma cc0_scratch6.sem) (default : HIx 1) 262144
          iprop((((b0V).view.loc (TH d L) ↦[(b0V).view.set]{fullShare} (b0V).view.writes (Elt F) g0 [⟨Rect.whole S64x128, pg0⟩]) ∗ ((lV).view.loc (TH d L) ↦[WIN0]{lq 0} LC))
            ∗ ((t1V).view.loc (TH d L) ↦[TSL1]{tq 0} m (t1Loc d)))
      ∗ ((t1V).view.loc (TH d L) ↦[Finset.univ \ TSL1]{tq 0} m (t1Loc d)) ∗ ((lV).view.loc (TH d L) ↦[Finset.univ \ WIN0]{lq 0} LC)
      ∗ Transfers.Flight countersEmb (TH d L) (.dma cc0_scratch7.sem) (default : HIx 1) 262144
          iprop((((b1V).view.loc (TH d L) ↦[(b1V).view.set]{fullShare} (b1V).view.writes (Elt F) g1 [⟨Rect.whole S64x128, pg1⟩]) ∗ ((lV).view.loc (TH d L) ↦[WIN1]{lq 1} LC))
            ∗ ((t1V).view.loc (TH d L) ↦[TSL1]{tq 1} m (t1Loc d)))
      ∗ ((t1V).view.loc (TH d L) ↦[Finset.univ \ TSL1]{tq 1} m (t1Loc d)) ∗ ((lV).view.loc (TH d L) ↦[Finset.univ \ WIN1]{lq 1} LC)
      ∗ Transfers.Flight countersEmb (TH d L) (.dma cc0_scratch8.sem) (default : HIx 1) 262144
          iprop((((b2V).view.loc (TH d L) ↦[(b2V).view.set]{fullShare} (b2V).view.writes (Elt F) g2 [⟨Rect.whole S64x128, pg2⟩]) ∗ ((lV).view.loc (TH d L) ↦[WIN2]{lq 2} LC))
            ∗ ((t1V).view.loc (TH d L) ↦[TSL1]{tq 2} m (t1Loc d)))
      ∗ ((t1V).view.loc (TH d L) ↦[Finset.univ \ TSL1]{tq 2} m (t1Loc d)) ∗ ((lV).view.loc (TH d L) ↦[Finset.univ \ WIN2]{lq 2} LC)
      ∗ (semVal (TH d L, .dma cc0_scratch9.sem) 0 ∗ ((lV).view.loc (TH d L) ↦{lq 3} LC) ∗ ((t1V).view.loc (TH d L) ↦{tq 3} m (t1Loc d)))
      ∗ (semVal (TH d L, .dma cc0_scratch10.sem) 0 ∗ ((lV).view.loc (TH d L) ↦{lq 4} LC) ∗ ((t1V).view.loc (TH d L) ↦{tq 4} m (t1Loc d)))
      ∗ Transfers.Flight countersEmb (TH d L) (.dma cc0_scratch14.sem) (default : HIx 1) 262144
          iprop(((oPc1 L t 3).view.loc (TH d L) ↦[(oPc1 L t 3).view.set]{fullShare} (oPc1 L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc1 L t 4).view.loc (TH d L) ↦[(oPc1 L t 4).view.set]{fullShare} (oPc1 L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.Ico (t.val + 1) 20) (PT1 d L fo)
      ∗ Owes1 d L O W) : sProp (𝕄 F))
      ⊢ InvMid1 m d L X LC lq tq fo O W (t.val + 1) := by
  have eD : bigSep (Finset.range t.val) (DT1 m d L X) = bigSep ∅ (DT1 m d L X) := by rw [ht, Finset.range_zero]
  rw [InvMid1, IdleG1, IdleG1, show t.val + 1 - 1 = t.val by omega, eD,
    show 5 * (t.val + 1) = 5 * t.val + 5 by omega,
    show 5 * t.val + 5 - 2 = 5 * t.val + (3 : Fin 5).val by show _ = 5 * t.val + 3; omega,
    show 5 * t.val + 5 - 1 = 5 * t.val + (4 : Fin 5).val by show _ = 5 * t.val + 4; omega,
    show 5 * t.val + 5 - 5 = 5 * t.val + (0 : Fin 5).val by show _ = 5 * t.val + 0; omega,
    show 5 * t.val + 5 - 4 = 5 * t.val + (1 : Fin 5).val by show _ = 5 * t.val + 1; omega,
    show 5 * t.val + 5 - 3 = 5 * t.val + (2 : Fin 5).val by show _ = 5 * t.val + 2; omega]
  unfold Dc1
  have e0 := done_eq1 m d L X fo t 0 ps0 hps0
  have e1 := done_eq1 m d L X fo t 1 ps1 hps1
  have e2 := done_eq1 m d L X fo t 2 ps2 hps2
  unfold Dc1 at e0 e1 e2
  iintro ⟨HO0, HO1, HO2, HS0, HS1, HS2, HF0, HT0r, HL0r, HF1, HT1r, HL1r, HF2, HT2r, HL2r, HI3, HI4, HFS3, HFS4, HTodo, HO⟩
  isplitl [HF0 HT0r HL0r]
  · iapply (gfl_intro1 m d L X LC lq tq b0V cc0_scratch6.sem 0 (5 * t.val + 5) _ ((View.read_writes_whole _ _ _).trans hpg0) WIN0) $$ [HF0 HT0r HL0r]
    isplitl [HF0]; · iexact HF0
    isplitl [HT0r] <;> iassumption
  isplitl [HF1 HT1r HL1r]
  · iapply (gfl_intro1 m d L X LC lq tq b1V cc0_scratch7.sem 1 (5 * t.val + 5 + 1) _ ((View.read_writes_whole _ _ _).trans hpg1) WIN1) $$ [HF1 HT1r HL1r]
    isplitl [HF1]; · iexact HF1
    isplitl [HT1r] <;> iassumption
  isplitl [HF2 HT2r HL2r]
  · iapply (gfl_intro1 m d L X LC lq tq b2V cc0_scratch8.sem 2 (5 * t.val + 5 + 2) _ ((View.read_writes_whole _ _ _).trans hpg2) WIN2) $$ [HF2 HT2r HL2r]
    isplitl [HF2]; · iexact HF2
    isplitl [HT2r] <;> iassumption
  isplitl [HFS3]
  · iapply (sfl_intro1 m d L X fo b3V cc0_scratch14.sem t 3 _ ps3 hps3) $$ HFS3
  isplitl [HFS4]
  · iapply (sfl_intro1 m d L X fo b4V cc0_scratch15.sem t 4 _ ps4 hps4) $$ HFS4
  isplitl [HI3]; · iexact HI3
  isplitl [HI4]; · iexact HI4
  isplitl [HS0]; · iexact HS0
  isplitl [HS1]; · iexact HS1
  isplitl [HS2]; · iexact HS2
  isplitl [HTodo]; · iexact HTodo
  isplitr [HO0 HO1 HO2 HO]
  · rw [bigSep_empty]; iempintro
  isplitl [HO0]; · iapply (Entails.of_eq e0) $$ HO0
  isplitl [HO1]; · iapply (Entails.of_eq e1) $$ HO1
  isplitl [HO2]; · iapply (Entails.of_eq e2) $$ HO2
  iexact HO

end

end Cert.Proof.KernelSide

end
-- ==== Proof.RingTripFirst1Bits.lean ====
/-
  The first trip of the second loop: no copy-out is in flight yet, so the waits for chunks −2 and −1 are skipped; otherwise as a
  middle trip: the gathers of chunks 3 … 7 are started, those of chunks 0 … 4 awaited and their copies out started, the copies
  out of chunks 0, 1, 2 awaited.
-/
import proofs.«206480_g70196945486151_cont_9to1_m_271_23_alg».proof.Proof.RingCloseFirst1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_first1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32)
    (t : Fin k0_t2_loop.trips) (ht : t.val = 0) :
    (iprop(levAts (K (F := F)).L (K (F := F)).lev ∗ Inv01 m d L X LC lq tq fo O W) : sProp (𝕄 F))
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid1 m d L X LC lq tq fo O W (t.val + 1))) := by
  have ht19 : t.val ≠ 19 := by omega
  have h1 := (cond11_iff t).not.2 (not_not.2 ht)
  have h3 := (cond13_iff t).not.2 (not_not.2 ht)
  have h5 := cond15_all t
  have h7 := cond17_all t
  have h9 := cond19_all t
  have h2 := cond12_all t
  have h4 := cond14_all t
  have h6 := (cond16_iff t).2 ht19
  have h8 := (cond18_iff t).2 ht19
  have h10 := (cond20_iff t).2 ht19
  have ht20 : t.val < 20 := by have h := t.isLt; have e : k0_t2_loop.trips = 20 := trips2; omega
  have hinL := hIn
  unfold ListIn1 at hinL
  have eT : bigSep (Finset.Ico 0 20) (PT1 d L fo) = (iprop(PT1 d L fo t.val ∗ bigSep (Finset.Ico (t.val + 1) 20) (PT1 d L fo)) : sProp (𝕄 F)) := by
    rw [ht]; exact Geom.bigSep_Ico_head (by decide)
  rw [Inv01, GFl1, GFl1, GFl1, IdleB1, IdleB1, IdleG1, IdleG1, Owes1, eT, PT1]
  unfold k0_t2_body
  iintro ⟨#Hlv, ⟨%g0, %hg0, Hg0⟩, ⟨%g1, %hg1, Hg1⟩, ⟨%g2, %hg2, Hg2⟩, ⟨%g3, Hb3⟩, ⟨%g4, Hb4⟩, Hs3, Hs4, ⟨Hg3, Hl3, Ht3⟩, ⟨Hg4, Hl4, Ht4⟩, Hs0, Hs1, Hs2, ⟨⟨HP0, HP1, HP2, HP3, HP4⟩, HTodo⟩, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq1 d L fo t 0).symm) $$ HP0
  ihave Ho1 := (Entails.of_eq (pc_eq1 d L fo t 1).symm) $$ HP1
  ihave Ho2 := (Entails.of_eq (pc_eq1 d L fo t 2).symm) $$ HP2
  ihave Ho3 := (Entails.of_eq (pc_eq1 d L fo t 3).symm) $$ HP3
  ihave Ho4 := (Entails.of_eq (pc_eq1 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_first1 m d L X LC lq tq fo O W t ht g0 g1 g2 g3 g4 _ _ _ _ _ _ _ _ _ _ (gather_val1 m d L X LC hL hX (5 * t.val + 5) (by omega) _ (off22_eq t ht19) _ _ _ _) (gather_val1 m d L X LC hL hX (5 * t.val + 6) (by omega) _ (off24_eq t ht19) _ _ _ _) (gather_val1 m d L X LC hL hX (5 * t.val + 7) (by omega) _ (off26_eq t ht19) _ _ _ _) (hg0.trans (congrArg (GP (m (t1Loc d)) X (wL L)) (by rw [ht]; try rfl))) (hg1.trans (congrArg (GP (m (t1Loc d)) X (wL L)) (by rw [ht]; try rfl))) (hg2.trans (congrArg (GP (m (t1Loc d)) X (wL L)) (by rw [ht]; try rfl))) ((View.read_writes_whole _ _ _).trans (gather_val1 m d L X LC hL hX (5 * t.val + 3) (by omega) _ (off16_eq t) _ _ _ _)) ((View.read_writes_whole _ _ _).trans (gather_val1 m d L X LC hL hX (5 * t.val + 4) (by omega) _ (off20_eq t) _ _ _ _)) _ _ _) $$ [Ho0 Ho1 Ho2 Hs0 Hs1 Hs2 Hg0 Hg0_src Hl0 Hg1 Hg1_src Hl1 Hg2 Hg2_src Hl2 Hg3 Hl3 Ht3 Hg4 Hl4 Ht4 Hs3 Hs4 HTodo HO]
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  iapply (owes_intro1 d L O W _ ?_) $$ HO
  intro p hp
  repeat (rcases Finset.mem_insert.mp hp with hp | hp; · exact .inr (hp ▸ rfl))
  exact hW' p hp

end Cert.Proof.KernelSide

end
-- ==== Proof.RingTripMid1Bits.lean ====
/-
  A middle trip (1 ≤ t ≤ 18) of the second loop. The trip awaits the copies out of chunks 5 t − 2 … 5 t + 2, starts the gathers of
  chunks 5 t + 3 … 5 t + 7, awaits the gathers of chunks 5 t … 5 t + 4 and starts their copies out; each slot's cell carries one
  transfer at a time, and a slot is written again only after its copy-out has been awaited.
-/
import proofs.«206480_g70196945486151_cont_9to1_m_271_23_alg».proof.Proof.RingClose1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_mid1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32)
    (t : Fin k0_t2_loop.trips) (ht0 : t.val ≠ 0) (ht19 : t.val ≠ 19) :
    (iprop(levAts (K (F := F)).L (K (F := F)).lev ∗ InvMid1 m d L X LC lq tq fo O W t.val) : sProp (𝕄 F))
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvMid1 m d L X LC lq tq fo O W (t.val + 1))) := by
  have h1 := (cond11_iff t).2 ht0
  have h3 := (cond13_iff t).2 ht0
  have h5 := cond15_all t
  have h7 := cond17_all t
  have h9 := cond19_all t
  have h2 := cond12_all t
  have h4 := cond14_all t
  have h6 := (cond16_iff t).2 ht19
  have h8 := (cond18_iff t).2 ht19
  have h10 := (cond20_iff t).2 ht19
  have ht20 : t.val < 20 := by have h := t.isLt; have e : k0_t2_loop.trips = 20 := trips2; omega
  have hinL := hIn
  unfold ListIn1 at hinL
  rw [InvMid1, GFl1, GFl1, GFl1, SFl1, SFl1, IdleG1, IdleG1, Owes1, Geom.bigSep_Ico_head ht20, PT1, Dc1, Dc1, Dc1]
  unfold k0_t2_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq1 d L fo t 0).symm) $$ HP0
  ihave Ho1 := (Entails.of_eq (pc_eq1 d L fo t 1).symm) $$ HP1
  ihave Ho2 := (Entails.of_eq (pc_eq1 d L fo t 2).symm) $$ HP2
  ihave Ho3 := (Entails.of_eq (pc_eq1 d L fo t 3).symm) $$ HP3
  ihave Ho4 := (Entails.of_eq (pc_eq1 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_mid1 m d L X LC lq tq fo O W t ht0 ht19 g0 g1 g2 g3 g4 _ _ _ _ _ _ _ _ _ _ (gather_val1 m d L X LC hL hX (5 * t.val + 5) (by omega) _ (off22_eq t ht19) _ _ _ _) (gather_val1 m d L X LC hL hX (5 * t.val + 6) (by omega) _ (off24_eq t ht19) _ _ _ _) (gather_val1 m d L X LC hL hX (5 * t.val + 7) (by omega) _ (off26_eq t ht19) _ _ _ _) hg0 hg1 hg2 ((View.read_writes_whole _ _ _).trans (gather_val1 m d L X LC hL hX (5 * t.val + 3) (by omega) _ (off16_eq t) _ _ _ _)) ((View.read_writes_whole _ _ _).trans (gather_val1 m d L X LC hL hX (5 * t.val + 4) (by omega) _ (off20_eq t) _ _ _ _)) _ _ _) $$ [Hs3_dst Hs4_dst Ho0 Ho1 Ho2 Hs0 Hs1 Hs2 Hg0 Hg0_src Hl0 Hg1 Hg1_src Hl1 Hg2 Hg2_src Hl2 Hg3 Hl3 Ht3 Hg4 Hl4 Ht4 Hs3 Hs4 HTodo HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hg0]; · iexact Hg0
  isplitl [Hg0_src]; · iexact Hg0_src
  isplitl [Hl0]; · iexact Hl0
  isplitl [Hg1]; · iexact Hg1
  isplitl [Hg1_src]; · iexact Hg1_src
  isplitl [Hl1]; · iexact Hl1
  isplitl [Hg2]; · iexact Hg2
  isplitl [Hg2_src]; · iexact Hg2_src
  isplitl [Hl2]; · iexact Hl2
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HTodo]; · iexact HTodo
  isplitl [HDone]; · iexact HDone
  isplitl [HD5]; · iexact HD5
  isplitl [HD4]; · iexact HD4
  isplitl [HD3]; · iexact HD3
  iapply (owes_intro1 d L O W _ ?_) $$ HO
  intro p hp
  repeat (rcases Finset.mem_insert.mp hp with hp | hp; · exact .inr (hp ▸ rfl))
  exact hW' p hp

end Cert.Proof.KernelSide

end
-- ==== Proof.RingCloseLast1Bits.lean ====
/-
  The end of the last trip of the second loop: no gather is started for slots 0, 1, 2, which end at rest with their cells at
  zero and their read shares back; the copies out of the last two chunks are in flight; every earlier chunk's piece holds
  the lookup. The finished trips' pieces are those of the trips before the previous one, then the previous trip's five
  (three loose, two just drained), and the last trip's first three are loose.
-/
import proofs.«206480_g70196945486151_cont_9to1_m_271_23_alg».proof.Proof.RingClose1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

section

variable (m : (ℓ : Loc nD τ sig) → Buf (Elt F) ℓ) (d : Dev nD) (L : grid0.Coords)
variable (X : Buf (Elt F) (i1Loc d)) (LC : Buf (Elt F) ((TH d L).loc cc0_scratch0)) (lq tq : Fin 5 → PosShare TreeShare)
variable (fo : Buf (Elt F) (o1Loc d)) (O : CellTallies nD τ sig (HIx 1)) (W : Waits sig (HIx 1))

set_option maxHeartbeats 2000000 in
theorem close_last1 (t : Fin k0_t2_loop.trips) (ht : t.val = 19)
    (g0 : Buf (Elt F) ((b0V).view.loc (TH d L))) (g1 : Buf (Elt F) ((b1V).view.loc (TH d L))) (g2 : Buf (Elt F) ((b2V).view.loc (TH d L)))
    (g3 : Buf (Elt F) ((b3V).view.loc (TH d L))) (g4 : Buf (Elt F) ((b4V).view.loc (TH d L)))
    (pg3 pg4 ps0 ps1 ps2 ps3 ps4 : S64x128.Idx → Elt F .f32)
    (hps0 : ps0 = GP (m (t1Loc d)) X (wL L) (5 * t.val + (0 : Fin 5).val)) (hps1 : ps1 = GP (m (t1Loc d)) X (wL L) (5 * t.val + (1 : Fin 5).val))
    (hps2 : ps2 = GP (m (t1Loc d)) X (wL L) (5 * t.val + (2 : Fin 5).val)) (hps3 : ps3 = GP (m (t1Loc d)) X (wL L) (5 * t.val + (3 : Fin 5).val))
    (hps4 : ps4 = GP (m (t1Loc d)) X (wL L) (5 * t.val + (4 : Fin 5).val)) :
    (iprop(((o1V).view.loc (TH d L) ↦[opc (wL L) (5 * t.val - 2)]{fullShare} G1 m d X) ∗ ((o1V).view.loc (TH d L) ↦[opc (wL L) (5 * t.val - 1)]{fullShare} G1 m d X)
      ∗ ((oPc1 L t 0).view.loc (TH d L) ↦[(oPc1 L t 0).view.set]{fullShare} (oPc1 L t 0).view.writes (Elt F) fo [⟨Rect.whole S64x128, ps0⟩])
      ∗ ((oPc1 L t 1).view.loc (TH d L) ↦[(oPc1 L t 1).view.set]{fullShare} (oPc1 L t 1).view.writes (Elt F) fo [⟨Rect.whole S64x128, ps1⟩])
      ∗ ((oPc1 L t 2).view.loc (TH d L) ↦[(oPc1 L t 2).view.set]{fullShare} (oPc1 L t 2).view.writes (Elt F) fo [⟨Rect.whole S64x128, ps2⟩])
      ∗ semVal (TH d L, .dma cc0_scratch11.sem) 0 ∗ semVal (TH d L, .dma cc0_scratch12.sem) 0 ∗ semVal (TH d L, .dma cc0_scratch13.sem) 0
      ∗ ((b0V).view.loc (TH d L) ↦[(b0V).view.set]{fullShare} g0) ∗ ((b1V).view.loc (TH d L) ↦[(b1V).view.set]{fullShare} g1) ∗ ((b2V).view.loc (TH d L) ↦[(b2V).view.set]{fullShare} g2)
      ∗ (semVal (TH d L, .dma cc0_scratch6.sem) 0 ∗ ((lV).view.loc (TH d L) ↦{lq 0} LC) ∗ ((t1V).view.loc (TH d L) ↦{tq 0} m (t1Loc d)))
      ∗ (semVal (TH d L, .dma cc0_scratch7.sem) 0 ∗ ((lV).view.loc (TH d L) ↦{lq 1} LC) ∗ ((t1V).view.loc (TH d L) ↦{tq 1} m (t1Loc d)))
      ∗ (semVal (TH d L, .dma cc0_scratch8.sem) 0 ∗ ((lV).view.loc (TH d L) ↦{lq 2} LC) ∗ ((t1V).view.loc (TH d L) ↦{tq 2} m (t1Loc d)))
      ∗ (semVal (TH d L, .dma cc0_scratch9.sem) 0 ∗ ((lV).view.loc (TH d L) ↦{lq 3} LC) ∗ ((t1V).view.loc (TH d L) ↦{tq 3} m (t1Loc d)))
      ∗ (semVal (TH d L, .dma cc0_scratch10.sem) 0 ∗ ((lV).view.loc (TH d L) ↦{lq 4} LC) ∗ ((t1V).view.loc (TH d L) ↦{tq 4} m (t1Loc d)))
      ∗ Transfers.Flight countersEmb (TH d L) (.dma cc0_scratch14.sem) (default : HIx 1) 262144
          iprop(((oPc1 L t 3).view.loc (TH d L) ↦[(oPc1 L t 3).view.set]{fullShare} (oPc1 L t 3).view.writes (Elt F) fo [⟨Rect.whole S64x128, ps3⟩])
            ∗ ((b3V).view.loc (TH d L) ↦[(b3V).view.set]{fullShare} (b3V).view.writes (Elt F) g3 [⟨Rect.whole S64x128, pg3⟩]))
      ∗ Transfers.Flight countersEmb (TH d L) (.dma cc0_scratch15.sem) (default : HIx 1) 262144
          iprop(((oPc1 L t 4).view.loc (TH d L) ↦[(oPc1 L t 4).view.set]{fullShare} (oPc1 L t 4).view.writes (Elt F) fo [⟨Rect.whole S64x128, ps4⟩])
            ∗ ((b4V).view.loc (TH d L) ↦[(b4V).view.set]{fullShare} (b4V).view.writes (Elt F) g4 [⟨Rect.whole S64x128, pg4⟩]))
      ∗ bigSep (Finset.range (t.val - 1)) (DT1 m d L X)
      ∗ ((o1V).view.loc (TH d L) ↦[opc (wL L) (5 * t.val - 5)]{fullShare} G1 m d X) ∗ ((o1V).view.loc (TH d L) ↦[opc (wL L) (5 * t.val - 4)]{fullShare} G1 m d X) ∗ ((o1V).view.loc (TH d L) ↦[opc (wL L) (5 * t.val - 3)]{fullShare} G1 m d X)
      ∗ Owes1 d L O W) : sProp (𝕄 F))
      ⊢ InvEnd1 m d L X LC lq tq O W := by
  have eD : bigSep (Finset.range 19) (DT1 m d L X) = iprop(bigSep (Finset.range (t.val - 1)) (DT1 m d L X) ∗ DT1 m d L X (t.val - 1)) := by
    have h := Geom.bigSep_range_succ' (Φ := DT1 m d L X) (t.val - 1)
    rwa [show t.val - 1 + 1 = 19 by omega] at h
  unfold InvEnd1 IdleG1 IdleB1
  rw [eD, DT1,
    show 5 * (t.val - 1) = 5 * t.val - 5 by omega, show 5 * t.val - 5 + 1 = 5 * t.val - 4 by omega, show 5 * t.val - 5 + 2 = 5 * t.val - 3 by omega,
    show 5 * t.val - 5 + 3 = 5 * t.val - 2 by omega, show 5 * t.val - 5 + 4 = 5 * t.val - 1 by omega,
    show (98 : ℕ) = 5 * t.val + (3 : Fin 5).val by show _ = 5 * t.val + 3; omega,
    show (99 : ℕ) = 5 * t.val + (4 : Fin 5).val by show _ = 5 * t.val + 4; omega,
    show (95 : ℕ) = 5 * t.val + (0 : Fin 5).val by show _ = 5 * t.val + 0; omega,
    show (96 : ℕ) = 5 * t.val + (1 : Fin 5).val by show _ = 5 * t.val + 1; omega,
    show (97 : ℕ) = 5 * t.val + (2 : Fin 5).val by show _ = 5 * t.val + 2; omega]
  unfold Dc1
  have e0 := done_eq1 m d L X fo t 0 ps0 hps0
  have e1 := done_eq1 m d L X fo t 1 ps1 hps1
  have e2 := done_eq1 m d L X fo t 2 ps2 hps2
  unfold Dc1 at e0 e1 e2
  iintro ⟨HD2, HD1, HO0, HO1, HO2, HS0, HS1, HS2, HB0, HB1, HB2, HI0, HI1, HI2, HI3, HI4, HFS3, HFS4, HDone, HD5, HD4, HD3, HO⟩
  isplitl [HFS3]
  · iapply (sfl_intro1 m d L X fo b3V cc0_scratch14.sem t 3 _ ps3 hps3) $$ HFS3
  isplitl [HFS4]
  · iapply (sfl_intro1 m d L X fo b4V cc0_scratch15.sem t 4 _ ps4 hps4) $$ HFS4
  isplitl [HB0]; · iexists g0; iexact HB0
  isplitl [HB1]; · iexists g1; iexact HB1
  isplitl [HB2]; · iexists g2; iexact HB2
  isplitl [HI0]; · iexact HI0
  isplitl [HI1]; · iexact HI1
  isplitl [HI2]; · iexact HI2
  isplitl [HI3]; · iexact HI3
  isplitl [HI4]; · iexact HI4
  isplitl [HS0]; · iexact HS0
  isplitl [HS1]; · iexact HS1
  isplitl [HS2]; · iexact HS2
  isplitl [HDone HD5 HD4 HD3 HD2 HD1]
  · isplitl [HDone]; · iexact HDone
    isplitl [HD5]; · iexact HD5
    isplitl [HD4]; · iexact HD4
    isplitl [HD3]; · iexact HD3
    isplitl [HD2]; · iexact HD2
    iexact HD1
  isplitl [HO0]; · iapply (Entails.of_eq e0) $$ HO0
  isplitl [HO1]; · iapply (Entails.of_eq e1) $$ HO1
  isplitl [HO2]; · iapply (Entails.of_eq e2) $$ HO2
  iexact HO

end

end Cert.Proof.KernelSide

end
-- ==== Proof.RingTripLast1Bits.lean ====
/-
  The last trip (t = 19) of the second loop: chunks 100, 101, 102 do not exist, so no gather is started for slots 0, 1, 2, which end
  the trip at rest; otherwise as a middle trip. The copies out of chunks 98 and 99 are left in flight for the waits after the loop.
-/
import proofs.«206480_g70196945486151_cont_9to1_m_271_23_alg».proof.Proof.RingCloseLast1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 16000000 in
theorem trip_last1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32)
    (t : Fin k0_t2_loop.trips) (ht : t.val = 19) :
    (iprop(levAts (K (F := F)).L (K (F := F)).lev ∗ InvMid1 m d L X LC lq tq fo O W t.val) : sProp (𝕄 F))
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 t ())
          (fun _ => iprop(levAts (K (F := F)).L (K (F := F)).lev ∗ InvEnd1 m d L X LC lq tq O W)) := by
  have ht0 : t.val ≠ 0 := by omega
  have h1 := (cond11_iff t).2 ht0
  have h3 := (cond13_iff t).2 ht0
  have h5 := cond15_all t
  have h7 := cond17_all t
  have h9 := cond19_all t
  have h2 := cond12_all t
  have h4 := cond14_all t
  have h6 := (cond16_iff t).not.2 (not_not.2 ht)
  have h8 := (cond18_iff t).not.2 (not_not.2 ht)
  have h10 := (cond20_iff t).not.2 (not_not.2 ht)
  have ht20 : t.val < 20 := by have h := t.isLt; have e : k0_t2_loop.trips = 20 := trips2; omega
  have hinL := hIn
  unfold ListIn1 at hinL
  rw [InvMid1, GFl1, GFl1, GFl1, SFl1, SFl1, IdleG1, IdleG1, Owes1, Geom.bigSep_Ico_head ht20, PT1, Dc1, Dc1, Dc1]
  unfold k0_t2_body
  iintro ⟨#Hlv, ⟨%g0, %hg0, Hg0⟩, ⟨%g1, %hg1, Hg1⟩, ⟨%g2, %hg2, Hg2⟩, ⟨%g3, Hs3⟩, ⟨%g4, Hs4⟩, ⟨Hg3, Hl3, Ht3⟩, ⟨Hg4, Hl4, Ht4⟩, Hs0, Hs1, Hs2, ⟨⟨HP0, HP1, HP2, HP3, HP4⟩, HTodo⟩, HDone, HD5, HD4, HD3, ⟨%W', %hW', HO⟩⟩
  ihave Hmw := (show levAts (K (F := F)).L (K (F := F)).lev ⊢ Transfers.MayWaits (TH d L) (default : HIx 1) O from
    (K (F := F)).mayWaits_none (thr := TH d L) hO) $$ Hlv
  ihave Ho0 := (Entails.of_eq (pc_eq1 d L fo t 0).symm) $$ HP0
  ihave Ho1 := (Entails.of_eq (pc_eq1 d L fo t 1).symm) $$ HP1
  ihave Ho2 := (Entails.of_eq (pc_eq1 d L fo t 2).symm) $$ HP2
  ihave Ho3 := (Entails.of_eq (pc_eq1 d L fo t 3).symm) $$ HP3
  ihave Ho4 := (Entails.of_eq (pc_eq1 d L fo t 4).symm) $$ HP4
  sl_exec
  icases Hg0_dst with ⟨Hb0, Hl0⟩
  sl_exec
  icases Hg1_dst with ⟨Hb1, Hl1⟩
  sl_exec
  icases Hg2_dst with ⟨Hb2, Hl2⟩
  sl_exec
  sl_step
  isplitl []
  · iexact Hlv
  iapply (close_last1 m d L X LC lq tq fo O W t ht g0 g1 g2 g3 g4 _ _ _ _ _ _ _ hg0 hg1 hg2 ((View.read_writes_whole _ _ _).trans (gather_val1 m d L X LC hL hX (5 * t.val + 3) (by omega) _ (off16_eq t) _ _ _ _)) ((View.read_writes_whole _ _ _).trans (gather_val1 m d L X LC hL hX (5 * t.val + 4) (by omega) _ (off20_eq t) _ _ _ _))) $$ [Hs3_dst Hs4_dst Ho0 Ho1 Ho2 Hs0 Hs1 Hs2 Hb0 Hb1 Hb2 Hg0 Hl0 Hg0_src Hg1 Hl1 Hg1_src Hg2 Hl2 Hg2_src Hg3 Hl3 Ht3 Hg4 Hl4 Ht4 Hs3 Hs4 HDone HD5 HD4 HD3 HO]
  isplitl [Hs3_dst]; · iexact Hs3_dst
  isplitl [Hs4_dst]; · iexact Hs4_dst
  isplitl [Ho0]; · iexact Ho0
  isplitl [Ho1]; · iexact Ho1
  isplitl [Ho2]; · iexact Ho2
  isplitl [Hs0]; · iexact Hs0
  isplitl [Hs1]; · iexact Hs1
  isplitl [Hs2]; · iexact Hs2
  isplitl [Hb0]; · iexact Hb0
  isplitl [Hb1]; · iexact Hb1
  isplitl [Hb2]; · iexact Hb2
  isplitl [Hg0 Hl0 Hg0_src]
  · isplitl [Hg0]; · iexact Hg0
    isplitl [Hl0]; · iexact Hl0
    iexact Hg0_src
  isplitl [Hg1 Hl1 Hg1_src]
  · isplitl [Hg1]; · iexact Hg1
    isplitl [Hl1]; · iexact Hl1
    iexact Hg1_src
  isplitl [Hg2 Hl2 Hg2_src]
  · isplitl [Hg2]; · iexact Hg2
    isplitl [Hl2]; · iexact Hl2
    iexact Hg2_src
  isplitl [Hg3 Hl3 Ht3]
  · isplitl [Hg3]; · iexact Hg3
    isplitl [Hl3]; · iexact Hl3
    iexact Ht3
  isplitl [Hg4 Hl4 Ht4]
  · isplitl [Hg4]; · iexact Hg4
    isplitl [Hl4]; · iexact Hl4
    iexact Ht4
  isplitl [Hs3]; · iexact Hs3
  isplitl [Hs4]; · iexact Hs4
  isplitl [HDone]; · iexact HDone
  isplitl [HD5]; · iexact HD5
  isplitl [HD4]; · iexact HD4
  isplitl [HD3]; · iexact HD3
  iapply (owes_intro1 d L O W _ ?_) $$ HO
  intro p hp
  repeat (rcases Finset.mem_insert.mp hp with hp | hp; · exact .inr (hp ▸ rfl))
  exact hW' p hp

end Cert.Proof.KernelSide

end
-- ==== Proof.RingStep1Bits.lean ====
/-
  One trip of the second loop keeps the ring's invariant: the first, a middle and the last trip.
-/
import proofs.«206480_g70196945486151_cont_9to1_m_271_23_alg».proof.Proof.RingTripFirst1Bits
import proofs.«206480_g70196945486151_cont_9to1_m_271_23_alg».proof.Proof.RingTripMid1Bits
import proofs.«206480_g70196945486151_cont_9to1_m_271_23_alg».proof.Proof.RingTripLast1Bits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Geom (lOff oOff lOff_inb oOff_inb)

variable {F : FTy → Type}

set_option maxHeartbeats 2000000 in
theorem step1 [FloatOps F] (m : (ℓ : Loc nD τ sig) → Buf (Elt F) ℓ) (hF : (K (F := F)).Facts) (d : Dev nD) (L : grid0.Coords)
    (X : Buf (Elt F) (i1Loc d)) (hX : ∀ j, (X j).toNat < 100000) (LC : Buf (Elt F) ((TH d L).loc cc0_scratch0))
    (hL : ListOK1 d L X LC) (hIn : ListIn1 d L LC) (lq tq : Fin 5 → PosShare TreeShare) (fo : Buf (Elt F) (o1Loc d))
    (O : CellTallies nD τ sig (HIx 1)) (W : Waits sig (HIx 1)) (hO : ∀ g, O g none = 0) (v2 : BitVec 32) (k : Fin k0_t2_loop.trips) :
    inv1 m d L X LC lq tq fo O W k.val
      ⊢ wp frame (wpE (defs₀ (F := F)) 𝒱₀ (TH d L) none) Set.univ
          (k0_t2_body L t1V (Memref.isWhole_whole _) t1V (Memref.isWhole_whole _) i1V (Memref.isWhole_whole _) i1V (Memref.isWhole_whole _)
            o1V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2 k ())
          (fun _ => inv1 m d L X LC lq tq fo O W (k.val + 1)) := by
  have hk : k.val < 20 := by have h := k.isLt; have e : k0_t2_loop.trips = 20 := trips2; omega
  unfold inv1
  by_cases h0 : k.val = 0
  · rw [if_pos h0, if_neg (show ¬ k.val + 1 = 0 by omega), if_neg (show ¬ k.val + 1 = 20 by omega)]
    exact trip_first1 m hF d L X hX LC hL hIn lq tq fo O W hO v2 k h0
  · by_cases h19 : k.val = 19
    · rw [if_neg h0, if_neg (show ¬ k.val = 20 by omega), if_neg (show ¬ k.val + 1 = 0 by omega), if_pos (show k.val + 1 = 20 by omega)]
      exact trip_last1 m hF d L X hX LC hL hIn lq tq fo O W hO v2 k h19
    · rw [if_neg h0, if_neg (show ¬ k.val = 20 by omega), if_neg (show ¬ k.val + 1 = 0 by omega), if_neg (show ¬ k.val + 1 = 20 by omega)]
      exact trip_mid1 m hF d L X hX LC hL hIn lq tq fo O W hO v2 k h0 h19

end Cert.Proof.KernelSide

end
-- ==== Proof.Part20Bits.lean ====
/-
  The tile's task from the first table's last copy-out to the second table's last but one. The tile waits for the copy-out of the
  first table's chunk 99 — its band of the first result then holds the lookup whole —, and does for the second table what it did for
  the first: the copy of its columns of the second array of row numbers into the list, the gathers of chunks 0, 1, 2, the ring's
  twenty trips, the wait for the copy-out of chunk 98.
-/
import proofs.«206480_g70196945486151_cont_9to1_m_271_23_alg».proof.Proof.Part19Bits
import proofs.«206480_g70196945486151_cont_9to1_m_271_23_alg».proof.Proof.RingBand1Bits
import proofs.«206480_g70196945486151_cont_9to1_m_271_23_alg».proof.Proof.RingLem1Bits
import proofs.«206480_g70196945486151_cont_9to1_m_271_23_alg».proof.Proof.RingStep1Bits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Geom (lOff oOff lOff_inb oOff_inb)

variable {F : FTy → Type}

variable [FloatOps F]

set_option maxHeartbeats 8000000 in
theorem part20_spec (m : (ℓ : Loc nD τ sig) → Buf (Elt F) ℓ) (hF : (K (F := F)).Facts) (d : Dev nD) (L : grid0.Coords)
    (XA : Buf (Elt F) (i0Loc d)) (qA qiA : PosShare TreeShare)
    (X : Buf (Elt F) (i1Loc d)) (hX : ∀ j, (X j).toNat < 100000) (fo : Buf (Elt F) (o1Loc d)) (q0 qi0 : PosShare TreeShare)
    (O : CellTallies nD τ sig (HIx 1)) (W : Waits sig (HIx 1)) (hO : ∀ g, O g none = 0) (v2 : BitVec 32) :
    (iprop(levAts (K (F := F)).L (K (F := F)).lev
        ∗ MidT0 m d L XA qA qiA cc0_scoped0.sem O W
        ∗ (t1Loc d ↦{q0} m (t1Loc d)) ∗ (i1Loc d ↦{qi0} X) ∗ (o1Loc d ↦[oBandSet (wL L)]{fullShare} fo)
        ∗ semVal (TH d L, .dma cc0_scoped1.sem) 0) : sProp (𝕄 F))
      ⊢ wp frame (wpE (defs₀ (F := F)) 𝒱₀ (TH d L) none) Set.univ
          (k0_part20 L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1 v2)
          fun _ => iprop(((t0Loc d ↦{qA} m (t0Loc d)) ∗ (i0Loc d ↦{qiA} XA) ∗ (o0Loc d ↦[oBandSet (wL L)]{fullShare} G0 m d XA)
              ∗ semVal (TH d L, .dma cc0_scoped0.sem) 0)
            ∗ MidT1 m d L X q0 qi0 cc0_scoped1.sem O W) := by
  simp only [k0_part20_eq_skeleton]; unfold k0_part20_skel
  unfold MidT0 SFl0 IdleB Owes
  rw [show (b0V).view.set = Finset.univ from View.set_whole _, show (b1V).view.set = Finset.univ from View.set_whole _,
    show (b2V).view.set = Finset.univ from View.set_whole _, show (b3V).view.set = Finset.univ from View.set_whole _,
    show (b4V).view.set = Finset.univ from View.set_whole _]
  iintro ⟨#Hlv, ⟨%fl, HtA, HiA, Hl, ⟨%f0, Hb0'⟩, ⟨%f1, Hb1'⟩, ⟨%f2, Hb2'⟩, ⟨%f3, Hb3'⟩, ⟨%g4, Hf4⟩, Hg0, Hg1, Hg2, Hg3, Hg4, Hs0, Hs1, Hs2, Hs3, HrA, HD, D95, D96, D97, D98, ⟨%W0, %hW0, HO⟩⟩, Ht, Hi, Ho, Hr0⟩
  ihave Hmw := (show levAts (K (F := F)).L (K (F := F)).lev ⊢ Transfers.MayWaits (TH d L) (default : HIx 1) O from
    (K (F := F)).mayWaits_none (thr := TH d L) hO) $$ Hlv
  ihave Hi' := (Entails.of_eq (pts_i1 (F := F) d L _ _).symm) $$ Hi
  ihave Hl' := (Entails.of_eq (pts_l (F := F) d L _).symm) $$ Hl
  ihave Ht' := (Entails.of_eq (pts_t1 (F := F) d L _ _).symm) $$ Ht
  ihave Ht2 := (Transfers.pointsTo_toks_split (ℓ := (t1V).view.loc (TH d L)) (S := Finset.univ) (f := m (t1Loc d)) q0 5) $$ Ht'
  icases Ht2 with ⟨Htr, Httoks⟩
  ihave Ht3 := (Entails.of_eq (bigSep_univ_five _)) $$ Httoks
  icases Ht3 with ⟨Ht0, Ht1, Ht2, Ht3, Ht4⟩
  ihave Ho' := (Entails.of_eq (pts_o1 (F := F) d L _ _).symm) $$ Ho
  -- the wait for the first table's last copy-out, the copy of the second table's row numbers into the list and its wait
  sl_exec
  -- the first table's band: all hundred pieces hold the lookup
  ihave HoA := (Entails.of_eq (band_done0 m d L XA).symm) $$ [HD D95 D96 D97 D98 Hf4_dst]
  · rw [show Finset.range 20 = Finset.range (19 + 1) from rfl, Geom.bigSep_range_succ' 19]
    isplitl [HD]; · iexact HD
    unfold DT0
    isplitl [D95]; · iexact D95
    isplitl [D96]; · iexact D96
    isplitl [D97]; · iexact D97
    isplitl [D98]; · iexact D98
    unfold Dc0; iexact Hf4_dst
  have hIn := listIn_of_copy1 d L X hX fl
  unfold ListIn1 at hIn
  ihave Hl2 := (Transfers.pointsTo_toks_split (ℓ := (lV).view.loc (TH d L)) (S := Finset.univ) fullShare 5) $$ Hl'
  icases Hl2 with ⟨Hlr, Hltoks⟩
  ihave Hl3 := (Entails.of_eq (bigSep_univ_five _)) $$ Hltoks
  icases Hl3 with ⟨Hl0, Hl1, Hl2, Hl3, Hl4⟩
  sl_exec
  have hL : ListOK1 d L X (LC1 d L X fl) := listOK_of_copy1 d L X fl
  have hIn' : ListIn1 d L (LC1 d L X fl) := listIn_of_copy1 d L X hX fl
  have hg0 : (b0V).view.read (Elt F) ((b0V).view.writes (Elt F) f0 [⟨Rect.whole S64x128, part20_spec.sl.gather0 m d L X fl hIn⟩]) = GP (m (t1Loc d)) X (wL L) 0 := by
    rw [read_writes_whole]; exact gather_val1 m d L X _ hL hX 0 (by omega) _ rfl _ _ _ _
  have hg1 : (b1V).view.read (Elt F) ((b1V).view.writes (Elt F) f1 [⟨Rect.whole S64x128, part20_spec.sl.gather1 m d L X fl hIn⟩]) = GP (m (t1Loc d)) X (wL L) 1 := by
    rw [read_writes_whole]; exact gather_val1 m d L X _ hL hX 1 (by omega) _ rfl _ _ _ _
  have hg2 : (b2V).view.read (Elt F) ((b2V).view.writes (Elt F) f2 [⟨Rect.whole S64x128, part20_spec.sl.gather2 m d L X fl hIn⟩]) = GP (m (t1Loc d)) X (wL L) 2 := by
    rw [read_writes_whole]; exact gather_val1 m d L X _ hL hX 2 (by omega) _ rfl _ _ _ _
  sl_for (fun k (_ : PUnit) => inv1 m d L X (LC1 d L X fl) lqP (tqP q0) fo O (insert ((SemLoc.dma cc0_scoped1.sem : SemLoc sig), (default : HIx 1)) (insert ((SemLoc.dma cc0_scratch15.sem : SemLoc sig), (default : HIx 1)) W0)) k) $$ [Hg0 Ht0 Hlr Hg1 Ht1 Hl0 Hg2 Ht2 Hl1 Hb3' Hf4_src Hs3 Hf4 Hg3 Hl2 Ht3 Hg4 Hl3 Ht4 Hs0 Hs1 Hs2 Ho' HO]
  · intro k acc
    exact step1 m hF d L X hX (LC1 d L X fl) hL hIn' lqP (tqP q0) fo O _ hO v2 k
  · unfold inv1; rw [if_pos rfl]; unfold Inv01
    isplitr; · iexact Hlv
    isplitl [Hg0 Ht0 Hlr]
    · iapply (gfl_intro1 m d L X (LC1 d L X fl) lqP (tqP q0) b0V cc0_scratch6.sem 0 0 _ hg0 (lWin ![0, 0] inb_S50x128_S1x64_0_0))
      isplitl [Hg0]; · iexact Hg0
      isplitl [Ht0]; · iexact Ht0
      iexact Hlr
    isplitl [Hg1 Ht1 Hl0]
    · iapply (gfl_intro1 m d L X (LC1 d L X fl) lqP (tqP q0) b1V cc0_scratch7.sem 1 1 _ hg1 (lWin ![0, 64] inb_S50x128_S1x64_0_64))
      isplitl [Hg1]; · iexact Hg1
      isplitl [Ht1]; · iexact Ht1
      iexact Hl0
    isplitl [Hg2 Ht2 Hl1]
    · iapply (gfl_intro1 m d L X (LC1 d L X fl) lqP (tqP q0) b2V cc0_scratch8.sem 2 2 _ hg2 (lWin ![1, 0] inb_S50x128_S1x64_1_0))
      isplitl [Hg2]; · iexact Hg2
      isplitl [Ht2]; · iexact Ht2
      iexact Hl1
    isplitl [Hb3']
    · unfold IdleB1; iexists f3; rw [show (b3V).view.set = Finset.univ from View.set_whole _]; iexact Hb3'
    isplitl [Hf4_src]
    · unfold IdleB1; iexists g4; rw [show (b4V).view.set = Finset.univ from View.set_whole _]; iexact Hf4_src
    isplitl [Hs3]; · iexact Hs3
    isplitl [Hf4]; · iexact Hf4
    isplitl [Hg3 Hl2 Ht3]
    · unfold IdleG1
      isplitl [Hg3]; · iexact Hg3
      isplitl [Hl2]; · iexact Hl2
      iexact Ht3
    isplitl [Hg4 Hl3 Ht4]
    · unfold IdleG1
      isplitl [Hg4]; · iexact Hg4
      isplitl [Hl3]; · iexact Hl3
      iexact Ht4
    isplitl [Hs0]; · iexact Hs0
    isplitl [Hs1]; · iexact Hs1
    isplitl [Hs2]; · iexact Hs2
    isplitl [Ho']
    · rw [← band_pieces1 d L fo]; iexact Ho'
    unfold Owes1; iexists _; isplitr
    · ipureintro; exact fun p hp => .inl hp
    iexact HO
  · iintro %acc HI
    rw [show Scf.trips k0_t2_loop.lb k0_t2_loop.ub k0_t2_loop.st = 20 from trips2]
    unfold inv1; rw [if_neg (by decide), if_pos rfl]; unfold InvEnd1 SFl1 IdleB1 IdleG1 Owes1
    icases HI with ⟨-, ⟨%g3, Hf3⟩, ⟨%g4, Hf4⟩, ⟨%g0, B0⟩, ⟨%g1, B1⟩, ⟨%g2, B2⟩, ⟨I0s, I0l, I0t⟩, ⟨I1s, I1l, I1t⟩, ⟨I2s, I2l, I2t⟩, ⟨I3s, I3l, I3t⟩, ⟨I4s, I4l, I4t⟩, Hs0, Hs1, Hs2, HD, D95, D96, D97, ⟨%W', %hW', HO⟩⟩
    -- the table's and the list's tokens joined back
    ihave Htj := (Transfers.pointsTo_toks_join (ℓ := (t1V).view.loc (TH d L)) (S := Finset.univ) (f := m (t1Loc d)) q0 5) $$ [Htr I0t I1t I2t I3t I4t]
    · isplitl [Htr]; · iexact Htr
      rw [bigSep_univ_five]
      isplitl [I0t]; · iexact I0t
      isplitl [I1t]; · iexact I1t
      isplitl [I2t]; · iexact I2t
      isplitl [I3t]; · iexact I3t
      iexact I4t
    ihave Hlj := (Transfers.pointsTo_toks_join (ℓ := (lV).view.loc (TH d L)) (S := Finset.univ) (f := LC1 d L X fl) fullShare 5) $$ [I0l I1l I2l I3l I4l Hl4]
    · isplitl [I0l]; · iexact I0l
      rw [bigSep_univ_five]
      isplitl [I1l]; · iexact I1l
      isplitl [I2l]; · iexact I2l
      isplitl [I3l]; · iexact I3l
      isplitl [I4l]; · iexact I4l
      iexact Hl4
    sl_exec
    sl_step
    iclear Hb0' Hb1' Hb2'
    isplitl [HtA HiA HoA HrA]
    · isplitl [HtA]; · iexact HtA
      isplitl [HiA]; · iexact HiA
      isplitl [HoA]; · iexact HoA
      iexact HrA
    unfold MidT1
    iexists (LC1 d L X fl)
    isplitl [Htj]; · iexact Htj
    isplitl [Hi']; · iexact Hi'
    isplitl [Hlj]; · iexact Hlj
    isplitl [B0]; · unfold IdleB1; iexists g0; iexact B0
    isplitl [B1]; · unfold IdleB1; iexists g1; iexact B1
    isplitl [B2]; · unfold IdleB1; iexists g2; iexact B2
    isplitl [Hf3_src]; · unfold IdleB1; iexists g3; iexact Hf3_src
    isplitl [Hf4]; · unfold SFl1; iexists g4; iexact Hf4
    isplitl [I0s]; · iexact I0s
    isplitl [I1s]; · iexact I1s
    isplitl [I2s]; · iexact I2s
    isplitl [I3s]; · iexact I3s
    isplitl [I4s]; · iexact I4s
    isplitl [Hs0]; · iexact Hs0
    isplitl [Hs1]; · iexact Hs1
    isplitl [Hs2]; · iexact Hs2
    isplitl [Hf3]; · iexact Hf3
    isplitl [Hr0]; · iexact Hr0
    isplitl [HD]; · iexact HD
    isplitl [D95]; · iexact D95
    isplitl [D96]; · iexact D96
    isplitl [D97]; · iexact D97
    isplitl [Hf3_dst]; · unfold Dc1; iexact Hf3_dst
    unfold Owes1; iexists _; isplitr
    swap; · iexact HO
    ipureintro; intro p hp
    rcases Finset.mem_insert.mp hp with hp | hp
    · subst hp; exact .inr rfl
    rcases hW' p hp with h | h
    · rcases Finset.mem_insert.mp h with h | h
      · subst h; exact .inr rfl
      rcases Finset.mem_insert.mp h with h | h
      · subst h; exact .inr rfl
      · exact hW0 p h
    · exact .inr h

end Cert.Proof.KernelSide

end
-- ==== Proof.ScopedBits.lean ====
/-
  A tile's own scratch taken out of the launch's bundles. The launch hands each vector subcore all of its own scoped
  buffers at some contents and all of its own scoped semaphore cells at zero, each as one iterated separating
  conjunction over the finite set of them. The tile's task names six of those buffers (the list of row numbers and five
  staging slots) and twelve of those cells (ten transfer semaphores declared as scratch and two allocated in regions):
  each bundle is those, one by one in order, and the rest. An iterated conjunction over a set is, for any list of
  distinct members, the members' conjuncts in the list's order and then the conjunction over the set with them erased.
-/
import proofs.«206480_g70196945486151_cont_9to1_m_271_23_alg».proof.Proof.TileSpecBits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Members of a set taken out of an iterated conjunction, in a list's order -/

/-- A finite set with the members of a list erased, one after another. -/
def eraseAll {I : Type} [DecidableEq I] (s : Finset I) : List I → Finset I
  | [] => s
  | a :: l => eraseAll (s.erase a) l

/-- For a list of distinct members of `s`: the conjunction over `s` is the list's conjuncts, in order, then the conjunction
    over `s` with the list erased. -/
theorem bigSep_eraseAll {M : Type} [URA M] {I : Type} [DecidableEq I] (Φ : I → sProp M) :
    ∀ (l : List I) (s : Finset I), l.Nodup → (∀ a ∈ l, a ∈ s) →
      bigSep s Φ = l.foldr (fun a acc => iprop(Φ a ∗ acc)) (bigSep (eraseAll s l) Φ)
  | [], _, _, _ => rfl
  | a :: l, s, hnd, hmem =>
    have hnd' := List.nodup_cons.mp hnd
    (SparseCore.bigSep_erase' (hmem a (List.mem_cons.2 (Or.inl rfl)))).trans
      (congrArg (fun X => iprop(Φ a ∗ X))
        (bigSep_eraseAll Φ l (s.erase a) hnd'.2 fun b hb =>
          Finset.mem_erase.mpr ⟨fun e => hnd'.1 (e ▸ hb), hmem b (List.mem_cons.2 (Or.inr hb))⟩))

/-! ## The tile's twelve semaphore cells and six buffers -/

/-- The transfer semaphores the task names: the ten declared as scratch, then the two allocated in regions. -/
abbrev semList : List (SemLoc sig) :=
  [.dma cc0_scratch6.sem, .dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scratch15.sem, .dma cc0_scoped0.sem, .dma cc0_scoped1.sem]

/-- The scratch buffers the task names: the list of row numbers, then the five staging slots. -/
abbrev bufList : List (Ref sig .scVector) := [cc0_scratch0, cc0_scratch1, cc0_scratch2, cc0_scratch3, cc0_scratch4, cc0_scratch5]

theorem semList_nodup : semList.Nodup := by decide
theorem semList_scoped : ∀ a ∈ semList, a.isScoped .scVector = true := by decide
theorem bufList_nodup : bufList.Nodup := by decide
theorem bufList_owner (c : Fin τ.nSC) (j : Fin τ.nSub) :
    ∀ r ∈ bufList, ((Proc.scVector c j).devRef r : DevRef τ sig).owner = .proc (.scVector c j) := by
  intro r hr
  repeat (cases hr with | head => rfl | tail _ hr => ?_)
  exact nomatch hr

/-- The tile's own semaphore cells at zero: the twelve it names, then the rest. -/
theorem ownSems0_TH (d : Dev nD) (L : grid0.Coords) :
    (ownSems0 (TH d L) : sProp (𝕄 F))
      = iprop(semVal ((TH d L, .dma cc0_scratch6.sem) : GSem nD τ sig) 0
          ∗ semVal ((TH d L, .dma cc0_scratch7.sem) : GSem nD τ sig) 0
          ∗ semVal ((TH d L, .dma cc0_scratch8.sem) : GSem nD τ sig) 0
          ∗ semVal ((TH d L, .dma cc0_scratch9.sem) : GSem nD τ sig) 0
          ∗ semVal ((TH d L, .dma cc0_scratch10.sem) : GSem nD τ sig) 0
          ∗ semVal ((TH d L, .dma cc0_scratch11.sem) : GSem nD τ sig) 0
          ∗ semVal ((TH d L, .dma cc0_scratch12.sem) : GSem nD τ sig) 0
          ∗ semVal ((TH d L, .dma cc0_scratch13.sem) : GSem nD τ sig) 0
          ∗ semVal ((TH d L, .dma cc0_scratch14.sem) : GSem nD τ sig) 0
          ∗ semVal ((TH d L, .dma cc0_scratch15.sem) : GSem nD τ sig) 0
          ∗ semVal ((TH d L, .dma cc0_scoped0.sem) : GSem nD τ sig) 0
          ∗ semVal ((TH d L, .dma cc0_scoped1.sem) : GSem nD τ sig) 0
          ∗ bigSep (eraseAll (ownCells (TH d L)) (semList.map (Prod.mk (TH d L)))) fun g => semVal g 0) := by
  unfold SparseCore.Cfg.ownSems0
  exact bigSep_eraseAll _ (semList.map (Prod.mk (TH d L))) _
    (semList_nodup.map fun _ _ e => (Prod.mk.inj e).2)
    (fun g hg => by
      obtain ⟨a, ha, rfl⟩ := List.mem_map.mp hg
      exact mem_ownCells.mpr ⟨rfl, semList_scoped a ha⟩)

/-- The tile's own buffers, each whole at some contents: the six it names, then the rest. -/
theorem ownBufs_TH (d : Dev nD) (L : grid0.Coords) :
    (ownBufs (TH d L) : sProp (𝕄 F))
      = iprop((∃ f, (TH d L).loc cc0_scratch0 ↦{fullShare} f)
          ∗ (∃ f, (TH d L).loc cc0_scratch1 ↦{fullShare} f)
          ∗ (∃ f, (TH d L).loc cc0_scratch2 ↦{fullShare} f)
          ∗ (∃ f, (TH d L).loc cc0_scratch3 ↦{fullShare} f)
          ∗ (∃ f, (TH d L).loc cc0_scratch4 ↦{fullShare} f)
          ∗ (∃ f, (TH d L).loc cc0_scratch5 ↦{fullShare} f)
          ∗ bigSep (eraseAll (ownRefs (τ := τ) (.scVector (cV L) (jV L))) (bufList.map (Proc.scVector (cV L) (jV L)).devRef))
              fun b => iprop(∃ f, ((d, b) : Loc nD τ sig) ↦{fullShare} f)) := by
  unfold SparseCore.Cfg.ownBufs
  exact bigSep_eraseAll _ (bufList.map (Proc.scVector (cV L) (jV L)).devRef) _
    (bufList_nodup.map (Proc.devRef_injective _))
    (fun b hb => by
      obtain ⟨r, hr, rfl⟩ := List.mem_map.mp hb
      exact SparseCore.Cfg.mem_ownRefs_of_owner (bufList_owner _ _ r hr))

/-- The two bundles the launch hands the tile, unpacked. -/
theorem scoped_unpack (hF : (K (F := F)).Facts) (d : Dev nD) (L : grid0.Coords) :
    (iprop(scopedBufs (TH d L) ∗ scopedSems0 (TH d L)) : sProp (𝕄 F))
      = iprop(((∃ f, (TH d L).loc cc0_scratch0 ↦{fullShare} f)
            ∗ (∃ f, (TH d L).loc cc0_scratch1 ↦{fullShare} f)
            ∗ (∃ f, (TH d L).loc cc0_scratch2 ↦{fullShare} f)
            ∗ (∃ f, (TH d L).loc cc0_scratch3 ↦{fullShare} f)
            ∗ (∃ f, (TH d L).loc cc0_scratch4 ↦{fullShare} f)
            ∗ (∃ f, (TH d L).loc cc0_scratch5 ↦{fullShare} f)
            ∗ bigSep (eraseAll (ownRefs (τ := τ) (.scVector (cV L) (jV L))) (bufList.map (Proc.scVector (cV L) (jV L)).devRef))
                fun b => iprop(∃ f, ((d, b) : Loc nD τ sig) ↦{fullShare} f))
          ∗ (semVal ((TH d L, .dma cc0_scratch6.sem) : GSem nD τ sig) 0
            ∗ semVal ((TH d L, .dma cc0_scratch7.sem) : GSem nD τ sig) 0
            ∗ semVal ((TH d L, .dma cc0_scratch8.sem) : GSem nD τ sig) 0
            ∗ semVal ((TH d L, .dma cc0_scratch9.sem) : GSem nD τ sig) 0
            ∗ semVal ((TH d L, .dma cc0_scratch10.sem) : GSem nD τ sig) 0
            ∗ semVal ((TH d L, .dma cc0_scratch11.sem) : GSem nD τ sig) 0
            ∗ semVal ((TH d L, .dma cc0_scratch12.sem) : GSem nD τ sig) 0
            ∗ semVal ((TH d L, .dma cc0_scratch13.sem) : GSem nD τ sig) 0
            ∗ semVal ((TH d L, .dma cc0_scratch14.sem) : GSem nD τ sig) 0
            ∗ semVal ((TH d L, .dma cc0_scratch15.sem) : GSem nD τ sig) 0
            ∗ semVal ((TH d L, .dma cc0_scoped0.sem) : GSem nD τ sig) 0
            ∗ semVal ((TH d L, .dma cc0_scoped1.sem) : GSem nD τ sig) 0
            ∗ bigSep (eraseAll (ownCells (TH d L)) (semList.map (Prod.mk (TH d L)))) fun g => semVal g 0)) := by
  rw [(K (F := F)).scopedBufs_V hF d (cV L) (jV L), SparseCore.Cfg.scopedSems0_V (Val := Elt F) d (cV L) (jV L),
    ownSems0_TH, ownBufs_TH]

end Cert.Proof.KernelSide

end
-- ==== Proof.TileBodyBits.lean ====
/-
  The tile's task: for each of the two tables in turn, the copy of the tile's columns of the transposed row numbers into its list, the
  gathers of the table's rows chunk by chunk into five staging slots and their copies out to the tile's band of the result, three
  gathers ahead. The two tables' phases are proved apart; here they are put one after the other, between the unpacking of the tile's
  scratch from the launch's bundles and its packing back.
-/
import proofs.«206480_g70196945486151_cont_9to1_m_271_23_alg».proof.Proof.Part20Bits
import proofs.«206480_g70196945486151_cont_9to1_m_271_23_alg».proof.Proof.ScopedBits

noncomputable section

namespace Cert.Proof.KernelSide

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

set_option maxHeartbeats 4000000 in
theorem tile_body [FloatOps F] (m : (ℓ : Loc nD τ sig) → Buf (Elt F) ℓ) (hF : (K (F := F)).Facts) (d : Dev nD) (L : grid0.Coords)
    (X0 : Buf (Elt F) (i0Loc d)) (X1 : Buf (Elt F) (i1Loc d)) (hX0 : ∀ j, (X0 j).toNat < 100000) (hX1 : ∀ j, (X1 j).toNat < 100000)
    (fo0 : Buf (Elt F) (o0Loc d)) (fo1 : Buf (Elt F) (o1Loc d)) (q0 q1 qi0 qi1 : PosShare TreeShare)
    (O : CellTallies nD τ sig (HIx 1)) (W : Waits sig (HIx 1)) (hO : ∀ g, O g none = 0) :
    (iprop(levAts (K (F := F)).L (K (F := F)).lev ∗ emp
        ∗ TileIn m d (wL L) X0 X1 q0 q1 qi0 qi1 fo0 fo1
        ∗ scopedBufs (TH d L) ∗ scopedSems0 (TH d L) ∗ owes (TH d L) O W) : sProp (𝕄 F))
      ⊢ wp frame (wpE (defs₀ (F := F)) 𝒱₀ (TH d L) none) Set.univ
          (cc0__body L t0V (Memref.isWhole_whole _) t1V (Memref.isWhole_whole _) i0V (Memref.isWhole_whole _) i1V (Memref.isWhole_whole _)
            o0V (Memref.isWhole_whole _) o1V (Memref.isWhole_whole _) lV (Memref.isWhole_whole _) b0V (Memref.isWhole_whole _) b1V (Memref.isWhole_whole _)
            b2V (Memref.isWhole_whole _) b3V (Memref.isWhole_whole _) b4V (Memref.isWhole_whole _)
            cc0_scratch6 cc0_scratch7 cc0_scratch8 cc0_scratch9 cc0_scratch10 cc0_scratch11 cc0_scratch12 cc0_scratch13 cc0_scratch14 cc0_scratch15 cc0_scoped0 cc0_scoped1)
          fun _ => iprop(TileOut m d (wL L) X0 X1 q0 q1 qi0 qi1
            ∗ scopedBufs (TH d L) ∗ scopedSems0 (TH d L)
            ∗ ∃ W', ⌜∀ p ∈ W', p ∈ W ∨ p.2 = none⌝ ∗ owes (TH d L) O W') := by
  simp only [cc0__body_eq_skeleton]; unfold cc0__body_skel
  rw [(K (F := F)).scopedBufs_V hF d (cV L) (jV L), SparseCore.Cfg.scopedSems0_V (Val := Elt F) d (cV L) (jV L), ownSems0_TH, ownBufs_TH]
  iintro ⟨#Hlv, -, ⟨Ht0, Ht1, Hi0, Hi1, Ho0, Ho1⟩, ⟨⟨%fl, Hl⟩, ⟨%f0, Hb0⟩, ⟨%f1, Hb1⟩, ⟨%f2, Hb2⟩, ⟨%f3, Hb3⟩, ⟨%f4, Hb4⟩, Hbrest⟩, ⟨Hc6, Hc7, Hc8, Hc9, Hc10, Hc11, Hc12, Hc13, Hc14, Hc15, Hr0, Hr1, Hsrest⟩, HO⟩
  ihave Hmw := (show levAts (K (F := F)).L (K (F := F)).lev ⊢ Transfers.MayWaits (TH d L) (default : HIx 1) O from
    (K (F := F)).mayWaits_none (thr := TH d L) hO) $$ Hlv
  -- the first table, to its last copy-out but one
  rw [wp_bind]
  iapply (wp_wand_r frame (wpE (defs₀ (F := F)) 𝒱₀ (TH d L) none) Set.univ) $$ [Ht0 Ht1 Hi0 Hi1 Ho0 Ho1 Hl Hb0 Hb1 Hb2 Hb3 Hb4 Hbrest Hc6 Hc7 Hc8 Hc9 Hc10 Hc11 Hc12 Hc13 Hc14 Hc15 Hr0 Hr1 Hsrest HO]
  isplitl [Ht0 Hi0 Ho0 Hl Hb0 Hb1 Hb2 Hb3 Hb4 Hc6 Hc7 Hc8 Hc9 Hc10 Hc11 Hc12 Hc13 Hc14 Hc15 Hr0 HO]
  · iapply (part19_spec m hF d L X0 hX0 fo0 q0 qi0 O W hO fl f0 f1 f2 f3 f4)
    isplitr; · iexact Hlv
    isplitl [Ht0]; · iexact Ht0
    isplitl [Hi0]; · iexact Hi0
    isplitl [Ho0]; · iexact Ho0
    isplitl [Hl]; · iexact Hl
    isplitl [Hb0]; · iexact Hb0
    isplitl [Hb1]; · iexact Hb1
    isplitl [Hb2]; · iexact Hb2
    isplitl [Hb3]; · iexact Hb3
    isplitl [Hb4]; · iexact Hb4
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hr0]; · iexact Hr0
    iexact HO
  iintro %v2 HM
  -- the first table's last copy-out, and the second table to its last copy-out but one
  rw [wp_bind]
  iapply (wp_wand_r frame (wpE (defs₀ (F := F)) 𝒱₀ (TH d L) none) Set.univ) $$ [HM Ht1 Hi1 Ho1 Hr1 Hbrest Hsrest]
  isplitl [HM Ht1 Hi1 Ho1 Hr1]
  · iapply (part20_spec m hF d L X0 q0 qi0 X1 hX1 fo1 q1 qi1 O W hO v2)
    isplitr; · iexact Hlv
    isplitl [HM]; · iexact HM
    isplitl [Ht1]; · iexact Ht1
    isplitl [Hi1]; · iexact Hi1
    isplitl [Ho1]; · iexact Ho1
    iexact Hr1
  iintro %u ⟨⟨Ht0, Hi0, Ho0, Hr0⟩, HM1⟩
  -- the second table's last copy-out
  unfold MidT1 SFl1 IdleB1 Owes1
  rw [show (b0V).view.set = Finset.univ from View.set_whole _, show (b1V).view.set = Finset.univ from View.set_whole _,
    show (b2V).view.set = Finset.univ from View.set_whole _, show (b3V).view.set = Finset.univ from View.set_whole _,
    show (b4V).view.set = Finset.univ from View.set_whole _]
  icases HM1 with ⟨%LC, Ht1, Hi1, Hl, ⟨%g0, B0⟩, ⟨%g1, B1⟩, ⟨%g2, B2⟩, ⟨%g3, B3⟩, ⟨%g4, Hf4⟩, Hc6, Hc7, Hc8, Hc9, Hc10, Hc11, Hc12, Hc13, Hc14, Hr1, HD, D95, D96, D97, D98, ⟨%W', %hW', HO⟩⟩
  sl_exec
  sl_step
  -- the tile's holdings back: the shares, the first band, and the second band, whose hundred pieces all hold the lookup
  isplitl [Ht0 Ht1 Hi0 Hi1 Ho0 HD D95 D96 D97 D98 Hf4_dst]
  · isplitl [Ht0]; · iexact Ht0
    isplitl [Ht1]; · iexact Ht1
    isplitl [Hi0]; · iexact Hi0
    isplitl [Hi1]; · iexact Hi1
    isplitl [Ho0]; · iexact Ho0
    iapply (Entails.of_eq (band_done1 m d L X1).symm)
    rw [show Finset.range 20 = Finset.range (19 + 1) from rfl, Geom.bigSep_range_succ' 19]
    isplitl [HD]; · iexact HD
    unfold DT1
    isplitl [D95]; · iexact D95
    isplitl [D96]; · iexact D96
    isplitl [D97]; · iexact D97
    isplitl [D98]; · iexact D98
    unfold Dc1; iexact Hf4_dst
  isplitl [Hl B0 B1 B2 B3 Hf4_src Hbrest]
  · isplitl [Hl]; · iexists LC; iexact Hl
    isplitl [B0]; · iexists g0; iexact B0
    isplitl [B1]; · iexists g1; iexact B1
    isplitl [B2]; · iexists g2; iexact B2
    isplitl [B3]; · iexists g3; iexact B3
    isplitl [Hf4_src]; · iexists g4; iexact Hf4_src
    iexact Hbrest
  isplitl [Hc6 Hc7 Hc8 Hc9 Hc10 Hc11 Hc12 Hc13 Hc14 Hf4 Hr0 Hr1 Hsrest]
  · isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hf4]; · iexact Hf4
    isplitl [Hr0]; · iexact Hr0
    isplitl [Hr1]; · iexact Hr1
    iexact Hsrest
  iexists _; isplitr
  swap; · iexact HO
  ipureintro; intro p hp
  rcases Finset.mem_insert.mp hp with hp | hp
  · subst hp; exact .inr rfl
  · exact hW' p hp

end Cert.Proof.KernelSide

end
-- ==== Proof.ValueTBits.lean ====
/-
  The host's transposes around the lookup cancel. The kernel reads the row numbers transposed ([50, 4096]) and writes the
  result with its two leading axes swapped ([50, 4096, 128]); the host transposes the row numbers before the call and the
  results after it. Entry (r, l, h) of the transposed result is entry (l, r, h) of the kernel's, which is entry h of the table's
  row idsT (l, r) = ids (r, l): the lookup of the specification.
-/
import proofs.«206480_g70196945486151_cont_9to1_m_271_23_alg».proof.Proof.SetupBits
import Idealize.ShloMosaic.Lib.ValueLayout

noncomputable section

namespace Cert.Proof.KernelSide

open Cert.Kernel Cert.Kernel.Gen

open Idealize.ShloMosaic Idealize.ShloMosaic.ValueIdx

/-- A rank-3 array with its two leading axes swapped (permutation [1, 0, 2]) reads, at (j, i, k), the operand at (i, j, k). -/
theorem transpose_ix3_102_apply {a b c : ℕ} {α : Type} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun e => match e with | ⟨0, _⟩ => rfl | ⟨1, _⟩ => rfl | ⟨2, _⟩ => rfl

/-- The kernel's lookup over the transposed row numbers, its leading axes swapped back, is the specification's lookup. -/
theorem take_of_transposes {α : Type} (tab : S100000x128.Idx → α) (ids : IVec S4096x50 32)
    (h1 : S4096x50.Transposes [1, 0] S50x4096) (h2 : S50x4096x128.Transposes [1, 0, 2] S4096x50x128) :
    transpose S4096x50x128 [1, 0, 2] (takeT tab (transpose S50x4096 [1, 0] ids h1)) h2 = Cert.Lookup.take tab ids := by
  funext i
  obtain ⟨r, l, h, rfl⟩ : ∃ r l h, i = ix3 r l h := ⟨_, _, _, eq_ix3 i⟩
  rw [transpose_ix3_102_apply]
  show tab (ix2 (Cert.Lookup.rowOf (transpose S50x4096 [1, 0] ids h1 (ix2 l r))) h) = tab (ix2 (Cert.Lookup.rowOf (ids (ix2 r l))) h)
  rw [transpose_ix2_apply]

/-- An entry of the transposed row numbers is an entry of the row numbers: a bound on all of these is a bound on all of those. -/
theorem transpose_ids_lt (ids : IVec S4096x50 32) (h1 : S4096x50.Transposes [1, 0] S50x4096) (n : ℕ)
    (hids : ∀ j, (ids j).toNat < n) : ∀ j, (transpose S50x4096 [1, 0] ids h1 j).toNat < n :=
  fun j => hids _

end Cert.Proof.KernelSide

end
-- ==== Proof.LaunchPayBits.lean ====
/-
  What the launch handshakes carry for the lookup kernel, and the two obligations over it. The one call hands each of the two
  SparseCores, already cut per tile, what its sixteen tiles take: of each table and of each transposed array of row numbers a
  thirty-second share (the full share halved five times, leaf w for tile w = 16 · core + subcore), and of each result the tile's
  band of 128 rows of the middle axis. A tile gives its shares back unchanged and its bands holding the lookup; since every band
  is held at the same whole-array function, the thirty-two bands join to the whole result at that function with no choice made.
-/
import proofs.«206480_g70196945486151_cont_9to1_m_271_23_alg».proof.Proof.TileBodyBits
import proofs.«206480_g70196945486151_cont_9to1_m_271_23_alg».proof.Proof.ValueTBits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The arguments and results of @main, and the transposed row numbers -/

abbrev a0Loc (d : Dev nD) : Loc nD τ sig := (SparseCore.T d).loc main_arg0
abbrev a1Loc (d : Dev nD) : Loc nD τ sig := (SparseCore.T d).loc main_arg1
abbrev r0Loc (d : Dev nD) : Loc nD τ sig := (SparseCore.T d).loc main_v3
abbrev r1Loc (d : Dev nD) : Loc nD τ sig := (SparseCore.T d).loc main_v4

variable (m : (ℓ : Loc nD τ sig) → Buf (Elt F) ℓ) (ρ : Dev nD → PrngReg)

/-- The row numbers as the kernel reads them: the host's transposes of the two arguments. -/
abbrev X0 (d : Dev nD) : Buf (Elt F) (i0Loc d) := transpose S50x4096 [1, 0] (m (a0Loc d)) transposes_S4096x50_S50x4096_1_0
abbrev X1 (d : Dev nD) : Buf (Elt F) (i1Loc d) := transpose S50x4096 [1, 0] (m (a1Loc d)) transposes_S4096x50_S50x4096_1_0
/-- The kernel's two results. -/
abbrev Y0 (d : Dev nD) : Buf (Elt F) (o0Loc d) := takeT (m (t0Loc d)) (X0 m d)
abbrev Y1 (d : Dev nD) : Buf (Elt F) (o1Loc d) := takeT (m (t1Loc d)) (X1 m d)

/-! ## Shares: the full share halved n times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp (𝕄 F)) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp (𝕄 F)))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp (𝕄 F))), bigSep_univ_sum]
    congr 1 <;> refine bigSep_congr fun i _ => ?_
    · rw [leaf_inl]
    · rw [leaf_inr]

/-- Tile `w`'s share of an array every tile reads. -/
abbrev sq (w : Fin 32) : PosShare TreeShare := leaf 5 fullShare w

omit m ρ in
theorem shares32 (ℓ : Loc nD τ sig) (f : Buf (Elt F) ℓ) :
    (ℓ ↦{fullShare} f : sProp (𝕄 F)) = bigSep Finset.univ fun w : Fin 32 => ℓ ↦{sq w} f :=
  pointsTo_leaves Finset.univ f 5 fullShare

/-! ## The bands of a result -/

omit m ρ in
theorem obands_disjoint : ∀ i ∈ (Finset.univ : Finset (Fin 32)), ∀ j ∈ (Finset.univ : Finset (Fin 32)), i ≠ j → Disjoint (oBandSet i) (oBandSet j) :=
  fun _ _ _ _ h => Rect.part_disjoint odiv h
omit m ρ in
theorem obands_cover : (Finset.univ : Finset (Fin 32)).biUnion oBandSet = Finset.univ := Rect.biUnion_part odiv

omit m ρ in
theorem o0Pts_bands (d : Dev nD) (f : Buf (Elt F) (o0Loc d)) :
    (o0Loc d ↦{fullShare} f : sProp (𝕄 F)) = bigSep Finset.univ fun w : Fin 32 => o0Loc d ↦[oBandSet w]{fullShare} f := by
  rw [← pointsTo_biUnion Finset.univ (ℓ := o0Loc d) oBandSet obands_disjoint, obands_cover]; try rfl
omit m ρ in
theorem o1Pts_bands (d : Dev nD) (f : Buf (Elt F) (o1Loc d)) :
    (o1Loc d ↦{fullShare} f : sProp (𝕄 F)) = bigSep Finset.univ fun w : Fin 32 => o1Loc d ↦[oBandSet w]{fullShare} f := by
  rw [← pointsTo_biUnion Finset.univ (ℓ := o1Loc d) oBandSet obands_disjoint, obands_cover]; try rfl

/-! ## The thirty-two tiles as two SparseCores of sixteen -/

/-- Tile numbers as (core, subcore) pairs. -/
def wEquiv : Fin 2 × Fin 16 ≃ Fin 32 where
  toFun p := wOf p.1 p.2
  invFun w := (⟨w.val / 16, by have := w.isLt; omega⟩, ⟨w.val % 16, Nat.mod_lt _ (by decide)⟩)
  left_inv p := by
    obtain ⟨⟨c, hc⟩, ⟨i, hi⟩⟩ := p
    refine Prod.ext (Fin.ext ?_) (Fin.ext ?_)
    · show (16 * c + i) / 16 = c; omega
    · show (16 * c + i) % 16 = i; omega
  right_inv w := by
    refine Fin.ext ?_
    show 16 * (w.val / 16) + w.val % 16 = w.val; omega

omit m ρ in
theorem bigSep_tiles (Φ : Fin 32 → sProp (𝕄 F)) :
    (bigSep Finset.univ fun c : Fin 2 => bigSep Finset.univ fun i : Fin 16 => Φ (wOf c i)) = bigSep Finset.univ Φ := by
  rw [bigSep_univ_equiv wEquiv Φ, bigSep_univ_prod]; rfl

/-! ## What the tiles take and give, whole -/

/-- What tile `w` takes, at the launch contents of the results, and what it gives back. -/
abbrev tileIn (d : Dev nD) (w : Fin 32) : sProp (𝕄 F) :=
  TileIn m d w (X0 m d) (X1 m d) (sq w) (sq w) (sq w) (sq w) (m (o0Loc d)) (m (o1Loc d))
abbrev tileOut (d : Dev nD) (w : Fin 32) : sProp (𝕄 F) :=
  TileOut m d w (X0 m d) (X1 m d) (sq w) (sq w) (sq w) (sq w)

/-- The thirty-two tiles' holdings are the six arrays whole: the tables and the row numbers at the full share, the results at the
    one function every band is held at. -/
theorem tiles_eq (d : Dev nD) (fo0 : Buf (Elt F) (o0Loc d)) (fo1 : Buf (Elt F) (o1Loc d)) :
    (bigSep Finset.univ fun w : Fin 32 => TileIn m d w (X0 m d) (X1 m d) (sq w) (sq w) (sq w) (sq w) fo0 fo1)
      = iprop((t0Loc d ↦{fullShare} m (t0Loc d)) ∗ (t1Loc d ↦{fullShare} m (t1Loc d)) ∗ (i0Loc d ↦{fullShare} X0 m d) ∗ (i1Loc d ↦{fullShare} X1 m d)
          ∗ (o0Loc d ↦{fullShare} fo0) ∗ (o1Loc d ↦{fullShare} fo1)) := by
  show (bigSep Finset.univ fun w : Fin 32 => iprop((t0Loc d ↦{sq w} m (t0Loc d)) ∗ (t1Loc d ↦{sq w} m (t1Loc d)) ∗ (i0Loc d ↦{sq w} X0 m d) ∗ (i1Loc d ↦{sq w} X1 m d)
      ∗ (o0Loc d ↦[oBandSet w]{fullShare} fo0) ∗ (o1Loc d ↦[oBandSet w]{fullShare} fo1))) = _
  rw [bigSep_sep', bigSep_sep', bigSep_sep', bigSep_sep', bigSep_sep',
    shares32 (t0Loc d) (m (t0Loc d)), shares32 (t1Loc d) (m (t1Loc d)), shares32 (i0Loc d) (X0 m d), shares32 (i1Loc d) (X1 m d),
    o0Pts_bands d fo0, o1Pts_bands d fo1]

/-! ## What the handshakes carry -/

/-- The one call: each SparseCore is handed its sixteen tiles' holdings, already cut; each tile takes its own and gives it back
    with its bands of the results holding the lookup. -/
def P : (K (F := F)).Pay (nD := nD) (Val := Elt F) (Name := ℕ) (U := UU) where
  st := fun q d c => match q with | 0 => bigSep Finset.univ fun i : Fin 16 => tileIn m d (wOf (Fin.cast nCore_zero c) i)
  dn := fun q d c => match q with | 0 => bigSep Finset.univ fun i : Fin 16 => tileOut m d (wOf (Fin.cast nCore_zero c) i)
  go := fun q d c i => match q with | 0 => tileIn m d (wOf (Fin.cast nCore_zero c) (Fin.cast nSub_zero i))
  td := fun q d c i => match q with | 0 => tileOut m d (wOf (Fin.cast nCore_zero c) (Fin.cast nSub_zero i))
  x := fun _ _ => iprop(emp)

instance P_storable : (P (F := F) m).IsStorable where
  st q d c := match q with
    | 0 => (inferInstance : BI.Storable (upEmb : UEmb _ (𝕄 F)) (bigSep Finset.univ fun i : Fin 16 => tileIn m d (wOf (Fin.cast nCore_zero c) i)))
  dn q d c := match q with
    | 0 => (inferInstance : BI.Storable (upEmb : UEmb _ (𝕄 F)) (bigSep Finset.univ fun i : Fin 16 => tileOut m d (wOf (Fin.cast nCore_zero c) i)))
  go q d c i := match q with
    | 0 => (inferInstance : BI.Storable (upEmb : UEmb _ (𝕄 F)) (tileIn m d (wOf (Fin.cast nCore_zero c) (Fin.cast nSub_zero i))))
  td q d c i := match q with
    | 0 => (inferInstance : BI.Storable (upEmb : UEmb _ (𝕄 F)) (tileOut m d (wOf (Fin.cast nCore_zero c) (Fin.cast nSub_zero i))))

theorem P_st (d : Dev nD) (c : Fin ((K (F := F)).nCore 0)) :
    (P m).st 0 d c = bigSep Finset.univ fun i : Fin 16 => tileIn m d (wOf (Fin.cast nCore_zero c) i) := rfl
theorem P_dn (d : Dev nD) (c : Fin ((K (F := F)).nCore 0)) :
    (P m).dn 0 d c = bigSep Finset.univ fun i : Fin 16 => tileOut m d (wOf (Fin.cast nCore_zero c) i) := rfl
theorem P_go (d : Dev nD) (c : Fin ((K (F := F)).nCore 0)) (i : Fin ((K (F := F)).nSub 0)) :
    (P m).go 0 d c i = tileIn m d (wOf (Fin.cast nCore_zero c) (Fin.cast nSub_zero i)) := rfl
theorem P_td (d : Dev nD) (c : Fin ((K (F := F)).nCore 0)) (i : Fin ((K (F := F)).nSub 0)) :
    (P m).td 0 d c i = tileOut m d (wOf (Fin.cast nCore_zero c) (Fin.cast nSub_zero i)) := rfl

omit m ρ in
theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)
omit m ρ in
theorem bigSep_cores (Φ : Fin 2 → sProp (𝕄 F)) :
    (bigSep Finset.univ fun c : Fin ((K (F := F)).nCore 0) => Φ (Fin.cast nCore_zero c)) = bigSep Finset.univ Φ :=
  bigSep_congr fun _ _ => congrArg Φ (Fin.ext rfl)

/-- What the call takes from the TensorCore: the six arrays whole, the results at their launch contents. -/
theorem st0_eq (d : Dev nD) :
    (bigSep Finset.univ fun c : Fin ((K (F := F)).nCore 0) => (P m).st 0 d c)
      = iprop((t0Loc d ↦{fullShare} m (t0Loc d)) ∗ (t1Loc d ↦{fullShare} m (t1Loc d)) ∗ (i0Loc d ↦{fullShare} X0 m d) ∗ (i1Loc d ↦{fullShare} X1 m d)
          ∗ (o0Loc d ↦{fullShare} m (o0Loc d)) ∗ (o1Loc d ↦{fullShare} m (o1Loc d))) := by
  rw [← tiles_eq m d (m (o0Loc d)) (m (o1Loc d)), ← bigSep_tiles (F := F) (fun w => tileIn m d w),
    ← bigSep_cores (F := F) (fun c => bigSep Finset.univ fun i : Fin 16 => tileIn m d (wOf c i))]
  exact bigSep_congr fun c _ => P_st m d c
/-- What it gives back: the six arrays whole, the results holding the lookup. -/
theorem dn0_eq (d : Dev nD) :
    (bigSep Finset.univ fun c : Fin ((K (F := F)).nCore 0) => (P m).dn 0 d c)
      = iprop((t0Loc d ↦{fullShare} m (t0Loc d)) ∗ (t1Loc d ↦{fullShare} m (t1Loc d)) ∗ (i0Loc d ↦{fullShare} X0 m d) ∗ (i1Loc d ↦{fullShare} X1 m d)
          ∗ (o0Loc d ↦{fullShare} Y0 m d) ∗ (o1Loc d ↦{fullShare} Y1 m d)) := by
  rw [← tiles_eq m d (Y0 m d) (Y1 m d), ← bigSep_tiles (F := F) (fun w => tileOut m d w),
    ← bigSep_cores (F := F) (fun c => bigSep Finset.univ fun i : Fin 16 => tileOut m d (wOf c i))]
  exact bigSep_congr fun c _ => P_dn m d c

/-! ## The tile's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

omit m ρ in
theorem defs₀_vector (c : Fin τ.nSC) (s : Fin τ.nSub) :
    defs₀ (F := F) (.scVector c s) 0 ()
      = SparseCore.onTile hcore0 hsub0 (fun c s => cc0__body (coordsV c s)
          t0V (Memref.isWhole_whole _) t1V (Memref.isWhole_whole _) i0V (Memref.isWhole_whole _) i1V (Memref.isWhole_whole _)
          o0V (Memref.isWhole_whole _) o1V (Memref.isWhole_whole _) lV (Memref.isWhole_whole _) b0V (Memref.isWhole_whole _) b1V (Memref.isWhole_whole _)
          b2V (Memref.isWhole_whole _) b3V (Memref.isWhole_whole _) b4V (Memref.isWhole_whole _)
          cc0_scratch6 cc0_scratch7 cc0_scratch8 cc0_scratch9 cc0_scratch10 cc0_scratch11 cc0_scratch12 cc0_scratch13 cc0_scratch14 cc0_scratch15
          cc0_scoped0 cc0_scoped1) ⟨⟩ c s := rfl

omit m ρ [FloatOps F] in
theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the tile's task asks of the launch memory: every transposed row number names a row of the tables. -/
def PreOK : Prop := ∀ d : Dev nD, (∀ j, (X0 m d j).toNat < 100000) ∧ ∀ j, (X1 m d j).toNat < 100000

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go, P_td]
  exact (tile_body m hF d (coordsV ⟨_, hci.1⟩ ⟨_, hci.2⟩) (X0 m d) (X1 m d) (hpre d).1 (hpre d).2 (m (o0Loc d)) (m (o1Loc d))
    (sq (wOf (Fin.cast nCore_zero c) (Fin.cast nSub_zero i))) (sq (wOf (Fin.cast nCore_zero c) (Fin.cast nSub_zero i)))
    (sq (wOf (Fin.cast nCore_zero c) (Fin.cast nSub_zero i))) (sq (wOf (Fin.cast nCore_zero c) (Fin.cast nSub_zero i))) O W hO).trans
      (wp_mono frame _ _ fun _ => obl_post)

/-! ## The split among a SparseCore's tiles: already made -/

omit [FloatOps F] in
theorem vecSplit : (K (F := F)).VecSplit' (P m) 0 := by
  intro d c
  rw [P_st, P_dn]
  show _ ⊢ |={Set.univ}=> iprop(
      (bigSep Finset.univ fun i : Fin ((K (F := F)).nSub 0) => (P m).go 0 d c i)
      ∗ ((bigSep Finset.univ fun i : Fin ((K (F := F)).nSub 0) => (P m).td 0 d c i)
          -∗ bigSep Finset.univ fun i : Fin 16 => tileOut m d (wOf (Fin.cast nCore_zero c) i)))
  rw [show (fun i : Fin ((K (F := F)).nSub 0) => (P m).go 0 d c i) = fun i => tileIn m d (wOf (Fin.cast nCore_zero c) (Fin.cast nSub_zero i)) from rfl,
    show (fun i : Fin ((K (F := F)).nSub 0) => (P m).td 0 d c i) = fun i => tileOut m d (wOf (Fin.cast nCore_zero c) (Fin.cast nSub_zero i)) from rfl,
    bigSep_tasks (F := F) (fun i => tileIn m d (wOf (Fin.cast nCore_zero c) i)),
    bigSep_tasks (F := F) (fun i => tileOut m d (wOf (Fin.cast nCore_zero c) i))]
  iintro H; imodintro
  isplitl [H]; · iexact H
  iintro H; iexact H

/-! ## The launch element of the certificate's ghost state -/

def u₀ : UU := (initOf (K (F := F)).hsCells (K (F := F)).hsToks, 1)

omit m ρ [FloatOps F] in
theorem bigSep_emp' {I : Type} (s : Finset I) : (bigSep s fun _ => iprop(emp)) = (iprop(emp) : sProp (𝕄 F)) := bigSep_emp_const s

omit [FloatOps F] in
theorem hu₀ : (ownU (u₀ (F := F)) : sProp (𝕄 F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KernelSide

end
-- ==== Proof.LaunchBits.lean ====
/-
  The lookup kernel's run. On each device's TensorCore @main transposes the two arrays of row numbers, makes the one SparseCore
  call — handing the tables and the transposed row numbers out as thirty-two shares and the two results as thirty-two bands, and
  taking them back with the results holding the lookup —, and transposes the two results. The arguments end unchanged; each
  final result is the specification's lookup, the host's transposes before and after the call cancelling.
-/
import proofs.«206480_g70196945486151_cont_9to1_m_271_23_alg».proof.Proof.LaunchPayBits

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.StableHlo (held wp_hlo_within)

variable (m : (ℓ : Loc nD τ sig) → Buf (Elt F) ℓ) (ρ : Dev nD → PrngReg)

/-! ## The TensorCore's arrays and the four host operations -/

abbrev a0' : DevRef τ sig := Proc.devRef .tc (main_arg0 : Ref sig .tc)
abbrev a1' : DevRef τ sig := Proc.devRef .tc (main_arg1 : Ref sig .tc)
abbrev t0' : DevRef τ sig := Proc.devRef .tc (main_arg2 : Ref sig .tc)
abbrev t1' : DevRef τ sig := Proc.devRef .tc (main_arg3 : Ref sig .tc)
abbrev i0' : DevRef τ sig := Proc.devRef .tc (main_v0 : Ref sig .tc)
abbrev i1' : DevRef τ sig := Proc.devRef .tc (main_v1 : Ref sig .tc)
abbrev o0' : DevRef τ sig := Proc.devRef .tc (main_v2_0 : Ref sig .tc)
abbrev o1' : DevRef τ sig := Proc.devRef .tc (main_v2_1 : Ref sig .tc)
abbrev r0' : DevRef τ sig := Proc.devRef .tc (main_v3 : Ref sig .tc)
abbrev r1' : DevRef τ sig := Proc.devRef .tc (main_v4 : Ref sig .tc)

abbrev opI0 : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opI1 : HloOp τ sig (Elt F) := StableHlo.unary main_arg1 main_v1 ((transpose S50x4096 [1, 0] · transposes_S4096x50_S50x4096_1_0) : (⟨S4096x50, .i32⟩ : BufTy).Contents (Elt F) → (⟨S50x4096, .i32⟩ : BufTy).Contents (Elt F))
abbrev opR0 : HloOp τ sig (Elt F) := StableHlo.unary main_v2_0 main_v3 ((transpose S4096x50x128 [1, 0, 2] · transposes_S50x4096x128_S4096x50x128_1_0_2) : (⟨S50x4096x128, .f32⟩ : BufTy).Contents (Elt F) → (⟨S4096x50x128, .f32⟩ : BufTy).Contents (Elt F))
abbrev opR1 : HloOp τ sig (Elt F) := StableHlo.unary main_v2_1 main_v4 ((transpose S4096x50x128 [1, 0, 2] · transposes_S50x4096x128_S4096x50x128_1_0_2) : (⟨S50x4096x128, .f32⟩ : BufTy).Contents (Elt F) → (⟨S4096x50x128, .f32⟩ : BufTy).Contents (Elt F))

/-- The final results: the kernel's, their two leading axes swapped back. -/
abbrev R0 (d : Dev nD) : Buf (Elt F) (r0Loc d) := transpose S4096x50x128 [1, 0, 2] (Y0 m d) transposes_S50x4096x128_S4096x50x128_1_0_2
abbrev R1 (d : Dev nD) : Buf (Elt F) (r1Loc d) := transpose S4096x50x128 [1, 0, 2] (Y1 m d) transposes_S50x4096x128_S4096x50x128_1_0_2

omit m ρ in
/-- Two distinct arrays held whole. -/
theorem held_pair (d : Dev nD) {x y : DevRef τ sig} (hxy : x ≠ y) (W : Valuation τ sig (Elt F)) :
    (held (SparseCore.T d) {x, y} W : sProp (𝕄 F)) = iprop((((d, x) : Loc nD τ sig) ↦{fullShare} W x) ∗ (((d, y) : Loc nD τ sig) ↦{fullShare} W y)) := by
  unfold held
  rw [SparseCore.bigSep_insert' (by rw [Finset.mem_singleton]; exact hxy), bigSep_singleton]

omit m ρ in
/-- After `%y = f %x`: `x` as it was, `y` at `f` of it. -/
theorem held_unary (d : Dev nD) (x y : Ref sig .tc) (hxy : x ≠ y) (f : x.ty.Contents (Elt F) → y.ty.Contents (Elt F)) (hx hy) (W : Valuation τ sig (Elt F)) :
    (held (SparseCore.T d) {Proc.devRef .tc x, Proc.devRef .tc y} ((StableHlo.unary (τ := τ) x y f hx hy).result W) : sProp (𝕄 F))
      = iprop((((d, Proc.devRef .tc x) : Loc nD τ sig) ↦{fullShare} W (Proc.devRef .tc x)) ∗ (((d, Proc.devRef .tc y) : Loc nD τ sig) ↦{fullShare} f (W (Proc.devRef .tc x)))) := by
  rw [held_pair d (StableHlo.devRef_ne_of_ne hxy), StableHlo.unary_result_ne x y f hx hy W hxy, StableHlo.unary_result]

/-- The launch valuation, and the valuations the two results stand at after the call. -/
def V0 (d : Dev nD) : Valuation τ sig (Elt F) := fun b => m (d, b)
def VY0 (d : Dev nD) : Valuation τ sig (Elt F) := Function.update (V0 m d) o0' (Y0 m d)
def VY1 (d : Dev nD) : Valuation τ sig (Elt F) := Function.update (V0 m d) o1' (Y1 m d)

theorem VY0_o (d : Dev nD) : VY0 m d o0' = Y0 m d := Function.update_self _ _ _
theorem VY0_r (d : Dev nD) : VY0 m d r0' = m (r0Loc d) := Function.update_of_ne (show r0' ≠ o0' by decide) _ _
theorem VY1_o (d : Dev nD) : VY1 m d o1' = Y1 m d := Function.update_self _ _ _
theorem VY1_r (d : Dev nD) : VY1 m d r1' = m (r1Loc d) := Function.update_of_ne (show r1' ≠ o1' by decide) _ _

omit m ρ in
theorem unscopedBufs_eq (d : Dev nD) (W : (b : Ref sig .tc) → Buf (Elt F) ((d.tc : Thread nD τ).loc b)) :
    (unscopedBufs d W : sProp (𝕄 F))
      = iprop((a0Loc d ↦{fullShare} W main_arg0) ∗ (a1Loc d ↦{fullShare} W main_arg1) ∗ (t0Loc d ↦{fullShare} W main_arg2) ∗ (t1Loc d ↦{fullShare} W main_arg3)
          ∗ (i0Loc d ↦{fullShare} W main_v0) ∗ (i1Loc d ↦{fullShare} W main_v1) ∗ (o0Loc d ↦{fullShare} W main_v2_0) ∗ (o1Loc d ↦{fullShare} W main_v2_1)
          ∗ (r0Loc d ↦{fullShare} W main_v3) ∗ (r1Loc d ↦{fullShare} W main_v4)) := by
  unfold unscopedBufs
  rw [show (Finset.univ.filter fun b : Ref sig .tc => ¬ b.isScoped) = {main_arg0, main_arg1, main_arg2, main_arg3, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem hI0 : (opI0 (F := F)).bufs ⊆ ({a0', i0'} : Finset (DevRef τ sig)) := subset_rfl
theorem hI1 : (opI1 (F := F)).bufs ⊆ ({a1', i1'} : Finset (DevRef τ sig)) := subset_rfl
theorem hR0 : (opR0 (F := F)).bufs ⊆ ({o0', r0'} : Finset (DevRef τ sig)) := subset_rfl
theorem hR1 : (opR1 (F := F)).bufs ⊆ ({o1', r1'} : Finset (DevRef τ sig)) := subset_rfl

/-- What @main leaves the claim: the four arguments at their launch contents, the two results at the transposed lookups. -/
abbrev FIN (d : Dev nD) : sProp (𝕄 F) :=
  iprop((a0Loc d ↦{fullShare} m (a0Loc d)) ∗ (a1Loc d ↦{fullShare} m (a1Loc d)) ∗ (t0Loc d ↦{fullShare} m (t0Loc d)) ∗ (t1Loc d ↦{fullShare} m (t1Loc d))
    ∗ (r0Loc d ↦{fullShare} R0 m d) ∗ (r1Loc d ↦{fullShare} R1 m d))

variable [FloatOps F]

set_option maxRecDepth 16384 in
/-- @main on device `d`'s TensorCore: the two transposes of the row numbers, the call (the library's `wp_run`: the six arrays out
    to the tiles and back), the two transposes of the results; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ht0, Ht1, Hi0, Hi1, Ho0, Ho1, Hr0, Hr1⟩, -, -⟩, -⟩
  -- the row numbers transposed
  iapply (wp_hlo_within 𝒱 (SparseCore.T d) none Set.univ (op := opI0) (S := {a0', i0'}) hI0 (V := V0 m d)) $$ [Hb Ha0 Hi0]
  · isplitl [Hb]; · iexact Hb
    rw [held_pair d (show a0' ≠ i0' by decide)]
    isplitl [Ha0]; · iexact Ha0
    iexact Hi0
  iintro ⟨Hb, Hheld⟩
  ihave Hh := (Entails.of_eq (held_unary (F := F) d main_arg0 main_v0 (by decide) _ _ _ (V0 m d))) $$ Hheld
  icases Hh with ⟨Ha0, Hi0⟩
  rw [wp_ret]; imodintro
  iapply (wp_hlo_within 𝒱 (SparseCore.T d) none Set.univ (op := opI1) (S := {a1', i1'}) hI1 (V := V0 m d)) $$ [Hb Ha1 Hi1]
  · isplitl [Hb]; · iexact Hb
    rw [held_pair d (show a1' ≠ i1' by decide)]
    isplitl [Ha1]; · iexact Ha1
    iexact Hi1
  iintro ⟨Hb, Hheld⟩
  ihave Hh := (Entails.of_eq (held_unary (F := F) d main_arg1 main_v1 (by decide) _ _ _ (V0 m d))) $$ Hheld
  icases Hh with ⟨Ha1, Hi1⟩
  rw [wp_ret]; imodintro
  -- the call: the tables, the transposed row numbers and the results out to the thirty-two tiles and back
  iapply ((K (F := F)).wp_run (D (F := F)) 𝒱 (EH := EH) (P := P m) κ d 0) $$ [Hst Ht0 Ht1 Hi0 Hi1 Ho0 Ho1 Hb Ha0 Ha1 Hr0 Hr1]
  isplitr; · iexact Hctx
  isplitl [Hst]; · iexact Hst
  isplitl [Ht0 Ht1 Hi0 Hi1 Ho0 Ho1]
  · rw [st0_eq]
    isplitl [Ht0]; · iexact Ht0
    isplitl [Ht1]; · iexact Ht1
    isplitl [Hi0]; · iexact Hi0
    isplitl [Hi1]; · iexact Hi1
    isplitl [Ho0]; · iexact Ho0
    iexact Ho1
  iintro ⟨Hst, Hdn⟩
  ihave Hdn' := (Entails.of_eq (dn0_eq m d)) $$ Hdn
  icases Hdn' with ⟨Ht0, Ht1, -, -, Ho0, Ho1⟩
  -- the results transposed
  iapply (wp_hlo_within 𝒱 (SparseCore.T d) none Set.univ (op := opR0) (S := {o0', r0'}) hR0 (V := VY0 m d)) $$ [Hb Ho0 Hr0]
  · isplitl [Hb]; · iexact Hb
    rw [held_pair d (show o0' ≠ r0' by decide), VY0_o, VY0_r]
    isplitl [Ho0]; · iexact Ho0
    iexact Hr0
  iintro ⟨Hb, Hheld⟩
  ihave Hh := (Entails.of_eq ((held_unary (F := F) d main_v2_0 main_v3 (by decide) _ _ _ (VY0 m d)).trans (by rw [VY0_o]))) $$ Hheld
  icases Hh with ⟨-, Hr0⟩
  rw [wp_ret]; imodintro
  iapply (wp_hlo_within 𝒱 (SparseCore.T d) none Set.univ (op := opR1) (S := {o1', r1'}) hR1 (V := VY1 m d)) $$ [Hb Ho1 Hr1]
  · isplitl [Hb]; · iexact Hb
    rw [held_pair d (show o1' ≠ r1' by decide), VY1_o, VY1_r]
    isplitl [Ho1]; · iexact Ho1
    iexact Hr1
  iintro ⟨Hb, Hheld⟩
  ihave Hh := (Entails.of_eq ((held_unary (F := F) d main_v2_1 main_v4 (by decide) _ _ _ (VY1 m d)).trans (by rw [VY1_o]))) $$ Hheld
  icases Hh with ⟨-, Hr1⟩
  rw [wp_ret]; imodintro; imodintro
  isplitl [Hst]; · iexact Hst
  isplitl [Ha0]; · iexact Ha0
  isplitl [Ha1]; · iexact Ha1
  isplitl [Ht0]; · iexact Ht0
  isplitl [Ht1]; · iexact Ht1
  isplitl [Hr0]; · iexact Hr0
  iexact Hr1

/-- What the final memory holds, per device. -/
def fq (d : Dev nD) (s' : Phys nD τ sig (Elt F)) : Prop :=
  s'.mem.mem (a0Loc d) = m (a0Loc d) ∧ s'.mem.mem (a1Loc d) = m (a1Loc d) ∧ s'.mem.mem (t0Loc d) = m (t0Loc d) ∧ s'.mem.mem (t1Loc d) = m (t1Loc d)
    ∧ s'.mem.mem (r0Loc d) = R0 m d ∧ s'.mem.mem (r1Loc d) = R1 m d

omit ρ [FloatOps F] in
set_option maxRecDepth 16384 in
theorem hfin (d : Dev nD) (s' : Phys nD τ sig (Elt F)) : iprop(FIN m d ∗ SI s') ⊢ (⌜fq m d s'⌝ : sProp (𝕄 F)) := by
  iintro ⟨⟨Ha0, Ha1, Ht0, Ht1, Hr0, Hr1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h2, HSI, -⟩
  ihave H := (persistent_entails_right (SI_pointsTo_agree (st := s') (ℓ := t0Loc d) (I := Finset.univ) (q := fullShare) (f := m (t0Loc d)))) $$ [HSI Ht0]
  · isplitl [HSI] <;> iassumption
  icases H with ⟨%h3, HSI, -⟩
  ihave H := (persistent_entails_right (SI_pointsTo_agree (st := s') (ℓ := t1Loc d) (I := Finset.univ) (q := fullShare) (f := m (t1Loc d)))) $$ [HSI Ht1]
  · isplitl [HSI] <;> iassumption
  icases H with ⟨%h4, HSI, -⟩
  ihave H := (persistent_entails_right (SI_pointsTo_agree (st := s') (ℓ := r0Loc d) (I := Finset.univ) (q := fullShare) (f := R0 m d))) $$ [HSI Hr0]
  · isplitl [HSI] <;> iassumption
  icases H with ⟨%h5, HSI, -⟩
  ihave H := (SI_pointsTo_agree (st := s') (ℓ := r1Loc d) (I := Finset.univ) (q := fullShare) (f := R1 m d)) $$ [HSI Hr1]
  · isplitl [HSI] <;> iassumption
  icases H with %h6
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i)⟩

/-! ## The program's run -/

/-- The kernel's run: under the row numbers in range, every weakly fair execution of the thirty-five threads terminates, nothing
    faulting; the two results hold the specification's lookup of the two tables, the four arguments are unchanged. -/
theorem run_main [∀ e, Nonempty (Elt F e)]
    (h0 : ∀ c : Dev nD, Cert.Lookup.InRange (m ((c.tc : Thread nD τ).loc main_arg0))) (h1 : ∀ c : Dev nD, Cert.Lookup.InRange (m ((c.tc : Thread nD τ).loc main_arg1))) :
    θ_run (Cert.Kernel.defs (F := F)) (Cert.Kernel.threads (F := F)) ⟨m, fun _ => 0, ρ⟩ (fun r => ∀ c : Dev nD,
        r.2.mem ((c.tc : Thread nD τ).loc main_v3) = Cert.Lookup.take (m ((c.tc : Thread nD τ).loc main_arg2)) (m ((c.tc : Thread nD τ).loc main_arg0))
      ∧ r.2.mem ((c.tc : Thread nD τ).loc main_v4) = Cert.Lookup.take (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  have hpre : PreOK m := fun d => ⟨transpose_ids_lt _ _ _ (h0 d), transpose_ids_lt _ _ _ (h1 d)⟩
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => by
      obtain ⟨e0, e1, e2, e3, e4, e5⟩ := h c
      exact ⟨e4.trans (take_of_transposes _ _ _ _), e5.trans (take_of_transposes _ _ _ _), e0, e1, e2, e3⟩)

end Cert.Proof.KernelSide

end
-- ==== Proof.lean ====
/-
  The certificate of an embedding lookup on the SparseCore against jnp.take: two tables of 100000 rows of 128 entries, two
  arrays of 4096 × 50 row numbers, two results of shape [4096, 50, 128]; entry (r, l, h) of a result is entry h of the table's row
  ids (r, l) (Proof/LookupSpec.lean: `Cert.Lookup.take`).

  The kernel transposes the row numbers on the host, and on each of the 32 vector subcores copies its 128 columns of the
  transposed row numbers into a list, then moves the 100 chunks of 64 rows through a ring of five staging slots — an indexed
  gather of the table's rows into a slot, a copy of the slot out to the tile's rows of the result — and does the same for the
  second table; the host transposes the results back. Each slot has a cell for its gathers and a cell for its copies out, at
  most one transfer is in flight on a cell, a slot is gathered into only after its copy-out has been awaited, and the list is
  overwritten only after every gather reading it has been awaited: the run's invariant (Proof/RingInv0…, RingInv1…) says, before
  each trip of the loop, which chunks are in flight, which pieces of the result already hold the lookup and which are untouched.
  The launch (Proof/LaunchPay…, Launch…) cuts each result among the tiles, hands every tile a read share of the tables and of the
  transposed row numbers, and joins the tiles' rows back at the one function `takeT`; the host's two transposes turn `takeT` of
  the transposed row numbers into `take` (Proof/ValueT…). The same proof is read at the word-level instance (suffix Bits) and
  at the ideal instance (suffix Ideal): pure data movement, no arithmetic on the table's entries.

  The reference (Proof/RefRun, RefValue, RefSide) is jnp.take's negative-index wrap, clamped gather and out-of-range fill; with
  every row number in range (the precondition, Proof/PreRange, PreGlue) the wrap and the clamp are the identity and the fill is
  never selected, so it is `take` too. The idealization rewrote nothing, so `preserves` is trivial.
-/
import proofs.«206480_g70196945486151_cont_9to1_m_271_23_alg».proof.Defs
import proofs.«206480_g70196945486151_cont_9to1_m_271_23_alg».proof.Proof.Gen.Kernel
import proofs.«206480_g70196945486151_cont_9to1_m_271_23_alg».proof.Proof.Gen.Kernel.Skeleton
import proofs.«206480_g70196945486151_cont_9to1_m_271_23_alg».proof.Proof.Gen.KernelIdeal
import proofs.«206480_g70196945486151_cont_9to1_m_271_23_alg».proof.Proof.Gen.KernelIdeal.Skeleton
import proofs.«206480_g70196945486151_cont_9to1_m_271_23_alg».proof.Proof.Gen.ReferenceIdeal
import proofs.«206480_g70196945486151_cont_9to1_m_271_23_alg».proof.Proof.Gen.Pre_input_domain
import proofs.«206480_g70196945486151_cont_9to1_m_271_23_alg».proof.Proof.RefSide
import proofs.«206480_g70196945486151_cont_9to1_m_271_23_alg».proof.Proof.PreGlue
import proofs.«206480_g70196945486151_cont_9to1_m_271_23_alg».proof.Proof.LaunchIdeal
import proofs.«206480_g70196945486151_cont_9to1_m_271_23_alg».proof.Proof.LaunchBits
import Idealize.ShloMosaic.Adequacy
import Idealize.ShloMosaic.Init

noncomputable section

namespace Cert.Proof

open Idealize.ShloMosaic Idealize.SL.Sem

/-- The word-level kernel runs to the end and leaves its arguments unchanged: its run with the values dropped. -/
theorem frame_Kernel : Cert.frame_Kernel := fun m g hpre =>
  (θ_run Cert.Kernel.defs _ _).mono (fun _ h c => (h c).2.2)
    (Cert.Proof.KernelSide.run_main (F := Bits) m g (Cert.RefSide.inRange_of_Pre_Kernel m hpre).1 (Cert.RefSide.inRange_of_Pre_Kernel m hpre).2)

/-- The idealized kernel likewise. -/
theorem frame_KernelIdeal : Cert.frame_KernelIdeal := fun m g hpre =>
  (θ_run Cert.KernelIdeal.defs _ _).mono (fun _ h c => (h c).2.2)
    (Cert.Proof.KernelIdealSide.run_main (F := Ideal) m g (Cert.RefSide.inRange_of_Pre_KernelIdeal m hpre).1 (Cert.RefSide.inRange_of_Pre_KernelIdeal m hpre).2)

/-- The reference likewise. -/
theorem frame_ReferenceIdeal : Cert.frame_ReferenceIdeal := fun m g hpre =>
  (θ_run Cert.ReferenceIdeal.defs _ _).mono (fun _ h c => (h c).2.2)
    (Cert.RefSide.run m g (Cert.RefSide.inRange_of_Pre_ReferenceIdeal m hpre).1
      (Cert.RefSide.inRange_of_Pre_ReferenceIdeal m hpre).2)

/-- Both programs end at the specification's lookup of the same tables at the same row numbers. -/
theorem algebraic : Cert.algebraic_KernelIdeal_ReferenceIdeal := by
  intro m g m' g' hpre hagree
  have hK := Cert.RefSide.inRange_of_Pre_KernelIdeal m hpre
  have hR := Cert.RefSide.inRange_ref_of_agree m m' hpre hagree
  refine ⟨fun c => Cert.Lookup.take (m ((c.tc : Thread Cert.KernelIdeal.nD Cert.KernelIdeal.τ).loc Cert.KernelIdeal.main_arg2)) (m ((c.tc : Thread Cert.KernelIdeal.nD Cert.KernelIdeal.τ).loc Cert.KernelIdeal.main_arg0)),
    fun c => Cert.Lookup.take (m ((c.tc : Thread Cert.KernelIdeal.nD Cert.KernelIdeal.τ).loc Cert.KernelIdeal.main_arg3)) (m ((c.tc : Thread Cert.KernelIdeal.nD Cert.KernelIdeal.τ).loc Cert.KernelIdeal.main_arg1)),
    Cert.Proof.KernelIdealSide.run_main (F := Ideal) m g hK.1 hK.2, ?_⟩
  refine (θ_run Cert.ReferenceIdeal.defs _ _).mono
    (fun _ h c => ⟨(h c).1.trans ?_, (h c).2.1.trans ?_, (h c).2.2⟩) (Cert.RefSide.run m' g' hR.1 hR.2)
  · rw [(hagree c).2.2.1, (hagree c).1]
  · rw [(hagree c).2.2.2, (hagree c).2.1]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
